-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S100000x32 : Shape := ⟨2, ![100000, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) (main_arg2 : FVec F S100000x32 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x32 .f32 := Host.absf main_arg2
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 99999#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  main_v15
-- ==== Kernel.lean ====
abbrev S4096x200 : Shape := ⟨2, ![4096, 200]⟩
abbrev S100000x128 : Shape := ⟨2, ![100000, 128]⟩
abbrev S100000x32 : Shape := ⟨2, ![100000, 32]⟩
abbrev S10000x128 : Shape := ⟨2, ![10000, 128]⟩
abbrev S10000x32 : Shape := ⟨2, ![10000, 32]⟩
abbrev S10000x96 : Shape := ⟨2, ![10000, 96]⟩
abbrev S1280x5x128 : Shape := ⟨3, ![1280, 5, 128]⟩
abbrev S819200x128 : Shape := ⟨2, ![819200, 128]⟩
abbrev S2x5x128 : Shape := ⟨3, ![2, 5, 128]⟩
abbrev S5x128x128 : Shape := ⟨3, ![5, 128, 128]⟩
abbrev S_ : Shape := ⟨0, ![]⟩
abbrev S5 : Shape := ⟨1, ![5]⟩
abbrev S1x5x128 : Shape := ⟨3, ![1, 5, 128]⟩
abbrev S5x128 : Shape := ⟨2, ![5, 128]⟩
abbrev S1x128x128 : Shape := ⟨3, ![1, 128, 128]⟩
abbrev S128x128 : Shape := ⟨2, ![128, 128]⟩
abbrev S1 : Shape := ⟨1, ![1]⟩
abbrev S1x1x128 : Shape := ⟨3, ![1, 1, 128]⟩
abbrev S128 : Shape := ⟨1, ![128]⟩
abbrev S4096x200x128 : Shape := ⟨3, ![4096, 200, 128]⟩

abbrev nBuf : Table → Nat
  | .hbm => 7
  | .local .tc .vmem => 6
  | .local .scVector .vmem => 2
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S100000x32, .f32⟩
  | .hbm, ⟨3, _⟩ => ⟨S100000x128, .f32⟩
  | .hbm, ⟨4, _⟩ => ⟨S1280x5x128, .i32⟩
  | .hbm, ⟨5, _⟩ => ⟨S819200x128, .f32⟩
  | .hbm, ⟨6, _⟩ => ⟨S4096x200x128, .f32⟩
  | .local .tc .vmem, ⟨0, _⟩ => ⟨S10000x128, .f32⟩
  | .local .tc .vmem, ⟨1, _⟩ => ⟨S10000x128, .f32⟩
  | .local .tc .vmem, ⟨2, _⟩ => ⟨S10000x32, .f32⟩
  | .local .tc .vmem, ⟨3, _⟩ => ⟨S10000x32, .f32⟩
  | .local .tc .vmem, ⟨4, _⟩ => ⟨S10000x128, .f32⟩
  | .local .tc .vmem, ⟨5, _⟩ => ⟨S10000x128, .f32⟩
  | .local .scVector .vmem, ⟨0, _⟩ => ⟨S2x5x128, .i32⟩
  | .local .scVector .vmem, ⟨1, _⟩ => ⟨S5x128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_v0_scv : Ref sig .scVector := ⟨.hbm, 3, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v3 : BitVec 32 := Scalar.muli v1 c40_i32
  let c0_i32 : BitVec 32 := 0#32
  let v4 : BitVec 32 := Scalar.addi v3 c0_i32
  let c0_i32_3 : BitVec 32 := 0#32
  let c0_i32_4 : BitVec 32 := 0#32
  ![v4.toNat, 0, 0]
@[reducible] def k1_t1_loop : Scf.Loop 32 :=
  let c0_i32_10 : BitVec 32 := 0#32
  let c20_i32 : BitVec 32 := 20#32
  let v13 : BitVec 32 := Scalar.addi c0_i32_10 c20_i32
  let c1_i32 : BitVec 32 := 1#32
  ⟨c0_i32_10, v13, c1_i32⟩
def k1_off2 (i : grid1.Coords) (k1_t1 : Fin k1_t1_loop.trips) (c0_i32_71 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v3 : BitVec 32 := Scalar.muli v1 c40_i32
  let c2_i32_70 : BitVec 32 := 2#32
  let c0_i32_10 : BitVec 32 := 0#32
  let c1_i32 : BitVec 32 := 1#32
  let arg10 : BitVec 32 := Scf.iv c0_i32_10 c1_i32 k1_t1
  let v62 : BitVec 32 := Scalar.muli c2_i32_70 arg10
  let v63 : BitVec 32 := Scalar.addi v62 c0_i32_71
  let c1_i32_82 : BitVec 32 := 1#32
  let v72 : BitVec 32 := Scalar.addi v63 c1_i32_82
  let c39_i32 : BitVec 32 := 39#32
  let v73 : BitVec 32 := Scalar.minsi v72 c39_i32
  let v74 : BitVec 32 := Scalar.addi v3 v73
  let c0_i32_86 : BitVec 32 := 0#32
  let c0_i32_87 : BitVec 32 := 0#32
  ![v74.toNat, 0, 0]
def k1_off3 (i : grid1.Coords) (k1_t1 : Fin k1_t1_loop.trips) (c0_i32_71 : BitVec 32) (c0_i32_148 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c2_i32_70 : BitVec 32 := 2#32
  let c0_i32_10 : BitVec 32 := 0#32
  let c1_i32 : BitVec 32 := 1#32
  let arg10 : BitVec 32 := Scf.iv c0_i32_10 c1_i32 k1_t1
  let v62 : BitVec 32 := Scalar.muli c2_i32_70 arg10
  let v63 : BitVec 32 := Scalar.addi v62 c0_i32_71
  let c5_i32 : BitVec 32 := 5#32
  let v128 : BitVec 32 := Scalar.muli v63 c5_i32
  let v129 : BitVec 32 := Scalar.addi v2 v128
  let v130 : BitVec 32 := Scalar.addi v129 c0_i32_148
  let c128_i32 : BitVec 32 := 128#32
  let v131 : BitVec 32 := Scalar.muli v130 c128_i32
  let c0_i32_153 : BitVec 32 := 0#32
  ![v131.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S10000x128_S10000x96_0_0 : ∀ a, (![0, 0] : Fin 2 → Nat) a + S10000x96.size a ≤ S10000x128.size a
  h_S10000x96 : 0 < S10000x96.numel
  inb_S10000x32_S10000x32_0_0 : ∀ a, (![0, 0] : Fin 2 → Nat) a + S10000x32.size a ≤ S10000x32.size a
  h_S10000x32 : 0 < S10000x32.numel
  inb_S10000x128_S10000x32_0_96 : ∀ a, (![0, 96] : Fin 2 → Nat) a + S10000x32.size a ≤ S10000x128.size a
  shapeCasts_S4096x200_S1280x5x128 : S4096x200.ShapeCasts S1280x5x128
  inb_S2x5x128_S1x5x128_0_0_0 : ∀ a, (![0, 0, 0] : Fin 3 → Nat) a + S1x5x128.size a ≤ S2x5x128.size a
  squeezes_S1x5x128_S5x128 : S1x5x128.Squeezes S5x128
  inb_S1280x5x128_S1x5x128_0_0_0 : ∀ a, (![0, 0, 0] : Fin 3 → Nat) a + S1x5x128.size a ≤ S1280x5x128.size a
  inb_S2x5x128_S1x5x128_1_0_0 : ∀ a, (![1, 0, 0] : Fin 3 → Nat) a + S1x5x128.size a ≤ S2x5x128.size a
  inb_S5x128x128_S1x128x128_0_0_0 : ∀ a, (![0, 0, 0] : Fin 3 → Nat) a + S1x128x128.size a ≤ S5x128x128.size a
  squeezes_S1x128x128_S128x128 : S1x128x128.Squeezes S128x128
  inb_S819200x128_S128x128_0_0 : ∀ a, (![0, 0] : Fin 2 → Nat) a + S128x128.size a ≤ S819200x128.size a
  inb_S5_S1_0 : ∀ a, (![0] : Fin 1 → Nat) a + S1.size a ≤ S5.size a
  squeezes_S1_S_ : S1.Squeezes S_
  inb_S5x128x128_S1x128x128_1_0_0 : ∀ a, (![1, 0, 0] : Fin 3 → Nat) a + S1x128x128.size a ≤ S5x128x128.size a
  inb_S5_S1_1 : ∀ a, (![1] : Fin 1 → Nat) a + S1.size a ≤ S5.size a
  inb_S5x128x128_S1x128x128_2_0_0 : ∀ a, (![2, 0, 0] : Fin 3 → Nat) a + S1x128x128.size a ≤ S5x128x128.size a
  inb_S5_S1_2 : ∀ a, (![2] : Fin 1 → Nat) a + S1.size a ≤ S5.size a
  inb_S5x128x128_S1x128x128_3_0_0 : ∀ a, (![3, 0, 0] : Fin 3 → Nat) a + S1x128x128.size a ≤ S5x128x128.size a
  inb_S5_S1_3 : ∀ a, (![3] : Fin 1 → Nat) a + S1.size a ≤ S5.size a
  inb_S5x128x128_S1x128x128_4_0_0 : ∀ a, (![4, 0, 0] : Fin 3 → Nat) a + S1x128x128.size a ≤ S5x128x128.size a
  inb_S5_S1_4 : ∀ a, (![4] : Fin 1 → Nat) a + S1.size a ≤ S5.size a
  inb_S2x5x128_S1x1x128_0_0_0 : ∀ a, (![0, 0, 0] : Fin 3 → Nat) a + S1x1x128.size a ≤ S2x5x128.size a
  squeezes_S1x1x128_S128 : S1x1x128.Squeezes S128
  inb_S100000x128_S100000x128_0_0 : ∀ a, (![0, 0] : Fin 2 → Nat) a + S100000x128.size a ≤ S100000x128.size a
  gathers_S100000x128_S128x128 : S100000x128.Gathers 0 S128x128
  inb_S2x5x128_S1x1x128_0_1_0 : ∀ a, (![0, 1, 0] : Fin 3 → Nat) a + S1x1x128.size a ≤ S2x5x128.size a
  inb_S2x5x128_S1x1x128_0_2_0 : ∀ a, (![0, 2, 0] : Fin 3 → Nat) a + S1x1x128.size a ≤ S2x5x128.size a
  inb_S2x5x128_S1x1x128_0_3_0 : ∀ a, (![0, 3, 0] : Fin 3 → Nat) a + S1x1x128.size a ≤ S2x5x128.size a
  inb_S2x5x128_S1x1x128_0_4_0 : ∀ a, (![0, 4, 0] : Fin 3 → Nat) a + S1x1x128.size a ≤ S2x5x128.size a
  inb_S2x5x128_S1x1x128_1_0_0 : ∀ a, (![1, 0, 0] : Fin 3 → Nat) a + S1x1x128.size a ≤ S2x5x128.size a
  inb_S2x5x128_S1x1x128_1_1_0 : ∀ a, (![1, 1, 0] : Fin 3 → Nat) a + S1x1x128.size a ≤ S2x5x128.size a
  inb_S2x5x128_S1x1x128_1_2_0 : ∀ a, (![1, 2, 0] : Fin 3 → Nat) a + S1x1x128.size a ≤ S2x5x128.size a
  inb_S2x5x128_S1x1x128_1_3_0 : ∀ a, (![1, 3, 0] : Fin 3 → Nat) a + S1x1x128.size a ≤ S2x5x128.size a
  inb_S2x5x128_S1x1x128_1_4_0 : ∀ a, (![1, 4, 0] : Fin 3 → Nat) a + S1x1x128.size a ≤ S2x5x128.size a
  shapeCasts_S819200x128_S4096x200x128 : S819200x128.ShapeCasts S4096x200x128
  hcc1_scratch2 : 6 + S_.numel ≤ 17
  hcc1_scratch3 : 7 + S5.numel ≤ 17
  hcc1_scratch4 : 12 + S5.numel ≤ 17
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S1x5x128.size a ≤ S1280x5x128.size a
  k1_t1_ok : k1_t1_loop.OK
  k1_off2_inb : ∀ (i : grid1.Coords) (k1_t1 : Fin k1_t1_loop.trips), ∀ (r : Fin 2), ∀ a, (k1_off2 i k1_t1 (BitVec.ofNat 32 r.val)) a + S1x5x128.size a ≤ S1280x5x128.size a
  k1_off3_inb : ∀ (i : grid1.Coords) (k1_t1 : Fin k1_t1_loop.trips), ∀ (r₁ : Fin 2) (r₂ : Fin 5), ∀ a, (k1_off3 i k1_t1 (BitVec.ofNat 32 r₁.val) (BitVec.ofNat 32 r₂.val)) a + S128x128.size a ≤ S819200x128.size a

variable [Facts₀]

abbrev cc1_scratch2 : DmaSems sig S_ := SemArray.consecutive 6 S_ hcc1_scratch2
abbrev cc1_scratch3 : DmaSems sig S5 := SemArray.consecutive 7 S5 hcc1_scratch3
abbrev cc1_scratch4 : DmaSems sig S5 := SemArray.consecutive 12 S5 hcc1_scratch4

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200 : Shape := ⟨2, ![4096, 200]⟩
abbrev S100000x128 : Shape := ⟨2, ![100000, 128]⟩
abbrev S100000x32 : Shape := ⟨2, ![100000, 32]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x200x32 : Shape := ⟨3, ![4096, 200, 32]⟩

abbrev nBuf : Space → Nat
  | .hbm => 52
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S100000x32, .f32⟩
  | .hbm, ⟨3, _⟩ => ⟨S_, .i32⟩
  | .hbm, ⟨4, _⟩ => ⟨S4096x200, .i32⟩
  | .hbm, ⟨5, _⟩ => ⟨S4096x200, .i1⟩
  | .hbm, ⟨6, _⟩ => ⟨S_, .i32⟩
  | .hbm, ⟨7, _⟩ => ⟨S4096x200, .i32⟩
  | .hbm, ⟨8, _⟩ => ⟨S4096x200, .i32⟩
  | .hbm, ⟨9, _⟩ => ⟨S4096x200, .i32⟩
  | .hbm, ⟨10, _⟩ => ⟨S4096x200x1, .i32⟩
  | .hbm, ⟨11, _⟩ => ⟨S1, .i32⟩
  | .hbm, ⟨12, _⟩ => ⟨S_, .i32⟩
  | .hbm, ⟨13, _⟩ => ⟨S4096x200x1, .i32⟩
  | .hbm, ⟨14, _⟩ => ⟨S4096x200x1, .i1⟩
  | .hbm, ⟨15, _⟩ => ⟨S1x1x1, .i32⟩
  | .hbm, ⟨16, _⟩ => ⟨S4096x200x1, .i32⟩
  | .hbm, ⟨17, _⟩ => ⟨S4096x200x1, .i1⟩
  | .hbm, ⟨18, _⟩ => ⟨S4096x200x1, .i1⟩
  | .hbm, ⟨19, _⟩ => ⟨S_, .i1⟩
  | .hbm, ⟨20, _⟩ => ⟨S4096x200, .i1⟩
  | .hbm, ⟨21, _⟩ => ⟨S4096x200x128, .f32⟩
  | .hbm, ⟨22, _⟩ => ⟨S4096x200x128, .i1⟩
  | .hbm, ⟨23, _⟩ => ⟨S_, .f32⟩
  | .hbm, ⟨24, _⟩ => ⟨S4096x200x128, .f32⟩
  | .hbm, ⟨25, _⟩ => ⟨S4096x200x128, .f32⟩
  | .hbm, ⟨26, _⟩ => ⟨S_, .i32⟩
  | .hbm, ⟨27, _⟩ => ⟨S4096x200, .i32⟩
  | .hbm, ⟨28, _⟩ => ⟨S4096x200, .i1⟩
  | .hbm, ⟨29, _⟩ => ⟨S_, .i32⟩
  | .hbm, ⟨30, _⟩ => ⟨S4096x200, .i32⟩
  | .hbm, ⟨31, _⟩ => ⟨S4096x200, .i32⟩
  | .hbm, ⟨32, _⟩ => ⟨S4096x200, .i32⟩
  | .hbm, ⟨33, _⟩ => ⟨S4096x200x1, .i32⟩
  | .hbm, ⟨34, _⟩ => ⟨S1, .i32⟩
  | .hbm, ⟨35, _⟩ => ⟨S_, .i32⟩
  | .hbm, ⟨36, _⟩ => ⟨S4096x200x1, .i32⟩
  | .hbm, ⟨37, _⟩ => ⟨S4096x200x1, .i1⟩
  | .hbm, ⟨38, _⟩ => ⟨S1x1x1, .i32⟩
  | .hbm, ⟨39, _⟩ => ⟨S4096x200x1, .i32⟩
  | .hbm, ⟨40, _⟩ => ⟨S4096x200x1, .i1⟩
  | .hbm, ⟨41, _⟩ => ⟨S4096x200x1, .i1⟩
  | .hbm, ⟨42, _⟩ => ⟨S_, .i1⟩
  | .hbm, ⟨43, _⟩ => ⟨S4096x200, .i1⟩
  | .hbm, ⟨44, _⟩ => ⟨S4096x200x32, .f32⟩
  | .hbm, ⟨45, _⟩ => ⟨S4096x200x32, .i1⟩
  | .hbm, ⟨46, _⟩ => ⟨S_, .f32⟩
  | .hbm, ⟨47, _⟩ => ⟨S4096x200x32, .f32⟩
  | .hbm, ⟨48, _⟩ => ⟨S4096x200x32, .f32⟩
  | .hbm, ⟨49, _⟩ => ⟨S_, .i32⟩
  | .hbm, ⟨50, _⟩ => ⟨S1, .i32⟩
  | .hbm, ⟨51, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_c : Ref sig .tc := ⟨.hbm, 49, rfl⟩
abbrev main_v2 : Ref sig .tc := ⟨.hbm, 50, rfl⟩
abbrev main_v3 : Ref sig .tc := ⟨.hbm, 51, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  bcast_S4096x200_S4096x200x32_0_1 : S4096x200.BroadcastsInDim S4096x200x32 (![0, 1] : Fin 2 → Fin S4096x200x32.rank)
  bcast_S_S4096x200x32 : S_.BroadcastsInDim S4096x200x32 (![] : Fin 0 → Fin S4096x200x32.rank)
  bcast_S_S1 : S_.BroadcastsInDim S1 (![] : Fin 0 → Fin S1.rank)
  gather_S100000x128_S4096x200x1_S4096x200x128_2_0_n_n_0_2_1128_wf : GatherDims.WF S100000x128 S4096x200x1 S4096x200x128 [2] [0] [] [0] [] 2 ![1, 128]
  gather_S100000x32_S4096x200x1_S4096x200x32_2_0_n_n_0_2_132_wf : GatherDims.WF S100000x32 S4096x200x1 S4096x200x32 [2] [0] [] [0] [] 2 ![1, 32]
  scatter_S4096x200x128_S1_S4096x200x32_012_n_2_0_wf : ScatterDims.WF S4096x200x128 S1 S4096x200x32 [0, 1, 2] [] [2] 0

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def gather_S100000x32_S4096x200x1_S4096x200x32_2_0_n_n_0_2_132 : GatherDims S100000x32 S4096x200x1 S4096x200x32 where
  offsetDims := [2]
  collapsedSliceDims := [0]
  operandBatchingDims := []
  startIndicesBatchingDims := []
  startIndexMap := [0]
  indexVectorDim := 2
  sliceSizes := ![1, 32]
  wf := gather_S100000x32_S4096x200x1_S4096x200x32_2_0_n_n_0_2_132_wf
def scatter_S4096x200x128_S1_S4096x200x32_012_n_2_0 : ScatterDims S4096x200x128 S1 S4096x200x32 where
  updateWindowDims := [0, 1, 2]
  insertedWindowDims := []
  scatterDimsToOperandDims := [2]
  indexVectorDim := 0
  wf := scatter_S4096x200x128_S1_S4096x200x32_012_n_2_0_wf

class Facts : Prop extends Facts₀ where

variable [Facts]
-- ==== Proof.Spec.lean ====
/-
  The result both programs compute, as one function of the argument arrays: an embedding lookup whose last 32 channels come
  from a second table.  For a token (b, l) with index v = x[b, l]:
      out[b, l, j] = W[v, j]        for j < 96,
      out[b, l, j] = N[v, j - 96]   for 96 ≤ j < 128.
  The index is read modulo the tables' height 100000, so that the function is total; under the precondition every index is
  below it.
-/
import Idealize.ShloMosaic.Lib.ValueIdx

namespace Cert.Proof.Spec

open Idealize.ShloMosaic

abbrev SX : Shape := ⟨2, ![4096, 200]⟩
abbrev SW : Shape := ⟨2, ![100000, 128]⟩
abbrev SN : Shape := ⟨2, ![100000, 32]⟩
abbrev SO : Shape := ⟨3, ![4096, 200, 128]⟩

/-- The table row a token's index names. -/
def rowOf (x : SX.Idx → BitVec 32) (b : Fin 4096) (l : Fin 200) : Fin 100000 :=
  ⟨(x (ValueIdx.ix2 b l)).toNat % 100000, Nat.mod_lt _ (by norm_num)⟩

/-- The lookup with the last 32 channels overwritten from the second table. -/
def lookup {α : Type} (x : SX.Idx → BitVec 32) (W : SW.Idx → α) (N : SN.Idx → α) : SO.Idx → α :=
  fun i =>
    if h : (i 2).val < 96 then W (ValueIdx.ix2 (rowOf x (i 0) (i 1)) (i 2))
    else N (ValueIdx.ix2 (rowOf x (i 0) (i 1)) ⟨(i 2).val - 96, by have h1 : (i 2).val < 128 := (i 2).isLt; show (i 2).val - 96 < 32; omega⟩)

end Cert.Proof.Spec
-- ==== Proof.KI.Setup.lean ====
/-
  The shared vocabulary of the idealized kernel's proof: the program as the SparseCore launch theorem sees it, the
  resource algebra, the arrays' locations, and the mathematics of the result.

  The program: a TensorCore region first builds the combined table
      tab[v, j] = W_word[v, j]  for j < 96,      tab[v, j] = W_num[v, j - 96]  for 96 ≤ j < 128;
  the index array x : 4096 × 200 is re-read as 1280 blocks of 5 × 128 indices; the 32 vector subcores then copy, each for its
  own 25600 consecutive flat positions r, row tab[x_flat[r]] to row r of a 819200 × 128 array, which is re-read as
  4096 × 200 × 128.  Tile (core c, subcore s) is worker w = 2 s + c; it owns index blocks [40 w, 40 w + 40) and rows
  [25600 w, 25600 w + 25600).
-/
import proofs.«204608_g3015067042085_cont_9to1_1138_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«204608_g3015067042085_cont_9to1_1138_29_alg».proof.Proof.Gen.KernelIdeal
import proofs.«204608_g3015067042085_cont_9to1_1138_29_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The pipeline's component: the left of the right. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-! ## The arrays -/

variable (m : (ℓ : Loc nD τ sig) → Buf (Elt F) ℓ) (ρ : Dev nD → PrngReg)

abbrev xLoc (d : Dev nD) : Loc nD τ sig := (SparseCore.T d).loc main_arg0
abbrev wLoc (d : Dev nD) : Loc nD τ sig := (SparseCore.T d).loc main_arg1
abbrev nLoc (d : Dev nD) : Loc nD τ sig := (SparseCore.T d).loc main_arg2
abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-! ## The mathematics of the result -/

/-- The combined table: columns below 96 from the word table, the other 32 from the number table. -/
def tabOf (W : S100000x128.Idx → Elt F .f32) (N : S100000x32.Idx → Elt F .f32) : S100000x128.Idx → Elt F .f32 :=
  fun j => if h : (j 1).val < 96 then W j else N (ValueIdx.ix2 (j 0) ⟨(j 1).val - 96, by have h1 : (j 1).val < 128 := (j 1).isLt; show (j 1).val - 96 < 32; omega⟩)

/-- Flat position `r` of the index blocks: block `r / 640`, row `(r / 128) % 5`, lane `r % 128`. -/
def blkIx (r : Fin 819200) : S1280x5x128.Idx :=
  ValueIdx.ix3 ⟨r.val / 640, by have := r.isLt; omega⟩ ⟨(r.val / 128) % 5, Nat.mod_lt _ (by norm_num)⟩ ⟨r.val % 128, Nat.mod_lt _ (by norm_num)⟩

/-- The gathered rows: row `r` is the table's row named by flat index `r` (read modulo the table's height: under the
    precondition every index is below it). -/
def rowsOf (tab : S100000x128.Idx → Elt F .f32) (idx : S1280x5x128.Idx → Elt F .i32) : S819200x128.Idx → Elt F .f32 :=
  fun j => tab (ValueIdx.ix2 ⟨(idx (blkIx (j 0))).toNat % 100000, Nat.mod_lt _ (by norm_num)⟩ (j 1))

/-! ## The tiles -/

omit m ρ in
theorem odiv : 32 ∣ S819200x128.size 0 := ⟨25600, rfl⟩
/-- Worker `w`'s rows of the gathered array: rows [25600 w, 25600 w + 25600). -/
abbrev oRect (w : Fin 32) : Rect S819200x128 := Rect.part (s := S819200x128) (a₀ := 0) odiv w
abbrev oSet (w : Fin 32) : Finset S819200x128.Idx :=
  ((Memref.whole main_v2_scv : Memref sig .scVector .hbm S819200x128 .f32).view.slice (oRect w)).set
/-- The worker number of the tile at grid coordinates `L` (core `L 0`, subcore `L 1`): `2 s + c`. -/
def wid (L : grid1.Coords) : Fin 32 :=
  ⟨2 * (L 1).val + (L 0).val, by
    have h0 : (L 0).val < 2 := (L 0).isLt
    have h1 : (L 1).val < 16 := (L 1).isLt
    omega⟩

abbrev cV (L : grid1.Coords) : Fin τ.nSC := (L 0).castLE hcore1
abbrev jV (L : grid1.Coords) : Fin τ.nSub := (L 1).castLE hsub1

/-- The statement of one tile's task, at symbolic coordinates: from read shares of the index blocks and of the table
    (at any contents whose indices are below the table's height) and the tile's own rows of the output, the body ends with
    those rows at the gathered rows of the table, everything else back. -/
def TileBodyStmt [FloatOps F] : Prop :=
  ∀ (d : Dev nD) (L : grid1.Coords) (qi qt : PosShare TreeShare)
    (fi : Buf (Elt F) (iLoc d)) (ft : Buf (Elt F) (tLoc d)) (f0 : Buf (Elt F) (oLoc d)) (_hfi : ∀ j, (fi j).toNat < 100000)
    (O : CellTallies nD τ sig (HIx 1)) (W : Waits sig (HIx 1)) (_hO : ∀ g, O g none = 0),
    iprop(levAts (K (F := F)).L (K (F := F)).lev ∗ emp
        ∗ ((iLoc d ↦{qi} fi) ∗ (tLoc d ↦{qt} ft) ∗ (oLoc d ↦[oSet (wid L)]{fullShare} f0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1_body L (Memref.whole main_v1_scv) (Memref.isWhole_whole _) (Memref.whole main_v0_scv) (Memref.isWhole_whole _) (Memref.whole main_v2_scv) (Memref.isWhole_whole _)
            (Memref.whole cc1_scratch0) (Memref.isWhole_whole _) (Memref.whole cc1_scratch1) (Memref.isWhole_whole _) cc1_scratch2 cc1_scratch3 cc1_scratch4)
          (fun _ => iprop(((iLoc d ↦{qi} fi) ∗ (tLoc d ↦{qt} ft) ∗ (oLoc d ↦[oSet (wid L)]{fullShare} rowsOf ft fi))
            ∗ scopedBufs (V d (cV L) (jV L)) ∗ scopedSems0 (V d (cV L) (jV L))
            ∗ ∃ W', ⌜∀ p ∈ W', p ∈ W ∨ p.2 = none⌝ ∗ owes (V d (cV L) (jV L)) O W')) : sProp 𝕄)

end Cert.Proof.KI

end
-- ==== Proof.KI.Launch.lean ====
/-
  The launch of the kernel: what the launch handshakes carry to each tile and back, each tile's obligation from the
  statement of one tile's task, and how a SparseCore's operands are its tiles'.

  Device-wide, the index blocks and the combined table are read by all 32 tiles at once, so each tile is handed a read
  share of the WHOLE of each (share token w of 32 of the full share); the output rows are dealt out exactly: tile w owns
  rows [25600 w, 25600 w + 25600).  SparseCore c carries the tiles w = 2 i + c, i < 16.
-/
import proofs.«204608_g3015067042085_cont_9to1_1138_29_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays' contents during the SparseCore call -/

/-- The index blocks: the index array re-read in the block shape (same row-major order). -/
def idxOf (x : S4096x200.Idx → Elt F .i32) : S1280x5x128.Idx → Elt F .i32 :=
  shapeCast S1280x5x128 x Gen.shapeCasts_S4096x200_S1280x5x128

def fi (d : Dev nD) : Buf (Elt F) (iLoc d) := idxOf (m (xLoc d))
def ft (d : Dev nD) : Buf (Elt F) (tLoc d) := tabOf (m (wLoc d)) (m (nLoc d))
def fo (d : Dev nD) : Buf (Elt F) (oLoc d) := rowsOf (ft m d) (fi m d)

/-- Tile `w`'s read share of an array all 32 tiles read. -/
abbrev qTok (w : Fin 32) : PosShare TreeShare := Transfers.shareTok fullShare 32 w

/-- The worker number of tile `i` of SparseCore `c`. -/
def widCI (c : Fin 2) (i : Fin 16) : Fin 32 := ⟨2 * i.val + c.val, by have := c.isLt; have := i.isLt; omega⟩

/-- What a tile is handed: its read shares, its rows of the output as the launch left them; -/
def goRes (d : Dev nD) (w : Fin 32) : sProp 𝕄 :=
  iprop((iLoc d ↦{qTok w} fi m d) ∗ (tLoc d ↦{qTok w} ft m d) ∗ (oLoc d ↦[oSet w]{fullShare} m (oLoc d)))
/-- and what it hands back: the shares, its rows at the gathered rows. -/
def tdRes (d : Dev nD) (w : Fin 32) : sProp 𝕄 :=
  iprop((iLoc d ↦{qTok w} fi m d) ∗ (tLoc d ↦{qTok w} ft m d) ∗ (oLoc d ↦[oSet w]{fullShare} fo m d))

instance goRes_storable (d : Dev nD) (w : Fin 32) : BI.Storable (upEmb : UEmb _ 𝕄) (goRes m d w) := by unfold goRes; infer_instance
instance tdRes_storable (d : Dev nD) (w : Fin 32) : BI.Storable (upEmb : UEmb _ 𝕄) (tdRes m d w) := by unfold tdRes; infer_instance

/-- A SparseCore is handed its sixteen tiles' resources, and hands back theirs. -/
def P : (K (F := F)).Pay (nD := nD) (Val := Elt F) (Name := ℕ) (U := UU) where
  st := fun q d c => match q with | 0 => bigSep Finset.univ fun i : Fin 16 => goRes m d (widCI c i)
  dn := fun q d c => match q with | 0 => bigSep Finset.univ fun i : Fin 16 => tdRes m d (widCI c i)
  go := fun q d c i => match q with | 0 => goRes m d (widCI c i)
  td := fun q d c i => match q with | 0 => tdRes m d (widCI c i)
  x := fun _ _ => iprop(emp)

instance P_storable : (P (F := F) m).IsStorable where
  st q d c := match q with | 0 => (inferInstance : BI.Storable (upEmb : UEmb _ 𝕄) (bigSep Finset.univ fun i : Fin 16 => goRes m d (widCI c i)))
  dn q d c := match q with | 0 => (inferInstance : BI.Storable (upEmb : UEmb _ 𝕄) (bigSep Finset.univ fun i : Fin 16 => tdRes m d (widCI c i)))
  go q d c i := match q with | 0 => (inferInstance : BI.Storable (upEmb : UEmb _ 𝕄) (goRes m d (widCI c i)))
  td q d c i := match q with | 0 => (inferInstance : BI.Storable (upEmb : UEmb _ 𝕄) (tdRes m d (widCI c i)))

/-- What the proof asks of the launch memory: every index names a row of the tables. -/
def PreOK : Prop := ∀ (d : Dev nD) (j : S4096x200.Idx), (m (xLoc d) j).toNat < 100000

theorem fi_lt (hpre : PreOK m) (d : Dev nD) (j : S1280x5x128.Idx) : (fi m d j).toNat < 100000 := by
  unfold fi idxOf shapeCast
  exact hpre d _

/-! ## A tile's obligation -/

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_body (coordsV c s)
          (Memref.whole main_v1_scv) (Memref.isWhole_whole _) (Memref.whole main_v0_scv) (Memref.isWhole_whole _) (Memref.whole main_v2_scv) (Memref.isWhole_whole _)
          (Memref.whole cc1_scratch0) (Memref.isWhole_whole _) (Memref.whole cc1_scratch1) (Memref.isWhole_whole _) cc1_scratch2 cc1_scratch3 cc1_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem wid_coordsV (c : Fin 2) (i : Fin 16) (h0 : c.val < grid1.bound 0) (h1 : i.val < grid1.bound 1) :
    wid (coordsV ⟨c.val, h0⟩ ⟨i.val, h1⟩) = widCI c i := Fin.ext rfl

set_option maxRecDepth 16384 in
theorem tileObl (hT : TileBodyStmt (F := F)) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := hT d (coordsV ⟨_, hci.1⟩ ⟨_, hci.2⟩) (qTok (widCI c i)) (qTok (widCI c i)) (fi m d) (ft m d) (m (oLoc d)) (fi_lt m hpre d) O W hO
  have e : wid (coordsV ⟨_, hci.1⟩ ⟨_, hci.2⟩) = widCI c i := Fin.ext rfl
  rw [e] at h
  exact h.trans (wp_mono frame _ _ fun _ => obl_post)

/-! ## A SparseCore's operands are its tiles' -/

theorem vecSplit : (K (F := F)).VecSplit' (P m) 0 := by
  intro d c
  show (bigSep Finset.univ fun i : Fin 16 => goRes m d (widCI c i)) ⊢ |={Set.univ}=> iprop(
      (bigSep Finset.univ fun i : Fin 16 => goRes m d (widCI c i))
      ∗ ((bigSep Finset.univ fun i : Fin 16 => tdRes m d (widCI c i)) -∗ bigSep Finset.univ fun i : Fin 16 => tdRes m d (widCI c i)))
  iintro H; imodintro
  isplitl [H]; · iexact H
  iintro H; iexact H

end Cert.Proof.KI

end
-- ==== Proof.KI.Split.lean ====
/-
  Dealing the device's arrays to the 32 tiles and collecting them again.  The index blocks and the table are read by every
  tile: the full share of each is 32 read tokens and a remainder, which stays with the TensorCore during the call.  The
  output is cut exactly: the 32 row ranges [25600 w, 25600 w + 25600) are pairwise disjoint and cover all 819200 rows, so a
  points-to of the whole array at ONE contents function is the 32 ranges' points-tos at that function, both ways.
  Worker w = 2 i + c is tile i of SparseCore c: the 32 workers are the pairs (c, i).
-/
import proofs.«204608_g3015067042085_cont_9to1_1138_29_alg».proof.Proof.KI.Launch

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

local notation "𝕄" => MT nD τ sig (HIx 1) (Elt F) ℕ UU ℕ

variable (m : (ℓ : Loc nD τ sig) → Buf (Elt F) ℓ)

/-! ## The output's row ranges -/

theorem oSet_eq (w : Fin 32) : oSet w = (oRect w).set := by
  show ((View.whole (main_v2_scv : Ref sig .scVector)).slice (oRect w)).set = _
  rw [View.set_slice]; exact Finset.map_refl

theorem orows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h

theorem orows_cover : (Finset.univ : Finset (Fin 32)).biUnion oSet = Finset.univ :=
  (Finset.biUnion_congr rfl fun i _ => oSet_eq i).trans (Rect.biUnion_part odiv)

theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet orows_disjoint, orows_cover]; try rfl

/-! ## Workers are (core, tile) pairs -/

def widEquiv : Fin 2 × Fin 16 ≃ Fin 32 where
  toFun p := widCI p.1 p.2
  invFun w := (⟨w.val % 2, Nat.mod_lt _ (by norm_num)⟩, ⟨w.val / 2, by have := w.isLt; omega⟩)
  left_inv p := by
    obtain ⟨c, i⟩ := p
    have hc := c.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

theorem tiles_eq (Φ : Fin 32 → sProp 𝕄) :
    bigSep Finset.univ Φ = bigSep Finset.univ fun c : Fin 2 => bigSep Finset.univ fun i : Fin 16 => Φ (widCI c i) := by
  rw [bigSep_univ_equiv widEquiv Φ, bigSep_univ_prod]; rfl

/-! ## Dealing and collecting -/

/-- What stays with the TensorCore during the call: the remainders of the two read arrays. -/
def remRes (d : Dev nD) : sProp 𝕄 :=
  iprop((iLoc d ↦{Transfers.shareDrop fullShare 32} fi m d) ∗ (tLoc d ↦{Transfers.shareDrop fullShare 32} ft m d))

theorem deal (d : Dev nD) :
    iprop((iLoc d ↦{fullShare} fi m d) ∗ (tLoc d ↦{fullShare} ft m d) ∗ (oLoc d ↦{fullShare} m (oLoc d)))
      ⊢ (iprop(remRes m d ∗ bigSep Finset.univ fun c : Fin 2 => bigSep Finset.univ fun i : Fin 16 => goRes m d (widCI c i)) : sProp 𝕄) := by
  rw [← tiles_eq (fun w => goRes m d w)]
  unfold goRes remRes
  rw [bigSep_sep', bigSep_sep', oPts_rows]
  iintro ⟨Hi, Ht, Ho⟩
  ihave Hi' := (Transfers.pointsTo_toks (ℓ := iLoc d) (f := fi m d) fullShare 32).1 $$ Hi
  ihave Ht' := (Transfers.pointsTo_toks (ℓ := tLoc d) (f := ft m d) fullShare 32).1 $$ Ht
  icases Hi' with ⟨Hir, Hit⟩
  icases Ht' with ⟨Htr, Htt⟩
  isplitl [Hir Htr]
  · isplitl [Hir]; · iexact Hir
    iexact Htr
  isplitl [Hit]; · iexact Hit
  isplitl [Htt]; · iexact Htt
  iexact Ho

theorem collect (d : Dev nD) :
    iprop(remRes m d ∗ bigSep Finset.univ fun c : Fin 2 => bigSep Finset.univ fun i : Fin 16 => tdRes m d (widCI c i))
      ⊢ (iprop((iLoc d ↦{fullShare} fi m d) ∗ (tLoc d ↦{fullShare} ft m d) ∗ (oLoc d ↦{fullShare} fo m d)) : sProp 𝕄) := by
  rw [← tiles_eq (fun w => tdRes m d w)]
  unfold tdRes remRes
  rw [bigSep_sep', bigSep_sep', oPts_rows]
  iintro ⟨⟨Hir, Htr⟩, Hit, Htt, Ho⟩
  isplitl [Hir Hit]
  · iapply (Transfers.pointsTo_toks (ℓ := iLoc d) (f := fi m d) fullShare 32).2
    isplitl [Hir]; · iexact Hir
    iexact Hit
  isplitl [Htr Htt]
  · iapply (Transfers.pointsTo_toks (ℓ := tLoc d) (f := ft m d) fullShare 32).2
    isplitl [Htr]; · iexact Htr
    iexact Htt
  iexact Ho

end Cert.Proof.KI

end
-- ==== Proof.KI.Main.lean ====
/-
  @main on the TensorCore and the run of the whole kernel program.  @main: the TensorCore region builds the combined table
  (taken here as a hypothesis record, proved beside); the index array is re-read as blocks; the SparseCore call deals the
  arrays to the 32 tiles and collects them, the output then at the gathered rows; the output is re-read in the result's shape.
-/
import proofs.«204608_g3015067042085_cont_9to1_1138_29_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The TensorCore region, as a record of what is proved of it -/

/-- What the region's proof supplies: the ghost state @main enters it with, the element of the pipeline's component that
    funds it, and the step itself — from the two tables and the table-to-be to the combined table, everything else back. -/
structure RegionKit where
  ghost : Dev nD → sProp 𝕄
  uP : UP
  fund : (BI.own (EP (F := F) uP) : sProp 𝕄) ⊢ |={Set.univ}=> bigSep Finset.univ ghost
  step : ∀ (κ : GSem nD τ sig → ℕ) (d : Dev nD) (Φ : PUnit → sProp 𝕄),
    iprop((K (F := F)).ctx EH (P m) κ ∗ (K (F := F)).tcSt EH d 0 ∗ boundary (SparseCore.T d) ∗ (K (F := F)).tcSems0 d ∗ ghost d
        ∗ (wLoc d ↦{fullShare} m (wLoc d)) ∗ (nLoc d ↦{fullShare} m (nLoc d)) ∗ (∃ f, tLoc d ↦{fullShare} f)
        ∗ (((K (F := F)).tcSt EH d 0 ∗ boundary (SparseCore.T d) ∗ (K (F := F)).tcSems0 d
              ∗ (wLoc d ↦{fullShare} m (wLoc d)) ∗ (nLoc d ↦{fullShare} m (nLoc d)) ∗ (tLoc d ↦{fullShare} ft m d)) -∗ Φ ⟨⟩))
      ⊢ wp frame (wpE ((K (F := F)).defs (D (F := F))) 𝒱 (SparseCore.T d) none) Set.univ (Prog.lift (.customCall (SparseCore.inner (Pipeline.entry 0)) ())) Φ

variable (R : RegionKit m)

/-! ## The launch element -/

def u₀ : UU := (initOf (K (F := F)).hsCells (K (F := F)).hsToks, (R.uP, 1))

omit [FloatOps F] in
theorem bigSep_emp' {I : Type} (s : Finset I) : (bigSep s fun _ => iprop(emp)) = (iprop(emp) : sProp 𝕄) := bigSep_emp_const s

theorem hu₀ : (ownU (u₀ m R) : sProp 𝕄)
    ⊢ |={Set.univ}=> iprop(BI.own (EH (initOf (K (F := F)).hsCells (K (F := F)).hsToks)) ∗ (bigSep Finset.univ R.ghost)
        ∗ bigSep Finset.univ fun thr : Thread nD τ => bigSep Finset.univ fun q : Fin 1 => (P m).x q thr) := by
  unfold u₀
  iintro Hu
  ihave H := (ownU_pair (initOf (K (F := F)).hsCells (K (F := F)).hsToks) ((R.uP, (1 : Counters)) : UP × Counters)) $$ Hu
  icases H with ⟨HH, HR⟩
  ihave H2 := (own_pair_emb (embR : Emb (UP × Counters) 𝕄) R.uP (1 : Counters)) $$ HR
  icases H2 with ⟨HP, -⟩
  ihave HQ := (Entails.of_eq (show (BI.own (((Emb.inl : Emb UP (UP × Counters)).trans (embR : Emb (UP × Counters) 𝕄)) R.uP) : sProp 𝕄) = BI.own (EP (F := F) R.uP) from rfl)) $$ HP
  imod R.fund $$ HQ with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev opIdx : HloOp τ sig (Elt F) := StableHlo.reshape main_arg0 main_v1 rfl Gen.shapeCasts_S4096x200_S1280x5x128
abbrev opRes : HloOp τ sig (Elt F) := StableHlo.reshape main_v2 main_v3 rfl Gen.shapeCasts_S819200x128_S4096x200x128
abbrev Sxi : Finset (DevRef τ sig) := {x', i'}
abbrev Sor : Finset (DevRef τ sig) := {o', r'}

/-- The result: the gathered rows re-read in the result's shape. -/
def resOf (d : Dev nD) : Buf (Elt F) (rLoc d) := shapeCast S4096x200x128 (fo m d) Gen.shapeCasts_S819200x128_S4096x200x128

omit [FloatOps F] in
theorem held_Sxi (d : Dev nD) (W : Valuation τ sig (Elt F)) :
    (held (T d) Sxi W : sProp 𝕄) = iprop((xLoc d ↦{fullShare} W x') ∗ (iLoc d ↦{fullShare} W i')) := by
  unfold held Sxi
  rw [SparseCore.bigSep_insert' (by decide), bigSep_singleton]
omit [FloatOps F] in
theorem held_Sor (d : Dev nD) (W : Valuation τ sig (Elt F)) :
    (held (T d) Sor W : sProp 𝕄) = iprop((oLoc d ↦{fullShare} W o') ∗ (rLoc d ↦{fullShare} W r')) := by
  unfold held Sor
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (nLoc d ↦{fullShare} W main_arg2)
      ∗ (tLoc d ↦{fullShare} W main_v0) ∗ (iLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; and with the output at the gathered rows. -/
def V0 (d : Dev nD) : Valuation τ sig (Elt F) := fun b => m (d, b)
def V1 (d : Dev nD) : Valuation τ sig (Elt F) := Function.update (V0 m d) o' (fo m d)

theorem hSxi : (opIdx (F := F)).bufs ⊆ Sxi := show ({x', i'} : Finset (DevRef τ sig)) ⊆ Sxi by decide
theorem hSor : (opRes (F := F)).bufs ⊆ Sor := show ({o', r'} : Finset (DevRef τ sig)) ⊆ Sor by decide

theorem opIdx_x (d : Dev nD) : (opIdx (F := F)).result (V0 m d) x' = m (xLoc d) :=
  StableHlo.reshape_result_ne' _ _ _ _ (V0 m d) (show (main_arg0 : Ref sig .tc) ≠ main_v1 by decide)
theorem opIdx_i (d : Dev nD) : (opIdx (F := F)).result (V0 m d) i' = fi m d :=
  StableHlo.reshape_result' _ _ _ _ (V0 m d)
theorem opRes_o (d : Dev nD) : (opRes (F := F)).result (V1 m d) o' = fo m d :=
  (StableHlo.reshape_result_ne' _ _ _ _ (V1 m d) (show (main_v2 : Ref sig .tc) ≠ main_v3 by decide)).trans (Function.update_self _ _ _)
theorem opRes_r (d : Dev nD) : (opRes (F := F)).result (V1 m d) r' = resOf m d :=
  (StableHlo.reshape_result' _ _ _ _ (V1 m d)).trans (by unfold resOf; rw [show V1 m d (Proc.devRef .tc main_v2) = fo m d from Function.update_self _ _ _]; rfl)

theorem V1_o (d : Dev nD) : V1 m d o' = fo m d := Function.update_self _ _ _
theorem V1_r (d : Dev nD) : V1 m d r' = m (rLoc d) := Function.update_of_ne (show r' ≠ o' by decide) _ _

theorem st0_eq (d : Dev nD) : (bigSep Finset.univ fun c : Fin ((K (F := F)).nCore 0) => (P m).st 0 d c)
    = bigSep Finset.univ fun c : Fin 2 => bigSep Finset.univ fun i : Fin 16 => goRes m d (widCI c i) := rfl
theorem dn0_eq (d : Dev nD) : (bigSep Finset.univ fun c : Fin ((K (F := F)).nCore 0) => (P m).dn 0 d c)
    = bigSep Finset.univ fun c : Fin 2 => bigSep Finset.univ fun i : Fin 16 => tdRes m d (widCI c i) := rfl

/-- What @main leaves the claim: the three arguments at their launch contents, the result at the gathered rows re-read. -/
abbrev FIN (d : Dev nD) : sProp 𝕄 :=
  iprop((xLoc d ↦{fullShare} m (xLoc d)) ∗ (wLoc d ↦{fullShare} m (wLoc d)) ∗ (nLoc d ↦{fullShare} m (nLoc d)) ∗ (rLoc d ↦{fullShare} resOf m d))

theorem hmain (κ : GSem nD τ sig → ℕ) (d : Dev nD) :
    iprop((K (F := F)).ctx EH (P m) κ ∗ (K (F := F)).tcSt EH d 0 ∗ (K (F := F)).tcRes m ρ d ∗ R.ghost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hw, Hn, Ht, Hi, Ho, Hr⟩, Hsem, -⟩, Hg⟩
  -- the region: the combined table
  iapply (R.step κ d _) $$ [Hst Hb Hsem Hg Hw Hn Ht Hx Hi Ho Hr]
  isplitr; · iexact Hctx
  isplitl [Hst]; · iexact Hst
  isplitl [Hb]; · iexact Hb
  isplitl [Hsem]; · iexact Hsem
  isplitl [Hg]; · iexact Hg
  isplitl [Hw]; · iexact Hw
  isplitl [Hn]; · iexact Hn
  isplitl [Ht]; · iexists _; iexact Ht
  iintro ⟨Hst, Hb, Hsem, Hw, Hn, Ht⟩
  -- the index array re-read as blocks
  iapply (wp_hlo_within 𝒱 (SparseCore.T d) none Set.univ (op := opIdx) (S := Sxi) hSxi (V := V0 m d)) $$ [Hb Hx Hi]
  · isplitl [Hb]; · iexact Hb
    rw [held_Sxi]
    isplitl [Hx]; · iexact Hx
    iexact Hi
  iintro ⟨Hb, Hheld⟩
  ihave Hh := (Entails.of_eq (held_Sxi (F := F) d _)) $$ Hheld
  rw [opIdx_x, opIdx_i]
  icases Hh with ⟨Hx, Hi⟩
  -- the SparseCore call: the arrays dealt to the 32 tiles and collected
  ihave Hdeal := (deal m d) $$ [Hi Ht Ho]
  · isplitl [Hi]; · iexact Hi
    isplitl [Ht]; · iexact Ht
    iexact Ho
  icases Hdeal with ⟨Hrem, Hgo⟩
  rw [wp_ret]; imodintro
  iapply ((K (F := F)).wp_run (D (F := F)) 𝒱 (EH := EH) (P := P m) κ d 0) $$ [Hst Hgo Hrem Hb Hx Hw Hn Hr Hsem]
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ihave Hcol := (collect m d) $$ [Hrem Hdn']
  · isplitl [Hrem]; · iexact Hrem
    iexact Hdn'
  icases Hcol with ⟨Hi, Ht, Ho⟩
  -- the output re-read in the result's shape
  iapply (wp_hlo_within 𝒱 (SparseCore.T d) none Set.univ (op := opRes) (S := Sor) hSor (V := V1 m d)) $$ [Hb Ho Hr]
  · isplitl [Hb]; · iexact Hb
    rw [held_Sor, V1_o, V1_r]
    isplitl [Ho]; · iexact Ho
    iexact Hr
  iintro ⟨Hb, Hheld⟩
  ihave Hh := (Entails.of_eq (held_Sor (F := F) d _)) $$ Hheld
  rw [opRes_o, opRes_r]
  icases Hh with ⟨Ho, Hr⟩
  rw [wp_ret]; imodintro; imodintro
  isplitl [Hst]; · iexact Hst
  isplitl [Hx]; · iexact Hx
  isplitl [Hw]; · iexact Hw
  isplitl [Hn]; · iexact Hn
  iexact Hr

/-! ## Reading the claim off the final memory -/

def fq (d : Dev nD) (s' : Phys nD τ sig (Elt F)) : Prop :=
  s'.mem.mem (rLoc d) = resOf m d ∧ s'.mem.mem (xLoc d) = m (xLoc d) ∧ s'.mem.mem (wLoc d) = m (wLoc d) ∧ s'.mem.mem (nLoc d) = m (nLoc d)

set_option maxRecDepth 16384 in
theorem hfin (d : Dev nD) (s' : Phys nD τ sig (Elt F)) : iprop(FIN m d ∗ SI s') ⊢ (⌜fq m d s'⌝ : sProp 𝕄) := by
  iintro ⟨⟨Hx, Hw, Hn, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h3, HSI, -⟩
  ihave H := (SI_pointsTo_agree (st := s') (ℓ := rLoc d) (I := Finset.univ) (q := fullShare) (f := resOf m d)) $$ [HSI Hr]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

def QC : PUnit × MemSt nD τ sig (Elt F) → Prop := fun r => ∀ c : Dev nD,
  r.2.mem (rLoc c) = resOf m c ∧ r.2.mem (xLoc c) = m (xLoc c) ∧ r.2.mem (wLoc c) = m (wLoc c) ∧ r.2.mem (nLoc c) = m (nLoc c)

include R in
/-- Every weakly fair execution of the kernel program terminates, faults nowhere, and ends with the result at the gathered
    rows re-read and the three arguments unchanged — given one tile's task and the TensorCore region. -/
theorem run_main [∀ e, Nonempty (Elt F e)] (hT : TileBodyStmt (F := F)) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT hpre)
    (fun q _ => match q with | 0 => SparseCore.Cfg.VecSplit.of_plain (vecSplit m))
    m ρ main R.ghost (FIN m) (u₀ m R) (sep_elim_left.trans (hu₀ m R)) (hmain m ρ R) (fq m) (hfin m) (QC m) (fun _ h => h)

end Cert.Proof.KI

end
-- ==== Proof.KI.Value.lean ====
/-
  The value of the kernel's result is the specification.  The gathered array's row r = 200 b + l is the table's row named by
  the index at flat position r, which is x[b, l]: the blocks are the index array in the same row-major order, and position r
  of the blocks is block r / 640, row (r / 128) % 5, lane r % 128, whose row-major position is r again.  Re-read in the
  result's shape, entry (b, l, j) is entry (200 b + l, j) of the gathered array; the combined table's entry (v, j) is the
  word table's for j < 96 and the number table's (v, j - 96) otherwise.
-/
import proofs.«204608_g3015067042085_cont_9to1_1138_29_alg».proof.Proof.KI.Main
import proofs.«204608_g3015067042085_cont_9to1_1138_29_alg».proof.Proof.Spec
import Idealize.ShloMosaic.Lib.Pipeline.Value

noncomputable section

namespace Cert.Proof.KI

open Cert.KernelIdeal Cert.KernelIdeal.Gen
open Idealize.ShloMosaic Idealize.SL.Sem
open ValueIdx

variable {F : FTy → Type}

/-- Flat position `r = 200 b + l` of the blocks is entry `(b, l)` of the index array. -/
theorem idxOf_blkIx (x : S4096x200.Idx → Elt F .i32) (b : Fin 4096) (l : Fin 200) (h : b.val * 200 + l.val < 819200) :
    idxOf x (blkIx ⟨b.val * 200 + l.val, h⟩) = x (ix2 b l) := by
  unfold idxOf
  refine shapeCast_apply x _ _ (ix2 b l) ?_
  rw [Shape.rowMajor_val_two, Shape.rowMajor_val_three]
  show b.val * 200 + l.val = (((b.val * 200 + l.val) / 640) * 5 + ((b.val * 200 + l.val) / 128) % 5) * 128 + (b.val * 200 + l.val) % 128
  omega

variable (m : (ℓ : Loc nD τ sig) → Buf (Elt F) ℓ)

theorem resOf_eq (d : Dev nD) :
    resOf m d = Cert.Proof.Spec.lookup (m (xLoc d)) (m (wLoc d)) (m (nLoc d)) := by
  funext i
  obtain ⟨b, l, j, rfl⟩ : ∃ (b : Fin 4096) (l : Fin 200) (j : Fin 128), i = ix3 b l j := ⟨i 0, i 1, i 2, eq_ix3 i⟩
  have hr : b.val * 200 + l.val < 819200 := by have := b.isLt; have := l.isLt; omega
  have e1 : resOf m d (ix3 b l j) = fo m d (ix2 ⟨b.val * 200 + l.val, hr⟩ j) := by
    unfold resOf
    refine shapeCast_apply (fo m d) _ _ (ix2 ⟨b.val * 200 + l.val, hr⟩ j) ?_
    show (S819200x128.rowMajor (ix2 ⟨b.val * 200 + l.val, hr⟩ j)).val = (S4096x200x128.rowMajor (ix3 b l j)).val
    rw [Shape.rowMajor_val_two, Shape.rowMajor_val_three]
    rfl
  rw [e1]
  unfold fo rowsOf
  show ft m d (ix2 ⟨(fi m d (blkIx ⟨b.val * 200 + l.val, hr⟩)).toNat % 100000, _⟩ j) = _
  have e2 : fi m d (blkIx ⟨b.val * 200 + l.val, hr⟩) = m (xLoc d) (ix2 b l) := idxOf_blkIx (m (xLoc d)) b l hr
  unfold ft tabOf Cert.Proof.Spec.lookup Cert.Proof.Spec.rowOf
  simp only [e2]

end Cert.Proof.KI

end
-- ==== Proof.KI.Pre.lean ====
/-
  The precondition, read back: the printed predicate is the conjunction of three all-reductions; the third says that every
  index x satisfies 0 ≤ x ≤ 99999 as a signed word, so as a natural number it is below the tables' height 100000.
-/
import proofs.«204608_g3015067042085_cont_9to1_1138_29_alg».proof.Proof.KI.Launch
import proofs.«204608_g3015067042085_cont_9to1_1138_29_alg».proof.Proof.Gen.Pre_input_domain
import Idealize.ShloMosaic.Lib.ReduceAll

noncomputable section

namespace Cert.Proof.KI

open Cert.KernelIdeal Cert.KernelIdeal.Gen
open Idealize.ShloMosaic Idealize.SL.Sem

variable {F : FTy → Type} [FloatOps F]

instance subsingleton_scalar : Subsingleton Cert.Pre_input_domain.S_.Idx := ⟨fun a b => funext fun d => d.elim0⟩

/-- A word between 0 and 99999 as a signed number is below 100000 as a natural number. -/
theorem word_lt (v : BitVec 32) (h0 : (0#32).toInt ≤ v.toInt) (h1 : v.toInt ≤ (99999#32).toInt) : v.toNat < 100000 := by
  simp only [BitVec.toInt_eq_toNat_cond, BitVec.toNat_ofNat, Nat.reducePow, Nat.reduceMod] at h0 h1
  omega

theorem ok_of_pre [Cert.Pre_input_domain.Facts] (m : (ℓ : Loc nD τ sig) → Buf (Elt F) ℓ)
    (h : ∀ c : Dev nD, Cert.Pre_input_domain.fn (F := F) (m (xLoc c)) (m (wLoc c)) (m (nLoc c)) = fun _ => 1#1) : PreOK m := by
  intro d j
  have e := congrFun (h d) ValueIdx.ix0
  dsimp only [Cert.Pre_input_domain.fn] at e
  have e3 := (IntOp.andi_eq_one.1 e).2
  have ej := Host.reduce_andi_all _ _ _ _ _ e3 j
  obtain ⟨ea, eb⟩ := IntOp.andi_eq_one.1 ej
  exact word_lt _ (IntOp.cmpi_sge.1 ea) (IntOp.cmpi_sle.1 eb)

end Cert.Proof.KI

end
-- ==== Proof.KB.Setup.lean ====
/-
  The shared vocabulary of the idealized kernel's proof: the program as the SparseCore launch theorem sees it, the
  resource algebra, the arrays' locations, and the mathematics of the result.

  The program: a TensorCore region first builds the combined table
      tab[v, j] = W_word[v, j]  for j < 96,      tab[v, j] = W_num[v, j - 96]  for 96 ≤ j < 128;
  the index array x : 4096 × 200 is re-read as 1280 blocks of 5 × 128 indices; the 32 vector subcores then copy, each for its
  own 25600 consecutive flat positions r, row tab[x_flat[r]] to row r of a 819200 × 128 array, which is re-read as
  4096 × 200 × 128.  Tile (core c, subcore s) is worker w = 2 s + c; it owns index blocks [40 w, 40 w + 40) and rows
  [25600 w, 25600 w + 25600).
-/
import proofs.«204608_g3015067042085_cont_9to1_1138_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«204608_g3015067042085_cont_9to1_1138_29_alg».proof.Proof.Gen.Kernel
import proofs.«204608_g3015067042085_cont_9to1_1138_29_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The pipeline's component: the left of the right. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-! ## The arrays -/

variable (m : (ℓ : Loc nD τ sig) → Buf (Elt F) ℓ) (ρ : Dev nD → PrngReg)

abbrev xLoc (d : Dev nD) : Loc nD τ sig := (SparseCore.T d).loc main_arg0
abbrev wLoc (d : Dev nD) : Loc nD τ sig := (SparseCore.T d).loc main_arg1
abbrev nLoc (d : Dev nD) : Loc nD τ sig := (SparseCore.T d).loc main_arg2
abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-! ## The mathematics of the result -/

/-- The combined table: columns below 96 from the word table, the other 32 from the number table. -/
def tabOf (W : S100000x128.Idx → Elt F .f32) (N : S100000x32.Idx → Elt F .f32) : S100000x128.Idx → Elt F .f32 :=
  fun j => if h : (j 1).val < 96 then W j else N (ValueIdx.ix2 (j 0) ⟨(j 1).val - 96, by have h1 : (j 1).val < 128 := (j 1).isLt; show (j 1).val - 96 < 32; omega⟩)

/-- Flat position `r` of the index blocks: block `r / 640`, row `(r / 128) % 5`, lane `r % 128`. -/
def blkIx (r : Fin 819200) : S1280x5x128.Idx :=
  ValueIdx.ix3 ⟨r.val / 640, by have := r.isLt; omega⟩ ⟨(r.val / 128) % 5, Nat.mod_lt _ (by norm_num)⟩ ⟨r.val % 128, Nat.mod_lt _ (by norm_num)⟩

/-- The gathered rows: row `r` is the table's row named by flat index `r` (read modulo the table's height: under the
    precondition every index is below it). -/
def rowsOf (tab : S100000x128.Idx → Elt F .f32) (idx : S1280x5x128.Idx → Elt F .i32) : S819200x128.Idx → Elt F .f32 :=
  fun j => tab (ValueIdx.ix2 ⟨(idx (blkIx (j 0))).toNat % 100000, Nat.mod_lt _ (by norm_num)⟩ (j 1))

/-! ## The tiles -/

omit m ρ in
theorem odiv : 32 ∣ S819200x128.size 0 := ⟨25600, rfl⟩
/-- Worker `w`'s rows of the gathered array: rows [25600 w, 25600 w + 25600). -/
abbrev oRect (w : Fin 32) : Rect S819200x128 := Rect.part (s := S819200x128) (a₀ := 0) odiv w
abbrev oSet (w : Fin 32) : Finset S819200x128.Idx :=
  ((Memref.whole main_v2_scv : Memref sig .scVector .hbm S819200x128 .f32).view.slice (oRect w)).set
/-- The worker number of the tile at grid coordinates `L` (core `L 0`, subcore `L 1`): `2 s + c`. -/
def wid (L : grid1.Coords) : Fin 32 :=
  ⟨2 * (L 1).val + (L 0).val, by
    have h0 : (L 0).val < 2 := (L 0).isLt
    have h1 : (L 1).val < 16 := (L 1).isLt
    omega⟩

abbrev cV (L : grid1.Coords) : Fin τ.nSC := (L 0).castLE hcore1
abbrev jV (L : grid1.Coords) : Fin τ.nSub := (L 1).castLE hsub1

/-- The statement of one tile's task, at symbolic coordinates: from read shares of the index blocks and of the table
    (at any contents whose indices are below the table's height) and the tile's own rows of the output, the body ends with
    those rows at the gathered rows of the table, everything else back. -/
def TileBodyStmt [FloatOps F] : Prop :=
  ∀ (d : Dev nD) (L : grid1.Coords) (qi qt : PosShare TreeShare)
    (fi : Buf (Elt F) (iLoc d)) (ft : Buf (Elt F) (tLoc d)) (f0 : Buf (Elt F) (oLoc d)) (_hfi : ∀ j, (fi j).toNat < 100000)
    (O : CellTallies nD τ sig (HIx 1)) (W : Waits sig (HIx 1)) (_hO : ∀ g, O g none = 0),
    iprop(levAts (K (F := F)).L (K (F := F)).lev ∗ emp
        ∗ ((iLoc d ↦{qi} fi) ∗ (tLoc d ↦{qt} ft) ∗ (oLoc d ↦[oSet (wid L)]{fullShare} f0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1_body L (Memref.whole main_v1_scv) (Memref.isWhole_whole _) (Memref.whole main_v0_scv) (Memref.isWhole_whole _) (Memref.whole main_v2_scv) (Memref.isWhole_whole _)
            (Memref.whole cc1_scratch0) (Memref.isWhole_whole _) (Memref.whole cc1_scratch1) (Memref.isWhole_whole _) cc1_scratch2 cc1_scratch3 cc1_scratch4)
          (fun _ => iprop(((iLoc d ↦{qi} fi) ∗ (tLoc d ↦{qt} ft) ∗ (oLoc d ↦[oSet (wid L)]{fullShare} rowsOf ft fi))
            ∗ scopedBufs (V d (cV L) (jV L)) ∗ scopedSems0 (V d (cV L) (jV L))
            ∗ ∃ W', ⌜∀ p ∈ W', p ∈ W ∨ p.2 = none⌝ ∗ owes (V d (cV L) (jV L)) O W')) : sProp 𝕄)

end Cert.Proof.KB

end
-- ==== Proof.KB.Launch.lean ====
/-
  The launch of the kernel: what the launch handshakes carry to each tile and back, each tile's obligation from the
  statement of one tile's task, and how a SparseCore's operands are its tiles'.

  Device-wide, the index blocks and the combined table are read by all 32 tiles at once, so each tile is handed a read
  share of the WHOLE of each (share token w of 32 of the full share); the output rows are dealt out exactly: tile w owns
  rows [25600 w, 25600 w + 25600).  SparseCore c carries the tiles w = 2 i + c, i < 16.
-/
import proofs.«204608_g3015067042085_cont_9to1_1138_29_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays' contents during the SparseCore call -/

/-- The index blocks: the index array re-read in the block shape (same row-major order). -/
def idxOf (x : S4096x200.Idx → Elt F .i32) : S1280x5x128.Idx → Elt F .i32 :=
  shapeCast S1280x5x128 x Gen.shapeCasts_S4096x200_S1280x5x128

def fi (d : Dev nD) : Buf (Elt F) (iLoc d) := idxOf (m (xLoc d))
def ft (d : Dev nD) : Buf (Elt F) (tLoc d) := tabOf (m (wLoc d)) (m (nLoc d))
def fo (d : Dev nD) : Buf (Elt F) (oLoc d) := rowsOf (ft m d) (fi m d)

/-- Tile `w`'s read share of an array all 32 tiles read. -/
abbrev qTok (w : Fin 32) : PosShare TreeShare := Transfers.shareTok fullShare 32 w

/-- The worker number of tile `i` of SparseCore `c`. -/
def widCI (c : Fin 2) (i : Fin 16) : Fin 32 := ⟨2 * i.val + c.val, by have := c.isLt; have := i.isLt; omega⟩

/-- What a tile is handed: its read shares, its rows of the output as the launch left them; -/
def goRes (d : Dev nD) (w : Fin 32) : sProp 𝕄 :=
  iprop((iLoc d ↦{qTok w} fi m d) ∗ (tLoc d ↦{qTok w} ft m d) ∗ (oLoc d ↦[oSet w]{fullShare} m (oLoc d)))
/-- and what it hands back: the shares, its rows at the gathered rows. -/
def tdRes (d : Dev nD) (w : Fin 32) : sProp 𝕄 :=
  iprop((iLoc d ↦{qTok w} fi m d) ∗ (tLoc d ↦{qTok w} ft m d) ∗ (oLoc d ↦[oSet w]{fullShare} fo m d))

instance goRes_storable (d : Dev nD) (w : Fin 32) : BI.Storable (upEmb : UEmb _ 𝕄) (goRes m d w) := by unfold goRes; infer_instance
instance tdRes_storable (d : Dev nD) (w : Fin 32) : BI.Storable (upEmb : UEmb _ 𝕄) (tdRes m d w) := by unfold tdRes; infer_instance

/-- A SparseCore is handed its sixteen tiles' resources, and hands back theirs. -/
def P : (K (F := F)).Pay (nD := nD) (Val := Elt F) (Name := ℕ) (U := UU) where
  st := fun q d c => match q with | 0 => bigSep Finset.univ fun i : Fin 16 => goRes m d (widCI c i)
  dn := fun q d c => match q with | 0 => bigSep Finset.univ fun i : Fin 16 => tdRes m d (widCI c i)
  go := fun q d c i => match q with | 0 => goRes m d (widCI c i)
  td := fun q d c i => match q with | 0 => tdRes m d (widCI c i)
  x := fun _ _ => iprop(emp)

instance P_storable : (P (F := F) m).IsStorable where
  st q d c := match q with | 0 => (inferInstance : BI.Storable (upEmb : UEmb _ 𝕄) (bigSep Finset.univ fun i : Fin 16 => goRes m d (widCI c i)))
  dn q d c := match q with | 0 => (inferInstance : BI.Storable (upEmb : UEmb _ 𝕄) (bigSep Finset.univ fun i : Fin 16 => tdRes m d (widCI c i)))
  go q d c i := match q with | 0 => (inferInstance : BI.Storable (upEmb : UEmb _ 𝕄) (goRes m d (widCI c i)))
  td q d c i := match q with | 0 => (inferInstance : BI.Storable (upEmb : UEmb _ 𝕄) (tdRes m d (widCI c i)))

/-- What the proof asks of the launch memory: every index names a row of the tables. -/
def PreOK : Prop := ∀ (d : Dev nD) (j : S4096x200.Idx), (m (xLoc d) j).toNat < 100000

theorem fi_lt (hpre : PreOK m) (d : Dev nD) (j : S1280x5x128.Idx) : (fi m d j).toNat < 100000 := by
  unfold fi idxOf shapeCast
  exact hpre d _

/-! ## A tile's obligation -/

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_body (coordsV c s)
          (Memref.whole main_v1_scv) (Memref.isWhole_whole _) (Memref.whole main_v0_scv) (Memref.isWhole_whole _) (Memref.whole main_v2_scv) (Memref.isWhole_whole _)
          (Memref.whole cc1_scratch0) (Memref.isWhole_whole _) (Memref.whole cc1_scratch1) (Memref.isWhole_whole _) cc1_scratch2 cc1_scratch3 cc1_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem wid_coordsV (c : Fin 2) (i : Fin 16) (h0 : c.val < grid1.bound 0) (h1 : i.val < grid1.bound 1) :
    wid (coordsV ⟨c.val, h0⟩ ⟨i.val, h1⟩) = widCI c i := Fin.ext rfl

set_option maxRecDepth 16384 in
theorem tileObl (hT : TileBodyStmt (F := F)) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := hT d (coordsV ⟨_, hci.1⟩ ⟨_, hci.2⟩) (qTok (widCI c i)) (qTok (widCI c i)) (fi m d) (ft m d) (m (oLoc d)) (fi_lt m hpre d) O W hO
  have e : wid (coordsV ⟨_, hci.1⟩ ⟨_, hci.2⟩) = widCI c i := Fin.ext rfl
  rw [e] at h
  exact h.trans (wp_mono frame _ _ fun _ => obl_post)

/-! ## A SparseCore's operands are its tiles' -/

theorem vecSplit : (K (F := F)).VecSplit' (P m) 0 := by
  intro d c
  show (bigSep Finset.univ fun i : Fin 16 => goRes m d (widCI c i)) ⊢ |={Set.univ}=> iprop(
      (bigSep Finset.univ fun i : Fin 16 => goRes m d (widCI c i))
      ∗ ((bigSep Finset.univ fun i : Fin 16 => tdRes m d (widCI c i)) -∗ bigSep Finset.univ fun i : Fin 16 => tdRes m d (widCI c i)))
  iintro H; imodintro
  isplitl [H]; · iexact H
  iintro H; iexact H

end Cert.Proof.KB

end
-- ==== Proof.KB.Split.lean ====
/-
  Dealing the device's arrays to the 32 tiles and collecting them again.  The index blocks and the table are read by every
  tile: the full share of each is 32 read tokens and a remainder, which stays with the TensorCore during the call.  The
  output is cut exactly: the 32 row ranges [25600 w, 25600 w + 25600) are pairwise disjoint and cover all 819200 rows, so a
  points-to of the whole array at ONE contents function is the 32 ranges' points-tos at that function, both ways.
  Worker w = 2 i + c is tile i of SparseCore c: the 32 workers are the pairs (c, i).
-/
import proofs.«204608_g3015067042085_cont_9to1_1138_29_alg».proof.Proof.KB.Launch

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

local notation "𝕄" => MT nD τ sig (HIx 1) (Elt F) ℕ UU ℕ

variable (m : (ℓ : Loc nD τ sig) → Buf (Elt F) ℓ)

/-! ## The output's row ranges -/

theorem oSet_eq (w : Fin 32) : oSet w = (oRect w).set := by
  show ((View.whole (main_v2_scv : Ref sig .scVector)).slice (oRect w)).set = _
  rw [View.set_slice]; exact Finset.map_refl

theorem orows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h

theorem orows_cover : (Finset.univ : Finset (Fin 32)).biUnion oSet = Finset.univ :=
  (Finset.biUnion_congr rfl fun i _ => oSet_eq i).trans (Rect.biUnion_part odiv)

theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet orows_disjoint, orows_cover]; try rfl

/-! ## Workers are (core, tile) pairs -/

def widEquiv : Fin 2 × Fin 16 ≃ Fin 32 where
  toFun p := widCI p.1 p.2
  invFun w := (⟨w.val % 2, Nat.mod_lt _ (by norm_num)⟩, ⟨w.val / 2, by have := w.isLt; omega⟩)
  left_inv p := by
    obtain ⟨c, i⟩ := p
    have hc := c.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

theorem tiles_eq (Φ : Fin 32 → sProp 𝕄) :
    bigSep Finset.univ Φ = bigSep Finset.univ fun c : Fin 2 => bigSep Finset.univ fun i : Fin 16 => Φ (widCI c i) := by
  rw [bigSep_univ_equiv widEquiv Φ, bigSep_univ_prod]; rfl

/-! ## Dealing and collecting -/

/-- What stays with the TensorCore during the call: the remainders of the two read arrays. -/
def remRes (d : Dev nD) : sProp 𝕄 :=
  iprop((iLoc d ↦{Transfers.shareDrop fullShare 32} fi m d) ∗ (tLoc d ↦{Transfers.shareDrop fullShare 32} ft m d))

theorem deal (d : Dev nD) :
    iprop((iLoc d ↦{fullShare} fi m d) ∗ (tLoc d ↦{fullShare} ft m d) ∗ (oLoc d ↦{fullShare} m (oLoc d)))
      ⊢ (iprop(remRes m d ∗ bigSep Finset.univ fun c : Fin 2 => bigSep Finset.univ fun i : Fin 16 => goRes m d (widCI c i)) : sProp 𝕄) := by
  rw [← tiles_eq (fun w => goRes m d w)]
  unfold goRes remRes
  rw [bigSep_sep', bigSep_sep', oPts_rows]
  iintro ⟨Hi, Ht, Ho⟩
  ihave Hi' := (Transfers.pointsTo_toks (ℓ := iLoc d) (f := fi m d) fullShare 32).1 $$ Hi
  ihave Ht' := (Transfers.pointsTo_toks (ℓ := tLoc d) (f := ft m d) fullShare 32).1 $$ Ht
  icases Hi' with ⟨Hir, Hit⟩
  icases Ht' with ⟨Htr, Htt⟩
  isplitl [Hir Htr]
  · isplitl [Hir]; · iexact Hir
    iexact Htr
  isplitl [Hit]; · iexact Hit
  isplitl [Htt]; · iexact Htt
  iexact Ho

theorem collect (d : Dev nD) :
    iprop(remRes m d ∗ bigSep Finset.univ fun c : Fin 2 => bigSep Finset.univ fun i : Fin 16 => tdRes m d (widCI c i))
      ⊢ (iprop((iLoc d ↦{fullShare} fi m d) ∗ (tLoc d ↦{fullShare} ft m d) ∗ (oLoc d ↦{fullShare} fo m d)) : sProp 𝕄) := by
  rw [← tiles_eq (fun w => tdRes m d w)]
  unfold tdRes remRes
  rw [bigSep_sep', bigSep_sep', oPts_rows]
  iintro ⟨⟨Hir, Htr⟩, Hit, Htt, Ho⟩
  isplitl [Hir Hit]
  · iapply (Transfers.pointsTo_toks (ℓ := iLoc d) (f := fi m d) fullShare 32).2
    isplitl [Hir]; · iexact Hir
    iexact Hit
  isplitl [Htr Htt]
  · iapply (Transfers.pointsTo_toks (ℓ := tLoc d) (f := ft m d) fullShare 32).2
    isplitl [Htr]; · iexact Htr
    iexact Htt
  iexact Ho

end Cert.Proof.KB

end
-- ==== Proof.KB.Main.lean ====
/-
  @main on the TensorCore and the run of the whole kernel program.  @main: the TensorCore region builds the combined table
  (taken here as a hypothesis record, proved beside); the index array is re-read as blocks; the SparseCore call deals the
  arrays to the 32 tiles and collects them, the output then at the gathered rows; the output is re-read in the result's shape.
-/
import proofs.«204608_g3015067042085_cont_9to1_1138_29_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The TensorCore region, as a record of what is proved of it -/

/-- What the region's proof supplies: the ghost state @main enters it with, the element of the pipeline's component that
    funds it, and the step itself — from the two tables and the table-to-be to the combined table, everything else back. -/
structure RegionKit where
  ghost : Dev nD → sProp 𝕄
  uP : UP
  fund : (BI.own (EP (F := F) uP) : sProp 𝕄) ⊢ |={Set.univ}=> bigSep Finset.univ ghost
  step : ∀ (κ : GSem nD τ sig → ℕ) (d : Dev nD) (Φ : PUnit → sProp 𝕄),
    iprop((K (F := F)).ctx EH (P m) κ ∗ (K (F := F)).tcSt EH d 0 ∗ boundary (SparseCore.T d) ∗ (K (F := F)).tcSems0 d ∗ ghost d
        ∗ (wLoc d ↦{fullShare} m (wLoc d)) ∗ (nLoc d ↦{fullShare} m (nLoc d)) ∗ (∃ f, tLoc d ↦{fullShare} f)
        ∗ (((K (F := F)).tcSt EH d 0 ∗ boundary (SparseCore.T d) ∗ (K (F := F)).tcSems0 d
              ∗ (wLoc d ↦{fullShare} m (wLoc d)) ∗ (nLoc d ↦{fullShare} m (nLoc d)) ∗ (tLoc d ↦{fullShare} ft m d)) -∗ Φ ⟨⟩))
      ⊢ wp frame (wpE ((K (F := F)).defs (D (F := F))) 𝒱 (SparseCore.T d) none) Set.univ (Prog.lift (.customCall (SparseCore.inner (Pipeline.entry 0)) ())) Φ

variable (R : RegionKit m)

/-! ## The launch element -/

def u₀ : UU := (initOf (K (F := F)).hsCells (K (F := F)).hsToks, (R.uP, 1))

omit [FloatOps F] in
theorem bigSep_emp' {I : Type} (s : Finset I) : (bigSep s fun _ => iprop(emp)) = (iprop(emp) : sProp 𝕄) := bigSep_emp_const s

theorem hu₀ : (ownU (u₀ m R) : sProp 𝕄)
    ⊢ |={Set.univ}=> iprop(BI.own (EH (initOf (K (F := F)).hsCells (K (F := F)).hsToks)) ∗ (bigSep Finset.univ R.ghost)
        ∗ bigSep Finset.univ fun thr : Thread nD τ => bigSep Finset.univ fun q : Fin 1 => (P m).x q thr) := by
  unfold u₀
  iintro Hu
  ihave H := (ownU_pair (initOf (K (F := F)).hsCells (K (F := F)).hsToks) ((R.uP, (1 : Counters)) : UP × Counters)) $$ Hu
  icases H with ⟨HH, HR⟩
  ihave H2 := (own_pair_emb (embR : Emb (UP × Counters) 𝕄) R.uP (1 : Counters)) $$ HR
  icases H2 with ⟨HP, -⟩
  ihave HQ := (Entails.of_eq (show (BI.own (((Emb.inl : Emb UP (UP × Counters)).trans (embR : Emb (UP × Counters) 𝕄)) R.uP) : sProp 𝕄) = BI.own (EP (F := F) R.uP) from rfl)) $$ HP
  imod R.fund $$ HQ with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev opIdx : HloOp τ sig (Elt F) := StableHlo.reshape main_arg0 main_v1 rfl Gen.shapeCasts_S4096x200_S1280x5x128
abbrev opRes : HloOp τ sig (Elt F) := StableHlo.reshape main_v2 main_v3 rfl Gen.shapeCasts_S819200x128_S4096x200x128
abbrev Sxi : Finset (DevRef τ sig) := {x', i'}
abbrev Sor : Finset (DevRef τ sig) := {o', r'}

/-- The result: the gathered rows re-read in the result's shape. -/
def resOf (d : Dev nD) : Buf (Elt F) (rLoc d) := shapeCast S4096x200x128 (fo m d) Gen.shapeCasts_S819200x128_S4096x200x128

omit [FloatOps F] in
theorem held_Sxi (d : Dev nD) (W : Valuation τ sig (Elt F)) :
    (held (T d) Sxi W : sProp 𝕄) = iprop((xLoc d ↦{fullShare} W x') ∗ (iLoc d ↦{fullShare} W i')) := by
  unfold held Sxi
  rw [SparseCore.bigSep_insert' (by decide), bigSep_singleton]
omit [FloatOps F] in
theorem held_Sor (d : Dev nD) (W : Valuation τ sig (Elt F)) :
    (held (T d) Sor W : sProp 𝕄) = iprop((oLoc d ↦{fullShare} W o') ∗ (rLoc d ↦{fullShare} W r')) := by
  unfold held Sor
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (nLoc d ↦{fullShare} W main_arg2)
      ∗ (tLoc d ↦{fullShare} W main_v0) ∗ (iLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; and with the output at the gathered rows. -/
def V0 (d : Dev nD) : Valuation τ sig (Elt F) := fun b => m (d, b)
def V1 (d : Dev nD) : Valuation τ sig (Elt F) := Function.update (V0 m d) o' (fo m d)

theorem hSxi : (opIdx (F := F)).bufs ⊆ Sxi := show ({x', i'} : Finset (DevRef τ sig)) ⊆ Sxi by decide
theorem hSor : (opRes (F := F)).bufs ⊆ Sor := show ({o', r'} : Finset (DevRef τ sig)) ⊆ Sor by decide

theorem opIdx_x (d : Dev nD) : (opIdx (F := F)).result (V0 m d) x' = m (xLoc d) :=
  StableHlo.reshape_result_ne' _ _ _ _ (V0 m d) (show (main_arg0 : Ref sig .tc) ≠ main_v1 by decide)
theorem opIdx_i (d : Dev nD) : (opIdx (F := F)).result (V0 m d) i' = fi m d :=
  StableHlo.reshape_result' _ _ _ _ (V0 m d)
theorem opRes_o (d : Dev nD) : (opRes (F := F)).result (V1 m d) o' = fo m d :=
  (StableHlo.reshape_result_ne' _ _ _ _ (V1 m d) (show (main_v2 : Ref sig .tc) ≠ main_v3 by decide)).trans (Function.update_self _ _ _)
theorem opRes_r (d : Dev nD) : (opRes (F := F)).result (V1 m d) r' = resOf m d :=
  (StableHlo.reshape_result' _ _ _ _ (V1 m d)).trans (by unfold resOf; rw [show V1 m d (Proc.devRef .tc main_v2) = fo m d from Function.update_self _ _ _]; rfl)

theorem V1_o (d : Dev nD) : V1 m d o' = fo m d := Function.update_self _ _ _
theorem V1_r (d : Dev nD) : V1 m d r' = m (rLoc d) := Function.update_of_ne (show r' ≠ o' by decide) _ _

theorem st0_eq (d : Dev nD) : (bigSep Finset.univ fun c : Fin ((K (F := F)).nCore 0) => (P m).st 0 d c)
    = bigSep Finset.univ fun c : Fin 2 => bigSep Finset.univ fun i : Fin 16 => goRes m d (widCI c i) := rfl
theorem dn0_eq (d : Dev nD) : (bigSep Finset.univ fun c : Fin ((K (F := F)).nCore 0) => (P m).dn 0 d c)
    = bigSep Finset.univ fun c : Fin 2 => bigSep Finset.univ fun i : Fin 16 => tdRes m d (widCI c i) := rfl

/-- What @main leaves the claim: the three arguments at their launch contents, the result at the gathered rows re-read. -/
abbrev FIN (d : Dev nD) : sProp 𝕄 :=
  iprop((xLoc d ↦{fullShare} m (xLoc d)) ∗ (wLoc d ↦{fullShare} m (wLoc d)) ∗ (nLoc d ↦{fullShare} m (nLoc d)) ∗ (rLoc d ↦{fullShare} resOf m d))

theorem hmain (κ : GSem nD τ sig → ℕ) (d : Dev nD) :
    iprop((K (F := F)).ctx EH (P m) κ ∗ (K (F := F)).tcSt EH d 0 ∗ (K (F := F)).tcRes m ρ d ∗ R.ghost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hw, Hn, Ht, Hi, Ho, Hr⟩, Hsem, -⟩, Hg⟩
  -- the region: the combined table
  iapply (R.step κ d _) $$ [Hst Hb Hsem Hg Hw Hn Ht Hx Hi Ho Hr]
  isplitr; · iexact Hctx
  isplitl [Hst]; · iexact Hst
  isplitl [Hb]; · iexact Hb
  isplitl [Hsem]; · iexact Hsem
  isplitl [Hg]; · iexact Hg
  isplitl [Hw]; · iexact Hw
  isplitl [Hn]; · iexact Hn
  isplitl [Ht]; · iexists _; iexact Ht
  iintro ⟨Hst, Hb, Hsem, Hw, Hn, Ht⟩
  -- the index array re-read as blocks
  iapply (wp_hlo_within 𝒱 (SparseCore.T d) none Set.univ (op := opIdx) (S := Sxi) hSxi (V := V0 m d)) $$ [Hb Hx Hi]
  · isplitl [Hb]; · iexact Hb
    rw [held_Sxi]
    isplitl [Hx]; · iexact Hx
    iexact Hi
  iintro ⟨Hb, Hheld⟩
  ihave Hh := (Entails.of_eq (held_Sxi (F := F) d _)) $$ Hheld
  rw [opIdx_x, opIdx_i]
  icases Hh with ⟨Hx, Hi⟩
  -- the SparseCore call: the arrays dealt to the 32 tiles and collected
  ihave Hdeal := (deal m d) $$ [Hi Ht Ho]
  · isplitl [Hi]; · iexact Hi
    isplitl [Ht]; · iexact Ht
    iexact Ho
  icases Hdeal with ⟨Hrem, Hgo⟩
  rw [wp_ret]; imodintro
  iapply ((K (F := F)).wp_run (D (F := F)) 𝒱 (EH := EH) (P := P m) κ d 0) $$ [Hst Hgo Hrem Hb Hx Hw Hn Hr Hsem]
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ihave Hcol := (collect m d) $$ [Hrem Hdn']
  · isplitl [Hrem]; · iexact Hrem
    iexact Hdn'
  icases Hcol with ⟨Hi, Ht, Ho⟩
  -- the output re-read in the result's shape
  iapply (wp_hlo_within 𝒱 (SparseCore.T d) none Set.univ (op := opRes) (S := Sor) hSor (V := V1 m d)) $$ [Hb Ho Hr]
  · isplitl [Hb]; · iexact Hb
    rw [held_Sor, V1_o, V1_r]
    isplitl [Ho]; · iexact Ho
    iexact Hr
  iintro ⟨Hb, Hheld⟩
  ihave Hh := (Entails.of_eq (held_Sor (F := F) d _)) $$ Hheld
  rw [opRes_o, opRes_r]
  icases Hh with ⟨Ho, Hr⟩
  rw [wp_ret]; imodintro; imodintro
  isplitl [Hst]; · iexact Hst
  isplitl [Hx]; · iexact Hx
  isplitl [Hw]; · iexact Hw
  isplitl [Hn]; · iexact Hn
  iexact Hr

/-! ## Reading the claim off the final memory -/

def fq (d : Dev nD) (s' : Phys nD τ sig (Elt F)) : Prop :=
  s'.mem.mem (rLoc d) = resOf m d ∧ s'.mem.mem (xLoc d) = m (xLoc d) ∧ s'.mem.mem (wLoc d) = m (wLoc d) ∧ s'.mem.mem (nLoc d) = m (nLoc d)

set_option maxRecDepth 16384 in
theorem hfin (d : Dev nD) (s' : Phys nD τ sig (Elt F)) : iprop(FIN m d ∗ SI s') ⊢ (⌜fq m d s'⌝ : sProp 𝕄) := by
  iintro ⟨⟨Hx, Hw, Hn, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h3, HSI, -⟩
  ihave H := (SI_pointsTo_agree (st := s') (ℓ := rLoc d) (I := Finset.univ) (q := fullShare) (f := resOf m d)) $$ [HSI Hr]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

def QC : PUnit × MemSt nD τ sig (Elt F) → Prop := fun r => ∀ c : Dev nD,
  r.2.mem (rLoc c) = resOf m c ∧ r.2.mem (xLoc c) = m (xLoc c) ∧ r.2.mem (wLoc c) = m (wLoc c) ∧ r.2.mem (nLoc c) = m (nLoc c)

include R in
/-- Every weakly fair execution of the kernel program terminates, faults nowhere, and ends with the result at the gathered
    rows re-read and the three arguments unchanged — given one tile's task and the TensorCore region. -/
theorem run_main [∀ e, Nonempty (Elt F e)] (hT : TileBodyStmt (F := F)) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT hpre)
    (fun q _ => match q with | 0 => SparseCore.Cfg.VecSplit.of_plain (vecSplit m))
    m ρ main R.ghost (FIN m) (u₀ m R) (sep_elim_left.trans (hu₀ m R)) (hmain m ρ R) (fq m) (hfin m) (QC m) (fun _ h => h)

end Cert.Proof.KB

end
-- ==== Proof.KB.Pre.lean ====
/-
  The precondition, read back: the printed predicate is the conjunction of three all-reductions; the third says that every
  index x satisfies 0 ≤ x ≤ 99999 as a signed word, so as a natural number it is below the tables' height 100000.
-/
import proofs.«204608_g3015067042085_cont_9to1_1138_29_alg».proof.Proof.KB.Launch
import proofs.«204608_g3015067042085_cont_9to1_1138_29_alg».proof.Proof.Gen.Pre_input_domain
import Idealize.ShloMosaic.Lib.ReduceAll

noncomputable section

namespace Cert.Proof.KB

open Cert.Kernel Cert.Kernel.Gen
open Idealize.ShloMosaic Idealize.SL.Sem

variable {F : FTy → Type} [FloatOps F]

instance subsingleton_scalar : Subsingleton Cert.Pre_input_domain.S_.Idx := ⟨fun a b => funext fun d => d.elim0⟩

/-- A word between 0 and 99999 as a signed number is below 100000 as a natural number. -/
theorem word_lt (v : BitVec 32) (h0 : (0#32).toInt ≤ v.toInt) (h1 : v.toInt ≤ (99999#32).toInt) : v.toNat < 100000 := by
  simp only [BitVec.toInt_eq_toNat_cond, BitVec.toNat_ofNat, Nat.reducePow, Nat.reduceMod] at h0 h1
  omega

theorem ok_of_pre [Cert.Pre_input_domain.Facts] (m : (ℓ : Loc nD τ sig) → Buf (Elt F) ℓ)
    (h : ∀ c : Dev nD, Cert.Pre_input_domain.fn (F := F) (m (xLoc c)) (m (wLoc c)) (m (nLoc c)) = fun _ => 1#1) : PreOK m := by
  intro d j
  have e := congrFun (h d) ValueIdx.ix0
  dsimp only [Cert.Pre_input_domain.fn] at e
  have e3 := (IntOp.andi_eq_one.1 e).2
  have ej := Host.reduce_andi_all _ _ _ _ _ e3 j
  obtain ⟨ea, eb⟩ := IntOp.andi_eq_one.1 ej
  exact word_lt _ (IntOp.cmpi_sge.1 ea) (IntOp.cmpi_sle.1 eb)

end Cert.Proof.KB

end
-- ==== Proof.Claims.lean ====
/-
  The five claims from their parts.  The kernel program's run (at either float instance) ends with the result at the
  lookup specification of the argument arrays and the arguments unchanged; dropping the value gives the two kernel frames.
  The reference's run ends at its own composed term, which is the same specification once every index is below the tables'
  height — what the precondition says; the two programs start from memories that agree on the arguments, so the results are
  equal, element by element.  No operation was rewritten for the idealized kernel: nothing to preserve.
-/
import proofs.«204608_g3015067042085_cont_9to1_1138_29_alg».proof.Defs
import proofs.«204608_g3015067042085_cont_9to1_1138_29_alg».proof.Proof.Spec
import proofs.«204608_g3015067042085_cont_9to1_1138_29_alg».proof.Proof.KI.Value
import proofs.«204608_g3015067042085_cont_9to1_1138_29_alg».proof.Proof.KI.Pre
import proofs.«204608_g3015067042085_cont_9to1_1138_29_alg».proof.Proof.KB.Main
import proofs.«204608_g3015067042085_cont_9to1_1138_29_alg».proof.Proof.KB.Pre
import proofs.«204608_g3015067042085_cont_9to1_1138_29_alg».proof.Proof.Gen.ReferenceIdeal
import proofs.«204608_g3015067042085_cont_9to1_1138_29_alg».proof.Proof.Gen.Pre_input_domain

noncomputable section

namespace Cert.Proof.Claims

open Idealize.ShloMosaic Idealize.SL.Sem

/-- The word-level kernel's frame. -/
theorem frame_k (hT : Cert.Proof.KB.TileBodyStmt (F := Bits)) (R : ∀ m, Cert.Proof.KB.RegionKit (F := Bits) m) :
    Cert.frame_Kernel (hKernel := Cert.Kernel.Gen.facts) (hPre_input_domain := Cert.Pre_input_domain.Gen.facts) := fun m ρ hpre =>
  (θ_run Cert.Kernel.defs _ _).mono (fun _ h c => ⟨(h c).2.1, (h c).2.2.1, (h c).2.2.2⟩)
    (Cert.Proof.KB.run_main (F := Bits) m ρ (R m) hT (Cert.Proof.KB.ok_of_pre m hpre))

/-- The idealized kernel's frame. -/
theorem frame_ki (hT : Cert.Proof.KI.TileBodyStmt (F := Ideal)) (R : ∀ m, Cert.Proof.KI.RegionKit (F := Ideal) m) :
    Cert.frame_KernelIdeal (hKernelIdeal := Cert.KernelIdeal.Gen.facts) (hPre_input_domain := Cert.Pre_input_domain.Gen.facts) := fun m ρ hpre =>
  (θ_run Cert.KernelIdeal.defs _ _).mono (fun _ h c => ⟨(h c).2.1, (h c).2.2.1, (h c).2.2.2⟩)
    (Cert.Proof.KI.run_main (F := Ideal) m ρ (R m) hT (Cert.Proof.KI.ok_of_pre m hpre))

section Ref

open Cert.ReferenceIdeal

variable (refOut : (Cert.Proof.Spec.SX.Idx → BitVec 32) → (Cert.Proof.Spec.SW.Idx → EReal) → (Cert.Proof.Spec.SN.Idx → EReal) → Cert.Proof.Spec.SO.Idx → EReal)
  (hrun : ∀ (m' : (ℓ : Loc Cert.ReferenceIdeal.nD Cert.ReferenceIdeal.τ Cert.ReferenceIdeal.sig) → Buf (Elt Ideal) ℓ) (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc main_v3)
          = refOut (m' ((c.tc : Thread Cert.ReferenceIdeal.nD Cert.ReferenceIdeal.τ).loc main_arg0)) (m' ((c.tc : Thread Cert.ReferenceIdeal.nD Cert.ReferenceIdeal.τ).loc main_arg1)) (m' ((c.tc : Thread Cert.ReferenceIdeal.nD Cert.ReferenceIdeal.τ).loc main_arg2))
      ∧ r.2.mem ((c.tc : Thread Cert.ReferenceIdeal.nD Cert.ReferenceIdeal.τ).loc main_arg0) = m' ((c.tc : Thread Cert.ReferenceIdeal.nD Cert.ReferenceIdeal.τ).loc main_arg0)
      ∧ r.2.mem ((c.tc : Thread Cert.ReferenceIdeal.nD Cert.ReferenceIdeal.τ).loc main_arg1) = m' ((c.tc : Thread Cert.ReferenceIdeal.nD Cert.ReferenceIdeal.τ).loc main_arg1)
      ∧ r.2.mem ((c.tc : Thread Cert.ReferenceIdeal.nD Cert.ReferenceIdeal.τ).loc main_arg2) = m' ((c.tc : Thread Cert.ReferenceIdeal.nD Cert.ReferenceIdeal.τ).loc main_arg2)))
  (heq : ∀ x W N, (∀ i, (x i).toNat < 100000) → refOut x W N = Cert.Proof.Spec.lookup x W N)

include hrun in
/-- The reference's frame: its run with the value dropped. -/
theorem frame_ri : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2) (hrun m ρ)

include hrun heq in
/-- Equal results, element by element: both are the lookup specification of the arguments. -/
theorem algebraic (hT : Cert.Proof.KI.TileBodyStmt (F := Ideal)) (R : ∀ m, Cert.Proof.KI.RegionKit (F := Ideal) m) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m ρ m' ρ' hpre hagree
  have hok := Cert.Proof.KI.ok_of_pre m hpre
  refine ⟨fun c => Cert.Proof.Spec.lookup (m (Cert.Proof.KI.xLoc c)) (m (Cert.Proof.KI.wLoc c)) (m (Cert.Proof.KI.nLoc c)), ?_, ?_⟩
  · refine (θ_run Cert.KernelIdeal.defs _ _).mono (fun _ h c => ⟨?_, (h c).2.1, (h c).2.2.1, (h c).2.2.2⟩)
      (Cert.Proof.KI.run_main (F := Ideal) m ρ (R m) hT hok)
    exact (h c).1.trans (Cert.Proof.KI.resOf_eq m c)
  · refine (θ_run Cert.ReferenceIdeal.defs _ _).mono (fun _ h c => ⟨?_, (h c).2⟩) (hrun m' ρ')
    rw [(h c).1, (hagree c).1, (hagree c).2.1, (hagree c).2.2]
    exact heq _ _ _ (fun i => hok c i)

end Ref

end Cert.Proof.Claims

end
-- ==== Proof.KI.Region.lean ====
/-
  The TensorCore region of the program: the pipelined call that builds the combined table
      tab[v, j] = W_word[v, j]  for j < 96,      tab[v, j] = W_num[v, j - 96]  for 96 ≤ j < 128,
  block by block.  Its grid has ten points; at point t every window holds block row t of its array (10000 rows).  The body
  copies columns 0..95 of the first input block to columns 0..95 of the output block and the 32 columns of the second input
  block to columns 96..127.  The ten output blocks tile the table, so after the last write-back the array holds `tabOf` of
  the two tables as launched; the two inputs are only read.

  The result is a weakest-precondition lemma for the first statement of @main on the TensorCore, from the TensorCore's state
  before SparseCore call 0: what it then owes (its start signals) rides through the region unchanged, every wait of the
  region sitting at the bottom level, strictly below everything owed; and the statement that the launch element's pipeline
  component yields the rounds ghost state the region starts from.
-/
import proofs.«204608_g3015067042085_cont_9to1_1138_29_alg».proof.Proof.KI.Setup
import proofs.«204608_g3015067042085_cont_9to1_1138_29_alg».proof.Proof.Gen.KernelIdeal.Launch
import proofs.«204608_g3015067042085_cont_9to1_1138_29_alg».proof.Proof.Gen.KernelIdeal.Points
import proofs.«204608_g3015067042085_cont_9to1_1138_29_alg».proof.Proof.Gen.KernelIdeal.Skeleton
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

abbrev adm : (p : Fin 1) → (pcfgs (F := F) p).Adm := fun p => (cfgs p).toPCfg_adm

/-- What the launch must put in @main's hands for the region on device `d`: the rounds ghost state of the pipeline's
    staging cells and its duty tokens. -/
def regionGhost (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

variable (m : (ℓ : Loc nD τ sig) → Buf (Elt F) ℓ)

/-- The combined table's contents when the region is entered, per device. -/
abbrev TF : Type := (d : Dev nD) → Buf (Elt F) (tLoc d)

/-- The three arrays when the region is entered: the two tables as launched, the combined table at anything. -/
def A0 (fs : TF (F := F)) (d : Dev nD) : (w : Fin cfg0.W) → Buf (Elt F) ((cfg0.win w).arr.view.loc (d.tc : Thread nD τ))
  | ⟨0, _⟩ => m (wLoc d)
  | ⟨1, _⟩ => m (nLoc d)
  | ⟨2, _⟩ => fs d

/-- Block `t` of the word table, -/
def iblkW (d : Dev nD) (t : Fin cfg0.N) : ((cfg0.win 0).xblock (cfg0.grid.coords t)).Idx → Elt F (cfg0.win 0).elt :=
  ((cfg0.win 0).blk t).view.read (Elt F) (m (wLoc d))
/-- and of the number table. -/
def iblkN (d : Dev nD) (t : Fin cfg0.N) : ((cfg0.win 1).xblock (cfg0.grid.coords t)).Idx → Elt F (cfg0.win 1).elt :=
  ((cfg0.win 1).blk t).view.read (Elt F) (m (nLoc d))

abbrev rA : Rect S10000x128 := Rect.unit (s := S10000x128) ![0, 0] S10000x96.size inb_S10000x128_S10000x96_0_0
abbrev rB : Rect S10000x128 := Rect.unit (s := S10000x128) ![0, 96] S10000x32.size inb_S10000x128_S10000x32_0_96
abbrev rN : Rect S10000x32 := Rect.unit (s := S10000x32) ![0, 0] S10000x32.size inb_S10000x32_S10000x32_0_0

/-- What the body leaves in the output block: columns 96..127 from the second input block, columns 0..95 from the
    first (the later store first). -/
def outT [∀ e, Nonempty (Elt F e)] (x0 : Vec F S10000x128 .f32) (x1 : Vec F S10000x32 .f32) : Vec F S10000x128 .f32 :=
  View.canon [⟨rB, View.ld x1 rN⟩, ⟨rA, View.ld x0 rA⟩]

/-- The pipeline's proof data: the arrays as the region finds them; after the body each input's buffer at its block and the
    output's at `outT` of the two; no invariant but the scoped rest; the TensorCore owes its start signals throughout and
    records waits at the kernels' own index only. -/
def dats [∀ e, Nonempty (Elt F e)] (fs : TF (F := F)) (_ : Fin 1) (d : Dev nD) : Dat τ (Elt F) (HIx 1) ℕ UU ℕ cfg0 d where
  A := A0 m fs d
  after w t := match w with
    | ⟨0, _⟩ => iblkW m d t
    | ⟨1, _⟩ => iblkN m d t
    | ⟨2, _⟩ => outT (iblkW m d t) (iblkN m d t)
  Φ _ := Pipeline.scopedRest (Pipeline.pin (pcfgs (F := F)) adm 0).spec d
  q _ := fullShare
  owed _ := (K (F := F)).Otc d 0
  recorded _ := {p | p.2 = none}

section
variable [FloatOps F] [∀ e, Nonempty (Elt F e)]

theorem Otc_none (d : Dev nD) (n : ℕ) (g : GSem nD τ sig) : (K (F := F)).Otc d n g none = 0 := by
  by_contra h
  have := SparseCore.Cfg.lev_of_Otc_pos (K := K (F := F)) (d := d) (n := n) (g := g) (ι := none) (Nat.pos_of_ne_zero h)
  rw [SparseCore.Cfg.lev_none] at this; omega

theorem coverT (p1 : rB.shape.Idx → Elt F .f32) (p0 : rA.shape.Idx → Elt F .f32) (y : S10000x128.Idx) :
    ∃ pc ∈ ([⟨rB, p1⟩, ⟨rA, p0⟩] : List (View.Piece (Elt F) S10000x128 .f32)), y ∈ pc.1.set := by
  by_cases h : (y 1).val < 96
  · refine ⟨⟨rA, p0⟩, by simp, ?_⟩
    show y ∈ rA.set
    rw [Rect.mem_set_unit]
    intro a
    match a with
    | ⟨0, _⟩ => exact ⟨Nat.zero_le _, by have h0 : (y 0).val < 10000 := (y 0).isLt; show (y 0).val < 0 + 10000; omega⟩
    | ⟨1, _⟩ => exact ⟨Nat.zero_le _, by show (y 1).val < 0 + 96; omega⟩
  · refine ⟨⟨rB, p1⟩, by simp, ?_⟩
    show y ∈ rB.set
    rw [Rect.mem_set_unit]
    intro a
    match a with
    | ⟨0, _⟩ => exact ⟨Nat.zero_le _, by have h0 : (y 0).val < 10000 := (y 0).isLt; show (y 0).val < 0 + 10000; omega⟩
    | ⟨1, _⟩ => exact ⟨by show 96 ≤ (y 1).val; omega, by have h1 : (y 1).val < 128 := (y 1).isLt; show (y 1).val < 96 + 32; omega⟩

set_option maxHeartbeats 1000000 in
/-- The body on whole staging memrefs: the two input blocks as read, the output block at anything, to the output block at
    `outT` of the inputs. -/
theorem sound_kernel (c : Dev nD) (E : Set ℕ) (i : grid0.Coords) (arg1 : Memref sig .tc .vmem S10000x128 .f32) (harg1 : arg1.IsWhole) (arg2 : Memref sig .tc .vmem S10000x32 .f32) (harg2 : arg2.IsWhole) (arg3 : Memref sig .tc .vmem S10000x128 .f32) (harg3 : arg3.IsWhole)
    (x0 : Vec F S10000x128 .f32) (x1 : Vec F S10000x32 .f32) (Kk : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outT x0 x1)) -∗ Kk ⟨⟩))
      ⊢ wp frame (wpE (defs₀ (F := F)) Variants.none c none) E (cc0__combine_body i arg1 harg1 arg2 harg2 arg3 harg3) Kk := by
  simp only [cc0__combine_body_eq_skeleton]; unfold cc0__combine_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  unfold outT
  exact View.read_writes_eq_canon _ _ _ (coverT _ _)

/-- What the body leaves, window by window. -/
theorem afterW (fs : TF (F := F)) (c : Dev nD) (t : Fin cfg0.N) : (dats m fs 0 c).after 0 t = iblkW m c t := by dsimp only [dats]
theorem afterN (fs : TF (F := F)) (c : Dev nD) (t : Fin cfg0.N) : (dats m fs 0 c).after 1 t = iblkN m c t := by dsimp only [dats]
theorem afterT (fs : TF (F := F)) (c : Dev nD) (t : Fin cfg0.N) : (dats m fs 0 c).after 2 t = outT (iblkW m c t) (iblkN m c t) := by dsimp only [dats]

/-- Each input is fetched at every point: its current staging buffer holds its block. -/
theorem beforeW (fs : TF (F := F)) (c : Dev nD) (t : Fin cfg0.N) (d) : (dats m fs 0 c).before 0 t d = iblkW m c t :=
  ((dats m fs 0 c).before_fetched 0 t (fetch0_0 t) d).trans (by unfold Dat.fetched Dat.blockOf iblkW; rfl)
theorem beforeN (fs : TF (F := F)) (c : Dev nD) (t : Fin cfg0.N) (d) : (dats m fs 0 c).before 1 t d = iblkN m c t :=
  ((dats m fs 0 c).before_fetched 1 t (fetch0_1 t) d).trans (by unfold Dat.fetched Dat.blockOf iblkN; rfl)

/-- What the body is called with at point `t`, -/
def bodyPre (fs : TF (F := F)) (c : Dev nD) (t : Fin cfg0.N) : sProp 𝕄 :=
  iprop((dats m fs 0 c).Φ t.castSucc ∗ (dats m fs 0 c).owesAt none t.castSucc
    ∗ (∃ d, owns (c : Thread nD τ) (st0_0 t) fullShare ((dats m fs 0 c).before 0 t d))
    ∗ (∃ d, owns (c : Thread nD τ) (st0_1 t) fullShare ((dats m fs 0 c).before 1 t d))
    ∗ (∃ d, owns (c : Thread nD τ) (st0_2 t) fullShare ((dats m fs 0 c).before 2 t d)))

/-- and what it returns. -/
def bodyPost (fs : TF (F := F)) (c : Dev nD) (t : Fin cfg0.N) : sProp 𝕄 :=
  iprop((dats m fs 0 c).Φ t.succ ∗ (dats m fs 0 c).owesAt none t.succ
    ∗ owns (c : Thread nD τ) (st0_0 t) fullShare ((dats m fs 0 c).after 0 t)
    ∗ owns (c : Thread nD τ) (st0_1 t) fullShare ((dats m fs 0 c).after 1 t)
    ∗ owns (c : Thread nD τ) (st0_2 t) fullShare ((dats m fs 0 c).after 2 t))

/-- The body at any point: the inputs' buffers hold their blocks; the invariant and what the core owes pass through unread. -/
theorem sound_body (fs : TF (F := F)) (c : Dev nD) (t : Fin cfg0.N) :
    bodyPre m fs c t ⊢ wp frame (wpE (defs₀ (F := F)) Variants.none c none) Set.univ (bodyAt0 t) (fun _ => bodyPost m fs c t) := by
  unfold bodyPre bodyPost bodyAt0
  simp only [beforeW, beforeN]
  rw [show (dats m fs 0 c).Φ t.succ = (dats m fs 0 c).Φ t.castSucc from rfl,
    show (dats m fs 0 c).owesAt none t.succ = (dats m fs 0 c).owesAt none t.castSucc from rfl,
    afterW, afterN, afterT]
  iintro ⟨HΦ, Ho, ⟨%d0, H0⟩, ⟨%d1, H1⟩, ⟨%d2, H2⟩⟩
  iapply (sound_kernel c Set.univ (grid0.coords t) _ _ _ _ _ _ (iblkW m c t) (iblkN m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (fs : TF (F := F)) (c : Dev nD) : Pipeline.BodyObligation (dats m fs 0 c) (defs₀ (F := F)) Variants.none none Set.univ := fun t => by
  rw [bigSep_W0, bigSep_W0]
  exact sound_body m fs c t

/-- The printed index maps, decided over the grid: every window's block at point `t` is block row `t`, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem tabOf_lt (W : S100000x128.Idx → Elt F .f32) (N : S100000x32.Idx → Elt F .f32) (i : S100000x128.Idx) (h : (i 1).val < 96) :
    tabOf W N i = W i := by unfold tabOf; rw [dif_pos h]
theorem tabOf_ge (W : S100000x128.Idx → Elt F .f32) (N : S100000x32.Idx → Elt F .f32) (i : S100000x128.Idx) (h : ¬ (i 1).val < 96) :
    tabOf W N i = N (ValueIdx.ix2 (i 0) ⟨(i 1).val - 96, by have h1 : (i 1).val < 128 := (i 1).isLt; show (i 1).val - 96 < 32; omega⟩) := by
  unfold tabOf; rw [dif_neg h]

/-- WHAT POINT `t` WRITES BACK is block `t` of the combined table of the two tables as launched. -/
theorem flushedT_eq (fs : TF (F := F)) (c : Dev nD) (t : Fin cfg0.N) :
    (dats m fs 0 c).flushed 2 t = ((cfg0.win 2).blk t).view.read (Elt F) (tabOf (m (wLoc c)) (m (nLoc c))) := by
  show (cfg0.win 2).cut (grid0.coords t) ((dats m fs 0 c).after 2 t) = _
  rw [afterT]
  unfold outT
  obtain ⟨e0, e1, e2, e3, e4, e5⟩ := idx_facts t
  funext j
  show View.canon [⟨rB, View.ld (iblkN m c t) rN⟩, ⟨rA, View.ld (iblkW m c t) rA⟩] j = tabOf (m (wLoc c)) (m (nLoc c)) (((cfg0.win 2).blk t).view.emb j)
  refine View.canon_apply_of_pieces (fun y => tabOf (m (wLoc c)) (m (nLoc c)) (((cfg0.win 2).blk t).view.emb y)) _ ?_ j (coverT _ _ j)
  intro p hp x
  simp only [List.mem_cons, List.mem_singleton, List.not_mem_nil, or_false] at hp
  rcases hp with rfl | rfl
  · show View.ld (iblkN m c t) rN x = tabOf (m (wLoc c)) (m (nLoc c)) (((cfg0.win 2).blk t).view.emb (rB.emb x))
    have hx0 : (x 0).val < 10000 := (x 0).isLt
    have hx1 : (x 1).val < 32 := (x 1).isLt
    have hge : ¬ ((((cfg0.win 2).blk t).view.emb (rB.emb x)) 1).val < 96 := by
      show ¬ win0_2.index t (1 : Fin 2) * 128 + 1 * (96 + 1 * (x 1).val) < 96
      omega
    rw [tabOf_ge _ _ _ hge]
    show m (nLoc c) (((cfg0.win 1).blk t).view.emb (rN.idx x)) = m (nLoc c) _
    refine congrArg _ (funext fun a => Fin.ext ?_)
    match a with
    | ⟨0, _⟩ =>
      show win0_1.index t (0 : Fin 2) * 10000 + 1 * (0 + 1 * (x 0).val) = win0_2.index t (0 : Fin 2) * 10000 + 1 * (0 + 1 * (x 0).val)
      omega
    | ⟨1, _⟩ =>
      show win0_1.index t (1 : Fin 2) * 32 + 1 * (0 + 1 * (x 1).val) = win0_2.index t (1 : Fin 2) * 128 + 1 * (96 + 1 * (x 1).val) - 96
      omega
  · show View.ld (iblkW m c t) rA x = tabOf (m (wLoc c)) (m (nLoc c)) (((cfg0.win 2).blk t).view.emb (rA.emb x))
    have hx0 : (x 0).val < 10000 := (x 0).isLt
    have hx1 : (x 1).val < 96 := (x 1).isLt
    have hlt : ((((cfg0.win 2).blk t).view.emb (rA.emb x)) 1).val < 96 := by
      show win0_2.index t (1 : Fin 2) * 128 + 1 * (0 + 1 * (x 1).val) < 96
      omega
    rw [tabOf_lt _ _ _ hlt]
    show m (wLoc c) (((cfg0.win 0).blk t).view.emb (rA.idx x)) = m (wLoc c) _
    refine congrArg _ (funext fun a => Fin.ext ?_)
    match a with
    | ⟨0, _⟩ =>
      show win0_0.index t (0 : Fin 2) * 10000 + 1 * (0 + 1 * (x 0).val) = win0_2.index t (0 : Fin 2) * 10000 + 1 * (0 + 1 * (x 0).val)
      omega
    | ⟨1, _⟩ =>
      show win0_0.index t (1 : Fin 2) * 128 + 1 * (0 + 1 * (x 1).val) = win0_2.index t (1 : Fin 2) * 128 + 1 * (0 + 1 * (x 1).val)
      omega

/-- An index of the array is in point `t`'s block iff each coordinate is in the block's range on its axis. -/
theorem mem_blkT (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The ten blocks cover the combined table. -/
theorem coverArr (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by show _ < grid0.N; rw [N_0]; omega
  obtain ⟨e0, e1, e2, e3, e4, e5⟩ := idx_facts ⟨(i 0).val / 10000, hN⟩
  refine ⟨⟨(i 0).val / 10000, hN⟩, flush0_2 _, ?_⟩
  rw [mem_blkT]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val ∧ (i 1).val < win0_2.index ⟨(i 0).val / 10000, hN⟩ (1 : Fin 2) * 128 + 128
    rw [e5]; omega

/-- THE COMBINED TABLE after the region. -/
theorem arrT_cfg (fs : TF (F := F)) (c : Dev nD) : (dats m fs 0 c).arrAt 2 cfg0.N = tabOf (m (wLoc c)) (m (nLoc c)) :=
  (dats m fs 0 c).arrAt_eq_of_cover 2 (tabOf (m (wLoc c)) (m (nLoc c))) (fun t _ => flushedT_eq m fs c t) coverArr

/-- What the TensorCore owes when the region is entered, its recorded pairs at the bottom level. -/
def owesTc (d : Dev nD) : sProp 𝕄 := iprop(∃ W, ⌜(K (F := F)).WBelow (T d) W (8 * 0)⌝ ∗ owes (T d) ((K (F := F)).Otc d 0) W)

def regPre (fs : TF (F := F)) (d : Dev nD) : sProp 𝕄 :=
  iprop((wLoc d ↦{fullShare} m (wLoc d)) ∗ (nLoc d ↦{fullShare} m (nLoc d)) ∗ (tLoc d ↦{fullShare} fs d) ∗ owesTc (F := F) d)
def regPost (d : Dev nD) : sProp 𝕄 :=
  iprop((wLoc d ↦{fullShare} m (wLoc d)) ∗ (nLoc d ↦{fullShare} m (nLoc d)) ∗ (tLoc d ↦{fullShare} tabOf (m (wLoc d)) (m (nLoc d))) ∗ owesTc (F := F) d)

theorem bigSep_F0 {M : Type} [URA M] (Φ : Fin 0 → sProp M) : bigSep Finset.univ Φ = (BI.emp : sProp M) :=
  bigSep_univ_eq_bigSepL [] (by decide) (by decide) Φ

theorem prefHeld0 (c : Dev nD) (q) (pf) : (Pipeline.prefHeld (Ix := HIx 1) (Name := ℕ) (U := UU) (Lvl := ℕ) (Val := Elt F) (pcfgs (F := F) 0).pre c q pf : sProp 𝕄) = BI.emp :=
  bigSep_F0 _

theorem Φ_eq (fs : TF (F := F)) (c : Dev nD) (t) : (dats m fs 0 c).Φ t = Pipeline.scopedRest (Pipeline.pin (pcfgs (F := F)) adm 0).spec c := by
  dsimp only [dats]

theorem arrW_end (fs : TF (F := F)) (c : Dev nD) : (dats m fs 0 c).arrAt 0 (Pipeline.pin (pcfgs (F := F)) adm 0).N = m (wLoc c) :=
  (dats m fs 0 c).arrAt_in 0 rfl _
theorem arrN_end (fs : TF (F := F)) (c : Dev nD) : (dats m fs 0 c).arrAt 1 (Pipeline.pin (pcfgs (F := F)) adm 0).N = m (nLoc c) :=
  (dats m fs 0 c).arrAt_in 1 rfl _
theorem arrT_end (fs : TF (F := F)) (c : Dev nD) : (dats m fs 0 c).arrAt 2 (Pipeline.pin (pcfgs (F := F)) adm 0).N = tabOf (m (wLoc c)) (m (nLoc c)) := arrT_cfg m fs c

def reg (fs : TF (F := F)) : Pipeline.RegionSeg (pcfgs (F := F)) adm (dats m fs) none (defs₀ (F := F)) 𝒱₀ ((K (F := F)).L (nD := nD)) ((K (F := F)).lev (nD := nD)) 0 where
  win := launch0.win.to₀
  block_pos := launch0.block_pos
  stage_whole := launch0.stage_whole
  K := PEmpty
  osem k := k.elim
  ho := Pipeline.OwnSemFacts.none _
  hbody c := (body_obligation m fs c).loose
  hwaits c := Pipeline.cellsWaits_intro (Pipeline.pin (pcfgs (F := F)) adm) (dats m fs) none 0 c
    fun w s t => SparseCore.Cfg.mayWait_none (K := K (F := F)) _ (fun g => Otc_none c 0 g)
  pre := regPre m fs
  post := regPost m
  X _ := BI.emp
  Y _ := BI.emp
  Z _ := BI.emp
  hentry c := by
    rw [Pipeline.ownSems0_none, Pipeline.arrays_eq (Pipeline.pin (pcfgs (F := F)) adm) (dats m fs) 0 c launch0.arr_whole ((dats m fs 0 c).share_full fun _ => rfl), bigSep_W0, prefHeld0]
    unfold regPre owesTc
    iintro ⟨⟨Hw, Hn, Ht, ⟨%W, %hW, HO⟩⟩, -, -⟩
    imodintro
    isplitl [Hw Hn Ht]
    · isplitl [Hw]; · iexact Hw
      isplitl [Hn]; · iexact Hn
      iexact Ht
    isplitr; · iempintro
    isplitl [HO]
    · unfold Pipeline.Dat.owesAt Pipeline.owesWithin
      iexists W; isplitr
      · ipureintro
        intro p hp
        left
        show p.2 = none
        have h1 := hW p hp
        cases h : p.2 with
        | none => rfl
        | some q =>
          rw [h] at h1
          have h2 := (K (F := F)).lev_some_pos (nD := nD) (T c, p.1) q
          omega
      iexact HO
    isplitr <;> iempintro
  hin c := by
    rw [Φ_eq]
    iintro ⟨-, -, H⟩; iexact H
  hout c := by
    rw [Pipeline.ownSems0_none, Φ_eq]
    iintro H
    isplitr; · iempintro
    isplitr; · iempintro
    iexact H
  hexit c := by
    rw [Pipeline.arrays_eq (Pipeline.pin (pcfgs (F := F)) adm) (dats m fs) 0 c launch0.arr_whole ((dats m fs 0 c).share_full fun _ => rfl), bigSep_W0]
    rw [arrW_end, arrN_end, arrT_end]
    unfold regPost owesTc
    iintro ⟨⟨Hw, Hn, Ht⟩, ⟨%W, %hW, HO⟩, -, -⟩
    imodintro
    isplitl [Hw]; · iexact Hw
    isplitl [Hn]; · iexact Hn
    isplitl [Ht]; · iexact Ht
    iexists W; isplitr
    · ipureintro
      intro p hp
      have hn : p.2 = none := by
        rcases hW hp with h | ⟨w, s, h⟩
        · exact h
        · rw [h]
      rw [hn]; exact Nat.zero_le _
    iexact HO

set_option backward.isDefEq.respectTransparency.types false in
/-- THE REGION: from the TensorCore's state before call 0, the region boundary, the pipeline's ghost state and the two tables,
    the pallas_call runs to the same with the combined table built. -/
theorem wp_region {P : (K (F := F)).Pay (nD := nD) (Val := Elt F) (Name := ℕ) (U := UU)} (κ : GSem nD τ sig → ℕ) (d : Dev nD) (Φ : PUnit → sProp 𝕄) :
    iprop((K (F := F)).ctx EH P κ ∗ (K (F := F)).tcSt EH d 0 ∗ boundary (SparseCore.T d) ∗ (K (F := F)).tcSems0 d ∗ regionGhost (F := F) d
        ∗ (wLoc d ↦{fullShare} m (wLoc d)) ∗ (nLoc d ↦{fullShare} m (nLoc d)) ∗ (∃ f, tLoc d ↦{fullShare} f)
        ∗ (((K (F := F)).tcSt EH d 0 ∗ boundary (SparseCore.T d) ∗ (K (F := F)).tcSems0 d
              ∗ (wLoc d ↦{fullShare} m (wLoc d)) ∗ (nLoc d ↦{fullShare} m (nLoc d)) ∗ (tLoc d ↦{fullShare} tabOf (m (wLoc d)) (m (nLoc d)))) -∗ Φ ⟨⟩))
      ⊢ wp frame (wpE ((K (F := F)).defs (D (F := F))) 𝒱 (SparseCore.T d) none) Set.univ (Prog.lift (.customCall (SparseCore.inner (Pipeline.entry 0)) ())) Φ := by
  unfold SparseCore.Cfg.tcSt regionGhost
  iintro ⟨#Hctx, ⟨Howes, Hpos, Hreach, Hstarts, Htoks⟩, Hb, Hs0, ⟨Hcg, Hti⟩, Hw, Hn, ⟨%f, Ht⟩, Hk⟩
  obtain ⟨fs, rfl⟩ : ∃ fs : TF (F := F), fs d = f := ⟨Function.update (fun d' => m (tLoc d')) d f, Function.update_self ..⟩
  have h := Pipeline.RegionSeg.wp (pcfgs (F := F)) adm (dats m fs) none launch0.cellOf_inj (EP (F := F)) (defs₀ (F := F)) 𝒱₀
    ((K (F := F)).L (nD := nD)) ((K (F := F)).lev (nD := nD)) (reg m fs) d none (fun u hu => absurd hu (by simp)) (fun x => .ret x) Φ
  rw [show (reg m fs).post d = regPost m d from rfl, show (reg m fs).pre d = regPre m fs d from rfl, wp_ret] at h
  unfold regPost regPre owesTc at h
  iapply (SparseCore.Cfg.wp_liftProg (K (F := F)) (D (F := F)) 𝒱 (T d) Set.univ none
    (Prog.lift (.customCall (Pipeline.entry (0 : Fin 1)) ()) : Prog (TpuEff nD τ sig (Elt F) (ΛP (F := F)) .tc) PUnit) Φ)
  iapply h
  isplitl [Hk Hs0 Hpos Hreach Hstarts Htoks]
  · iintro ⟨Hb, Hw, Hn, Ht, Howes⟩
    imodintro
    iapply Hk
    isplitl [Howes Hpos Hreach Hstarts Htoks]
    · isplitl [Howes]; · iexact Howes
      isplitl [Hpos]; · iexact Hpos
      isplitl [Hreach]; · iexact Hreach
      isplitl [Hstarts]; · iexact Hstarts
      iexact Htoks
    isplitl [Hb]; · iexact Hb
    isplitl [Hs0]; · iexact Hs0
    isplitl [Hw]; · iexact Hw
    isplitl [Hn]; · iexact Hn
    iexact Ht
  isplitl [Hb]; · iexact Hb
  isplitl [Hw Hn Ht Howes]
  · isplitl [Hw]; · iexact Hw
    isplitl [Hn]; · iexact Hn
    isplitl [Ht]; · iexact Ht
    iexact Howes
  isplitr
  · iapply (SparseCore.Cfg.ctx_levAts κ); iexact Hctx
  isplitl [Hcg]; · iexact Hcg
  iexact Hti

end

/-- The pipeline's component of the launch element: the rounds library's element for the program's staging cells and their
    duty tokens. -/
def uP₀ : UP := initOf (Pipeline.cells (nD := nD) (τ := τ) cfgs cellOf_inj) (Pipeline.launchToks (nD := nD) (τ := τ) cfgs cellOf_inj)

theorem bigSep_P1 {M : Type} [URA M] (Φ : Fin 1 → sProp M) : bigSep Finset.univ Φ = Φ (0 : Fin 1) :=
  bigSep_univ_eq_bigSepL [(0 : Fin 1)] (by decide) (by decide) Φ

/-- The launch funds the region's ghost state, on every device, from the pipeline's component of the certificate's element. -/
theorem fund_region : (BI.own (EP (F := F) uP₀) : sProp 𝕄) ⊢ |==> bigSep Finset.univ fun d : Dev nD => regionGhost (F := F) d := by
  have h := Pipeline.fund_ghost (Val := Elt F) (Ix := HIx 1) (Name := ℕ) (U := UU) (Lvl := ℕ) (cfgs) (EP (F := F)) cellOf_inj
  refine h.trans (bupd_mono ?_)
  unfold regionGhost
  rw [bigSep_sep']
  refine BI.sep_mono (Entails.of_eq (bigSep_congr fun d _ => ?_)) (Entails.of_eq (bigSep_congr fun d _ => ?_))
  · exact bigSep_P1 _
  · exact bigSep_P1 _

end Cert.Proof.KI
end
-- ==== Proof.KI.RegionKit.lean ====
/-
  The TensorCore region's proof, packed as the record @main's proof takes.
-/
import proofs.«204608_g3015067042085_cont_9to1_1138_29_alg».proof.Proof.KI.Main
import proofs.«204608_g3015067042085_cont_9to1_1138_29_alg».proof.Proof.KI.Region

noncomputable section

namespace Cert.Proof.KI

open Cert.KernelIdeal Cert.KernelIdeal.Gen
open Idealize.ShloMosaic Idealize.SL Idealize.SL.BI Idealize.SL.Sem
open scoped Idealize.SL.BI
open Idealize.SL.BI.BIBase Idealize.SL.BI.Laws Idealize.SL.ProofMode

variable {F : FTy → Type}

def regionKit [FloatOps F] [∀ e, Nonempty (Elt F e)] (m : (ℓ : Loc nD τ sig) → Buf (Elt F) ℓ) : RegionKit (F := F) m where
  ghost := regionGhost
  uP := uP₀
  fund := by
    iintro H
    imod (fund_region (F := F)) $$ H with HG
    imodintro
    iexact HG
  step := fun κ d Φ => wp_region m κ d Φ

end Cert.Proof.KI

end
-- ==== Proof.KI.TileDefs.lean ====
import proofs.«204608_g3015067042085_cont_9to1_1138_29_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  The names of one tile's task: its thread, its eleven transfer semaphores, and the pieces of memory the task moves —
  the two slots of the index scratch, the five row buffers of the row scratch, the index blocks and the output chunks —
  each spelt as the program addresses it.
-/

local notation "iV" => (Memref.whole Cert.KernelIdeal.main_v1_scv : Memref Cert.KernelIdeal.sig Kind.scVector Space.hbm Cert.KernelIdeal.S1280x5x128 EltTy.i32)
local notation "tV" => (Memref.whole Cert.KernelIdeal.main_v0_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S2x5x128 EltTy.i32)
local notation "rV" => (Memref.whole Cert.KernelIdeal.cc1_scratch1 : Memref Cert.KernelIdeal.sig Kind.scVector Space.vmem Cert.KernelIdeal.S5x128x128 EltTy.f32)

/-- The tile's thread. -/
abbrev thrV (d : Dev nD) (L : grid1.Coords) : Thread nD τ := V d (cV L) (jV L)

/-! ## The semaphores: one for the index copies, five for the gathers, five for the write-outs -/

abbrev isemS : DmaSem sig := cc1_scratch2.sem
abbrev gsemS0 : DmaSem sig := ((cc1_scratch3.slice (Rect.unit (s := S5) ![0] S1.size inb_S5_S1_0)).squeeze S_ squeezes_S1_S_).sem
abbrev gsemS1 : DmaSem sig := ((cc1_scratch3.slice (Rect.unit (s := S5) ![1] S1.size inb_S5_S1_1)).squeeze S_ squeezes_S1_S_).sem
abbrev gsemS2 : DmaSem sig := ((cc1_scratch3.slice (Rect.unit (s := S5) ![2] S1.size inb_S5_S1_2)).squeeze S_ squeezes_S1_S_).sem
abbrev gsemS3 : DmaSem sig := ((cc1_scratch3.slice (Rect.unit (s := S5) ![3] S1.size inb_S5_S1_3)).squeeze S_ squeezes_S1_S_).sem
abbrev gsemS4 : DmaSem sig := ((cc1_scratch3.slice (Rect.unit (s := S5) ![4] S1.size inb_S5_S1_4)).squeeze S_ squeezes_S1_S_).sem
abbrev wsemS0 : DmaSem sig := ((cc1_scratch4.slice (Rect.unit (s := S5) ![0] S1.size inb_S5_S1_0)).squeeze S_ squeezes_S1_S_).sem
abbrev wsemS1 : DmaSem sig := ((cc1_scratch4.slice (Rect.unit (s := S5) ![1] S1.size inb_S5_S1_1)).squeeze S_ squeezes_S1_S_).sem
abbrev wsemS2 : DmaSem sig := ((cc1_scratch4.slice (Rect.unit (s := S5) ![2] S1.size inb_S5_S1_2)).squeeze S_ squeezes_S1_S_).sem
abbrev wsemS3 : DmaSem sig := ((cc1_scratch4.slice (Rect.unit (s := S5) ![3] S1.size inb_S5_S1_3)).squeeze S_ squeezes_S1_S_).sem
abbrev wsemS4 : DmaSem sig := ((cc1_scratch4.slice (Rect.unit (s := S5) ![4] S1.size inb_S5_S1_4)).squeeze S_ squeezes_S1_S_).sem

/-- The eleven, in order. -/
abbrev semList : List (DmaSem sig) := [isemS, gsemS0, gsemS1, gsemS2, gsemS3, gsemS4, wsemS0, wsemS1, wsemS2, wsemS3, wsemS4]

/-- A semaphore of the tile as a cell. -/
abbrev cellOf (d : Dev nD) (L : grid1.Coords) (s : DmaSem sig) : GSem nD τ sig := (thrV d L, SemLoc.dma s)

/-- The tile's cells other than the eleven. -/
abbrev otherCells (d : Dev nD) (L : grid1.Coords) : Finset (GSem nD τ sig) :=
  (ownCells (thrV d L)) \ (semList.toFinset.image (cellOf d L))

/-! ## The pieces of memory -/

/-- Slot 0 and slot 1 of the index scratch. -/
abbrev slotM0 : Memref sig .scVector .vmem S5x128 .i32 :=
  ((sV).slice (Rect.unit (s := S2x5x128) ![0, 0, 0] S1x5x128.size inb_S2x5x128_S1x5x128_0_0_0) (fun _ => rfl)).squeeze S5x128 squeezes_S1x5x128_S5x128
abbrev slotM1 : Memref sig .scVector .vmem S5x128 .i32 :=
  ((sV).slice (Rect.unit (s := S2x5x128) ![1, 0, 0] S1x5x128.size inb_S2x5x128_S1x5x128_1_0_0) (fun _ => rfl)).squeeze S5x128 squeezes_S1x5x128_S5x128

/-- The five row buffers of the row scratch. -/
abbrev rowM0 : Memref sig .scVector .vmem S128x128 .f32 :=
  ((rV).slice (Rect.unit (s := S5x128x128) ![0, 0, 0] S1x128x128.size inb_S5x128x128_S1x128x128_0_0_0) (fun _ => rfl)).squeeze S128x128 squeezes_S1x128x128_S128x128
abbrev rowM1 : Memref sig .scVector .vmem S128x128 .f32 :=
  ((rV).slice (Rect.unit (s := S5x128x128) ![1, 0, 0] S1x128x128.size inb_S5x128x128_S1x128x128_1_0_0) (fun _ => rfl)).squeeze S128x128 squeezes_S1x128x128_S128x128
abbrev rowM2 : Memref sig .scVector .vmem S128x128 .f32 :=
  ((rV).slice (Rect.unit (s := S5x128x128) ![2, 0, 0] S1x128x128.size inb_S5x128x128_S1x128x128_2_0_0) (fun _ => rfl)).squeeze S128x128 squeezes_S1x128x128_S128x128
abbrev rowM3 : Memref sig .scVector .vmem S128x128 .f32 :=
  ((rV).slice (Rect.unit (s := S5x128x128) ![3, 0, 0] S1x128x128.size inb_S5x128x128_S1x128x128_3_0_0) (fun _ => rfl)).squeeze S128x128 squeezes_S1x128x128_S128x128
abbrev rowM4 : Memref sig .scVector .vmem S128x128 .f32 :=
  ((rV).slice (Rect.unit (s := S5x128x128) ![4, 0, 0] S1x128x128.size inb_S5x128x128_S1x128x128_4_0_0) (fun _ => rfl)).squeeze S128x128 squeezes_S1x128x128_S128x128

/-- The index block trip `t`'s half `r` fetches: block `40 w + min (2 t + r + 1) 39`. -/
abbrev iblkM (L : grid1.Coords) (t : Fin k1_t1_loop.trips) (r : Fin 2) : Memref sig .scVector .hbm S5x128 .i32 :=
  ((iV).slice (Rect.unit (s := S1280x5x128) (k1_off2 L t (BitVec.ofNat 32 r.val)) S1x5x128.size (k1_off2_inb L t r)) (fun _ => rfl)).squeeze S5x128 squeezes_S1x5x128_S5x128
/-- The index block the prologue fetches: block `40 w`. -/
abbrev iblkM0 (L : grid1.Coords) : Memref sig .scVector .hbm S5x128 .i32 :=
  ((iV).slice (Rect.unit (s := S1280x5x128) (k1_off1 L) S1x5x128.size (k1_off1_inb L)) (fun _ => rfl)).squeeze S5x128 squeezes_S1x5x128_S5x128

/-- The output chunk of trip `t`, half `r₁`, row buffer `r₂`: rows `25600 w + 1280 t + 640 r₁ + 128 r₂ + [0, 128)`. -/
abbrev chunkM (L : grid1.Coords) (t : Fin k1_t1_loop.trips) (r₁ : Fin 2) (r₂ : Fin 5) : Memref sig .scVector .hbm S128x128 .f32 :=
  (oV).slice (Rect.unit (s := S819200x128) (k1_off3 L t (BitVec.ofNat 32 r₁.val) (BitVec.ofNat 32 r₂.val)) S128x128.size (k1_off3_inb L t r₁ r₂)) (fun _ => rfl)

end Cert.Proof.KI
end
-- ==== Proof.KI.TileSets.lean ====
/-
  How one tile's memory divides, as pure facts about element sets and separating conjunctions (no program step here).

  The tile's 25600 output rows are forty half-blocks of 640 rows, each five chunks of 128 rows: the rows still to be written
  give up a half-block's five chunks, and the rows already written take them back.  The index scratch is its two slots, the
  row scratch its five row buffers.  The table's read share splits off twelve tokens, five of them lent to the gathers in
  flight.  The tile's own semaphore cells are the eleven the task uses and the others.
-/
import proofs.«204608_g3015067042085_cont_9to1_1138_29_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v1_scv : Memref Cert.KernelIdeal.sig Kind.scVector Space.hbm Cert.KernelIdeal.S1280x5x128 EltTy.i32)
local notation "tV" => (Memref.whole Cert.KernelIdeal.main_v0_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S2x5x128 EltTy.i32)
local notation "rV" => (Memref.whole Cert.KernelIdeal.cc1_scratch1 : Memref Cert.KernelIdeal.sig Kind.scVector Space.vmem Cert.KernelIdeal.S5x128x128 EltTy.f32)

variable (d : Dev nD) (L : grid1.Coords)

/-- A two-way entailment of the model's propositions is an equality. -/
theorem eq_of_bi {P Q : sProp 𝕄} (h : P ⊣⊢ Q) : P = Q := BI.equiv_iff.mp ⟨h.1, h.2⟩

/-! ## The tile's output rows, half-block by half-block -/

/-- Rows [25600 w, 25600 w + 640 h) of the output: the tile's first h half-blocks. -/
def doneH (L : grid1.Coords) (h : ℕ) : Finset S819200x128.Idx :=
  Finset.univ.filter fun j => 25600 * (wid L).val ≤ (j 0).val ∧ (j 0).val < 25600 * (wid L).val + 640 * h
/-- Rows [25600 w + 640 h, 25600 w + 25600): from half-block h on. -/
def todoH (L : grid1.Coords) (h : ℕ) : Finset S819200x128.Idx :=
  Finset.univ.filter fun j => 25600 * (wid L).val + 640 * h ≤ (j 0).val ∧ (j 0).val < 25600 * (wid L).val + 25600

theorem mem_doneH (h : ℕ) (j : S819200x128.Idx) :
    j ∈ doneH L h ↔ 25600 * (wid L).val ≤ (j 0).val ∧ (j 0).val < 25600 * (wid L).val + 640 * h := by
  simp only [doneH, Finset.mem_filter, Finset.mem_univ, true_and]
theorem mem_todoH (h : ℕ) (j : S819200x128.Idx) :
    j ∈ todoH L h ↔ 25600 * (wid L).val + 640 * h ≤ (j 0).val ∧ (j 0).val < 25600 * (wid L).val + 25600 := by
  simp only [todoH, Finset.mem_filter, Finset.mem_univ, true_and]

/-- The loop runs twenty trips. -/
theorem trips_lt (t : Fin k1_t1_loop.trips) : t.val < 20 := lt_of_lt_of_le t.isLt k1_t1_abs.2.1

theorem wid_val : (wid L).val = 2 * (L 1).val + (L 0).val := rfl

theorem mem_chunk (t : Fin k1_t1_loop.trips) (r₁ : Fin 2) (r₂ : Fin 5) (j : S819200x128.Idx) :
    j ∈ (chunkM L t r₁ r₂).view.set ↔ 25600 * (wid L).val + 1280 * t.val + 640 * r₁.val + 128 * r₂.val ≤ (j 0).val
      ∧ (j 0).val < 25600 * (wid L).val + 1280 * t.val + 640 * r₁.val + 128 * r₂.val + 128 := by
  show j ∈ ((View.whole (main_v2_scv : Ref sig .scVector)).slice (Rect.unit (s := S819200x128) (k1_off3 L t (BitVec.ofNat 32 r₁.val) (BitVec.ofNat 32 r₂.val)) S128x128.size (k1_off3_inb L t r₁ r₂))).set ↔ _
  rw [View.set_slice_whole, Rect.mem_set_unit, k1_off3_eq, wid_val]
  have h1 : ((j 1 : Fin 128) : ℕ) < 128 := (j 1).isLt
  have hs0 : S128x128.size 0 = 128 := rfl
  have hs1 : S128x128.size 1 = 128 := rfl
  refine ⟨fun h => ?_, fun h a => ?_⟩
  · have h0 := h 0
    simp only [Matrix.cons_val_zero, hs0] at h0
    omega
  · match a with
    | 0 => simp only [Matrix.cons_val_zero, hs0]; omega
    | 1 => simp only [Matrix.cons_val_one, Matrix.cons_val_zero, hs1]; omega

theorem oSet_eq_todoH : oSet (wid L) = todoH L 0 := by
  ext j
  show j ∈ ((View.whole (main_v2_scv : Ref sig .scVector)).slice (oRect (wid L))).set ↔ _
  rw [View.set_slice_whole, Rect.mem_set_unit, mem_todoH]
  have h1 : ((j 1 : Fin 128) : ℕ) < 128 := (j 1).isLt
  refine ⟨fun h => ?_, fun h a => ?_⟩
  · have h0 := h 0
    simp [Shape.partIx, Shape.partSize] at h0
    omega
  · match a with
    | 0 => simp [Shape.partIx, Shape.partSize]; omega
    | 1 => simp [Shape.partIx, Shape.partSize]; omega

theorem oSet_eq_doneH : oSet (wid L) = doneH L 40 := by
  rw [oSet_eq_todoH]
  ext j
  rw [mem_todoH, mem_doneH]
  omega

theorem doneH_zero : doneH L 0 = ∅ := by
  ext j
  rw [mem_doneH]
  simp only [Finset.notMem_empty, iff_false]
  omega

theorem todoH_last : todoH L 40 = ∅ := by
  ext j
  rw [mem_todoH]
  simp only [Finset.notMem_empty, iff_false]
  omega

/-- Rows [lo, hi) of the output. -/
def rowsR (lo hi : ℕ) : Finset S819200x128.Idx := Finset.univ.filter fun j => lo ≤ (j 0).val ∧ (j 0).val < hi

theorem mem_rowsR (lo hi : ℕ) (j : S819200x128.Idx) : j ∈ rowsR lo hi ↔ lo ≤ (j 0).val ∧ (j 0).val < hi := by
  simp only [rowsR, Finset.mem_filter, Finset.mem_univ, true_and]

/-- A run of rows cut at a row in between. -/
theorem rows_split {lo mid hi : ℕ} (h1 : lo ≤ mid) (h2 : mid ≤ hi) (f : Buf (Elt F) (oLoc d)) :
    (oLoc d ↦[rowsR lo hi]{fullShare} f : sProp 𝕄) = iprop((oLoc d ↦[rowsR lo mid]{fullShare} f) ∗ oLoc d ↦[rowsR mid hi]{fullShare} f) := by
  have hd : Disjoint (rowsR lo mid) (rowsR mid hi) := by
    rw [Finset.disjoint_left]
    intro j hj hj'
    rw [mem_rowsR] at hj hj'
    omega
  have hu : rowsR lo mid ∪ rowsR mid hi = rowsR lo hi := by
    ext j
    simp only [Finset.mem_union, mem_rowsR]
    omega
  rw [← hu]
  exact eq_of_bi (pointsTo_union (ℓ := oLoc d) hd)

theorem chunk_rows (t : Fin k1_t1_loop.trips) (r₁ : Fin 2) (r₂ : Fin 5) :
    (chunkM L t r₁ r₂).view.set = rowsR (25600 * (wid L).val + 1280 * t.val + 640 * r₁.val + 128 * r₂.val) (25600 * (wid L).val + 1280 * t.val + 640 * r₁.val + 128 * r₂.val + 128) := by
  ext j
  rw [mem_chunk, mem_rowsR]

theorem todo_take (t : Fin k1_t1_loop.trips) (r₁ : Fin 2) (f : Buf (Elt F) (oLoc d)) :
    (oLoc d ↦[todoH L (2 * t.val + r₁.val)]{fullShare} f : sProp 𝕄) ⊣⊢ iprop(
      ((chunkM L t r₁ 0).view.loc (thrV d L) ↦[(chunkM L t r₁ 0).view.set]{fullShare} f) ∗ ((chunkM L t r₁ 1).view.loc (thrV d L) ↦[(chunkM L t r₁ 1).view.set]{fullShare} f)
      ∗ ((chunkM L t r₁ 2).view.loc (thrV d L) ↦[(chunkM L t r₁ 2).view.set]{fullShare} f) ∗ ((chunkM L t r₁ 3).view.loc (thrV d L) ↦[(chunkM L t r₁ 3).view.set]{fullShare} f)
      ∗ ((chunkM L t r₁ 4).view.loc (thrV d L) ↦[(chunkM L t r₁ 4).view.set]{fullShare} f) ∗ (oLoc d ↦[todoH L (2 * t.val + r₁.val + 1)]{fullShare} f)) := by
  refine BiEntails.of_eq ?_
  show (oLoc d ↦[todoH L (2 * t.val + r₁.val)]{fullShare} f : sProp 𝕄) = iprop(
      (oLoc d ↦[(chunkM L t r₁ 0).view.set]{fullShare} f) ∗ (oLoc d ↦[(chunkM L t r₁ 1).view.set]{fullShare} f)
      ∗ (oLoc d ↦[(chunkM L t r₁ 2).view.set]{fullShare} f) ∗ (oLoc d ↦[(chunkM L t r₁ 3).view.set]{fullShare} f)
      ∗ (oLoc d ↦[(chunkM L t r₁ 4).view.set]{fullShare} f) ∗ (oLoc d ↦[todoH L (2 * t.val + r₁.val + 1)]{fullShare} f))
  have ht := trips_lt t
  have hr := r₁.isLt
  have hw := (wid L).isLt
  have v0 : ((0 : Fin 5) : ℕ) = 0 := rfl
  have v1 : ((1 : Fin 5) : ℕ) = 1 := rfl
  have v2 : ((2 : Fin 5) : ℕ) = 2 := rfl
  have v3 : ((3 : Fin 5) : ℕ) = 3 := rfl
  have v4 : ((4 : Fin 5) : ℕ) = 4 := rfl
  obtain ⟨B, hB⟩ : ∃ B, B = 25600 * (wid L).val + 1280 * t.val + 640 * r₁.val := ⟨_, rfl⟩
  have e0 : todoH L (2 * t.val + r₁.val) = rowsR B (25600 * (wid L).val + 25600) := by
    ext j; rw [mem_todoH, mem_rowsR]; omega
  have e1 : todoH L (2 * t.val + r₁.val + 1) = rowsR (B + 640) (25600 * (wid L).val + 25600) := by
    ext j; rw [mem_todoH, mem_rowsR]; omega
  have c0 : (chunkM L t r₁ 0).view.set = rowsR B (B + 128) := by rw [chunk_rows, v0]; congr 1 <;> omega
  have c1 : (chunkM L t r₁ 1).view.set = rowsR (B + 128) (B + 256) := by rw [chunk_rows, v1]; congr 1 <;> omega
  have c2 : (chunkM L t r₁ 2).view.set = rowsR (B + 256) (B + 384) := by rw [chunk_rows, v2]; congr 1 <;> omega
  have c3 : (chunkM L t r₁ 3).view.set = rowsR (B + 384) (B + 512) := by rw [chunk_rows, v3]; congr 1 <;> omega
  have c4 : (chunkM L t r₁ 4).view.set = rowsR (B + 512) (B + 640) := by rw [chunk_rows, v4]; congr 1 <;> omega
  rw [e0, e1, c0, c1, c2, c3, c4]
  rw [rows_split d (lo := B) (mid := B + 128) (by omega) (by omega),
    rows_split d (lo := B + 128) (mid := B + 256) (by omega) (by omega),
    rows_split d (lo := B + 256) (mid := B + 384) (by omega) (by omega),
    rows_split d (lo := B + 384) (mid := B + 512) (by omega) (by omega),
    rows_split d (lo := B + 512) (mid := B + 640) (by omega) (by omega)]

theorem done_put (t : Fin k1_t1_loop.trips) (r₁ : Fin 2) (f : Buf (Elt F) (oLoc d)) :
    iprop((oLoc d ↦[doneH L (2 * t.val + r₁.val)]{fullShare} f)
      ∗ ((chunkM L t r₁ 0).view.loc (thrV d L) ↦[(chunkM L t r₁ 0).view.set]{fullShare} f) ∗ ((chunkM L t r₁ 1).view.loc (thrV d L) ↦[(chunkM L t r₁ 1).view.set]{fullShare} f)
      ∗ ((chunkM L t r₁ 2).view.loc (thrV d L) ↦[(chunkM L t r₁ 2).view.set]{fullShare} f) ∗ ((chunkM L t r₁ 3).view.loc (thrV d L) ↦[(chunkM L t r₁ 3).view.set]{fullShare} f)
      ∗ ((chunkM L t r₁ 4).view.loc (thrV d L) ↦[(chunkM L t r₁ 4).view.set]{fullShare} f))
      ⊣⊢ (oLoc d ↦[doneH L (2 * t.val + r₁.val + 1)]{fullShare} f : sProp 𝕄) := by
  refine BiEntails.of_eq ?_
  show iprop((oLoc d ↦[doneH L (2 * t.val + r₁.val)]{fullShare} f)
      ∗ (oLoc d ↦[(chunkM L t r₁ 0).view.set]{fullShare} f) ∗ (oLoc d ↦[(chunkM L t r₁ 1).view.set]{fullShare} f)
      ∗ (oLoc d ↦[(chunkM L t r₁ 2).view.set]{fullShare} f) ∗ (oLoc d ↦[(chunkM L t r₁ 3).view.set]{fullShare} f)
      ∗ (oLoc d ↦[(chunkM L t r₁ 4).view.set]{fullShare} f))
    = (oLoc d ↦[doneH L (2 * t.val + r₁.val + 1)]{fullShare} f : sProp 𝕄)
  have ht := trips_lt t
  have hr := r₁.isLt
  have hw := (wid L).isLt
  have v0 : ((0 : Fin 5) : ℕ) = 0 := rfl
  have v1 : ((1 : Fin 5) : ℕ) = 1 := rfl
  have v2 : ((2 : Fin 5) : ℕ) = 2 := rfl
  have v3 : ((3 : Fin 5) : ℕ) = 3 := rfl
  have v4 : ((4 : Fin 5) : ℕ) = 4 := rfl
  obtain ⟨B, hB⟩ : ∃ B, B = 25600 * (wid L).val + 1280 * t.val + 640 * r₁.val := ⟨_, rfl⟩
  have e0 : doneH L (2 * t.val + r₁.val) = rowsR (25600 * (wid L).val) B := by
    ext j; rw [mem_doneH, mem_rowsR]; omega
  have e1 : doneH L (2 * t.val + r₁.val + 1) = rowsR (25600 * (wid L).val) (B + 640) := by
    ext j; rw [mem_doneH, mem_rowsR]; omega
  have c0 : (chunkM L t r₁ 0).view.set = rowsR B (B + 128) := by rw [chunk_rows, v0]; congr 1 <;> omega
  have c1 : (chunkM L t r₁ 1).view.set = rowsR (B + 128) (B + 256) := by rw [chunk_rows, v1]; congr 1 <;> omega
  have c2 : (chunkM L t r₁ 2).view.set = rowsR (B + 256) (B + 384) := by rw [chunk_rows, v2]; congr 1 <;> omega
  have c3 : (chunkM L t r₁ 3).view.set = rowsR (B + 384) (B + 512) := by rw [chunk_rows, v3]; congr 1 <;> omega
  have c4 : (chunkM L t r₁ 4).view.set = rowsR (B + 512) (B + 640) := by rw [chunk_rows, v4]; congr 1 <;> omega
  rw [e0, e1, c0, c1, c2, c3, c4]
  rw [rows_split d (lo := 25600 * (wid L).val) (mid := B) (hi := B + 640) (by omega) (by omega),
    rows_split d (lo := B) (mid := B + 128) (hi := B + 640) (by omega) (by omega),
    rows_split d (lo := B + 128) (mid := B + 256) (hi := B + 640) (by omega) (by omega),
    rows_split d (lo := B + 256) (mid := B + 384) (hi := B + 640) (by omega) (by omega),
    rows_split d (lo := B + 384) (mid := B + 512) (hi := B + 640) (by omega) (by omega)]

/-! ## The two scratch buffers: the index scratch's two slots, the row scratch's five row buffers -/

set_option quotPrecheck false in
local notation "slotS0" => ((Memref.whole Cert.KernelIdeal.cc1_scratch0 : Memref Cert.KernelIdeal.sig Kind.scVector Space.vmem Cert.KernelIdeal.S2x5x128 EltTy.i32).view.setOn (Rect.unit (s := Cert.KernelIdeal.S2x5x128) ![0, 0, 0] Cert.KernelIdeal.S1x5x128.size Cert.KernelIdeal.Facts₀.inb_S2x5x128_S1x5x128_0_0_0).set)
set_option quotPrecheck false in
local notation "slotS1" => ((Memref.whole Cert.KernelIdeal.cc1_scratch0 : Memref Cert.KernelIdeal.sig Kind.scVector Space.vmem Cert.KernelIdeal.S2x5x128 EltTy.i32).view.setOn (Rect.unit (s := Cert.KernelIdeal.S2x5x128) ![1, 0, 0] Cert.KernelIdeal.S1x5x128.size Cert.KernelIdeal.Facts₀.inb_S2x5x128_S1x5x128_1_0_0).set)

/-- Slots [lo, hi) of the index scratch: its elements whose first coordinate lies there. -/
def slotsR (lo hi : ℕ) : Finset S2x5x128.Idx := Finset.univ.filter fun j => lo ≤ (j 0).val ∧ (j 0).val < hi
/-- Row buffers [lo, hi) of the row scratch. -/
def planesR (lo hi : ℕ) : Finset S5x128x128.Idx := Finset.univ.filter fun j => lo ≤ (j 0).val ∧ (j 0).val < hi

theorem mem_slotsR (lo hi : ℕ) (j : S2x5x128.Idx) : j ∈ slotsR lo hi ↔ lo ≤ (j 0).val ∧ (j 0).val < hi := by
  simp only [slotsR, Finset.mem_filter, Finset.mem_univ, true_and]
theorem mem_planesR (lo hi : ℕ) (j : S5x128x128.Idx) : j ∈ planesR lo hi ↔ lo ≤ (j 0).val ∧ (j 0).val < hi := by
  simp only [planesR, Finset.mem_filter, Finset.mem_univ, true_and]

theorem slotsR_univ : slotsR 0 2 = Finset.univ := by
  ext j
  have h0 : ((j 0 : Fin 2) : ℕ) < 2 := (j 0).isLt
  simp only [mem_slotsR, Finset.mem_univ, iff_true]
  omega
theorem planesR_univ : planesR 0 5 = Finset.univ := by
  ext j
  have h0 : ((j 0 : Fin 5) : ℕ) < 5 := (j 0).isLt
  simp only [mem_planesR, Finset.mem_univ, iff_true]
  omega

theorem slotsR_disjoint {lo mid hi : ℕ} : Disjoint (slotsR lo mid) (slotsR mid hi) := by
  rw [Finset.disjoint_left]
  intro j hj hj'
  rw [mem_slotsR] at hj hj'
  omega
theorem slotsR_union {lo mid hi : ℕ} (h1 : lo ≤ mid) (h2 : mid ≤ hi) : slotsR lo mid ∪ slotsR mid hi = slotsR lo hi := by
  ext j
  simp only [Finset.mem_union, mem_slotsR]
  omega
theorem planesR_disjoint {lo mid hi : ℕ} : Disjoint (planesR lo mid) (planesR mid hi) := by
  rw [Finset.disjoint_left]
  intro j hj hj'
  rw [mem_planesR] at hj hj'
  omega
theorem planesR_union {lo mid hi : ℕ} (h1 : lo ≤ mid) (h2 : mid ≤ hi) : planesR lo mid ∪ planesR mid hi = planesR lo hi := by
  ext j
  simp only [Finset.mem_union, mem_planesR]
  omega

/-- Slot p as the program addresses it is the elements with first coordinate p. -/
theorem slot_set (p : ℕ) (inb : ∀ a, (![p, 0, 0] : Fin 3 → ℕ) a + S1x5x128.size a ≤ S2x5x128.size a) :
    ((sV).view.setOn (Rect.unit (s := S2x5x128) ![p, 0, 0] S1x5x128.size inb).set : Finset S2x5x128.Idx) = slotsR p (p + 1) := by
  ext j
  show j ∈ Finset.map (Function.Embedding.refl _) (Rect.unit (s := S2x5x128) ![p, 0, 0] S1x5x128.size inb).set ↔ _
  rw [Finset.map_refl, Rect.mem_set_unit, mem_slotsR]
  have h1 : ((j 1 : Fin 5) : ℕ) < 5 := (j 1).isLt
  have h2 : ((j 2 : Fin 128) : ℕ) < 128 := (j 2).isLt
  refine ⟨fun h => ?_, fun h a => ?_⟩
  · have h0 : p ≤ (j 0).val ∧ (j 0).val < p + 1 := h 0
    omega
  · match a with
    | 0 => show p ≤ (j 0).val ∧ (j 0).val < p + 1; omega
    | 1 => show 0 ≤ (j 1).val ∧ (j 1).val < 0 + 5; omega
    | 2 => show 0 ≤ (j 2).val ∧ (j 2).val < 0 + 128; omega

/-- Row buffer b as the program addresses it is the elements with first coordinate b. -/
theorem plane_set (b : ℕ) (inb : ∀ a, (![b, 0, 0] : Fin 3 → ℕ) a + S1x128x128.size a ≤ S5x128x128.size a) :
    ((((rV).slice (Rect.unit (s := S5x128x128) ![b, 0, 0] S1x128x128.size inb) (fun _ => rfl)).squeeze S128x128 squeezes_S1x128x128_S128x128).view.set : Finset S5x128x128.Idx) = planesR b (b + 1) := by
  ext j
  show j ∈ (((View.whole (cc1_scratch1 : Ref sig .scVector)).slice (Rect.unit (s := S5x128x128) ![b, 0, 0] S1x128x128.size inb)).reshape S128x128 squeezes_S1x128x128_S128x128.numel_eq).set ↔ _
  rw [View.set_reshape, View.set_slice_whole, Rect.mem_set_unit, mem_planesR]
  have h1 : ((j 1 : Fin 128) : ℕ) < 128 := (j 1).isLt
  have h2 : ((j 2 : Fin 128) : ℕ) < 128 := (j 2).isLt
  refine ⟨fun h => ?_, fun h a => ?_⟩
  · have h0 : b ≤ (j 0).val ∧ (j 0).val < b + 1 := h 0
    omega
  · match a with
    | 0 => show b ≤ (j 0).val ∧ (j 0).val < b + 1; omega
    | 1 => show 0 ≤ (j 1).val ∧ (j 1).val < 0 + 128; omega
    | 2 => show 0 ≤ (j 2).val ∧ (j 2).val < 0 + 128; omega

theorem scratch0_split (f : Buf (Elt F) ((thrV d L).loc cc1_scratch0)) :
    ((thrV d L).loc cc1_scratch0 ↦{fullShare} f : sProp 𝕄) ⊣⊢ iprop(((sV).view.loc (thrV d L) ↦[slotS0]{fullShare} f) ∗ ((sV).view.loc (thrV d L) ↦[slotS1]{fullShare} f)) := by
  refine BiEntails.of_eq ?_
  show ((thrV d L).loc cc1_scratch0 ↦[(Finset.univ : Finset S2x5x128.Idx)]{fullShare} f : sProp 𝕄)
    = iprop(((thrV d L).loc cc1_scratch0 ↦[(slotS0 : Finset S2x5x128.Idx)]{fullShare} f) ∗ ((thrV d L).loc cc1_scratch0 ↦[(slotS1 : Finset S2x5x128.Idx)]{fullShare} f))
  rw [slot_set 0, slot_set 1, ← slotsR_univ, ← slotsR_union (lo := 0) (mid := 1) (hi := 2) (by omega) (by omega)]
  exact eq_of_bi (pointsTo_union (ℓ := (thrV d L).loc cc1_scratch0) slotsR_disjoint)

theorem scratch0_join (f g : Buf (Elt F) ((thrV d L).loc cc1_scratch0)) :
    iprop(((sV).view.loc (thrV d L) ↦[slotS0]{fullShare} f) ∗ ((sV).view.loc (thrV d L) ↦[slotS1]{fullShare} g))
      ⊢ (iprop(∃ h, (thrV d L).loc cc1_scratch0 ↦{fullShare} h) : sProp 𝕄) := by
  show iprop(((thrV d L).loc cc1_scratch0 ↦[(slotS0 : Finset S2x5x128.Idx)]{fullShare} f) ∗ ((thrV d L).loc cc1_scratch0 ↦[(slotS1 : Finset S2x5x128.Idx)]{fullShare} g))
      ⊢ (iprop(∃ h, (thrV d L).loc cc1_scratch0 ↦[(Finset.univ : Finset S2x5x128.Idx)]{fullShare} h) : sProp 𝕄)
  rw [slot_set 0, slot_set 1, ← slotsR_univ, ← slotsR_union (lo := 0) (mid := 1) (hi := 2) (by omega) (by omega)]
  exact (pointsTo_join (ℓ := (thrV d L).loc cc1_scratch0) slotsR_disjoint).trans (exists_intro (Φ := fun h => ((thrV d L).loc cc1_scratch0 ↦[slotsR 0 (0 + 1) ∪ slotsR 1 (1 + 1)]{fullShare} h : sProp 𝕄)) _)

/-- A run of row buffers cut at one in between. -/
theorem planes_split {lo mid hi : ℕ} (h1 : lo ≤ mid) (h2 : mid ≤ hi) (f : Buf (Elt F) ((thrV d L).loc cc1_scratch1)) :
    ((thrV d L).loc cc1_scratch1 ↦[planesR lo hi]{fullShare} f : sProp 𝕄)
      = iprop(((thrV d L).loc cc1_scratch1 ↦[planesR lo mid]{fullShare} f) ∗ (thrV d L).loc cc1_scratch1 ↦[planesR mid hi]{fullShare} f) := by
  rw [← planesR_union h1 h2]
  exact eq_of_bi (pointsTo_union (ℓ := (thrV d L).loc cc1_scratch1) planesR_disjoint)

/-- A row buffer at one contents joins a run of the following ones at some contents. -/
theorem planes_join {lo mid hi : ℕ} (h1 : lo ≤ mid) (h2 : mid ≤ hi) (f : Buf (Elt F) ((thrV d L).loc cc1_scratch1)) :
    iprop(((thrV d L).loc cc1_scratch1 ↦[planesR lo mid]{fullShare} f) ∗ ∃ g, (thrV d L).loc cc1_scratch1 ↦[planesR mid hi]{fullShare} g)
      ⊢ (iprop(∃ h, (thrV d L).loc cc1_scratch1 ↦[planesR lo hi]{fullShare} h) : sProp 𝕄) := by
  refine sep_exists_left.1.trans (exists_elim fun g => ?_)
  rw [← planesR_union h1 h2]
  exact (pointsTo_join (ℓ := (thrV d L).loc cc1_scratch1) planesR_disjoint).trans
    (exists_intro (Φ := fun h => ((thrV d L).loc cc1_scratch1 ↦[planesR lo mid ∪ planesR mid hi]{fullShare} h : sProp 𝕄)) _)

theorem scratch1_split (f : Buf (Elt F) ((thrV d L).loc cc1_scratch1)) :
    ((thrV d L).loc cc1_scratch1 ↦{fullShare} f : sProp 𝕄) ⊣⊢ iprop(((rowM0).view.loc (thrV d L) ↦[(rowM0).view.set]{fullShare} f) ∗ ((rowM1).view.loc (thrV d L) ↦[(rowM1).view.set]{fullShare} f)
      ∗ ((rowM2).view.loc (thrV d L) ↦[(rowM2).view.set]{fullShare} f) ∗ ((rowM3).view.loc (thrV d L) ↦[(rowM3).view.set]{fullShare} f) ∗ ((rowM4).view.loc (thrV d L) ↦[(rowM4).view.set]{fullShare} f)) := by
  refine BiEntails.of_eq ?_
  show ((thrV d L).loc cc1_scratch1 ↦[(Finset.univ : Finset S5x128x128.Idx)]{fullShare} f : sProp 𝕄)
    = iprop(((thrV d L).loc cc1_scratch1 ↦[((rowM0).view.set : Finset S5x128x128.Idx)]{fullShare} f) ∗ ((thrV d L).loc cc1_scratch1 ↦[((rowM1).view.set : Finset S5x128x128.Idx)]{fullShare} f)
      ∗ ((thrV d L).loc cc1_scratch1 ↦[((rowM2).view.set : Finset S5x128x128.Idx)]{fullShare} f) ∗ ((thrV d L).loc cc1_scratch1 ↦[((rowM3).view.set : Finset S5x128x128.Idx)]{fullShare} f)
      ∗ ((thrV d L).loc cc1_scratch1 ↦[((rowM4).view.set : Finset S5x128x128.Idx)]{fullShare} f))
  rw [plane_set 0, plane_set 1, plane_set 2, plane_set 3, plane_set 4, ← planesR_univ,
    planes_split d L (lo := 0) (mid := 0 + 1) (hi := 5) (by omega) (by omega),
    planes_split d L (lo := 0 + 1) (mid := 1 + 1) (hi := 5) (by omega) (by omega),
    planes_split d L (lo := 1 + 1) (mid := 2 + 1) (hi := 5) (by omega) (by omega),
    planes_split d L (lo := 2 + 1) (mid := 3 + 1) (hi := 5) (by omega) (by omega)]

theorem scratch1_join (f0 f1 f2 f3 f4 : Buf (Elt F) ((thrV d L).loc cc1_scratch1)) :
    iprop(((rowM0).view.loc (thrV d L) ↦[(rowM0).view.set]{fullShare} f0) ∗ ((rowM1).view.loc (thrV d L) ↦[(rowM1).view.set]{fullShare} f1)
      ∗ ((rowM2).view.loc (thrV d L) ↦[(rowM2).view.set]{fullShare} f2) ∗ ((rowM3).view.loc (thrV d L) ↦[(rowM3).view.set]{fullShare} f3) ∗ ((rowM4).view.loc (thrV d L) ↦[(rowM4).view.set]{fullShare} f4))
      ⊢ (iprop(∃ h, (thrV d L).loc cc1_scratch1 ↦{fullShare} h) : sProp 𝕄) := by
  show iprop(((thrV d L).loc cc1_scratch1 ↦[((rowM0).view.set : Finset S5x128x128.Idx)]{fullShare} f0) ∗ ((thrV d L).loc cc1_scratch1 ↦[((rowM1).view.set : Finset S5x128x128.Idx)]{fullShare} f1)
      ∗ ((thrV d L).loc cc1_scratch1 ↦[((rowM2).view.set : Finset S5x128x128.Idx)]{fullShare} f2) ∗ ((thrV d L).loc cc1_scratch1 ↦[((rowM3).view.set : Finset S5x128x128.Idx)]{fullShare} f3)
      ∗ ((thrV d L).loc cc1_scratch1 ↦[((rowM4).view.set : Finset S5x128x128.Idx)]{fullShare} f4))
      ⊢ (iprop(∃ h, (thrV d L).loc cc1_scratch1 ↦[(Finset.univ : Finset S5x128x128.Idx)]{fullShare} h) : sProp 𝕄)
  rw [plane_set 0, plane_set 1, plane_set 2, plane_set 3, plane_set 4, ← planesR_univ]
  have j4 : iprop(((thrV d L).loc cc1_scratch1 ↦[planesR 3 (3 + 1)]{fullShare} f3) ∗ ((thrV d L).loc cc1_scratch1 ↦[planesR 4 (4 + 1)]{fullShare} f4))
      ⊢ (iprop(∃ h, (thrV d L).loc cc1_scratch1 ↦[planesR 3 5]{fullShare} h) : sProp 𝕄) :=
    (sep_mono_right (exists_intro (Φ := fun g => ((thrV d L).loc cc1_scratch1 ↦[planesR 4 (4 + 1)]{fullShare} g : sProp 𝕄)) f4)).trans
      (planes_join d L (lo := 3) (mid := 3 + 1) (hi := 4 + 1) (by omega) (by omega) f3)
  have j3 : iprop(((thrV d L).loc cc1_scratch1 ↦[planesR 2 (2 + 1)]{fullShare} f2) ∗ ((thrV d L).loc cc1_scratch1 ↦[planesR 3 (3 + 1)]{fullShare} f3)
      ∗ ((thrV d L).loc cc1_scratch1 ↦[planesR 4 (4 + 1)]{fullShare} f4))
      ⊢ (iprop(∃ h, (thrV d L).loc cc1_scratch1 ↦[planesR 2 5]{fullShare} h) : sProp 𝕄) :=
    (sep_mono_right j4).trans (planes_join d L (lo := 2) (mid := 2 + 1) (hi := 5) (by omega) (by omega) f2)
  have j2 : iprop(((thrV d L).loc cc1_scratch1 ↦[planesR 1 (1 + 1)]{fullShare} f1) ∗ ((thrV d L).loc cc1_scratch1 ↦[planesR 2 (2 + 1)]{fullShare} f2)
      ∗ ((thrV d L).loc cc1_scratch1 ↦[planesR 3 (3 + 1)]{fullShare} f3) ∗ ((thrV d L).loc cc1_scratch1 ↦[planesR 4 (4 + 1)]{fullShare} f4))
      ⊢ (iprop(∃ h, (thrV d L).loc cc1_scratch1 ↦[planesR 1 5]{fullShare} h) : sProp 𝕄) :=
    (sep_mono_right j3).trans (planes_join d L (lo := 1) (mid := 1 + 1) (hi := 5) (by omega) (by omega) f1)
  exact (sep_mono_right j2).trans (planes_join d L (lo := 0) (mid := 0 + 1) (hi := 5) (by omega) (by omega) f0)

/-! ## The table's read tokens: five for the gathers in flight, the rest kept aside -/

/-- What is kept of the table's share beside the five tokens lent to the gathers: the remainder after twelve tokens and the
    first seven tokens. -/
def tableRest (d : Dev nD) (qt : PosShare TreeShare) (ft : Buf (Elt F) (tLoc d)) : sProp 𝕄 :=
  iprop((tLoc d ↦{Transfers.shareDrop qt 12} ft) ∗ bigSep (Finset.range 7) fun i => tLoc d ↦{Transfers.shareTokN qt i} ft)

/-- The product over the first n + 1 naturals is the n-th factor and the product over the first n. -/
theorem bigSep_range_succ (Φ : ℕ → sProp 𝕄) (n : ℕ) :
    bigSep (Finset.range (n + 1)) Φ = iprop(Φ n ∗ bigSep (Finset.range n) Φ) := by
  rw [Finset.range_add_one, BI.bigSep_insert Finset.notMem_range_self]
  rfl

theorem table_split (qt : PosShare TreeShare) (ft : Buf (Elt F) (tLoc d)) :
    (tLoc d ↦{qt} ft : sProp 𝕄) ⊣⊢ iprop(tableRest d qt ft ∗ ((tV).view.loc (thrV d L) ↦{Transfers.shareTokN qt 7} ft) ∗ ((tV).view.loc (thrV d L) ↦{Transfers.shareTokN qt 8} ft)
      ∗ ((tV).view.loc (thrV d L) ↦{Transfers.shareTokN qt 9} ft) ∗ ((tV).view.loc (thrV d L) ↦{Transfers.shareTokN qt 10} ft) ∗ ((tV).view.loc (thrV d L) ↦{Transfers.shareTokN qt 11} ft)) := by
  show (tLoc d ↦{qt} ft : sProp 𝕄) ⊣⊢ iprop(tableRest d qt ft ∗ (tLoc d ↦{Transfers.shareTokN qt 7} ft) ∗ (tLoc d ↦{Transfers.shareTokN qt 8} ft)
      ∗ (tLoc d ↦{Transfers.shareTokN qt 9} ft) ∗ (tLoc d ↦{Transfers.shareTokN qt 10} ft) ∗ (tLoc d ↦{Transfers.shareTokN qt 11} ft))
  have h12 : bigSep (Finset.range 12) (fun i => (tLoc d ↦{Transfers.shareTokN qt i} ft : sProp 𝕄))
      = iprop((tLoc d ↦{Transfers.shareTokN qt 11} ft) ∗ (tLoc d ↦{Transfers.shareTokN qt 10} ft) ∗ (tLoc d ↦{Transfers.shareTokN qt 9} ft)
        ∗ (tLoc d ↦{Transfers.shareTokN qt 8} ft) ∗ (tLoc d ↦{Transfers.shareTokN qt 7} ft)
        ∗ bigSep (Finset.range 7) (fun i => (tLoc d ↦{Transfers.shareTokN qt i} ft : sProp 𝕄))) := by
    rw [bigSep_range_succ _ 11, bigSep_range_succ _ 10, bigSep_range_succ _ 9, bigSep_range_succ _ 8, bigSep_range_succ _ 7]
  refine (Transfers.pointsTo_toks_range (ℓ := tLoc d) (S := Finset.univ) (f := ft) qt 12).trans ?_
  rw [h12]
  unfold tableRest
  constructor
  · iintro ⟨Hd, H11, H10, H9, H8, H7, HR⟩
    isplitl [Hd HR]
    · isplitl [Hd]; · iexact Hd
      iexact HR
    isplitl [H7]; · iexact H7
    isplitl [H8]; · iexact H8
    isplitl [H9]; · iexact H9
    isplitl [H10]; · iexact H10
    iexact H11
  · iintro ⟨⟨Hd, HR⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact HR

/-! ## The semaphores: the eleven the task uses, each at zero, and the tile's other cells -/

/-- Nested separating conjunctions re-bracket to the right. -/
theorem sep_assoc_eq {P Q R : sProp 𝕄} : iprop((P ∗ Q) ∗ R) = iprop(P ∗ Q ∗ R) := eq_of_bi sep_assoc

/-- Distinct semaphores of the tile are distinct cells. -/
theorem cellOf_injective : Function.Injective (cellOf d L) := fun a b h => SemLoc.dma.inj (congrArg Prod.snd h)

/-- Each of the eleven semaphores is scoped to the vector subcore. -/
theorem semList_scoped : ∀ s ∈ semList, (SemLoc.dma s : SemLoc sig).isScoped .scVector = true := by decide

/-- The eleven cells are among the tile's own. -/
theorem semCells_subset : semList.toFinset.image (cellOf d L) ⊆ ownCells (thrV d L) := by
  intro g hg
  obtain ⟨s, hs, rfl⟩ := Finset.mem_image.mp hg
  exact mem_ownCells.mpr ⟨rfl, semList_scoped s (List.mem_toFinset.mp hs)⟩

theorem ownSems0_V :
    (ownSems0 (thrV d L) : sProp 𝕄) = iprop(semVal (thrV d L, SemLoc.dma isemS) 0
      ∗ (semVal (thrV d L, SemLoc.dma gsemS0) 0 ∗ semVal (thrV d L, SemLoc.dma gsemS1) 0 ∗ semVal (thrV d L, SemLoc.dma gsemS2) 0 ∗ semVal (thrV d L, SemLoc.dma gsemS3) 0 ∗ semVal (thrV d L, SemLoc.dma gsemS4) 0)
      ∗ (semVal (thrV d L, SemLoc.dma wsemS0) 0 ∗ semVal (thrV d L, SemLoc.dma wsemS1) 0 ∗ semVal (thrV d L, SemLoc.dma wsemS2) 0 ∗ semVal (thrV d L, SemLoc.dma wsemS3) 0 ∗ semVal (thrV d L, SemLoc.dma wsemS4) 0)
      ∗ bigSep (otherCells d L) fun g => semVal g 0) := by
  unfold SparseCore.Cfg.ownSems0
  rw [SparseCore.bigSep_sdiff_split' (semCells_subset d L)]
  have himg : bigSep (semList.toFinset.image (cellOf d L)) (fun g => (semVal g 0 : sProp 𝕄))
      = bigSep semList.toFinset (fun s => (semVal (cellOf d L s) 0 : sProp 𝕄)) := by
    have e : Finset.image (cellOf d L) semList.toFinset = semList.toFinset.map ⟨cellOf d L, cellOf_injective d L⟩ :=
      (Finset.map_eq_image ⟨cellOf d L, cellOf_injective d L⟩ semList.toFinset).symm
    rw [e, BI.bigSep_map]
    rfl
  have h0 : isemS ∉ ({gsemS0, gsemS1, gsemS2, gsemS3, gsemS4, wsemS0, wsemS1, wsemS2, wsemS3, wsemS4} : Finset (DmaSem sig)) := by decide
  have h1 : gsemS0 ∉ ({gsemS1, gsemS2, gsemS3, gsemS4, wsemS0, wsemS1, wsemS2, wsemS3, wsemS4} : Finset (DmaSem sig)) := by decide
  have h2 : gsemS1 ∉ ({gsemS2, gsemS3, gsemS4, wsemS0, wsemS1, wsemS2, wsemS3, wsemS4} : Finset (DmaSem sig)) := by decide
  have h3 : gsemS2 ∉ ({gsemS3, gsemS4, wsemS0, wsemS1, wsemS2, wsemS3, wsemS4} : Finset (DmaSem sig)) := by decide
  have h4 : gsemS3 ∉ ({gsemS4, wsemS0, wsemS1, wsemS2, wsemS3, wsemS4} : Finset (DmaSem sig)) := by decide
  have h5 : gsemS4 ∉ ({wsemS0, wsemS1, wsemS2, wsemS3, wsemS4} : Finset (DmaSem sig)) := by decide
  have h6 : wsemS0 ∉ ({wsemS1, wsemS2, wsemS3, wsemS4} : Finset (DmaSem sig)) := by decide
  have h7 : wsemS1 ∉ ({wsemS2, wsemS3, wsemS4} : Finset (DmaSem sig)) := by decide
  have h8 : wsemS2 ∉ ({wsemS3, wsemS4} : Finset (DmaSem sig)) := by decide
  have h9 : wsemS3 ∉ ({wsemS4} : Finset (DmaSem sig)) := by decide
  have hlist : semList.toFinset = ({isemS, gsemS0, gsemS1, gsemS2, gsemS3, gsemS4, wsemS0, wsemS1, wsemS2, wsemS3, wsemS4} : Finset (DmaSem sig)) := by
    simp only [List.toFinset_cons, List.toFinset_nil, insert_empty_eq]
  rw [himg, hlist, SparseCore.bigSep_insert' h0, SparseCore.bigSep_insert' h1, SparseCore.bigSep_insert' h2, SparseCore.bigSep_insert' h3,
    SparseCore.bigSep_insert' h4, SparseCore.bigSep_insert' h5, SparseCore.bigSep_insert' h6, SparseCore.bigSep_insert' h7,
    SparseCore.bigSep_insert' h8, SparseCore.bigSep_insert' h9, BI.bigSep_singleton]
  simp only [sep_assoc_eq]
  rfl

theorem ownBufs_V :
    (ownBufs (thrV d L) : sProp 𝕄) = iprop((∃ f, (thrV d L).loc cc1_scratch0 ↦{fullShare} f) ∗ (∃ f, (thrV d L).loc cc1_scratch1 ↦{fullShare} f)
      ∗ bigSep (((ownRefs (τ := τ) (.scVector (cV L) (jV L))).erase ((Proc.scVector (cV L) (jV L)).devRef cc1_scratch0)).erase ((Proc.scVector (cV L) (jV L)).devRef cc1_scratch1))
          fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Cert.Proof.KI
end
-- ==== Proof.KI.TileDefs2.lean ====
import proofs.«204608_g3015067042085_cont_9to1_1138_29_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  The ten offset lists of a tile's task: row `b` of slot `p` of the index scratch, 128 words, as the gathers address it.
-/

local notation "iV" => (Memref.whole Cert.KernelIdeal.main_v1_scv : Memref Cert.KernelIdeal.sig Kind.scVector Space.hbm Cert.KernelIdeal.S1280x5x128 EltTy.i32)
local notation "tV" => (Memref.whole Cert.KernelIdeal.main_v0_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S2x5x128 EltTy.i32)
local notation "rV" => (Memref.whole Cert.KernelIdeal.cc1_scratch1 : Memref Cert.KernelIdeal.sig Kind.scVector Space.vmem Cert.KernelIdeal.S5x128x128 EltTy.f32)

abbrev listM00 : Memref sig .scVector .vmem S128 .i32 :=
  ((sV).slice (Rect.unit (s := S2x5x128) ![0, 0, 0] S1x1x128.size inb_S2x5x128_S1x1x128_0_0_0) (fun _ => rfl)).squeeze S128 squeezes_S1x1x128_S128
abbrev listM01 : Memref sig .scVector .vmem S128 .i32 :=
  ((sV).slice (Rect.unit (s := S2x5x128) ![0, 1, 0] S1x1x128.size inb_S2x5x128_S1x1x128_0_1_0) (fun _ => rfl)).squeeze S128 squeezes_S1x1x128_S128
abbrev listM02 : Memref sig .scVector .vmem S128 .i32 :=
  ((sV).slice (Rect.unit (s := S2x5x128) ![0, 2, 0] S1x1x128.size inb_S2x5x128_S1x1x128_0_2_0) (fun _ => rfl)).squeeze S128 squeezes_S1x1x128_S128
abbrev listM03 : Memref sig .scVector .vmem S128 .i32 :=
  ((sV).slice (Rect.unit (s := S2x5x128) ![0, 3, 0] S1x1x128.size inb_S2x5x128_S1x1x128_0_3_0) (fun _ => rfl)).squeeze S128 squeezes_S1x1x128_S128
abbrev listM04 : Memref sig .scVector .vmem S128 .i32 :=
  ((sV).slice (Rect.unit (s := S2x5x128) ![0, 4, 0] S1x1x128.size inb_S2x5x128_S1x1x128_0_4_0) (fun _ => rfl)).squeeze S128 squeezes_S1x1x128_S128
abbrev listM10 : Memref sig .scVector .vmem S128 .i32 :=
  ((sV).slice (Rect.unit (s := S2x5x128) ![1, 0, 0] S1x1x128.size inb_S2x5x128_S1x1x128_1_0_0) (fun _ => rfl)).squeeze S128 squeezes_S1x1x128_S128
abbrev listM11 : Memref sig .scVector .vmem S128 .i32 :=
  ((sV).slice (Rect.unit (s := S2x5x128) ![1, 1, 0] S1x1x128.size inb_S2x5x128_S1x1x128_1_1_0) (fun _ => rfl)).squeeze S128 squeezes_S1x1x128_S128
abbrev listM12 : Memref sig .scVector .vmem S128 .i32 :=
  ((sV).slice (Rect.unit (s := S2x5x128) ![1, 2, 0] S1x1x128.size inb_S2x5x128_S1x1x128_1_2_0) (fun _ => rfl)).squeeze S128 squeezes_S1x1x128_S128
abbrev listM13 : Memref sig .scVector .vmem S128 .i32 :=
  ((sV).slice (Rect.unit (s := S2x5x128) ![1, 3, 0] S1x1x128.size inb_S2x5x128_S1x1x128_1_3_0) (fun _ => rfl)).squeeze S128 squeezes_S1x1x128_S128
abbrev listM14 : Memref sig .scVector .vmem S128 .i32 :=
  ((sV).slice (Rect.unit (s := S2x5x128) ![1, 4, 0] S1x1x128.size inb_S2x5x128_S1x1x128_1_4_0) (fun _ => rfl)).squeeze S128 squeezes_S1x1x128_S128

end Cert.Proof.KI
end
-- ==== Proof.KI.TileValue.lean ====
/-
  The values a tile's task moves, as index equations.  An index copy reads block `40 w + k` of the index array (the block
  number from the printed offset functions in closed form); row `b` of a slot of the index scratch, read as a list of 128
  words, is the slot at `(b, x)`; and a chunk written out of a row buffer that holds the rows gathered by the list equal to
  row `b` of index block `40 w + 2 t + r₁` holds row `25600 w + 1280 t + 640 r₁ + 128 b + y` of the result: the table's row
  named by the flat index at that position, since that position is block `40 w + 2 t + r₁`, row `b`, lane `y`.
-/
import Idealize.ShloMosaic.Lib.ValueLayout
import proofs.«204608_g3015067042085_cont_9to1_1138_29_alg».proof.Proof.KI.TileDefs2

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

local notation "iV" => (Memref.whole Cert.KernelIdeal.main_v1_scv : Memref Cert.KernelIdeal.sig Kind.scVector Space.hbm Cert.KernelIdeal.S1280x5x128 EltTy.i32)
local notation "tV" => (Memref.whole Cert.KernelIdeal.main_v0_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S2x5x128 EltTy.i32)
local notation "rV" => (Memref.whole Cert.KernelIdeal.cc1_scratch1 : Memref Cert.KernelIdeal.sig Kind.scVector Space.vmem Cert.KernelIdeal.S5x128x128 EltTy.f32)

/-! ## A squeeze's index map for the two squeezes of the index scratch and the index blocks -/

/-- A 128-list's index matched with `[1, 1, 128]` is `(0, 0, x)`. -/
theorem re_S128 {n : ℕ} (h : (⟨1, ![n]⟩ : Shape).numel = (⟨3, ![1, 1, n]⟩ : Shape).numel) (x : (⟨1, ![n]⟩ : Shape).Idx) :
    Shape.reshapeEquiv h x = ix3 (n2 := n) (⟨0, Nat.one_pos⟩ : Fin 1) (⟨0, Nat.one_pos⟩ : Fin 1) (x 0) :=
  Shape.reshapeEquiv_eq_of_rowMajor h (by
    rw [Shape.rowMajor_val_three, Shape.rowMajor_val_one]
    show ((0 * 1 + 0) * n + (x 0).val) = (x 0).val
    simp only [Nat.zero_mul, Nat.zero_add])

/-- A `[5, 128]` index matched with `[1, 5, 128]` is `(0, y₀, y₁)`. -/
theorem re_S5x128 {a b : ℕ} (h : (⟨2, ![a, b]⟩ : Shape).numel = (⟨3, ![1, a, b]⟩ : Shape).numel) (y : (⟨2, ![a, b]⟩ : Shape).Idx) :
    Shape.reshapeEquiv h y = ix3 (n1 := a) (n2 := b) (⟨0, Nat.one_pos⟩ : Fin 1) (y 0) (y 1) :=
  (congrArg _ (eq_ix2 y)).trans (reshapeEquiv_ix2_1ab h (y 0) (y 1))

section
variable (d : Dev nD) (L : grid1.Coords)

/-! ## What an index copy reads -/

/-- The prologue's index block is block `40 w` of the index array. -/
theorem iblk0_read (fi : Buf (Elt F) (iLoc d)) (y : S5x128.Idx) :
    (iblkM0 L).view.read (Elt F) fi y = fi (ix3 ⟨40 * (wid L).val, by have := (wid L).isLt; omega⟩ (y 0) (y 1)) := by
  show fi ((iblkM0 L).view.emb y) = _
  have he : (iblkM0 L).view.emb y = (Rect.unit (s := S1280x5x128) (k1_off1 L) S1x5x128.size (k1_off1_inb L)).emb
      (Shape.reshapeEquiv squeezes_S1x5x128_S5x128.numel_eq y) := rfl
  rw [he, re_S5x128]
  refine congrArg _ (funext fun a => Fin.ext ?_)
  have e := k1_off1_eq L
  have hw : (wid L).val = 2 * (L 1).val + (L 0).val := rfl
  match a with
  | ⟨0, _⟩ => show k1_off1 L 0 + 1 * 0 = 40 * (wid L).val; rw [e]; show 80 * (L 1).val + 40 * (L 0).val + 1 * 0 = _; omega
  | ⟨1, _⟩ => show k1_off1 L 1 + 1 * (y 0).val = (y 0).val; rw [e]; show 0 + 1 * (y 0).val = _; omega
  | ⟨2, _⟩ => show k1_off1 L 2 + 1 * (y 1).val = (y 1).val; rw [e]; show 0 + 1 * (y 1).val = _; omega

/-- The index block trip `t`'s half `r` fetches is block `40 w + min (2 t + r + 1) 39`. -/
theorem iblk_read (t : Fin k1_t1_loop.trips) (r : Fin 2) (fi : Buf (Elt F) (iLoc d)) (y : S5x128.Idx) :
    (iblkM L t r).view.read (Elt F) fi y
      = fi (ix3 ⟨40 * (wid L).val + min (2 * t.val + r.val + 1) 39, by have := (wid L).isLt; omega⟩ (y 0) (y 1)) := by
  show fi ((iblkM L t r).view.emb y) = _
  have he : (iblkM L t r).view.emb y = (Rect.unit (s := S1280x5x128) (k1_off2 L t (BitVec.ofNat 32 r.val)) S1x5x128.size (k1_off2_inb L t r)).emb
      (Shape.reshapeEquiv squeezes_S1x5x128_S5x128.numel_eq y) := rfl
  rw [he, re_S5x128]
  refine congrArg _ (funext fun a => Fin.ext ?_)
  have e := k1_off2_eq L t r
  have hw : (wid L).val = 2 * (L 1).val + (L 0).val := rfl
  match a with
  | ⟨0, _⟩ =>
    show k1_off2 L t (BitVec.ofNat 32 r.val) 0 + 1 * 0 = 40 * (wid L).val + min (2 * t.val + r.val + 1) 39
    rw [e]; show 80 * (L 1).val + 40 * (L 0).val + min (2 * t.val + r.val + 1) 39 + 1 * 0 = _; omega
  | ⟨1, _⟩ => show k1_off2 L t (BitVec.ofNat 32 r.val) 1 + 1 * (y 0).val = (y 0).val; rw [e]; show 0 + 1 * (y 0).val = _; omega
  | ⟨2, _⟩ => show k1_off2 L t (BitVec.ofNat 32 r.val) 2 + 1 * (y 1).val = (y 1).val; rw [e]; show 0 + 1 * (y 1).val = _; omega

/-! ## An offset list is a row of its slot -/

/-- Row `b` of slot `p`, read as a 128-list, is the slot read at `(b, x)`. -/
theorem list_read_gen (p b : ℕ) (hb : b < 5)
    (inbL : ∀ a, (![p, b, 0] : Fin 3 → ℕ) a + S1x1x128.size a ≤ S2x5x128.size a)
    (inbS : ∀ a, (![p, 0, 0] : Fin 3 → ℕ) a + S1x5x128.size a ≤ S2x5x128.size a)
    (f : Buf (Elt F) ((thrV d L).loc cc1_scratch0)) (x : S128.Idx) :
    (((sV).slice (Rect.unit (s := S2x5x128) ![p, b, 0] S1x1x128.size inbL) (fun _ => rfl)).squeeze S128 squeezes_S1x1x128_S128).view.read (Elt F) f x
      = (((sV).slice (Rect.unit (s := S2x5x128) ![p, 0, 0] S1x5x128.size inbS) (fun _ => rfl)).squeeze S5x128 squeezes_S1x5x128_S5x128).view.read (Elt F) f
          (ix2 (⟨b, hb⟩ : Fin 5) (x 0)) := by
  show f ((Rect.unit (s := S2x5x128) ![p, b, 0] S1x1x128.size inbL).emb (Shape.reshapeEquiv squeezes_S1x1x128_S128.numel_eq x))
    = f ((Rect.unit (s := S2x5x128) ![p, 0, 0] S1x5x128.size inbS).emb (Shape.reshapeEquiv squeezes_S1x5x128_S5x128.numel_eq (ix2 (⟨b, hb⟩ : Fin 5) (x 0))))
  rw [re_S128, re_S5x128]
  refine congrArg _ (funext fun a => Fin.ext ?_)
  match a with
  | ⟨0, _⟩ => show p + 1 * 0 = p + 1 * 0; rfl
  | ⟨1, _⟩ => show b + 1 * 0 = 0 + 1 * b; omega
  | ⟨2, _⟩ => show 0 + 1 * (x 0).val = 0 + 1 * (x 0).val; rfl

theorem list_read00 (f : Buf (Elt F) ((thrV d L).loc cc1_scratch0)) (x : S128.Idx) :
    (listM00).view.read (Elt F) f x = (slotM0).view.read (Elt F) f (ix2 (0 : Fin 5) (x 0)) := list_read_gen d L 0 0 (by decide) _ _ f x
theorem list_read01 (f : Buf (Elt F) ((thrV d L).loc cc1_scratch0)) (x : S128.Idx) :
    (listM01).view.read (Elt F) f x = (slotM0).view.read (Elt F) f (ix2 (1 : Fin 5) (x 0)) := list_read_gen d L 0 1 (by decide) _ _ f x
theorem list_read02 (f : Buf (Elt F) ((thrV d L).loc cc1_scratch0)) (x : S128.Idx) :
    (listM02).view.read (Elt F) f x = (slotM0).view.read (Elt F) f (ix2 (2 : Fin 5) (x 0)) := list_read_gen d L 0 2 (by decide) _ _ f x
theorem list_read03 (f : Buf (Elt F) ((thrV d L).loc cc1_scratch0)) (x : S128.Idx) :
    (listM03).view.read (Elt F) f x = (slotM0).view.read (Elt F) f (ix2 (3 : Fin 5) (x 0)) := list_read_gen d L 0 3 (by decide) _ _ f x
theorem list_read04 (f : Buf (Elt F) ((thrV d L).loc cc1_scratch0)) (x : S128.Idx) :
    (listM04).view.read (Elt F) f x = (slotM0).view.read (Elt F) f (ix2 (4 : Fin 5) (x 0)) := list_read_gen d L 0 4 (by decide) _ _ f x
theorem list_read10 (f : Buf (Elt F) ((thrV d L).loc cc1_scratch0)) (x : S128.Idx) :
    (listM10).view.read (Elt F) f x = (slotM1).view.read (Elt F) f (ix2 (0 : Fin 5) (x 0)) := list_read_gen d L 1 0 (by decide) _ _ f x
theorem list_read11 (f : Buf (Elt F) ((thrV d L).loc cc1_scratch0)) (x : S128.Idx) :
    (listM11).view.read (Elt F) f x = (slotM1).view.read (Elt F) f (ix2 (1 : Fin 5) (x 0)) := list_read_gen d L 1 1 (by decide) _ _ f x
theorem list_read12 (f : Buf (Elt F) ((thrV d L).loc cc1_scratch0)) (x : S128.Idx) :
    (listM12).view.read (Elt F) f x = (slotM1).view.read (Elt F) f (ix2 (2 : Fin 5) (x 0)) := list_read_gen d L 1 2 (by decide) _ _ f x
theorem list_read13 (f : Buf (Elt F) ((thrV d L).loc cc1_scratch0)) (x : S128.Idx) :
    (listM13).view.read (Elt F) f x = (slotM1).view.read (Elt F) f (ix2 (3 : Fin 5) (x 0)) := list_read_gen d L 1 3 (by decide) _ _ f x
theorem list_read14 (f : Buf (Elt F) ((thrV d L).loc cc1_scratch0)) (x : S128.Idx) :
    (listM14).view.read (Elt F) f x = (slotM1).view.read (Elt F) f (ix2 (4 : Fin 5) (x 0)) := list_read_gen d L 1 4 (by decide) _ _ f x

/-- Row `b` of a slot that an index copy has just filled with `pay`, read as a 128-list, is `pay` at `(b, x)`. -/
theorem list_landed_gen (p b : ℕ) (hb : b < 5)
    (inbL : ∀ a, (![p, b, 0] : Fin 3 → ℕ) a + S1x1x128.size a ≤ S2x5x128.size a)
    (inbS : ∀ a, (![p, 0, 0] : Fin 3 → ℕ) a + S1x5x128.size a ≤ S2x5x128.size a)
    (g : Buf (Elt F) ((thrV d L).loc cc1_scratch0)) (pay : S5x128.Idx → Elt F .i32) (x : S128.Idx) :
    (((sV).slice (Rect.unit (s := S2x5x128) ![p, b, 0] S1x1x128.size inbL) (fun _ => rfl)).squeeze S128 squeezes_S1x1x128_S128).view.read (Elt F)
        (View.write (Elt F) (((sV).slice (Rect.unit (s := S2x5x128) ![p, 0, 0] S1x5x128.size inbS) (fun _ => rfl)).squeeze S5x128 squeezes_S1x5x128_S5x128).view g pay Finset.univ) x
      = pay (ix2 (⟨b, hb⟩ : Fin 5) (x 0)) := by
  rw [list_read_gen d L p b hb inbL inbS, View.read_write_univ]
theorem list_landed00 (g : Buf (Elt F) ((thrV d L).loc cc1_scratch0)) (pay : S5x128.Idx → Elt F .i32) (x : S128.Idx) :
    (listM00).view.read (Elt F) (View.write (Elt F) (slotM0).view g pay Finset.univ) x = pay (ix2 (0 : Fin 5) (x 0)) := list_landed_gen d L 0 0 (by decide) _ _ g pay x
theorem list_landed01 (g : Buf (Elt F) ((thrV d L).loc cc1_scratch0)) (pay : S5x128.Idx → Elt F .i32) (x : S128.Idx) :
    (listM01).view.read (Elt F) (View.write (Elt F) (slotM0).view g pay Finset.univ) x = pay (ix2 (1 : Fin 5) (x 0)) := list_landed_gen d L 0 1 (by decide) _ _ g pay x
theorem list_landed02 (g : Buf (Elt F) ((thrV d L).loc cc1_scratch0)) (pay : S5x128.Idx → Elt F .i32) (x : S128.Idx) :
    (listM02).view.read (Elt F) (View.write (Elt F) (slotM0).view g pay Finset.univ) x = pay (ix2 (2 : Fin 5) (x 0)) := list_landed_gen d L 0 2 (by decide) _ _ g pay x
theorem list_landed03 (g : Buf (Elt F) ((thrV d L).loc cc1_scratch0)) (pay : S5x128.Idx → Elt F .i32) (x : S128.Idx) :
    (listM03).view.read (Elt F) (View.write (Elt F) (slotM0).view g pay Finset.univ) x = pay (ix2 (3 : Fin 5) (x 0)) := list_landed_gen d L 0 3 (by decide) _ _ g pay x
theorem list_landed04 (g : Buf (Elt F) ((thrV d L).loc cc1_scratch0)) (pay : S5x128.Idx → Elt F .i32) (x : S128.Idx) :
    (listM04).view.read (Elt F) (View.write (Elt F) (slotM0).view g pay Finset.univ) x = pay (ix2 (4 : Fin 5) (x 0)) := list_landed_gen d L 0 4 (by decide) _ _ g pay x
theorem list_landed10 (g : Buf (Elt F) ((thrV d L).loc cc1_scratch0)) (pay : S5x128.Idx → Elt F .i32) (x : S128.Idx) :
    (listM10).view.read (Elt F) (View.write (Elt F) (slotM1).view g pay Finset.univ) x = pay (ix2 (0 : Fin 5) (x 0)) := list_landed_gen d L 1 0 (by decide) _ _ g pay x
theorem list_landed11 (g : Buf (Elt F) ((thrV d L).loc cc1_scratch0)) (pay : S5x128.Idx → Elt F .i32) (x : S128.Idx) :
    (listM11).view.read (Elt F) (View.write (Elt F) (slotM1).view g pay Finset.univ) x = pay (ix2 (1 : Fin 5) (x 0)) := list_landed_gen d L 1 1 (by decide) _ _ g pay x
theorem list_landed12 (g : Buf (Elt F) ((thrV d L).loc cc1_scratch0)) (pay : S5x128.Idx → Elt F .i32) (x : S128.Idx) :
    (listM12).view.read (Elt F) (View.write (Elt F) (slotM1).view g pay Finset.univ) x = pay (ix2 (2 : Fin 5) (x 0)) := list_landed_gen d L 1 2 (by decide) _ _ g pay x
theorem list_landed13 (g : Buf (Elt F) ((thrV d L).loc cc1_scratch0)) (pay : S5x128.Idx → Elt F .i32) (x : S128.Idx) :
    (listM13).view.read (Elt F) (View.write (Elt F) (slotM1).view g pay Finset.univ) x = pay (ix2 (3 : Fin 5) (x 0)) := list_landed_gen d L 1 3 (by decide) _ _ g pay x
theorem list_landed14 (g : Buf (Elt F) ((thrV d L).loc cc1_scratch0)) (pay : S5x128.Idx → Elt F .i32) (x : S128.Idx) :
    (listM14).view.read (Elt F) (View.write (Elt F) (slotM1).view g pay Finset.univ) x = pay (ix2 (4 : Fin 5) (x 0)) := list_landed_gen d L 1 4 (by decide) _ _ g pay x

end

/-! ## The value of a written-out chunk -/

theorem tv_trips : k1_t1_loop.trips = 20 := by decide

/-- The flat position `25600 w + 1280 t + 640 r₁ + 128 b + y` of the index blocks is block `40 w + 2 t + r₁`, row `b`, lane `y`. -/
theorem blkIx_chunk (w : Fin 32) (t : Fin k1_t1_loop.trips) (r₁ : Fin 2) (b : Fin 5) (y0 : Fin 128) (r : Fin 819200)
    (hr : r.val = 25600 * w.val + 1280 * t.val + 640 * r₁.val + 128 * b.val + y0.val) :
    blkIx r = ix3 (n0 := 1280) ⟨40 * w.val + 2 * t.val + r₁.val, by
      have h1 := w.isLt; have h2 : t.val < 20 := tv_trips ▸ t.isLt; have h3 := r₁.isLt; omega⟩ b y0 := by
  have h1 := w.isLt
  have h2 : t.val < 20 := tv_trips ▸ t.isLt
  have h3 := r₁.isLt
  have h4 := b.isLt
  have h5 := y0.isLt
  unfold blkIx
  funext a
  match a with
  | ⟨0, _⟩ => exact Fin.ext (by show r.val / 640 = 40 * w.val + 2 * t.val + r₁.val; omega)
  | ⟨1, _⟩ => exact Fin.ext (by show (r.val / 128) % 5 = b.val; omega)
  | ⟨2, _⟩ => exact Fin.ext (by show r.val % 128 = y0.val; omega)

/-- The first coordinate of a 128-list's index at row-major position `k` is `k`. -/
theorem tv_rowMajor_symm_zero (k : Fin S128.numel) : ((S128.rowMajor.symm k) 0).val = k.val := by
  have h := Shape.rowMajor_val_one (d := ![128]) (S128.rowMajor.symm k)
  rw [← h]
  exact congrArg Fin.val (S128.rowMajor.apply_symm_apply k)

section
variable (d : Dev nD) (L : grid1.Coords)

/-- The table as the gathers address it: the whole array, sliced at offset zero with its own extents. -/
abbrev tabS : Memref sig .scVector .hbm S100000x128 .f32 :=
  (tV).slice (Rect.unit (s := S100000x128) ![0, 0] S100000x128.size inb_S100000x128_S100000x128_0_0) (fun _ => rfl)

/-- A chunk written whole reads, at its own index `y`, what was written there. -/
theorem tv_chunk_at (t : Fin k1_t1_loop.trips) (r₁ : Fin 2) (b : Fin 5) (f0 : Buf (Elt F) (oLoc d)) (P : S128x128.Idx → Elt F .f32) (y : S128x128.Idx) :
    (chunkM L t r₁ b).view.writes (Elt F) f0 [⟨Rect.whole S128x128, P⟩] ((chunkM L t r₁ b).view.emb y) = P y := by
  have h := View.read_writes_cons_emb (chunkM L t r₁ b).view f0 (Rect.whole S128x128) P [] y
  rw [Rect.emb_whole_apply] at h
  exact h

/-- A chunk written out of a row buffer that holds the rows gathered by an offset list equal to row `b` of index block
    `40 w + 2 t + r₁` holds, on the chunk, the gathered rows of the table: row `25600 w + 1280 t + 640 r₁ + 128 b + y` of
    the output is the table's row named by flat index of that position. -/
theorem chunk_value (fi : Buf (Elt F) (iLoc d)) (ft : Buf (Elt F) (tLoc d)) (t : Fin k1_t1_loop.trips) (r₁ : Fin 2) (b : Fin 5)
    (R : Memref sig .scVector .vmem S128x128 .f32) (Lm : Memref sig .scVector .vmem S128 .i32)
    (sc : Lm.view.ty.Contents (Elt F)) (rb : R.view.ty.Contents (Elt F)) (f0 : Buf (Elt F) (oLoc d))
    (rest : List (View.Piece (Elt F) S128x128 .f32))
    (hn : S128.numel = S128x128.size gathers_S100000x128_S128x128.axis')
    (hin : ∀ x, (Lm.view.read (Elt F) sc x).toNat < 100000)
    (hsc : ∀ x : S128.Idx, Lm.view.read (Elt F) sc x
      = fi (ix3 (n0 := 1280) (n1 := 5) (n2 := 128) ⟨40 * (wid L).val + 2 * t.val + r₁.val, by
          have h1 := (wid L).isLt; have h2 : t.val < 20 := tv_trips ▸ t.isLt; have h3 := r₁.isLt; omega⟩ b (x 0))) :
    ∀ j ∈ (chunkM L t r₁ b).view.set,
      (chunkM L t r₁ b).view.writes (Elt F) f0 [⟨Rect.whole S128x128, (ReadAs.same : ReadAs (Elt F) S128x128 .f32 S128x128 .f32).apply
        (View.read (Elt F) R.view (R.view.writes (Elt F) rb (⟨Rect.whole S128x128,
          SparseCore.gatherPayload gathers_S100000x128_S128x128 (View.read (Elt F) (tabS).view ft) (SparseCore.rows (View.read (Elt F) Lm.view sc) hn hin)⟩ :: rest)))⟩] j
        = rowsOf ft fi j := by
  intro j hj
  obtain ⟨y, rfl⟩ := View.exists_emb_of_mem_set _ hj
  have hw2 := View.read_writes_cons_emb R.view rb (Rect.whole S128x128)
    (SparseCore.gatherPayload gathers_S100000x128_S128x128 (View.read (Elt F) (tabS).view ft) (SparseCore.rows (View.read (Elt F) Lm.view sc) hn hin)) rest y
  rw [Rect.emb_whole_apply] at hw2
  rw [tv_chunk_at, ReadAs.apply_same, hw2]
  unfold SparseCore.gatherPayload rowsOf
  show ft ((tabS).view.emb (gathers_S100000x128_S128x128.idx (SparseCore.rows (View.read (Elt F) Lm.view sc) hn hin) y)) = _
  refine congrArg _ (funext fun a => Fin.ext ?_)
  have e := k1_off3_eq L t r₁ b
  have hwid : (wid L).val = 2 * (L 1).val + (L 0).val := rfl
  have hy0 : (y 0).val < 128 := (y 0).isLt
  have hj0 : (((chunkM L t r₁ b).view.emb y) 0).val = 25600 * (wid L).val + 1280 * t.val + 640 * r₁.val + 128 * b.val + (y 0).val := by
    show k1_off3 L t (BitVec.ofNat 32 r₁.val) (BitVec.ofNat 32 b.val) 0 + 1 * (y 0).val = _
    rw [e]; show 51200 * (L 1).val + 25600 * (L 0).val + 1280 * t.val + 640 * r₁.val + 128 * b.val + 1 * (y 0).val = _; omega
  match a with
  | ⟨0, _⟩ =>
    have hax := Shape.Gathers.idx_axis gathers_S100000x128_S128x128 (SparseCore.rows (View.read (Elt F) Lm.view sc) hn hin) y
    show 0 + 1 * ((gathers_S100000x128_S128x128.idx (SparseCore.rows (View.read (Elt F) Lm.view sc) hn hin) y) gathers_S100000x128_S128x128.axis).val
      = (fi (blkIx (((chunkM L t r₁ b).view.emb y) 0))).toNat % 100000
    rw [hax, blkIx_chunk (wid L) t r₁ b (y 0) _ hj0]
    unfold SparseCore.rows
    show 0 + 1 * (View.read (Elt F) Lm.view sc (S128.rowMajor.symm (Fin.cast hn.symm (y gathers_S100000x128_S128x128.axis')))).toNat = _
    have hlt := hin (S128.rowMajor.symm (Fin.cast hn.symm (y gathers_S100000x128_S128x128.axis')))
    rw [hsc] at hlt ⊢
    have hx0 : (S128.rowMajor.symm (Fin.cast hn.symm (y gathers_S100000x128_S128x128.axis'))) 0 = y 0 :=
      Fin.ext (tv_rowMajor_symm_zero _)
    rw [hx0] at hlt ⊢
    rw [Nat.mod_eq_of_lt hlt]; omega
  | ⟨1, _⟩ =>
    have hne := Shape.Gathers.idx_of_ne gathers_S100000x128_S128x128 (SparseCore.rows (View.read (Elt F) Lm.view sc) hn hin) y ⟨1, by decide⟩ (by decide)
    show 0 + 1 * ((gathers_S100000x128_S128x128.idx (SparseCore.rows (View.read (Elt F) Lm.view sc) hn hin) y) ⟨1, by decide⟩).val
      = (((chunkM L t r₁ b).view.emb y) 1).val
    rw [hne]
    show 0 + 1 * (y 1).val = k1_off3 L t (BitVec.ofNat 32 r₁.val) (BitVec.ofNat 32 b.val) 1 + 1 * (y 1).val
    rw [e]; show 0 + 1 * (y 1).val = 0 + 1 * (y 1).val; rfl

end

section
variable (d : Dev nD) (L : grid1.Coords)

/-- The same as a resource: the chunk held at what the write-out left is the chunk held at the gathered rows. -/
theorem chunk_value_pt (fi : Buf (Elt F) (iLoc d)) (ft : Buf (Elt F) (tLoc d)) (t : Fin k1_t1_loop.trips) (r₁ : Fin 2) (b : Fin 5)
    (R : Memref sig .scVector .vmem S128x128 .f32) (Lm : Memref sig .scVector .vmem S128 .i32)
    (sc : Lm.view.ty.Contents (Elt F)) (rb : R.view.ty.Contents (Elt F)) (f0 : Buf (Elt F) (oLoc d))
    (rest : List (View.Piece (Elt F) S128x128 .f32))
    (hn : S128.numel = S128x128.size gathers_S100000x128_S128x128.axis')
    (hin : ∀ x, (Lm.view.read (Elt F) sc x).toNat < 100000)
    (hsc : ∀ x : S128.Idx, Lm.view.read (Elt F) sc x
      = fi (ix3 (n0 := 1280) (n1 := 5) (n2 := 128) ⟨40 * (wid L).val + 2 * t.val + r₁.val, by
          have h1 := (wid L).isLt; have h2 : t.val < 20 := tv_trips ▸ t.isLt; have h3 := r₁.isLt; omega⟩ b (x 0)))
    (q : PosShare TreeShare) :
    ((chunkM L t r₁ b).view.loc (thrV d L) ↦[(chunkM L t r₁ b).view.set]{q}
        (chunkM L t r₁ b).view.writes (Elt F) f0 [⟨Rect.whole S128x128, (ReadAs.same : ReadAs (Elt F) S128x128 .f32 S128x128 .f32).apply
          (View.read (Elt F) R.view (R.view.writes (Elt F) rb (⟨Rect.whole S128x128,
            SparseCore.gatherPayload gathers_S100000x128_S128x128 (View.read (Elt F) (tabS).view ft) (SparseCore.rows (View.read (Elt F) Lm.view sc) hn hin)⟩ :: rest)))⟩] : sProp 𝕄)
      = ((chunkM L t r₁ b).view.loc (thrV d L) ↦[(chunkM L t r₁ b).view.set]{q} rowsOf ft fi) :=
  pointsTo_congr (chunk_value d L fi ft t r₁ b R Lm sc rb f0 rest hn hin hsc)

end

end Cert.Proof.KI
end
-- ==== Proof.KI.TileValue2.lean ====
/-
  The same index equations in the shapes the trips of the loop use them: a slot of the index scratch "is" block `blk` of the
  index array when it reads as that block; a slot an index copy has just filled is the block the copy read (block
  `40 w + min g 39` for the copy issued for step `g`); an offset list of such a slot is a row of that block; and a chunk
  written out of rows gathered by such a list holds the gathered rows of the table.
-/
import proofs.«204608_g3015067042085_cont_9to1_1138_29_alg».proof.Proof.KI.TileValue

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

local notation "iV" => (Memref.whole Cert.KernelIdeal.main_v1_scv : Memref Cert.KernelIdeal.sig Kind.scVector Space.hbm Cert.KernelIdeal.S1280x5x128 EltTy.i32)
local notation "tV" => (Memref.whole Cert.KernelIdeal.main_v0_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S2x5x128 EltTy.i32)
local notation "rV" => (Memref.whole Cert.KernelIdeal.cc1_scratch1 : Memref Cert.KernelIdeal.sig Kind.scVector Space.vmem Cert.KernelIdeal.S5x128x128 EltTy.f32)

/-- Block `40 w + min g 39` of the index array. -/
def blkOf (L : grid1.Coords) (g : ℕ) : Fin 1280 := ⟨(40 * (wid L).val + min g 39) % 1280, Nat.mod_lt _ (by norm_num)⟩

theorem blkOf_val (L : grid1.Coords) (g : ℕ) : (blkOf L g).val = 40 * (wid L).val + min g 39 :=
  Nat.mod_eq_of_lt (by have h := (wid L).isLt; have h2 : min g 39 ≤ 39 := Nat.min_le_right _ _; omega)

/-- The buffer under `M` reads as block `blk` of the index array. -/
def BlkIs (d : Dev nD) (L : grid1.Coords) (fi : Buf (Elt F) (iLoc d)) (M : Memref sig .scVector .vmem S5x128 .i32) (blk : Fin 1280)
    (s : Buf (Elt F) (M.view.loc (thrV d L))) : Prop :=
  ∀ y : S5x128.Idx, M.view.read (Elt F) s y = fi (ValueIdx.ix3 blk (y 0) (y 1))

theorem blkIs_landed (d : Dev nD) (L : grid1.Coords) (fi : Buf (Elt F) (iLoc d)) (t : Fin k1_t1_loop.trips) (r : Fin 2) (M : Memref sig .scVector .vmem S5x128 .i32)
    (g : Buf (Elt F) (M.view.loc (thrV d L))) :
    BlkIs d L fi M (blkOf L (2 * t.val + r.val + 1)) (View.write (Elt F) M.view g (ReadAs.same.apply ((iblkM L t r).view.read (Elt F) fi)) Finset.univ) := by
  intro y
  rw [View.read_write_univ, ReadAs.apply_same, iblk_read]
  have hA : blkOf L (2 * t.val + r.val + 1)
      = ⟨40 * (wid L).val + min (2 * t.val + r.val + 1) 39, by have h := (wid L).isLt; have h2 : min (2 * t.val + r.val + 1) 39 ≤ 39 := Nat.min_le_right _ _; omega⟩ :=
    Fin.ext (blkOf_val L _)
  rw [hA]

theorem blkIs_landed0 (d : Dev nD) (L : grid1.Coords) (fi : Buf (Elt F) (iLoc d)) (M : Memref sig .scVector .vmem S5x128 .i32)
    (g : Buf (Elt F) (M.view.loc (thrV d L))) :
    BlkIs d L fi M (blkOf L 0) (View.write (Elt F) M.view g (ReadAs.same.apply ((iblkM0 L).view.read (Elt F) fi)) Finset.univ) := by
  intro y
  rw [View.read_write_univ, ReadAs.apply_same, iblk0_read]
  have hA : blkOf L 0 = ⟨40 * (wid L).val, by have h := (wid L).isLt; omega⟩ :=
    Fin.ext ((blkOf_val L 0).trans (by rw [Nat.zero_min, Nat.add_zero]))
  rw [hA]

theorem list_read_00 (d : Dev nD) (L : grid1.Coords) (fi : Buf (Elt F) (iLoc d)) (blk : Fin 1280) (s : Buf (Elt F) ((slotM0).view.loc (thrV d L)))
    (h : BlkIs d L fi slotM0 blk s) (x : S128.Idx) : (listM00).view.read (Elt F) s x = fi (ValueIdx.ix3 blk (0 : Fin 5) (x 0)) :=
  (list_read00 d L s x).trans (h (ix2 (0 : Fin 5) (x 0)))
theorem list_read_01 (d : Dev nD) (L : grid1.Coords) (fi : Buf (Elt F) (iLoc d)) (blk : Fin 1280) (s : Buf (Elt F) ((slotM0).view.loc (thrV d L)))
    (h : BlkIs d L fi slotM0 blk s) (x : S128.Idx) : (listM01).view.read (Elt F) s x = fi (ValueIdx.ix3 blk (1 : Fin 5) (x 0)) :=
  (list_read01 d L s x).trans (h (ix2 (1 : Fin 5) (x 0)))
theorem list_read_02 (d : Dev nD) (L : grid1.Coords) (fi : Buf (Elt F) (iLoc d)) (blk : Fin 1280) (s : Buf (Elt F) ((slotM0).view.loc (thrV d L)))
    (h : BlkIs d L fi slotM0 blk s) (x : S128.Idx) : (listM02).view.read (Elt F) s x = fi (ValueIdx.ix3 blk (2 : Fin 5) (x 0)) :=
  (list_read02 d L s x).trans (h (ix2 (2 : Fin 5) (x 0)))
theorem list_read_03 (d : Dev nD) (L : grid1.Coords) (fi : Buf (Elt F) (iLoc d)) (blk : Fin 1280) (s : Buf (Elt F) ((slotM0).view.loc (thrV d L)))
    (h : BlkIs d L fi slotM0 blk s) (x : S128.Idx) : (listM03).view.read (Elt F) s x = fi (ValueIdx.ix3 blk (3 : Fin 5) (x 0)) :=
  (list_read03 d L s x).trans (h (ix2 (3 : Fin 5) (x 0)))
theorem list_read_04 (d : Dev nD) (L : grid1.Coords) (fi : Buf (Elt F) (iLoc d)) (blk : Fin 1280) (s : Buf (Elt F) ((slotM0).view.loc (thrV d L)))
    (h : BlkIs d L fi slotM0 blk s) (x : S128.Idx) : (listM04).view.read (Elt F) s x = fi (ValueIdx.ix3 blk (4 : Fin 5) (x 0)) :=
  (list_read04 d L s x).trans (h (ix2 (4 : Fin 5) (x 0)))
theorem list_read_10 (d : Dev nD) (L : grid1.Coords) (fi : Buf (Elt F) (iLoc d)) (blk : Fin 1280) (s : Buf (Elt F) ((slotM1).view.loc (thrV d L)))
    (h : BlkIs d L fi slotM1 blk s) (x : S128.Idx) : (listM10).view.read (Elt F) s x = fi (ValueIdx.ix3 blk (0 : Fin 5) (x 0)) :=
  (list_read10 d L s x).trans (h (ix2 (0 : Fin 5) (x 0)))
theorem list_read_11 (d : Dev nD) (L : grid1.Coords) (fi : Buf (Elt F) (iLoc d)) (blk : Fin 1280) (s : Buf (Elt F) ((slotM1).view.loc (thrV d L)))
    (h : BlkIs d L fi slotM1 blk s) (x : S128.Idx) : (listM11).view.read (Elt F) s x = fi (ValueIdx.ix3 blk (1 : Fin 5) (x 0)) :=
  (list_read11 d L s x).trans (h (ix2 (1 : Fin 5) (x 0)))
theorem list_read_12 (d : Dev nD) (L : grid1.Coords) (fi : Buf (Elt F) (iLoc d)) (blk : Fin 1280) (s : Buf (Elt F) ((slotM1).view.loc (thrV d L)))
    (h : BlkIs d L fi slotM1 blk s) (x : S128.Idx) : (listM12).view.read (Elt F) s x = fi (ValueIdx.ix3 blk (2 : Fin 5) (x 0)) :=
  (list_read12 d L s x).trans (h (ix2 (2 : Fin 5) (x 0)))
theorem list_read_13 (d : Dev nD) (L : grid1.Coords) (fi : Buf (Elt F) (iLoc d)) (blk : Fin 1280) (s : Buf (Elt F) ((slotM1).view.loc (thrV d L)))
    (h : BlkIs d L fi slotM1 blk s) (x : S128.Idx) : (listM13).view.read (Elt F) s x = fi (ValueIdx.ix3 blk (3 : Fin 5) (x 0)) :=
  (list_read13 d L s x).trans (h (ix2 (3 : Fin 5) (x 0)))
theorem list_read_14 (d : Dev nD) (L : grid1.Coords) (fi : Buf (Elt F) (iLoc d)) (blk : Fin 1280) (s : Buf (Elt F) ((slotM1).view.loc (thrV d L)))
    (h : BlkIs d L fi slotM1 blk s) (x : S128.Idx) : (listM14).view.read (Elt F) s x = fi (ValueIdx.ix3 blk (4 : Fin 5) (x 0)) :=
  (list_read14 d L s x).trans (h (ix2 (4 : Fin 5) (x 0)))

theorem chunk_done [FloatOps F] (d : Dev nD) (L : grid1.Coords) (fi : Buf (Elt F) (iLoc d)) (ft : Buf (Elt F) (tLoc d))
    {t : Fin k1_t1_loop.trips} {r₁ : Fin 2} {b : Fin 5} {R : Memref sig .scVector .vmem S128x128 .f32} {Lm : Memref sig .scVector .vmem S128 .i32}
    {sc : Buf (Elt F) (Lm.view.loc (thrV d L))} {rb : Buf (Elt F) (R.view.loc (thrV d L))} {f0 : Buf (Elt F) (oLoc d)}
    {rest : List (View.Piece (Elt F) S128x128 .f32)} {hn : S128.numel = S128x128.size gathers_S100000x128_S128x128.axis'}
    {hin : ∀ x, (Lm.view.read (Elt F) sc x).toNat < 100000}
    (hsc : ∀ x : S128.Idx, Lm.view.read (Elt F) sc x = fi (ValueIdx.ix3 (blkOf L (2 * t.val + r₁.val)) b (x 0))) :
    (((chunkM L t r₁ b).view.loc (thrV d L) ↦[(chunkM L t r₁ b).view.set]{fullShare}
        (chunkM L t r₁ b).view.writes (Elt F) f0 [⟨Rect.whole S128x128, ReadAs.same.apply (View.read (Elt F) R.view
          (R.view.writes (Elt F) rb (⟨Rect.whole S128x128, SparseCore.gatherPayload gathers_S100000x128_S128x128
            (View.read (Elt F) ((tV).slice (Rect.unit (s := S100000x128) ![0, 0] S100000x128.size inb_S100000x128_S100000x128_0_0) (fun _ => rfl)).view ft)
            (SparseCore.rows (View.read (Elt F) Lm.view sc) hn hin)⟩ :: rest)))⟩]) : sProp 𝕄)
      = ((chunkM L t r₁ b).view.loc (thrV d L) ↦[(chunkM L t r₁ b).view.set]{fullShare} rowsOf ft fi) := by
  have h1 := (wid L).isLt
  have h2 : t.val < 20 := tv_trips ▸ t.isLt
  have h3 := r₁.isLt
  have hA : blkOf L (2 * t.val + r₁.val) = ⟨40 * (wid L).val + 2 * t.val + r₁.val, by omega⟩ :=
    Fin.ext ((blkOf_val L _).trans (by rw [Nat.min_eq_left (by omega)]; exact (Nat.add_assoc _ _ _).symm))
  have hb : ∀ x : S128.Idx, Lm.view.read (Elt F) sc x
      = fi (ix3 (n0 := 1280) (n1 := 5) (n2 := 128) ⟨40 * (wid L).val + 2 * t.val + r₁.val, by omega⟩ b (x 0)) := fun x => by
    rw [hsc x, hA]
  exact chunk_value_pt d L fi ft t r₁ b R Lm sc rb f0 rest hn hin hb fullShare

end Cert.Proof.KI
end
-- ==== Proof.KI.TileLib.lean ====
import proofs.«204608_g3015067042085_cont_9to1_1138_29_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  Two facts about a transfer in flight, stated for any delivery: a resource held beside the flight may be handed to it,
  to come back with the delivery at the wait; and a flight's delivery may be restated by anything it entails.
-/

section Lib
variable {c : Thread nD τ} {sm : SemLoc sig} {ι : HIx 1} {N : ℕ}

/-- A resource held beside a flight joins its delivery. -/
theorem flight_frame {D R' : sProp 𝕄} :
    iprop(Transfers.Flight (countersEmb : UEmb Counters 𝕄) c sm ι N D ∗ R') ⊢ Transfers.Flight (countersEmb : UEmb Counters 𝕄) c sm ι N iprop(D ∗ R') := by
  unfold Transfers.Flight
  iintro ⟨⟨⟨%R, HR, %hcap, %hpeek⟩, Hcred⟩, HR'⟩
  isplitl [HR HR']
  · iexists iprop(R ∗ R')
    isplitl [HR HR']; · isplitl [HR] <;> iassumption
    isplit
    · ipureintro
      intro K
      refine BIBase.Entails.trans ?_ (hcap K)
      iintro ⟨⟨HR, HR'⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HR'⟩, HK⟩
      isplitl [HR]; · iexact HR
      iintro HR
      iapply HK
      isplitl [HR] <;> iassumption
  · iexact Hcred

/-- A flight and a resource beside it, restated: the delivery and the resource together entail the new delivery. -/
theorem flight_restate {D R' D' : sProp 𝕄} (h : iprop(D ∗ R') ⊢ D') :
    iprop(Transfers.Flight (countersEmb : UEmb Counters 𝕄) c sm ι N D ∗ R') ⊢ Transfers.Flight (countersEmb : UEmb Counters 𝕄) c sm ι N D' :=
  flight_frame.trans (Transfers.Flight_mono _ c h)

end Lib

end Cert.Proof.KI
end
-- ==== Proof.KI.TileInv.lean ====
import proofs.«204608_g3015067042085_cont_9to1_1138_29_alg».proof.Proof.KI.TileSets
import proofs.«204608_g3015067042085_cont_9to1_1138_29_alg».proof.Proof.KI.TileValue2
import proofs.«204608_g3015067042085_cont_9to1_1138_29_alg».proof.Proof.KI.TileLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  The loop of a tile's task. Worker `w` owns index blocks `40 w + g` (`g < 40`) and, per block, five output chunks of
  128 rows. Each of the twenty trips handles two blocks: wait for the index copy into the slot in turn, start the next
  one into the other slot, wait for the row buffers' previous write-outs, gather the five row buffers through the slot's
  five lists, and as each gather lands start its write-out. The invariant at the start of a trip holds the index copy
  into slot 0 in flight, the previous trip's last five write-outs in flight (none before the first trip), the rows below
  them at the gathered rows of the table, and the rows from this trip's on untouched. One trip is proved at a symbolic
  trip number, apart for the first trip (nothing to wait for) and the later ones.
-/

local notation "iV" => (Memref.whole Cert.KernelIdeal.main_v1_scv : Memref Cert.KernelIdeal.sig Kind.scVector Space.hbm Cert.KernelIdeal.S1280x5x128 EltTy.i32)
local notation "tV" => (Memref.whole Cert.KernelIdeal.main_v0_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S2x5x128 EltTy.i32)
local notation "rV" => (Memref.whole Cert.KernelIdeal.cc1_scratch1 : Memref Cert.KernelIdeal.sig Kind.scVector Space.vmem Cert.KernelIdeal.S5x128x128 EltTy.f32)
set_option quotPrecheck false in
local notation "slotS0" => ((Memref.whole Cert.KernelIdeal.cc1_scratch0 : Memref Cert.KernelIdeal.sig Kind.scVector Space.vmem Cert.KernelIdeal.S2x5x128 EltTy.i32).view.setOn (Rect.unit (s := Cert.KernelIdeal.S2x5x128) ![0, 0, 0] Cert.KernelIdeal.S1x5x128.size Cert.KernelIdeal.Facts₀.inb_S2x5x128_S1x5x128_0_0_0).set)
set_option quotPrecheck false in
local notation "slotS1" => ((Memref.whole Cert.KernelIdeal.cc1_scratch0 : Memref Cert.KernelIdeal.sig Kind.scVector Space.vmem Cert.KernelIdeal.S2x5x128 EltTy.i32).view.setOn (Rect.unit (s := Cert.KernelIdeal.S2x5x128) ![1, 0, 0] Cert.KernelIdeal.S1x5x128.size Cert.KernelIdeal.Facts₀.inb_S2x5x128_S1x5x128_1_0_0).set)

section Inv
variable [FloatOps F] (d : Dev nD) (L : grid1.Coords) (qi qt : PosShare TreeShare)
  (fi : Buf (Elt F) (iLoc d)) (ft : Buf (Elt F) (tLoc d)) (f0 : Buf (Elt F) (oLoc d))
  (O : CellTallies nD τ sig (HIx 1)) (W : Waits sig (HIx 1))

/-- The trip before trip `t`, for `t > 0`. -/
def tm1 (t : ℕ) : Fin k1_t1_loop.trips := ⟨(t - 1) % k1_t1_loop.trips, Nat.mod_lt _ (by decide)⟩

theorem tm1_succ (k : Fin k1_t1_loop.trips) : tm1 (k.val + 1) = k :=
  Fin.ext (by show (k.val + 1 - 1) % k1_t1_loop.trips = k.val; rw [Nat.add_sub_cancel, Nat.mod_eq_of_lt k.isLt])

/-- The write-outs at the start of trip `t`: before the first trip the five row buffers are held and their semaphores are at
    zero; later each row buffer is on its way to its chunk of the previous trip's second half, the chunk already at its
    final value in the delivery. -/
def wPart (t : ℕ) (r0 r1 r2 r3 r4 : Buf (Elt F) ((thrV d L).loc cc1_scratch1)) : sProp 𝕄 :=
  if t = 0 then
    iprop((((rowM0).view.loc (thrV d L) ↦[(rowM0).view.set]{fullShare} r0) ∗ semVal (thrV d L, SemLoc.dma wsemS0) 0)
      ∗ (((rowM1).view.loc (thrV d L) ↦[(rowM1).view.set]{fullShare} r1) ∗ semVal (thrV d L, SemLoc.dma wsemS1) 0)
      ∗ (((rowM2).view.loc (thrV d L) ↦[(rowM2).view.set]{fullShare} r2) ∗ semVal (thrV d L, SemLoc.dma wsemS2) 0)
      ∗ (((rowM3).view.loc (thrV d L) ↦[(rowM3).view.set]{fullShare} r3) ∗ semVal (thrV d L, SemLoc.dma wsemS3) 0)
      ∗ (((rowM4).view.loc (thrV d L) ↦[(rowM4).view.set]{fullShare} r4) ∗ semVal (thrV d L, SemLoc.dma wsemS4) 0))
  else
    iprop(Transfers.Flight (countersEmb : UEmb Counters 𝕄) (thrV d L) (SemLoc.dma wsemS0) (default : HIx 1) 524288 iprop(((chunkM L (tm1 t) 1 0).view.loc (thrV d L) ↦[(chunkM L (tm1 t) 1 0).view.set]{fullShare} rowsOf ft fi) ∗ ((rowM0).view.loc (thrV d L) ↦[(rowM0).view.set]{fullShare} r0))
      ∗ Transfers.Flight (countersEmb : UEmb Counters 𝕄) (thrV d L) (SemLoc.dma wsemS1) (default : HIx 1) 524288 iprop(((chunkM L (tm1 t) 1 1).view.loc (thrV d L) ↦[(chunkM L (tm1 t) 1 1).view.set]{fullShare} rowsOf ft fi) ∗ ((rowM1).view.loc (thrV d L) ↦[(rowM1).view.set]{fullShare} r1))
      ∗ Transfers.Flight (countersEmb : UEmb Counters 𝕄) (thrV d L) (SemLoc.dma wsemS2) (default : HIx 1) 524288 iprop(((chunkM L (tm1 t) 1 2).view.loc (thrV d L) ↦[(chunkM L (tm1 t) 1 2).view.set]{fullShare} rowsOf ft fi) ∗ ((rowM2).view.loc (thrV d L) ↦[(rowM2).view.set]{fullShare} r2))
      ∗ Transfers.Flight (countersEmb : UEmb Counters 𝕄) (thrV d L) (SemLoc.dma wsemS3) (default : HIx 1) 524288 iprop(((chunkM L (tm1 t) 1 3).view.loc (thrV d L) ↦[(chunkM L (tm1 t) 1 3).view.set]{fullShare} rowsOf ft fi) ∗ ((rowM3).view.loc (thrV d L) ↦[(rowM3).view.set]{fullShare} r3))
      ∗ Transfers.Flight (countersEmb : UEmb Counters 𝕄) (thrV d L) (SemLoc.dma wsemS4) (default : HIx 1) 524288 iprop(((chunkM L (tm1 t) 1 4).view.loc (thrV d L) ↦[(chunkM L (tm1 t) 1 4).view.set]{fullShare} rowsOf ft fi) ∗ ((rowM4).view.loc (thrV d L) ↦[(rowM4).view.set]{fullShare} r4)))

theorem wPart_zero (r0 r1 r2 r3 r4 : Buf (Elt F) ((thrV d L).loc cc1_scratch1)) :
    wPart d L fi ft 0 r0 r1 r2 r3 r4 = iprop((((rowM0).view.loc (thrV d L) ↦[(rowM0).view.set]{fullShare} r0) ∗ semVal (thrV d L, SemLoc.dma wsemS0) 0)
      ∗ (((rowM1).view.loc (thrV d L) ↦[(rowM1).view.set]{fullShare} r1) ∗ semVal (thrV d L, SemLoc.dma wsemS1) 0)
      ∗ (((rowM2).view.loc (thrV d L) ↦[(rowM2).view.set]{fullShare} r2) ∗ semVal (thrV d L, SemLoc.dma wsemS2) 0)
      ∗ (((rowM3).view.loc (thrV d L) ↦[(rowM3).view.set]{fullShare} r3) ∗ semVal (thrV d L, SemLoc.dma wsemS3) 0)
      ∗ (((rowM4).view.loc (thrV d L) ↦[(rowM4).view.set]{fullShare} r4) ∗ semVal (thrV d L, SemLoc.dma wsemS4) 0)) := if_pos rfl

theorem wPart_pos (t : ℕ) (h : t ≠ 0) (r0 r1 r2 r3 r4 : Buf (Elt F) ((thrV d L).loc cc1_scratch1)) :
    wPart d L fi ft t r0 r1 r2 r3 r4 = iprop(Transfers.Flight (countersEmb : UEmb Counters 𝕄) (thrV d L) (SemLoc.dma wsemS0) (default : HIx 1) 524288 iprop(((chunkM L (tm1 t) 1 0).view.loc (thrV d L) ↦[(chunkM L (tm1 t) 1 0).view.set]{fullShare} rowsOf ft fi) ∗ ((rowM0).view.loc (thrV d L) ↦[(rowM0).view.set]{fullShare} r0))
      ∗ Transfers.Flight (countersEmb : UEmb Counters 𝕄) (thrV d L) (SemLoc.dma wsemS1) (default : HIx 1) 524288 iprop(((chunkM L (tm1 t) 1 1).view.loc (thrV d L) ↦[(chunkM L (tm1 t) 1 1).view.set]{fullShare} rowsOf ft fi) ∗ ((rowM1).view.loc (thrV d L) ↦[(rowM1).view.set]{fullShare} r1))
      ∗ Transfers.Flight (countersEmb : UEmb Counters 𝕄) (thrV d L) (SemLoc.dma wsemS2) (default : HIx 1) 524288 iprop(((chunkM L (tm1 t) 1 2).view.loc (thrV d L) ↦[(chunkM L (tm1 t) 1 2).view.set]{fullShare} rowsOf ft fi) ∗ ((rowM2).view.loc (thrV d L) ↦[(rowM2).view.set]{fullShare} r2))
      ∗ Transfers.Flight (countersEmb : UEmb Counters 𝕄) (thrV d L) (SemLoc.dma wsemS3) (default : HIx 1) 524288 iprop(((chunkM L (tm1 t) 1 3).view.loc (thrV d L) ↦[(chunkM L (tm1 t) 1 3).view.set]{fullShare} rowsOf ft fi) ∗ ((rowM3).view.loc (thrV d L) ↦[(rowM3).view.set]{fullShare} r3))
      ∗ Transfers.Flight (countersEmb : UEmb Counters 𝕄) (thrV d L) (SemLoc.dma wsemS4) (default : HIx 1) 524288 iprop(((chunkM L (tm1 t) 1 4).view.loc (thrV d L) ↦[(chunkM L (tm1 t) 1 4).view.set]{fullShare} rowsOf ft fi) ∗ ((rowM4).view.loc (thrV d L) ↦[(rowM4).view.set]{fullShare} r4))) := if_neg h

theorem wPart_succ (k : Fin k1_t1_loop.trips) (r0 r1 r2 r3 r4 : Buf (Elt F) ((thrV d L).loc cc1_scratch1)) :
    wPart d L fi ft (k.val + 1) r0 r1 r2 r3 r4 = iprop(Transfers.Flight (countersEmb : UEmb Counters 𝕄) (thrV d L) (SemLoc.dma wsemS0) (default : HIx 1) 524288 iprop(((chunkM L k 1 0).view.loc (thrV d L) ↦[(chunkM L k 1 0).view.set]{fullShare} rowsOf ft fi) ∗ ((rowM0).view.loc (thrV d L) ↦[(rowM0).view.set]{fullShare} r0))
      ∗ Transfers.Flight (countersEmb : UEmb Counters 𝕄) (thrV d L) (SemLoc.dma wsemS1) (default : HIx 1) 524288 iprop(((chunkM L k 1 1).view.loc (thrV d L) ↦[(chunkM L k 1 1).view.set]{fullShare} rowsOf ft fi) ∗ ((rowM1).view.loc (thrV d L) ↦[(rowM1).view.set]{fullShare} r1))
      ∗ Transfers.Flight (countersEmb : UEmb Counters 𝕄) (thrV d L) (SemLoc.dma wsemS2) (default : HIx 1) 524288 iprop(((chunkM L k 1 2).view.loc (thrV d L) ↦[(chunkM L k 1 2).view.set]{fullShare} rowsOf ft fi) ∗ ((rowM2).view.loc (thrV d L) ↦[(rowM2).view.set]{fullShare} r2))
      ∗ Transfers.Flight (countersEmb : UEmb Counters 𝕄) (thrV d L) (SemLoc.dma wsemS3) (default : HIx 1) 524288 iprop(((chunkM L k 1 3).view.loc (thrV d L) ↦[(chunkM L k 1 3).view.set]{fullShare} rowsOf ft fi) ∗ ((rowM3).view.loc (thrV d L) ↦[(rowM3).view.set]{fullShare} r3))
      ∗ Transfers.Flight (countersEmb : UEmb Counters 𝕄) (thrV d L) (SemLoc.dma wsemS4) (default : HIx 1) 524288 iprop(((chunkM L k 1 4).view.loc (thrV d L) ↦[(chunkM L k 1 4).view.set]{fullShare} rowsOf ft fi) ∗ ((rowM4).view.loc (thrV d L) ↦[(rowM4).view.set]{fullShare} r4))) := by
  rw [wPart_pos d L fi ft (k.val + 1) (Nat.succ_ne_zero _), tm1_succ]

/-- THE LOOP INVARIANT at the start of trip `t`: the index copy of block `40 w + min (2 t) 39` is on its way into slot 0
    (its delivery: the slot at that block, the index array's share back); slot 1 is held; the table is held as five read
    tokens, the gathers' semaphores are at zero; the write-outs are as `wPart` says; the tile's rows of the output below
    half-block `2 t - 1` hold the gathered rows, those from half-block `2 t` on are untouched. -/
def inv (t : ℕ) (_ : Unit) : sProp 𝕄 :=
  iprop(Transfers.MayWaits (thrV d L) (default : HIx 1) O
    ∗ ∃ (s0 s1 : Buf (Elt F) ((thrV d L).loc cc1_scratch0)) (r0 r1 r2 r3 r4 : Buf (Elt F) ((thrV d L).loc cc1_scratch1)) (W' : Waits sig (HIx 1)),
      ⌜BlkIs d L fi slotM0 (blkOf L (2 * t)) s0 ∧ ∀ p ∈ W', p ∈ W ∨ p.2 = none⌝
      ∗ Transfers.Flight (countersEmb : UEmb Counters 𝕄) (thrV d L) (SemLoc.dma isemS) (default : HIx 1) 20480 iprop(((sV).view.loc (thrV d L) ↦[slotS0]{fullShare} s0) ∗ ((iV).view.loc (thrV d L) ↦{qi} fi))
      ∗ ((sV).view.loc (thrV d L) ↦[slotS1]{fullShare} s1)
      ∗ (((tV).view.loc (thrV d L) ↦{Transfers.shareTokN qt 7} ft) ∗ ((tV).view.loc (thrV d L) ↦{Transfers.shareTokN qt 8} ft) ∗ ((tV).view.loc (thrV d L) ↦{Transfers.shareTokN qt 9} ft) ∗ ((tV).view.loc (thrV d L) ↦{Transfers.shareTokN qt 10} ft) ∗ ((tV).view.loc (thrV d L) ↦{Transfers.shareTokN qt 11} ft))
      ∗ (semVal (thrV d L, SemLoc.dma gsemS0) 0 ∗ semVal (thrV d L, SemLoc.dma gsemS1) 0 ∗ semVal (thrV d L, SemLoc.dma gsemS2) 0 ∗ semVal (thrV d L, SemLoc.dma gsemS3) 0 ∗ semVal (thrV d L, SemLoc.dma gsemS4) 0)
      ∗ wPart d L fi ft t r0 r1 r2 r3 r4
      ∗ (oLoc d ↦[doneH L (2 * t - 1)]{fullShare} rowsOf ft fi)
      ∗ (oLoc d ↦[todoH L (2 * t)]{fullShare} f0)
      ∗ owes (thrV d L) O W')

theorem done_cast {a b : ℕ} (h : a = b) (f : Buf (Elt F) (oLoc d)) :
    (oLoc d ↦[doneH L a]{fullShare} f : sProp 𝕄) ⊢ (oLoc d ↦[doneH L b]{fullShare} f) := by subst h; exact .rfl
theorem todo_cast {a b : ℕ} (h : a = b) (f : Buf (Elt F) (oLoc d)) :
    (oLoc d ↦[todoH L a]{fullShare} f : sProp 𝕄) ⊢ (oLoc d ↦[todoH L b]{fullShare} f) := by subst h; exact .rfl

/-- A flight's delivery restated along an equation of its first part. -/
theorem wflight_restate {c : Thread nD τ} {sm : SemLoc sig} {N : ℕ} {A A' B : sProp 𝕄} (h : A = A') :
    Transfers.Flight (countersEmb : UEmb Counters 𝕄) c sm (default : HIx 1) N iprop(A ∗ B)
      ⊢ Transfers.Flight (countersEmb : UEmb Counters 𝕄) c sm (default : HIx 1) N iprop(A' ∗ B) := by subst h; exact .rfl

/-- The index copy's flight with the rest of the index array's share folded in: the share comes back whole. -/
theorem isem_restate {c : Thread nD τ} {sm : SemLoc sig} {N : ℕ} {A : sProp 𝕄} {ℓ : Loc nD τ sig} {Bset : Finset (Idx ℓ)} {q : PosShare TreeShare} {g : Buf (Elt F) ℓ} :
    iprop(Transfers.Flight (countersEmb : UEmb Counters 𝕄) c sm (default : HIx 1) N iprop(A ∗ (ℓ ↦[Bset]{q} g)) ∗ (ℓ ↦[Finset.univ \ Bset]{q} g))
      ⊢ Transfers.Flight (countersEmb : UEmb Counters 𝕄) c sm (default : HIx 1) N iprop(A ∗ (ℓ ↦{q} g)) := by
  refine flight_restate ?_
  iintro ⟨⟨HA, HB⟩, HR⟩
  isplitl [HA]; · iexact HA
  iapply (pointsTo_split_subset (Finset.subset_univ Bset)).2
  isplitl [HB] <;> iassumption

theorem okW_insert {W W' : Waits sig (HIx 1)} (s : SemLoc sig) (h : ∀ p ∈ W', p ∈ W ∨ p.2 = none) :
    ∀ p ∈ insert (s, (default : HIx 1)) W', p ∈ W ∨ p.2 = none :=
  fun p hp => (Finset.mem_insert.mp hp).elim (fun e => .inr (e ▸ rfl)) (h p)

theorem cond_pos (k : Fin k1_t1_loop.trips) (hk : 0 < k.val) :
    Scalar.cmpi .ne (Scalar.extui (Scalar.cmpi .sgt (Scf.iv (0#32) (1#32) k) (0#32))) (0#32) = 1#1 := by
  revert k; decide
theorem cond_zero (k : Fin k1_t1_loop.trips) (hk : k.val = 0) :
    ¬ Scalar.cmpi .ne (Scalar.extui (Scalar.cmpi .sgt (Scf.iv (0#32) (1#32) k) (0#32))) (0#32) = 1#1 := by
  revert k; decide

end Inv

section Trip
variable [FloatOps F] (d : Dev nD) (L : grid1.Coords) (qi qt : PosShare TreeShare)
  (fi : Buf (Elt F) (iLoc d)) (ft : Buf (Elt F) (tLoc d)) (f0 : Buf (Elt F) (oLoc d))
  (O : CellTallies nD τ sig (HIx 1)) (W : Waits sig (HIx 1))

set_option maxHeartbeats 4000000 in
/-- One trip after the first: the invariant at `k` gives the invariant at `k + 1`. -/
theorem trip_pos (hfi : ∀ j, (fi j).toNat < 100000) (k : Fin k1_t1_loop.trips) (hk : 0 < k.val) (v2 v3 : BitVec 32) :
    inv d L qi qt fi ft f0 O W k.val () ⊢ wp frame (wpE (defs₀ (F := F)) 𝒱₀ (thrV d L) none) Set.univ
      (k1_t1_body L (iV) (Memref.isWhole_whole _) (tV) (Memref.isWhole_whole _) (oV) (Memref.isWhole_whole _)
        (sV) (Memref.isWhole_whole _) (rV) (Memref.isWhole_whole _) cc1_scratch2 cc1_scratch3 cc1_scratch4 v2 v3 k ())
      (inv d L qi qt fi ft f0 O W (k.val + 1)) := by
  conv_lhs => unfold inv
  iintro ⟨#Hmw, %s0, %s1, %r0, %r1, %r2, %r3, %r4, %W', %hpure, Hfi, Hs1, ⟨Ht0, Ht1, Ht2, Ht3, Ht4⟩, ⟨Hg0, Hg1, Hg2, Hg3, Hg4⟩, Hw, Hdone, Htodo, HO⟩
  obtain ⟨hs0, hW'⟩ := hpure
  ihave Hw' := (Entails.of_eq (wPart_pos d L fi ft k.val (Nat.pos_iff_ne_zero.mp hk) r0 r1 r2 r3 r4)) $$ Hw
  icases Hw' with ⟨Hfw0, Hfw1, Hfw2, Hfw3, Hfw4⟩
  ihave Htd := (todo_take d L k 0 f0).1 $$ Htodo
  icases Htd with ⟨Hc00, Hc01, Hc02, Hc03, Hc04, Htodo⟩
  ihave Htd := (todo_take d L k 1 f0).1 $$ Htodo
  icases Htd with ⟨Hc10, Hc11, Hc12, Hc13, Hc14, Htodo⟩

  have hb1 : ∀ g : Buf (Elt F) ((thrV d L).loc cc1_scratch0), BlkIs d L fi slotM1 (blkOf L (2 * k.val + (0 : Fin 2).val + 1)) (View.write (Elt F) (slotM1).view g (ReadAs.same.apply ((iblkM L k 0).view.read (Elt F) fi)) Finset.univ) :=
    fun g => blkIs_landed d L fi k 0 slotM1 g
  have hsc00 : ∀ x : S128.Idx, (listM00).view.read (Elt F) s0 x = fi (ValueIdx.ix3 (blkOf L (2 * k.val + (0 : Fin 2).val)) (0 : Fin 5) (x 0)) :=
    list_read_00 d L fi _ s0 hs0
  have hin00 : ∀ x, ((listM00).view.read (Elt F) s0 x).toNat < 100000 := fun x => by rw [hsc00 x]; exact hfi _
  have hsc10 : ∀ (g : Buf (Elt F) ((thrV d L).loc cc1_scratch0)) (x : S128.Idx), (listM10).view.read (Elt F) (View.write (Elt F) (slotM1).view g (ReadAs.same.apply ((iblkM L k 0).view.read (Elt F) fi)) Finset.univ) x = fi (ValueIdx.ix3 (blkOf L (2 * k.val + (1 : Fin 2).val)) (0 : Fin 5) (x 0)) :=
    fun g x => list_read_10 d L fi _ _ (hb1 g) x
  have hin10 : ∀ (g : Buf (Elt F) ((thrV d L).loc cc1_scratch0)) x, ((listM10).view.read (Elt F) (View.write (Elt F) (slotM1).view g (ReadAs.same.apply ((iblkM L k 0).view.read (Elt F) fi)) Finset.univ) x).toNat < 100000 := fun g x => by rw [hsc10 g x]; exact hfi _
  have hsc01 : ∀ x : S128.Idx, (listM01).view.read (Elt F) s0 x = fi (ValueIdx.ix3 (blkOf L (2 * k.val + (0 : Fin 2).val)) (1 : Fin 5) (x 0)) :=
    list_read_01 d L fi _ s0 hs0
  have hin01 : ∀ x, ((listM01).view.read (Elt F) s0 x).toNat < 100000 := fun x => by rw [hsc01 x]; exact hfi _
  have hsc11 : ∀ (g : Buf (Elt F) ((thrV d L).loc cc1_scratch0)) (x : S128.Idx), (listM11).view.read (Elt F) (View.write (Elt F) (slotM1).view g (ReadAs.same.apply ((iblkM L k 0).view.read (Elt F) fi)) Finset.univ) x = fi (ValueIdx.ix3 (blkOf L (2 * k.val + (1 : Fin 2).val)) (1 : Fin 5) (x 0)) :=
    fun g x => list_read_11 d L fi _ _ (hb1 g) x
  have hin11 : ∀ (g : Buf (Elt F) ((thrV d L).loc cc1_scratch0)) x, ((listM11).view.read (Elt F) (View.write (Elt F) (slotM1).view g (ReadAs.same.apply ((iblkM L k 0).view.read (Elt F) fi)) Finset.univ) x).toNat < 100000 := fun g x => by rw [hsc11 g x]; exact hfi _
  have hsc02 : ∀ x : S128.Idx, (listM02).view.read (Elt F) s0 x = fi (ValueIdx.ix3 (blkOf L (2 * k.val + (0 : Fin 2).val)) (2 : Fin 5) (x 0)) :=
    list_read_02 d L fi _ s0 hs0
  have hin02 : ∀ x, ((listM02).view.read (Elt F) s0 x).toNat < 100000 := fun x => by rw [hsc02 x]; exact hfi _
  have hsc12 : ∀ (g : Buf (Elt F) ((thrV d L).loc cc1_scratch0)) (x : S128.Idx), (listM12).view.read (Elt F) (View.write (Elt F) (slotM1).view g (ReadAs.same.apply ((iblkM L k 0).view.read (Elt F) fi)) Finset.univ) x = fi (ValueIdx.ix3 (blkOf L (2 * k.val + (1 : Fin 2).val)) (2 : Fin 5) (x 0)) :=
    fun g x => list_read_12 d L fi _ _ (hb1 g) x
  have hin12 : ∀ (g : Buf (Elt F) ((thrV d L).loc cc1_scratch0)) x, ((listM12).view.read (Elt F) (View.write (Elt F) (slotM1).view g (ReadAs.same.apply ((iblkM L k 0).view.read (Elt F) fi)) Finset.univ) x).toNat < 100000 := fun g x => by rw [hsc12 g x]; exact hfi _
  have hsc03 : ∀ x : S128.Idx, (listM03).view.read (Elt F) s0 x = fi (ValueIdx.ix3 (blkOf L (2 * k.val + (0 : Fin 2).val)) (3 : Fin 5) (x 0)) :=
    list_read_03 d L fi _ s0 hs0
  have hin03 : ∀ x, ((listM03).view.read (Elt F) s0 x).toNat < 100000 := fun x => by rw [hsc03 x]; exact hfi _
  have hsc13 : ∀ (g : Buf (Elt F) ((thrV d L).loc cc1_scratch0)) (x : S128.Idx), (listM13).view.read (Elt F) (View.write (Elt F) (slotM1).view g (ReadAs.same.apply ((iblkM L k 0).view.read (Elt F) fi)) Finset.univ) x = fi (ValueIdx.ix3 (blkOf L (2 * k.val + (1 : Fin 2).val)) (3 : Fin 5) (x 0)) :=
    fun g x => list_read_13 d L fi _ _ (hb1 g) x
  have hin13 : ∀ (g : Buf (Elt F) ((thrV d L).loc cc1_scratch0)) x, ((listM13).view.read (Elt F) (View.write (Elt F) (slotM1).view g (ReadAs.same.apply ((iblkM L k 0).view.read (Elt F) fi)) Finset.univ) x).toNat < 100000 := fun g x => by rw [hsc13 g x]; exact hfi _
  have hsc04 : ∀ x : S128.Idx, (listM04).view.read (Elt F) s0 x = fi (ValueIdx.ix3 (blkOf L (2 * k.val + (0 : Fin 2).val)) (4 : Fin 5) (x 0)) :=
    list_read_04 d L fi _ s0 hs0
  have hin04 : ∀ x, ((listM04).view.read (Elt F) s0 x).toNat < 100000 := fun x => by rw [hsc04 x]; exact hfi _
  have hsc14 : ∀ (g : Buf (Elt F) ((thrV d L).loc cc1_scratch0)) (x : S128.Idx), (listM14).view.read (Elt F) (View.write (Elt F) (slotM1).view g (ReadAs.same.apply ((iblkM L k 0).view.read (Elt F) fi)) Finset.univ) x = fi (ValueIdx.ix3 (blkOf L (2 * k.val + (1 : Fin 2).val)) (4 : Fin 5) (x 0)) :=
    fun g x => list_read_14 d L fi _ _ (hb1 g) x
  have hin14 : ∀ (g : Buf (Elt F) ((thrV d L).loc cc1_scratch0)) x, ((listM14).view.read (Elt F) (View.write (Elt F) (slotM1).view g (ReadAs.same.apply ((iblkM L k 0).view.read (Elt F) fi)) Finset.univ) x).toNat < 100000 := fun g x => by rw [hsc14 g x]; exact hfi _
  have htm : (tm1 k.val).val = k.val - 1 := by
    show (k.val - 1) % k1_t1_loop.trips = k.val - 1
    exact Nat.mod_eq_of_lt (by have := k.isLt; omega)
  unfold k1_t1_body
  sl_exec_parts (disch := first | exact cond_pos k hk)
  sl_step

  unfold inv
  isplitr; · iexact Hmw
  iexists _; iexists _; iexists _; iexists _; iexists _; iexists _; iexists _; iexists _
  isplitr
  swap
  · -- the index copy's flight: the index array's share comes back whole
    isplitl [Hfi Hfi_src]
    · iapply (isem_restate)
      isplitl [Hfi]; · iexact Hfi
      iexact Hfi_src
    isplitl [Hs1]; · iexact Hs1
    isplitl [Ht0 Ht1 Ht2 Ht3 Ht4]
    ·
      isplitl [Ht0]; · iexact Ht0
      isplitl [Ht1]; · iexact Ht1
      isplitl [Ht2]; · iexact Ht2
      isplitl [Ht3]; · iexact Ht3
      iexact Ht4
    isplitl [Hg0 Hg1 Hg2 Hg3 Hg4]
    ·
      isplitl [Hg0]; · iexact Hg0
      isplitl [Hg1]; · iexact Hg1
      isplitl [Hg2]; · iexact Hg2
      isplitl [Hg3]; · iexact Hg3
      iexact Hg4
    -- the second half's chunks are at their final values in the write-outs' deliveries
    isplitl [Hfw0 Hfw1 Hfw2 Hfw3 Hfw4]
    · iapply (Entails.of_eq (wPart_succ d L fi ft k _ _ _ _ _).symm)
      isplitl [Hfw0]; · iapply (wflight_restate (chunk_done d L fi ft (hsc := hsc10 s1))); iexact Hfw0
      isplitl [Hfw1]; · iapply (wflight_restate (chunk_done d L fi ft (hsc := hsc11 s1))); iexact Hfw1
      isplitl [Hfw2]; · iapply (wflight_restate (chunk_done d L fi ft (hsc := hsc12 s1))); iexact Hfw2
      isplitl [Hfw3]; · iapply (wflight_restate (chunk_done d L fi ft (hsc := hsc13 s1))); iexact Hfw3
      iapply (wflight_restate (chunk_done d L fi ft (hsc := hsc14 s1))); iexact Hfw4
    -- the finished rows: the previous trip's second half-block and this trip's first join them
    isplitl [Hdone Hfw0_dst Hfw1_dst Hfw2_dst Hfw3_dst Hfw4_dst Hc00 Hc01 Hc02 Hc03 Hc04]
    · iapply (done_cast d L (show 2 * k.val + (0 : Fin 2).val + 1 = 2 * (k.val + 1) - 1 from by have h0 : ((0 : Fin 2) : ℕ) = 0 := rfl; omega) _)
      iapply (done_put d L k 0 (rowsOf ft fi)).1
      isplitl [Hdone Hfw0_dst Hfw1_dst Hfw2_dst Hfw3_dst Hfw4_dst]
      · iapply (done_cast d L (show 2 * (tm1 k.val).val + (1 : Fin 2).val + 1 = 2 * k.val + (0 : Fin 2).val from by have h1 : ((1 : Fin 2) : ℕ) = 1 := rfl; have h0 : ((0 : Fin 2) : ℕ) = 0 := rfl; omega) _)
        iapply (done_put d L (tm1 k.val) 1 (rowsOf ft fi)).1
        isplitl [Hdone]; · iapply (done_cast d L (show 2 * k.val - 1 = 2 * (tm1 k.val).val + (1 : Fin 2).val from by have h1 : ((1 : Fin 2) : ℕ) = 1 := rfl; omega) _); iexact Hdone
        isplitl [Hfw0_dst]; · iexact Hfw0_dst
        isplitl [Hfw1_dst]; · iexact Hfw1_dst
        isplitl [Hfw2_dst]; · iexact Hfw2_dst
        isplitl [Hfw3_dst]; · iexact Hfw3_dst
        iexact Hfw4_dst
      isplitl [Hc00]; · iapply (Entails.of_eq (chunk_done d L fi ft (hsc := hsc00))); iexact Hc00
      isplitl [Hc01]; · iapply (Entails.of_eq (chunk_done d L fi ft (hsc := hsc01))); iexact Hc01
      isplitl [Hc02]; · iapply (Entails.of_eq (chunk_done d L fi ft (hsc := hsc02))); iexact Hc02
      isplitl [Hc03]; · iapply (Entails.of_eq (chunk_done d L fi ft (hsc := hsc03))); iexact Hc03
      iapply (Entails.of_eq (chunk_done d L fi ft (hsc := hsc04))); iexact Hc04
    isplitl [Htodo]; · iapply (todo_cast d L (show 2 * k.val + (1 : Fin 2).val + 1 = 2 * (k.val + 1) from by have h1 : ((1 : Fin 2) : ℕ) = 1 := rfl; omega) _); iexact Htodo
    iexact HO
  · ipureintro
    refine ⟨?_, ?_⟩
    · have hl := blkIs_landed d L fi k 1 slotM0 s0
      rw [show 2 * (k.val + 1) = 2 * k.val + (1 : Fin 2).val + 1 from by have h1 : ((1 : Fin 2) : ℕ) = 1 := rfl; omega]
      exact hl
    · repeat (first | exact hW' | apply okW_insert)

set_option maxHeartbeats 4000000 in
/-- The first trip: no write-out is outstanding, the row buffers are held. -/
theorem trip_zero (hfi : ∀ j, (fi j).toNat < 100000) (k : Fin k1_t1_loop.trips) (hk : k.val = 0) (v2 v3 : BitVec 32) :
    inv d L qi qt fi ft f0 O W k.val () ⊢ wp frame (wpE (defs₀ (F := F)) 𝒱₀ (thrV d L) none) Set.univ
      (k1_t1_body L (iV) (Memref.isWhole_whole _) (tV) (Memref.isWhole_whole _) (oV) (Memref.isWhole_whole _)
        (sV) (Memref.isWhole_whole _) (rV) (Memref.isWhole_whole _) cc1_scratch2 cc1_scratch3 cc1_scratch4 v2 v3 k ())
      (inv d L qi qt fi ft f0 O W (k.val + 1)) := by
  conv_lhs => unfold inv
  iintro ⟨#Hmw, %s0, %s1, %r0, %r1, %r2, %r3, %r4, %W', %hpure, Hfi, Hs1, ⟨Ht0, Ht1, Ht2, Ht3, Ht4⟩, ⟨Hg0, Hg1, Hg2, Hg3, Hg4⟩, Hw, Hdone, Htodo, HO⟩
  obtain ⟨hs0, hW'⟩ := hpure
  ihave Hw' := (Entails.of_eq ((congrArg (fun t => wPart d L fi ft t r0 r1 r2 r3 r4) hk).trans (wPart_zero d L fi ft r0 r1 r2 r3 r4))) $$ Hw
  icases Hw' with ⟨⟨Hr0, Hfw0⟩, ⟨Hr1, Hfw1⟩, ⟨Hr2, Hfw2⟩, ⟨Hr3, Hfw3⟩, ⟨Hr4, Hfw4⟩⟩
  ihave Htd := (todo_take d L k 0 f0).1 $$ Htodo
  icases Htd with ⟨Hc00, Hc01, Hc02, Hc03, Hc04, Htodo⟩
  ihave Htd := (todo_take d L k 1 f0).1 $$ Htodo
  icases Htd with ⟨Hc10, Hc11, Hc12, Hc13, Hc14, Htodo⟩

  have hb1 : ∀ g : Buf (Elt F) ((thrV d L).loc cc1_scratch0), BlkIs d L fi slotM1 (blkOf L (2 * k.val + (0 : Fin 2).val + 1)) (View.write (Elt F) (slotM1).view g (ReadAs.same.apply ((iblkM L k 0).view.read (Elt F) fi)) Finset.univ) :=
    fun g => blkIs_landed d L fi k 0 slotM1 g
  have hsc00 : ∀ x : S128.Idx, (listM00).view.read (Elt F) s0 x = fi (ValueIdx.ix3 (blkOf L (2 * k.val + (0 : Fin 2).val)) (0 : Fin 5) (x 0)) :=
    list_read_00 d L fi _ s0 hs0
  have hin00 : ∀ x, ((listM00).view.read (Elt F) s0 x).toNat < 100000 := fun x => by rw [hsc00 x]; exact hfi _
  have hsc10 : ∀ (g : Buf (Elt F) ((thrV d L).loc cc1_scratch0)) (x : S128.Idx), (listM10).view.read (Elt F) (View.write (Elt F) (slotM1).view g (ReadAs.same.apply ((iblkM L k 0).view.read (Elt F) fi)) Finset.univ) x = fi (ValueIdx.ix3 (blkOf L (2 * k.val + (1 : Fin 2).val)) (0 : Fin 5) (x 0)) :=
    fun g x => list_read_10 d L fi _ _ (hb1 g) x
  have hin10 : ∀ (g : Buf (Elt F) ((thrV d L).loc cc1_scratch0)) x, ((listM10).view.read (Elt F) (View.write (Elt F) (slotM1).view g (ReadAs.same.apply ((iblkM L k 0).view.read (Elt F) fi)) Finset.univ) x).toNat < 100000 := fun g x => by rw [hsc10 g x]; exact hfi _
  have hsc01 : ∀ x : S128.Idx, (listM01).view.read (Elt F) s0 x = fi (ValueIdx.ix3 (blkOf L (2 * k.val + (0 : Fin 2).val)) (1 : Fin 5) (x 0)) :=
    list_read_01 d L fi _ s0 hs0
  have hin01 : ∀ x, ((listM01).view.read (Elt F) s0 x).toNat < 100000 := fun x => by rw [hsc01 x]; exact hfi _
  have hsc11 : ∀ (g : Buf (Elt F) ((thrV d L).loc cc1_scratch0)) (x : S128.Idx), (listM11).view.read (Elt F) (View.write (Elt F) (slotM1).view g (ReadAs.same.apply ((iblkM L k 0).view.read (Elt F) fi)) Finset.univ) x = fi (ValueIdx.ix3 (blkOf L (2 * k.val + (1 : Fin 2).val)) (1 : Fin 5) (x 0)) :=
    fun g x => list_read_11 d L fi _ _ (hb1 g) x
  have hin11 : ∀ (g : Buf (Elt F) ((thrV d L).loc cc1_scratch0)) x, ((listM11).view.read (Elt F) (View.write (Elt F) (slotM1).view g (ReadAs.same.apply ((iblkM L k 0).view.read (Elt F) fi)) Finset.univ) x).toNat < 100000 := fun g x => by rw [hsc11 g x]; exact hfi _
  have hsc02 : ∀ x : S128.Idx, (listM02).view.read (Elt F) s0 x = fi (ValueIdx.ix3 (blkOf L (2 * k.val + (0 : Fin 2).val)) (2 : Fin 5) (x 0)) :=
    list_read_02 d L fi _ s0 hs0
  have hin02 : ∀ x, ((listM02).view.read (Elt F) s0 x).toNat < 100000 := fun x => by rw [hsc02 x]; exact hfi _
  have hsc12 : ∀ (g : Buf (Elt F) ((thrV d L).loc cc1_scratch0)) (x : S128.Idx), (listM12).view.read (Elt F) (View.write (Elt F) (slotM1).view g (ReadAs.same.apply ((iblkM L k 0).view.read (Elt F) fi)) Finset.univ) x = fi (ValueIdx.ix3 (blkOf L (2 * k.val + (1 : Fin 2).val)) (2 : Fin 5) (x 0)) :=
    fun g x => list_read_12 d L fi _ _ (hb1 g) x
  have hin12 : ∀ (g : Buf (Elt F) ((thrV d L).loc cc1_scratch0)) x, ((listM12).view.read (Elt F) (View.write (Elt F) (slotM1).view g (ReadAs.same.apply ((iblkM L k 0).view.read (Elt F) fi)) Finset.univ) x).toNat < 100000 := fun g x => by rw [hsc12 g x]; exact hfi _
  have hsc03 : ∀ x : S128.Idx, (listM03).view.read (Elt F) s0 x = fi (ValueIdx.ix3 (blkOf L (2 * k.val + (0 : Fin 2).val)) (3 : Fin 5) (x 0)) :=
    list_read_03 d L fi _ s0 hs0
  have hin03 : ∀ x, ((listM03).view.read (Elt F) s0 x).toNat < 100000 := fun x => by rw [hsc03 x]; exact hfi _
  have hsc13 : ∀ (g : Buf (Elt F) ((thrV d L).loc cc1_scratch0)) (x : S128.Idx), (listM13).view.read (Elt F) (View.write (Elt F) (slotM1).view g (ReadAs.same.apply ((iblkM L k 0).view.read (Elt F) fi)) Finset.univ) x = fi (ValueIdx.ix3 (blkOf L (2 * k.val + (1 : Fin 2).val)) (3 : Fin 5) (x 0)) :=
    fun g x => list_read_13 d L fi _ _ (hb1 g) x
  have hin13 : ∀ (g : Buf (Elt F) ((thrV d L).loc cc1_scratch0)) x, ((listM13).view.read (Elt F) (View.write (Elt F) (slotM1).view g (ReadAs.same.apply ((iblkM L k 0).view.read (Elt F) fi)) Finset.univ) x).toNat < 100000 := fun g x => by rw [hsc13 g x]; exact hfi _
  have hsc04 : ∀ x : S128.Idx, (listM04).view.read (Elt F) s0 x = fi (ValueIdx.ix3 (blkOf L (2 * k.val + (0 : Fin 2).val)) (4 : Fin 5) (x 0)) :=
    list_read_04 d L fi _ s0 hs0
  have hin04 : ∀ x, ((listM04).view.read (Elt F) s0 x).toNat < 100000 := fun x => by rw [hsc04 x]; exact hfi _
  have hsc14 : ∀ (g : Buf (Elt F) ((thrV d L).loc cc1_scratch0)) (x : S128.Idx), (listM14).view.read (Elt F) (View.write (Elt F) (slotM1).view g (ReadAs.same.apply ((iblkM L k 0).view.read (Elt F) fi)) Finset.univ) x = fi (ValueIdx.ix3 (blkOf L (2 * k.val + (1 : Fin 2).val)) (4 : Fin 5) (x 0)) :=
    fun g x => list_read_14 d L fi _ _ (hb1 g) x
  have hin14 : ∀ (g : Buf (Elt F) ((thrV d L).loc cc1_scratch0)) x, ((listM14).view.read (Elt F) (View.write (Elt F) (slotM1).view g (ReadAs.same.apply ((iblkM L k 0).view.read (Elt F) fi)) Finset.univ) x).toNat < 100000 := fun g x => by rw [hsc14 g x]; exact hfi _
  unfold k1_t1_body
  sl_exec_parts (disch := first | exact cond_zero k hk)
  sl_step

  unfold inv
  isplitr; · iexact Hmw
  iexists _; iexists _; iexists _; iexists _; iexists _; iexists _; iexists _; iexists _
  isplitr
  swap
  · -- the index copy's flight: the index array's share comes back whole
    isplitl [Hfi Hfi_src]
    · iapply (isem_restate)
      isplitl [Hfi]; · iexact Hfi
      iexact Hfi_src
    isplitl [Hs1]; · iexact Hs1
    isplitl [Ht0 Ht1 Ht2 Ht3 Ht4]
    ·
      isplitl [Ht0]; · iexact Ht0
      isplitl [Ht1]; · iexact Ht1
      isplitl [Ht2]; · iexact Ht2
      isplitl [Ht3]; · iexact Ht3
      iexact Ht4
    isplitl [Hg0 Hg1 Hg2 Hg3 Hg4]
    ·
      isplitl [Hg0]; · iexact Hg0
      isplitl [Hg1]; · iexact Hg1
      isplitl [Hg2]; · iexact Hg2
      isplitl [Hg3]; · iexact Hg3
      iexact Hg4
    -- the second half's chunks are at their final values in the write-outs' deliveries
    isplitl [Hfw0 Hfw1 Hfw2 Hfw3 Hfw4]
    · iapply (Entails.of_eq (wPart_succ d L fi ft k _ _ _ _ _).symm)
      isplitl [Hfw0]; · iapply (wflight_restate (chunk_done d L fi ft (hsc := hsc10 s1))); iexact Hfw0
      isplitl [Hfw1]; · iapply (wflight_restate (chunk_done d L fi ft (hsc := hsc11 s1))); iexact Hfw1
      isplitl [Hfw2]; · iapply (wflight_restate (chunk_done d L fi ft (hsc := hsc12 s1))); iexact Hfw2
      isplitl [Hfw3]; · iapply (wflight_restate (chunk_done d L fi ft (hsc := hsc13 s1))); iexact Hfw3
      iapply (wflight_restate (chunk_done d L fi ft (hsc := hsc14 s1))); iexact Hfw4
    -- the finished rows: the previous trip's second half-block and this trip's first join them
    isplitl [Hdone  Hc00 Hc01 Hc02 Hc03 Hc04]
    · iapply (done_cast d L (show 2 * k.val + (0 : Fin 2).val + 1 = 2 * (k.val + 1) - 1 from by have h0 : ((0 : Fin 2) : ℕ) = 0 := rfl; omega) _)
      iapply (done_put d L k 0 (rowsOf ft fi)).1
      isplitl [Hdone ]
      · iapply (done_cast d L (show 2 * k.val - 1 = 2 * k.val + (0 : Fin 2).val from by have h0 : ((0 : Fin 2) : ℕ) = 0 := rfl; omega) _); iexact Hdone
      isplitl [Hc00]; · iapply (Entails.of_eq (chunk_done d L fi ft (hsc := hsc00))); iexact Hc00
      isplitl [Hc01]; · iapply (Entails.of_eq (chunk_done d L fi ft (hsc := hsc01))); iexact Hc01
      isplitl [Hc02]; · iapply (Entails.of_eq (chunk_done d L fi ft (hsc := hsc02))); iexact Hc02
      isplitl [Hc03]; · iapply (Entails.of_eq (chunk_done d L fi ft (hsc := hsc03))); iexact Hc03
      iapply (Entails.of_eq (chunk_done d L fi ft (hsc := hsc04))); iexact Hc04
    isplitl [Htodo]; · iapply (todo_cast d L (show 2 * k.val + (1 : Fin 2).val + 1 = 2 * (k.val + 1) from by have h1 : ((1 : Fin 2) : ℕ) = 1 := rfl; omega) _); iexact Htodo
    iexact HO
  · ipureintro
    refine ⟨?_, ?_⟩
    · have hl := blkIs_landed d L fi k 1 slotM0 s0
      rw [show 2 * (k.val + 1) = 2 * k.val + (1 : Fin 2).val + 1 from by have h1 : ((1 : Fin 2) : ℕ) = 1 := rfl; omega]
      exact hl
    · repeat (first | exact hW' | apply okW_insert)

end Trip

end Cert.Proof.KI
end
-- ==== Proof.KI.Tile.lean ====
import proofs.«204608_g3015067042085_cont_9to1_1138_29_alg».proof.Proof.KI.TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  One tile's whole task at symbolic coordinates: the tile's scratch buffers are cut into the two index slots and the five
  row buffers, the table's share into five read tokens, the first index copy is started, the loop runs by its invariant,
  and after the last waits the pieces are put back: the tile's rows of the output hold the gathered rows of the table.
-/

local notation "iV" => (Memref.whole Cert.KernelIdeal.main_v1_scv : Memref Cert.KernelIdeal.sig Kind.scVector Space.hbm Cert.KernelIdeal.S1280x5x128 EltTy.i32)
local notation "tV" => (Memref.whole Cert.KernelIdeal.main_v0_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S819200x128 EltTy.f32)
local notation "sV" => (Memref.whole Cert.KernelIdeal.cc1_scratch0 : Memref Cert.KernelIdeal.sig Kind.scVector Space.vmem Cert.KernelIdeal.S2x5x128 EltTy.i32)
local notation "rV" => (Memref.whole Cert.KernelIdeal.cc1_scratch1 : Memref Cert.KernelIdeal.sig Kind.scVector Space.vmem Cert.KernelIdeal.S5x128x128 EltTy.f32)
set_option quotPrecheck false in
local notation "slotS0" => ((Memref.whole Cert.KernelIdeal.cc1_scratch0 : Memref Cert.KernelIdeal.sig Kind.scVector Space.vmem Cert.KernelIdeal.S2x5x128 EltTy.i32).view.setOn (Rect.unit (s := Cert.KernelIdeal.S2x5x128) ![0, 0, 0] Cert.KernelIdeal.S1x5x128.size Cert.KernelIdeal.Facts₀.inb_S2x5x128_S1x5x128_0_0_0).set)
set_option quotPrecheck false in
local notation "slotS1" => ((Memref.whole Cert.KernelIdeal.cc1_scratch0 : Memref Cert.KernelIdeal.sig Kind.scVector Space.vmem Cert.KernelIdeal.S2x5x128 EltTy.i32).view.setOn (Rect.unit (s := Cert.KernelIdeal.S2x5x128) ![1, 0, 0] Cert.KernelIdeal.S1x5x128.size Cert.KernelIdeal.Facts₀.inb_S2x5x128_S1x5x128_1_0_0).set)

section Body
variable [FloatOps F] [∀ e, Nonempty (Elt F e)]

theorem pts_iV (d : Dev nD) (L : grid1.Coords) (q : PosShare TreeShare) (f : Buf (Elt F) (iLoc d)) :
    ((iV).view.loc (thrV d L) ↦{q} f : sProp 𝕄) = iLoc d ↦{q} f := rfl

theorem done_emp (d : Dev nD) (L : grid1.Coords) (f : Buf (Elt F) (oLoc d)) : (oLoc d ↦[doneH L (2 * 0 - 1)]{fullShare} f : sProp 𝕄) = iprop(emp) := by
  rw [show 2 * 0 - 1 = 0 from rfl, doneH_zero, pointsTo_empty]
theorem todo_emp (d : Dev nD) (L : grid1.Coords) (f : Buf (Elt F) (oLoc d)) : (oLoc d ↦[todoH L (2 * 20)]{fullShare} f : sProp 𝕄) = iprop(emp) := by
  rw [show 2 * 20 = 40 from rfl, todoH_last, pointsTo_empty]

set_option maxHeartbeats 4000000 in
/-- The tile's task: the first index copy, the twenty trips by the invariant, the last waits. -/
theorem tile_body (hF : (K (F := F)).Facts) : TileBodyStmt (F := F) := by
  intro d L qi qt fi ft f0 hfi O W hO
  rw [cc1_body_eq_skeleton]; unfold cc1_body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨Hfi, ⟨Hg0, Hg1, Hg2, Hg3, Hg4⟩, ⟨Hfw0, Hfw1, Hfw2, Hfw3, Hfw4⟩, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hi' := (Entails.of_eq (pts_iV (F := F) d L _ _).symm) $$ Hi
  ihave Hs' := (scratch0_split d L fs).1 $$ Hs
  icases Hs' with ⟨Hs0, Hs1⟩
  ihave Hr' := (scratch1_split d L fr).1 $$ Hr
  icases Hr' with ⟨Hr0, Hr1, Hr2, Hr3, Hr4⟩
  ihave Ht' := (table_split d L qt ft).1 $$ Ht
  icases Ht' with ⟨Htrest, Ht0, Ht1, Ht2, Ht3, Ht4⟩
  ihave Htodo := (Entails.of_eq (show (oLoc d ↦[oSet (wid L)]{fullShare} f0 : sProp 𝕄) = (oLoc d ↦[todoH L (2 * 0)]{fullShare} f0) from by rw [oSet_eq_todoH])) $$ Ho
  sl_exec
  sl_for (inv d L qi qt fi ft f0 O W) $$ [Hfi Hi' Hs1 Ht0 Ht1 Ht2 Ht3 Ht4 Hg0 Hg1 Hg2 Hg3 Hg4 Hr0 Hr1 Hr2 Hr3 Hr4 Hfw0 Hfw1 Hfw2 Hfw3 Hfw4 Htodo HO]
  case region =>
    intro k _
    by_cases h0 : k.val = 0
    · exact trip_zero d L qi qt fi ft f0 O W hfi k h0 _ _
    · exact trip_pos d L qi qt fi ft f0 O W hfi k (Nat.pos_of_ne_zero h0) _ _
  · unfold inv
    isplitr; · iexact Hmw
    iexists _; iexists _; iexists _; iexists _; iexists _; iexists _; iexists _; iexists _
    isplitr
    swap
    · isplitl [Hfi Hi']
      · iapply (isem_restate)
        isplitl [Hfi]; · iexact Hfi
        iexact Hi'
      isplitl [Hs1]; · iexact Hs1
      isplitl [Ht0 Ht1 Ht2 Ht3 Ht4]
      ·
        isplitl [Ht0]; · iexact Ht0
        isplitl [Ht1]; · iexact Ht1
        isplitl [Ht2]; · iexact Ht2
        isplitl [Ht3]; · iexact Ht3
        iexact Ht4
      isplitl [Hg0 Hg1 Hg2 Hg3 Hg4]
      ·
        isplitl [Hg0]; · iexact Hg0
        isplitl [Hg1]; · iexact Hg1
        isplitl [Hg2]; · iexact Hg2
        isplitl [Hg3]; · iexact Hg3
        iexact Hg4
      isplitl [Hr0 Hr1 Hr2 Hr3 Hr4 Hfw0 Hfw1 Hfw2 Hfw3 Hfw4]
      · iapply (Entails.of_eq (wPart_zero d L fi ft _ _ _ _ _).symm)
        isplitl [Hr0 Hfw0]
        · isplitl [Hr0]; · iexact Hr0
          iexact Hfw0
        isplitl [Hr1 Hfw1]
        · isplitl [Hr1]; · iexact Hr1
          iexact Hfw1
        isplitl [Hr2 Hfw2]
        · isplitl [Hr2]; · iexact Hr2
          iexact Hfw2
        isplitl [Hr3 Hfw3]
        · isplitl [Hr3]; · iexact Hr3
          iexact Hfw3
        isplitl [Hr4]; · iexact Hr4
        iexact Hfw4
      isplitr [Htodo HO]
      · iapply (Entails.of_eq (done_emp d L _).symm); iempintro
      isplitl [Htodo]; · iexact Htodo
      iexact HO
    · ipureintro
      exact ⟨blkIs_landed0 d L fi slotM0 fs, fun p hp => .inl hp⟩
  iintro %acc HI
  have htr : Scf.trips k1_t1_loop.lb k1_t1_loop.ub k1_t1_loop.st = 20 := by decide
  ihave HI := (Entails.of_eq (congrArg (fun n => inv d L qi qt fi ft f0 O W n acc) htr)) $$ HI
  unfold inv
  icases HI with ⟨-, %s0, %s1, %r0, %r1, %r2, %r3, %r4, %W', %hpure, Hfi, Hs1, ⟨Ht0, Ht1, Ht2, Ht3, Ht4⟩, ⟨Hg0, Hg1, Hg2, Hg3, Hg4⟩, Hw, Hdone, Htodo, HO⟩
  obtain ⟨-, hW'⟩ := hpure
  ihave Hw' := (Entails.of_eq (wPart_pos d L fi ft 20 (by decide) r0 r1 r2 r3 r4)) $$ Hw
  icases Hw' with ⟨Hfw0, Hfw1, Hfw2, Hfw3, Hfw4⟩
  ihave He := (Entails.of_eq (todo_emp d L f0)) $$ Htodo
  icases He with -
  sl_exec_parts
  sl_step
  isplitl [Hfi_src Htrest Ht0 Ht1 Ht2 Ht3 Ht4 Hdone Hfw0_dst Hfw1_dst Hfw2_dst Hfw3_dst Hfw4_dst]
  · isplitl [Hfi_src]; · iapply (Entails.of_eq (pts_iV (F := F) d L _ _)); iexact Hfi_src
    isplitl [Htrest Ht0 Ht1 Ht2 Ht3 Ht4]
    · iapply (table_split d L qt ft).2
      isplitl [Htrest]; · iexact Htrest
      isplitl [Ht0]; · iexact Ht0
      isplitl [Ht1]; · iexact Ht1
      isplitl [Ht2]; · iexact Ht2
      isplitl [Ht3]; · iexact Ht3
      iexact Ht4
    iapply (Entails.of_eq (show (oLoc d ↦[doneH L 40]{fullShare} rowsOf ft fi : sProp 𝕄) = (oLoc d ↦[oSet (wid L)]{fullShare} rowsOf ft fi) from by rw [oSet_eq_doneH]))
    iapply (done_cast d L (show 2 * (tm1 20).val + (1 : Fin 2).val + 1 = 40 from by decide) _)
    iapply (done_put d L (tm1 20) 1 (rowsOf ft fi)).1
    isplitl [Hdone]; · iapply (done_cast d L (show 2 * 20 - 1 = 2 * (tm1 20).val + (1 : Fin 2).val from by decide) _); iexact Hdone
    isplitl [Hfw0_dst]; · iexact Hfw0_dst
    isplitl [Hfw1_dst]; · iexact Hfw1_dst
    isplitl [Hfw2_dst]; · iexact Hfw2_dst
    isplitl [Hfw3_dst]; · iexact Hfw3_dst
    iexact Hfw4_dst
  isplitl [Hfi_dst Hs1 Hfw0_src Hfw1_src Hfw2_src Hfw3_src Hfw4_src Hbufs]
  · isplitl [Hfi_dst Hs1]
    · iapply (scratch0_join d L _ _)
      isplitl [Hfi_dst]; · iexact Hfi_dst
      iexact Hs1
    isplitl [Hfw0_src Hfw1_src Hfw2_src Hfw3_src Hfw4_src]
    · iapply (scratch1_join d L _ _ _ _ _)
      isplitl [Hfw0_src]; · iexact Hfw0_src
      isplitl [Hfw1_src]; · iexact Hfw1_src
      isplitl [Hfw2_src]; · iexact Hfw2_src
      isplitl [Hfw3_src]; · iexact Hfw3_src
      iexact Hfw4_src
    iexact Hbufs
  isplitl [Hfi Hg0 Hg1 Hg2 Hg3 Hg4 Hfw0 Hfw1 Hfw2 Hfw3 Hfw4 Hsems]
  · isplitl [Hfi]; · iexact Hfi
    isplitl [Hg0 Hg1 Hg2 Hg3 Hg4]
    ·
      isplitl [Hg0]; · iexact Hg0
      isplitl [Hg1]; · iexact Hg1
      isplitl [Hg2]; · iexact Hg2
      isplitl [Hg3]; · iexact Hg3
      iexact Hg4
    isplitl [Hfw0 Hfw1 Hfw2 Hfw3 Hfw4]
    ·
      isplitl [Hfw0]; · iexact Hfw0
      isplitl [Hfw1]; · iexact Hfw1
      isplitl [Hfw2]; · iexact Hfw2
      isplitl [Hfw3]; · iexact Hfw3
      iexact Hfw4
    iexact Hsems
  iexists _; isplitr
  swap; · iexact HO
  ipureintro
  repeat (first | exact hW' | apply okW_insert)

end Body

end Cert.Proof.KI
end
-- ==== Proof.KB.Region.lean ====
/-
  The TensorCore region of the program: the pipelined call that builds the combined table
      tab[v, j] = W_word[v, j]  for j < 96,      tab[v, j] = W_num[v, j - 96]  for 96 ≤ j < 128,
  block by block.  Its grid has ten points; at point t every window holds block row t of its array (10000 rows).  The body
  copies columns 0..95 of the first input block to columns 0..95 of the output block and the 32 columns of the second input
  block to columns 96..127.  The ten output blocks tile the table, so after the last write-back the array holds `tabOf` of
  the two tables as launched; the two inputs are only read.

  The result is a weakest-precondition lemma for the first statement of @main on the TensorCore, from the TensorCore's state
  before SparseCore call 0: what it then owes (its start signals) rides through the region unchanged, every wait of the
  region sitting at the bottom level, strictly below everything owed; and the statement that the launch element's pipeline
  component yields the rounds ghost state the region starts from.
-/
import proofs.«204608_g3015067042085_cont_9to1_1138_29_alg».proof.Proof.KB.Setup
import proofs.«204608_g3015067042085_cont_9to1_1138_29_alg».proof.Proof.Gen.Kernel.Launch
import proofs.«204608_g3015067042085_cont_9to1_1138_29_alg».proof.Proof.Gen.Kernel.Points
import proofs.«204608_g3015067042085_cont_9to1_1138_29_alg».proof.Proof.Gen.Kernel.Skeleton
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

abbrev adm : (p : Fin 1) → (pcfgs (F := F) p).Adm := fun p => (cfgs p).toPCfg_adm

/-- What the launch must put in @main's hands for the region on device `d`: the rounds ghost state of the pipeline's
    staging cells and its duty tokens. -/
def regionGhost (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

variable (m : (ℓ : Loc nD τ sig) → Buf (Elt F) ℓ)

/-- The combined table's contents when the region is entered, per device. -/
abbrev TF : Type := (d : Dev nD) → Buf (Elt F) (tLoc d)

/-- The three arrays when the region is entered: the two tables as launched, the combined table at anything. -/
def A0 (fs : TF (F := F)) (d : Dev nD) : (w : Fin cfg0.W) → Buf (Elt F) ((cfg0.win w).arr.view.loc (d.tc : Thread nD τ))
  | ⟨0, _⟩ => m (wLoc d)
  | ⟨1, _⟩ => m (nLoc d)
  | ⟨2, _⟩ => fs d

/-- Block `t` of the word table, -/
def iblkW (d : Dev nD) (t : Fin cfg0.N) : ((cfg0.win 0).xblock (cfg0.grid.coords t)).Idx → Elt F (cfg0.win 0).elt :=
  ((cfg0.win 0).blk t).view.read (Elt F) (m (wLoc d))
/-- and of the number table. -/
def iblkN (d : Dev nD) (t : Fin cfg0.N) : ((cfg0.win 1).xblock (cfg0.grid.coords t)).Idx → Elt F (cfg0.win 1).elt :=
  ((cfg0.win 1).blk t).view.read (Elt F) (m (nLoc d))

abbrev rA : Rect S10000x128 := Rect.unit (s := S10000x128) ![0, 0] S10000x96.size inb_S10000x128_S10000x96_0_0
abbrev rB : Rect S10000x128 := Rect.unit (s := S10000x128) ![0, 96] S10000x32.size inb_S10000x128_S10000x32_0_96
abbrev rN : Rect S10000x32 := Rect.unit (s := S10000x32) ![0, 0] S10000x32.size inb_S10000x32_S10000x32_0_0

/-- What the body leaves in the output block: columns 96..127 from the second input block, columns 0..95 from the
    first (the later store first). -/
def outT [∀ e, Nonempty (Elt F e)] (x0 : Vec F S10000x128 .f32) (x1 : Vec F S10000x32 .f32) : Vec F S10000x128 .f32 :=
  View.canon [⟨rB, View.ld x1 rN⟩, ⟨rA, View.ld x0 rA⟩]

/-- The pipeline's proof data: the arrays as the region finds them; after the body each input's buffer at its block and the
    output's at `outT` of the two; no invariant but the scoped rest; the TensorCore owes its start signals throughout and
    records waits at the kernels' own index only. -/
def dats [∀ e, Nonempty (Elt F e)] (fs : TF (F := F)) (_ : Fin 1) (d : Dev nD) : Dat τ (Elt F) (HIx 1) ℕ UU ℕ cfg0 d where
  A := A0 m fs d
  after w t := match w with
    | ⟨0, _⟩ => iblkW m d t
    | ⟨1, _⟩ => iblkN m d t
    | ⟨2, _⟩ => outT (iblkW m d t) (iblkN m d t)
  Φ _ := Pipeline.scopedRest (Pipeline.pin (pcfgs (F := F)) adm 0).spec d
  q _ := fullShare
  owed _ := (K (F := F)).Otc d 0
  recorded _ := {p | p.2 = none}

section
variable [FloatOps F] [∀ e, Nonempty (Elt F e)]

theorem Otc_none (d : Dev nD) (n : ℕ) (g : GSem nD τ sig) : (K (F := F)).Otc d n g none = 0 := by
  by_contra h
  have := SparseCore.Cfg.lev_of_Otc_pos (K := K (F := F)) (d := d) (n := n) (g := g) (ι := none) (Nat.pos_of_ne_zero h)
  rw [SparseCore.Cfg.lev_none] at this; omega

theorem coverT (p1 : rB.shape.Idx → Elt F .f32) (p0 : rA.shape.Idx → Elt F .f32) (y : S10000x128.Idx) :
    ∃ pc ∈ ([⟨rB, p1⟩, ⟨rA, p0⟩] : List (View.Piece (Elt F) S10000x128 .f32)), y ∈ pc.1.set := by
  by_cases h : (y 1).val < 96
  · refine ⟨⟨rA, p0⟩, by simp, ?_⟩
    show y ∈ rA.set
    rw [Rect.mem_set_unit]
    intro a
    match a with
    | ⟨0, _⟩ => exact ⟨Nat.zero_le _, by have h0 : (y 0).val < 10000 := (y 0).isLt; show (y 0).val < 0 + 10000; omega⟩
    | ⟨1, _⟩ => exact ⟨Nat.zero_le _, by show (y 1).val < 0 + 96; omega⟩
  · refine ⟨⟨rB, p1⟩, by simp, ?_⟩
    show y ∈ rB.set
    rw [Rect.mem_set_unit]
    intro a
    match a with
    | ⟨0, _⟩ => exact ⟨Nat.zero_le _, by have h0 : (y 0).val < 10000 := (y 0).isLt; show (y 0).val < 0 + 10000; omega⟩
    | ⟨1, _⟩ => exact ⟨by show 96 ≤ (y 1).val; omega, by have h1 : (y 1).val < 128 := (y 1).isLt; show (y 1).val < 96 + 32; omega⟩

set_option maxHeartbeats 1000000 in
/-- The body on whole staging memrefs: the two input blocks as read, the output block at anything, to the output block at
    `outT` of the inputs. -/
theorem sound_kernel (c : Dev nD) (E : Set ℕ) (i : grid0.Coords) (arg1 : Memref sig .tc .vmem S10000x128 .f32) (harg1 : arg1.IsWhole) (arg2 : Memref sig .tc .vmem S10000x32 .f32) (harg2 : arg2.IsWhole) (arg3 : Memref sig .tc .vmem S10000x128 .f32) (harg3 : arg3.IsWhole)
    (x0 : Vec F S10000x128 .f32) (x1 : Vec F S10000x32 .f32) (Kk : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outT x0 x1)) -∗ Kk ⟨⟩))
      ⊢ wp frame (wpE (defs₀ (F := F)) Variants.none c none) E (cc0__combine_body i arg1 harg1 arg2 harg2 arg3 harg3) Kk := by
  simp only [cc0__combine_body_eq_skeleton]; unfold cc0__combine_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  unfold outT
  exact View.read_writes_eq_canon _ _ _ (coverT _ _)

/-- What the body leaves, window by window. -/
theorem afterW (fs : TF (F := F)) (c : Dev nD) (t : Fin cfg0.N) : (dats m fs 0 c).after 0 t = iblkW m c t := by dsimp only [dats]
theorem afterN (fs : TF (F := F)) (c : Dev nD) (t : Fin cfg0.N) : (dats m fs 0 c).after 1 t = iblkN m c t := by dsimp only [dats]
theorem afterT (fs : TF (F := F)) (c : Dev nD) (t : Fin cfg0.N) : (dats m fs 0 c).after 2 t = outT (iblkW m c t) (iblkN m c t) := by dsimp only [dats]

/-- Each input is fetched at every point: its current staging buffer holds its block. -/
theorem beforeW (fs : TF (F := F)) (c : Dev nD) (t : Fin cfg0.N) (d) : (dats m fs 0 c).before 0 t d = iblkW m c t :=
  ((dats m fs 0 c).before_fetched 0 t (fetch0_0 t) d).trans (by unfold Dat.fetched Dat.blockOf iblkW; rfl)
theorem beforeN (fs : TF (F := F)) (c : Dev nD) (t : Fin cfg0.N) (d) : (dats m fs 0 c).before 1 t d = iblkN m c t :=
  ((dats m fs 0 c).before_fetched 1 t (fetch0_1 t) d).trans (by unfold Dat.fetched Dat.blockOf iblkN; rfl)

/-- What the body is called with at point `t`, -/
def bodyPre (fs : TF (F := F)) (c : Dev nD) (t : Fin cfg0.N) : sProp 𝕄 :=
  iprop((dats m fs 0 c).Φ t.castSucc ∗ (dats m fs 0 c).owesAt none t.castSucc
    ∗ (∃ d, owns (c : Thread nD τ) (st0_0 t) fullShare ((dats m fs 0 c).before 0 t d))
    ∗ (∃ d, owns (c : Thread nD τ) (st0_1 t) fullShare ((dats m fs 0 c).before 1 t d))
    ∗ (∃ d, owns (c : Thread nD τ) (st0_2 t) fullShare ((dats m fs 0 c).before 2 t d)))

/-- and what it returns. -/
def bodyPost (fs : TF (F := F)) (c : Dev nD) (t : Fin cfg0.N) : sProp 𝕄 :=
  iprop((dats m fs 0 c).Φ t.succ ∗ (dats m fs 0 c).owesAt none t.succ
    ∗ owns (c : Thread nD τ) (st0_0 t) fullShare ((dats m fs 0 c).after 0 t)
    ∗ owns (c : Thread nD τ) (st0_1 t) fullShare ((dats m fs 0 c).after 1 t)
    ∗ owns (c : Thread nD τ) (st0_2 t) fullShare ((dats m fs 0 c).after 2 t))

/-- The body at any point: the inputs' buffers hold their blocks; the invariant and what the core owes pass through unread. -/
theorem sound_body (fs : TF (F := F)) (c : Dev nD) (t : Fin cfg0.N) :
    bodyPre m fs c t ⊢ wp frame (wpE (defs₀ (F := F)) Variants.none c none) Set.univ (bodyAt0 t) (fun _ => bodyPost m fs c t) := by
  unfold bodyPre bodyPost bodyAt0
  simp only [beforeW, beforeN]
  rw [show (dats m fs 0 c).Φ t.succ = (dats m fs 0 c).Φ t.castSucc from rfl,
    show (dats m fs 0 c).owesAt none t.succ = (dats m fs 0 c).owesAt none t.castSucc from rfl,
    afterW, afterN, afterT]
  iintro ⟨HΦ, Ho, ⟨%d0, H0⟩, ⟨%d1, H1⟩, ⟨%d2, H2⟩⟩
  iapply (sound_kernel c Set.univ (grid0.coords t) _ _ _ _ _ _ (iblkW m c t) (iblkN m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (fs : TF (F := F)) (c : Dev nD) : Pipeline.BodyObligation (dats m fs 0 c) (defs₀ (F := F)) Variants.none none Set.univ := fun t => by
  rw [bigSep_W0, bigSep_W0]
  exact sound_body m fs c t

/-- The printed index maps, decided over the grid: every window's block at point `t` is block row `t`, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem tabOf_lt (W : S100000x128.Idx → Elt F .f32) (N : S100000x32.Idx → Elt F .f32) (i : S100000x128.Idx) (h : (i 1).val < 96) :
    tabOf W N i = W i := by unfold tabOf; rw [dif_pos h]
theorem tabOf_ge (W : S100000x128.Idx → Elt F .f32) (N : S100000x32.Idx → Elt F .f32) (i : S100000x128.Idx) (h : ¬ (i 1).val < 96) :
    tabOf W N i = N (ValueIdx.ix2 (i 0) ⟨(i 1).val - 96, by have h1 : (i 1).val < 128 := (i 1).isLt; show (i 1).val - 96 < 32; omega⟩) := by
  unfold tabOf; rw [dif_neg h]

/-- WHAT POINT `t` WRITES BACK is block `t` of the combined table of the two tables as launched. -/
theorem flushedT_eq (fs : TF (F := F)) (c : Dev nD) (t : Fin cfg0.N) :
    (dats m fs 0 c).flushed 2 t = ((cfg0.win 2).blk t).view.read (Elt F) (tabOf (m (wLoc c)) (m (nLoc c))) := by
  show (cfg0.win 2).cut (grid0.coords t) ((dats m fs 0 c).after 2 t) = _
  rw [afterT]
  unfold outT
  obtain ⟨e0, e1, e2, e3, e4, e5⟩ := idx_facts t
  funext j
  show View.canon [⟨rB, View.ld (iblkN m c t) rN⟩, ⟨rA, View.ld (iblkW m c t) rA⟩] j = tabOf (m (wLoc c)) (m (nLoc c)) (((cfg0.win 2).blk t).view.emb j)
  refine View.canon_apply_of_pieces (fun y => tabOf (m (wLoc c)) (m (nLoc c)) (((cfg0.win 2).blk t).view.emb y)) _ ?_ j (coverT _ _ j)
  intro p hp x
  simp only [List.mem_cons, List.mem_singleton, List.not_mem_nil, or_false] at hp
  rcases hp with rfl | rfl
  · show View.ld (iblkN m c t) rN x = tabOf (m (wLoc c)) (m (nLoc c)) (((cfg0.win 2).blk t).view.emb (rB.emb x))
    have hx0 : (x 0).val < 10000 := (x 0).isLt
    have hx1 : (x 1).val < 32 := (x 1).isLt
    have hge : ¬ ((((cfg0.win 2).blk t).view.emb (rB.emb x)) 1).val < 96 := by
      show ¬ win0_2.index t (1 : Fin 2) * 128 + 1 * (96 + 1 * (x 1).val) < 96
      omega
    rw [tabOf_ge _ _ _ hge]
    show m (nLoc c) (((cfg0.win 1).blk t).view.emb (rN.idx x)) = m (nLoc c) _
    refine congrArg _ (funext fun a => Fin.ext ?_)
    match a with
    | ⟨0, _⟩ =>
      show win0_1.index t (0 : Fin 2) * 10000 + 1 * (0 + 1 * (x 0).val) = win0_2.index t (0 : Fin 2) * 10000 + 1 * (0 + 1 * (x 0).val)
      omega
    | ⟨1, _⟩ =>
      show win0_1.index t (1 : Fin 2) * 32 + 1 * (0 + 1 * (x 1).val) = win0_2.index t (1 : Fin 2) * 128 + 1 * (96 + 1 * (x 1).val) - 96
      omega
  · show View.ld (iblkW m c t) rA x = tabOf (m (wLoc c)) (m (nLoc c)) (((cfg0.win 2).blk t).view.emb (rA.emb x))
    have hx0 : (x 0).val < 10000 := (x 0).isLt
    have hx1 : (x 1).val < 96 := (x 1).isLt
    have hlt : ((((cfg0.win 2).blk t).view.emb (rA.emb x)) 1).val < 96 := by
      show win0_2.index t (1 : Fin 2) * 128 + 1 * (0 + 1 * (x 1).val) < 96
      omega
    rw [tabOf_lt _ _ _ hlt]
    show m (wLoc c) (((cfg0.win 0).blk t).view.emb (rA.idx x)) = m (wLoc c) _
    refine congrArg _ (funext fun a => Fin.ext ?_)
    match a with
    | ⟨0, _⟩ =>
      show win0_0.index t (0 : Fin 2) * 10000 + 1 * (0 + 1 * (x 0).val) = win0_2.index t (0 : Fin 2) * 10000 + 1 * (0 + 1 * (x 0).val)
      omega
    | ⟨1, _⟩ =>
      show win0_0.index t (1 : Fin 2) * 128 + 1 * (0 + 1 * (x 1).val) = win0_2.index t (1 : Fin 2) * 128 + 1 * (0 + 1 * (x 1).val)
      omega

/-- An index of the array is in point `t`'s block iff each coordinate is in the block's range on its axis. -/
theorem mem_blkT (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The ten blocks cover the combined table. -/
theorem coverArr (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by show _ < grid0.N; rw [N_0]; omega
  obtain ⟨e0, e1, e2, e3, e4, e5⟩ := idx_facts ⟨(i 0).val / 10000, hN⟩
  refine ⟨⟨(i 0).val / 10000, hN⟩, flush0_2 _, ?_⟩
  rw [mem_blkT]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val ∧ (i 1).val < win0_2.index ⟨(i 0).val / 10000, hN⟩ (1 : Fin 2) * 128 + 128
    rw [e5]; omega

/-- THE COMBINED TABLE after the region. -/
theorem arrT_cfg (fs : TF (F := F)) (c : Dev nD) : (dats m fs 0 c).arrAt 2 cfg0.N = tabOf (m (wLoc c)) (m (nLoc c)) :=
  (dats m fs 0 c).arrAt_eq_of_cover 2 (tabOf (m (wLoc c)) (m (nLoc c))) (fun t _ => flushedT_eq m fs c t) coverArr

/-- What the TensorCore owes when the region is entered, its recorded pairs at the bottom level. -/
def owesTc (d : Dev nD) : sProp 𝕄 := iprop(∃ W, ⌜(K (F := F)).WBelow (T d) W (8 * 0)⌝ ∗ owes (T d) ((K (F := F)).Otc d 0) W)

def regPre (fs : TF (F := F)) (d : Dev nD) : sProp 𝕄 :=
  iprop((wLoc d ↦{fullShare} m (wLoc d)) ∗ (nLoc d ↦{fullShare} m (nLoc d)) ∗ (tLoc d ↦{fullShare} fs d) ∗ owesTc (F := F) d)
def regPost (d : Dev nD) : sProp 𝕄 :=
  iprop((wLoc d ↦{fullShare} m (wLoc d)) ∗ (nLoc d ↦{fullShare} m (nLoc d)) ∗ (tLoc d ↦{fullShare} tabOf (m (wLoc d)) (m (nLoc d))) ∗ owesTc (F := F) d)

theorem bigSep_F0 {M : Type} [URA M] (Φ : Fin 0 → sProp M) : bigSep Finset.univ Φ = (BI.emp : sProp M) :=
  bigSep_univ_eq_bigSepL [] (by decide) (by decide) Φ

theorem prefHeld0 (c : Dev nD) (q) (pf) : (Pipeline.prefHeld (Ix := HIx 1) (Name := ℕ) (U := UU) (Lvl := ℕ) (Val := Elt F) (pcfgs (F := F) 0).pre c q pf : sProp 𝕄) = BI.emp :=
  bigSep_F0 _

theorem Φ_eq (fs : TF (F := F)) (c : Dev nD) (t) : (dats m fs 0 c).Φ t = Pipeline.scopedRest (Pipeline.pin (pcfgs (F := F)) adm 0).spec c := by
  dsimp only [dats]

theorem arrW_end (fs : TF (F := F)) (c : Dev nD) : (dats m fs 0 c).arrAt 0 (Pipeline.pin (pcfgs (F := F)) adm 0).N = m (wLoc c) :=
  (dats m fs 0 c).arrAt_in 0 rfl _
theorem arrN_end (fs : TF (F := F)) (c : Dev nD) : (dats m fs 0 c).arrAt 1 (Pipeline.pin (pcfgs (F := F)) adm 0).N = m (nLoc c) :=
  (dats m fs 0 c).arrAt_in 1 rfl _
theorem arrT_end (fs : TF (F := F)) (c : Dev nD) : (dats m fs 0 c).arrAt 2 (Pipeline.pin (pcfgs (F := F)) adm 0).N = tabOf (m (wLoc c)) (m (nLoc c)) := arrT_cfg m fs c

def reg (fs : TF (F := F)) : Pipeline.RegionSeg (pcfgs (F := F)) adm (dats m fs) none (defs₀ (F := F)) 𝒱₀ ((K (F := F)).L (nD := nD)) ((K (F := F)).lev (nD := nD)) 0 where
  win := launch0.win.to₀
  block_pos := launch0.block_pos
  stage_whole := launch0.stage_whole
  K := PEmpty
  osem k := k.elim
  ho := Pipeline.OwnSemFacts.none _
  hbody c := (body_obligation m fs c).loose
  hwaits c := Pipeline.cellsWaits_intro (Pipeline.pin (pcfgs (F := F)) adm) (dats m fs) none 0 c
    fun w s t => SparseCore.Cfg.mayWait_none (K := K (F := F)) _ (fun g => Otc_none c 0 g)
  pre := regPre m fs
  post := regPost m
  X _ := BI.emp
  Y _ := BI.emp
  Z _ := BI.emp
  hentry c := by
    rw [Pipeline.ownSems0_none, Pipeline.arrays_eq (Pipeline.pin (pcfgs (F := F)) adm) (dats m fs) 0 c launch0.arr_whole ((dats m fs 0 c).share_full fun _ => rfl), bigSep_W0, prefHeld0]
    unfold regPre owesTc
    iintro ⟨⟨Hw, Hn, Ht, ⟨%W, %hW, HO⟩⟩, -, -⟩
    imodintro
    isplitl [Hw Hn Ht]
    · isplitl [Hw]; · iexact Hw
      isplitl [Hn]; · iexact Hn
      iexact Ht
    isplitr; · iempintro
    isplitl [HO]
    · unfold Pipeline.Dat.owesAt Pipeline.owesWithin
      iexists W; isplitr
      · ipureintro
        intro p hp
        left
        show p.2 = none
        have h1 := hW p hp
        cases h : p.2 with
        | none => rfl
        | some q =>
          rw [h] at h1
          have h2 := (K (F := F)).lev_some_pos (nD := nD) (T c, p.1) q
          omega
      iexact HO
    isplitr <;> iempintro
  hin c := by
    rw [Φ_eq]
    iintro ⟨-, -, H⟩; iexact H
  hout c := by
    rw [Pipeline.ownSems0_none, Φ_eq]
    iintro H
    isplitr; · iempintro
    isplitr; · iempintro
    iexact H
  hexit c := by
    rw [Pipeline.arrays_eq (Pipeline.pin (pcfgs (F := F)) adm) (dats m fs) 0 c launch0.arr_whole ((dats m fs 0 c).share_full fun _ => rfl), bigSep_W0]
    rw [arrW_end, arrN_end, arrT_end]
    unfold regPost owesTc
    iintro ⟨⟨Hw, Hn, Ht⟩, ⟨%W, %hW, HO⟩, -, -⟩
    imodintro
    isplitl [Hw]; · iexact Hw
    isplitl [Hn]; · iexact Hn
    isplitl [Ht]; · iexact Ht
    iexists W; isplitr
    · ipureintro
      intro p hp
      have hn : p.2 = none := by
        rcases hW hp with h | ⟨w, s, h⟩
        · exact h
        · rw [h]
      rw [hn]; exact Nat.zero_le _
    iexact HO

set_option backward.isDefEq.respectTransparency.types false in
/-- THE REGION: from the TensorCore's state before call 0, the region boundary, the pipeline's ghost state and the two tables,
    the pallas_call runs to the same with the combined table built. -/
theorem wp_region {P : (K (F := F)).Pay (nD := nD) (Val := Elt F) (Name := ℕ) (U := UU)} (κ : GSem nD τ sig → ℕ) (d : Dev nD) (Φ : PUnit → sProp 𝕄) :
    iprop((K (F := F)).ctx EH P κ ∗ (K (F := F)).tcSt EH d 0 ∗ boundary (SparseCore.T d) ∗ (K (F := F)).tcSems0 d ∗ regionGhost (F := F) d
        ∗ (wLoc d ↦{fullShare} m (wLoc d)) ∗ (nLoc d ↦{fullShare} m (nLoc d)) ∗ (∃ f, tLoc d ↦{fullShare} f)
        ∗ (((K (F := F)).tcSt EH d 0 ∗ boundary (SparseCore.T d) ∗ (K (F := F)).tcSems0 d
              ∗ (wLoc d ↦{fullShare} m (wLoc d)) ∗ (nLoc d ↦{fullShare} m (nLoc d)) ∗ (tLoc d ↦{fullShare} tabOf (m (wLoc d)) (m (nLoc d)))) -∗ Φ ⟨⟩))
      ⊢ wp frame (wpE ((K (F := F)).defs (D (F := F))) 𝒱 (SparseCore.T d) none) Set.univ (Prog.lift (.customCall (SparseCore.inner (Pipeline.entry 0)) ())) Φ := by
  unfold SparseCore.Cfg.tcSt regionGhost
  iintro ⟨#Hctx, ⟨Howes, Hpos, Hreach, Hstarts, Htoks⟩, Hb, Hs0, ⟨Hcg, Hti⟩, Hw, Hn, ⟨%f, Ht⟩, Hk⟩
  obtain ⟨fs, rfl⟩ : ∃ fs : TF (F := F), fs d = f := ⟨Function.update (fun d' => m (tLoc d')) d f, Function.update_self ..⟩
  have h := Pipeline.RegionSeg.wp (pcfgs (F := F)) adm (dats m fs) none launch0.cellOf_inj (EP (F := F)) (defs₀ (F := F)) 𝒱₀
    ((K (F := F)).L (nD := nD)) ((K (F := F)).lev (nD := nD)) (reg m fs) d none (fun u hu => absurd hu (by simp)) (fun x => .ret x) Φ
  rw [show (reg m fs).post d = regPost m d from rfl, show (reg m fs).pre d = regPre m fs d from rfl, wp_ret] at h
  unfold regPost regPre owesTc at h
  iapply (SparseCore.Cfg.wp_liftProg (K (F := F)) (D (F := F)) 𝒱 (T d) Set.univ none
    (Prog.lift (.customCall (Pipeline.entry (0 : Fin 1)) ()) : Prog (TpuEff nD τ sig (Elt F) (ΛP (F := F)) .tc) PUnit) Φ)
  iapply h
  isplitl [Hk Hs0 Hpos Hreach Hstarts Htoks]
  · iintro ⟨Hb, Hw, Hn, Ht, Howes⟩
    imodintro
    iapply Hk
    isplitl [Howes Hpos Hreach Hstarts Htoks]
    · isplitl [Howes]; · iexact Howes
      isplitl [Hpos]; · iexact Hpos
      isplitl [Hreach]; · iexact Hreach
      isplitl [Hstarts]; · iexact Hstarts
      iexact Htoks
    isplitl [Hb]; · iexact Hb
    isplitl [Hs0]; · iexact Hs0
    isplitl [Hw]; · iexact Hw
    isplitl [Hn]; · iexact Hn
    iexact Ht
  isplitl [Hb]; · iexact Hb
  isplitl [Hw Hn Ht Howes]
  · isplitl [Hw]; · iexact Hw
    isplitl [Hn]; · iexact Hn
    isplitl [Ht]; · iexact Ht
    iexact Howes
  isplitr
  · iapply (SparseCore.Cfg.ctx_levAts κ); iexact Hctx
  isplitl [Hcg]; · iexact Hcg
  iexact Hti

end

/-- The pipeline's component of the launch element: the rounds library's element for the program's staging cells and their
    duty tokens. -/
def uP₀ : UP := initOf (Pipeline.cells (nD := nD) (τ := τ) cfgs cellOf_inj) (Pipeline.launchToks (nD := nD) (τ := τ) cfgs cellOf_inj)

theorem bigSep_P1 {M : Type} [URA M] (Φ : Fin 1 → sProp M) : bigSep Finset.univ Φ = Φ (0 : Fin 1) :=
  bigSep_univ_eq_bigSepL [(0 : Fin 1)] (by decide) (by decide) Φ

/-- The launch funds the region's ghost state, on every device, from the pipeline's component of the certificate's element. -/
theorem fund_region : (BI.own (EP (F := F) uP₀) : sProp 𝕄) ⊢ |==> bigSep Finset.univ fun d : Dev nD => regionGhost (F := F) d := by
  have h := Pipeline.fund_ghost (Val := Elt F) (Ix := HIx 1) (Name := ℕ) (U := UU) (Lvl := ℕ) (cfgs) (EP (F := F)) cellOf_inj
  refine h.trans (bupd_mono ?_)
  unfold regionGhost
  rw [bigSep_sep']
  refine BI.sep_mono (Entails.of_eq (bigSep_congr fun d _ => ?_)) (Entails.of_eq (bigSep_congr fun d _ => ?_))
  · exact bigSep_P1 _
  · exact bigSep_P1 _

end Cert.Proof.KB
end
-- ==== Proof.KB.RegionKit.lean ====
/-
  The TensorCore region's proof, packed as the record @main's proof takes.
-/
import proofs.«204608_g3015067042085_cont_9to1_1138_29_alg».proof.Proof.KB.Main
import proofs.«204608_g3015067042085_cont_9to1_1138_29_alg».proof.Proof.KB.Region

noncomputable section

namespace Cert.Proof.KB

open Cert.Kernel Cert.Kernel.Gen
open Idealize.ShloMosaic Idealize.SL Idealize.SL.BI Idealize.SL.Sem
open scoped Idealize.SL.BI
open Idealize.SL.BI.BIBase Idealize.SL.BI.Laws Idealize.SL.ProofMode

variable {F : FTy → Type}

def regionKit [FloatOps F] [∀ e, Nonempty (Elt F e)] (m : (ℓ : Loc nD τ sig) → Buf (Elt F) ℓ) : RegionKit (F := F) m where
  ghost := regionGhost
  uP := uP₀
  fund := by
    iintro H
    imod (fund_region (F := F)) $$ H with HG
    imodintro
    iexact HG
  step := fun κ d Φ => wp_region m κ d Φ

end Cert.Proof.KB

end
-- ==== Proof.KB.TileDefs.lean ====
import proofs.«204608_g3015067042085_cont_9to1_1138_29_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  The names of one tile's task: its thread, its eleven transfer semaphores, and the pieces of memory the task moves —
  the two slots of the index scratch, the five row buffers of the row scratch, the index blocks and the output chunks —
  each spelt as the program addresses it.
-/

local notation "iV" => (Memref.whole Cert.Kernel.main_v1_scv : Memref Cert.Kernel.sig Kind.scVector Space.hbm Cert.Kernel.S1280x5x128 EltTy.i32)
local notation "tV" => (Memref.whole Cert.Kernel.main_v0_scv : Memref Cert.Kernel.sig Kind.scVector Space.hbm Cert.Kernel.S100000x128 EltTy.f32)
local notation "oV" => (Memref.whole Cert.Kernel.main_v2_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S2x5x128 EltTy.i32)
local notation "rV" => (Memref.whole Cert.Kernel.cc1_scratch1 : Memref Cert.Kernel.sig Kind.scVector Space.vmem Cert.Kernel.S5x128x128 EltTy.f32)

/-- The tile's thread. -/
abbrev thrV (d : Dev nD) (L : grid1.Coords) : Thread nD τ := V d (cV L) (jV L)

/-! ## The semaphores: one for the index copies, five for the gathers, five for the write-outs -/

abbrev isemS : DmaSem sig := cc1_scratch2.sem
abbrev gsemS0 : DmaSem sig := ((cc1_scratch3.slice (Rect.unit (s := S5) ![0] S1.size inb_S5_S1_0)).squeeze S_ squeezes_S1_S_).sem
abbrev gsemS1 : DmaSem sig := ((cc1_scratch3.slice (Rect.unit (s := S5) ![1] S1.size inb_S5_S1_1)).squeeze S_ squeezes_S1_S_).sem
abbrev gsemS2 : DmaSem sig := ((cc1_scratch3.slice (Rect.unit (s := S5) ![2] S1.size inb_S5_S1_2)).squeeze S_ squeezes_S1_S_).sem
abbrev gsemS3 : DmaSem sig := ((cc1_scratch3.slice (Rect.unit (s := S5) ![3] S1.size inb_S5_S1_3)).squeeze S_ squeezes_S1_S_).sem
abbrev gsemS4 : DmaSem sig := ((cc1_scratch3.slice (Rect.unit (s := S5) ![4] S1.size inb_S5_S1_4)).squeeze S_ squeezes_S1_S_).sem
abbrev wsemS0 : DmaSem sig := ((cc1_scratch4.slice (Rect.unit (s := S5) ![0] S1.size inb_S5_S1_0)).squeeze S_ squeezes_S1_S_).sem
abbrev wsemS1 : DmaSem sig := ((cc1_scratch4.slice (Rect.unit (s := S5) ![1] S1.size inb_S5_S1_1)).squeeze S_ squeezes_S1_S_).sem
abbrev wsemS2 : DmaSem sig := ((cc1_scratch4.slice (Rect.unit (s := S5) ![2] S1.size inb_S5_S1_2)).squeeze S_ squeezes_S1_S_).sem
abbrev wsemS3 : DmaSem sig := ((cc1_scratch4.slice (Rect.unit (s := S5) ![3] S1.size inb_S5_S1_3)).squeeze S_ squeezes_S1_S_).sem
abbrev wsemS4 : DmaSem sig := ((cc1_scratch4.slice (Rect.unit (s := S5) ![4] S1.size inb_S5_S1_4)).squeeze S_ squeezes_S1_S_).sem

/-- The eleven, in order. -/
abbrev semList : List (DmaSem sig) := [isemS, gsemS0, gsemS1, gsemS2, gsemS3, gsemS4, wsemS0, wsemS1, wsemS2, wsemS3, wsemS4]

/-- A semaphore of the tile as a cell. -/
abbrev cellOf (d : Dev nD) (L : grid1.Coords) (s : DmaSem sig) : GSem nD τ sig := (thrV d L, SemLoc.dma s)

/-- The tile's cells other than the eleven. -/
abbrev otherCells (d : Dev nD) (L : grid1.Coords) : Finset (GSem nD τ sig) :=
  (ownCells (thrV d L)) \ (semList.toFinset.image (cellOf d L))

/-! ## The pieces of memory -/

/-- Slot 0 and slot 1 of the index scratch. -/
abbrev slotM0 : Memref sig .scVector .vmem S5x128 .i32 :=
  ((sV).slice (Rect.unit (s := S2x5x128) ![0, 0, 0] S1x5x128.size inb_S2x5x128_S1x5x128_0_0_0) (fun _ => rfl)).squeeze S5x128 squeezes_S1x5x128_S5x128
abbrev slotM1 : Memref sig .scVector .vmem S5x128 .i32 :=
  ((sV).slice (Rect.unit (s := S2x5x128) ![1, 0, 0] S1x5x128.size inb_S2x5x128_S1x5x128_1_0_0) (fun _ => rfl)).squeeze S5x128 squeezes_S1x5x128_S5x128

/-- The five row buffers of the row scratch. -/
abbrev rowM0 : Memref sig .scVector .vmem S128x128 .f32 :=
  ((rV).slice (Rect.unit (s := S5x128x128) ![0, 0, 0] S1x128x128.size inb_S5x128x128_S1x128x128_0_0_0) (fun _ => rfl)).squeeze S128x128 squeezes_S1x128x128_S128x128
abbrev rowM1 : Memref sig .scVector .vmem S128x128 .f32 :=
  ((rV).slice (Rect.unit (s := S5x128x128) ![1, 0, 0] S1x128x128.size inb_S5x128x128_S1x128x128_1_0_0) (fun _ => rfl)).squeeze S128x128 squeezes_S1x128x128_S128x128
abbrev rowM2 : Memref sig .scVector .vmem S128x128 .f32 :=
  ((rV).slice (Rect.unit (s := S5x128x128) ![2, 0, 0] S1x128x128.size inb_S5x128x128_S1x128x128_2_0_0) (fun _ => rfl)).squeeze S128x128 squeezes_S1x128x128_S128x128
abbrev rowM3 : Memref sig .scVector .vmem S128x128 .f32 :=
  ((rV).slice (Rect.unit (s := S5x128x128) ![3, 0, 0] S1x128x128.size inb_S5x128x128_S1x128x128_3_0_0) (fun _ => rfl)).squeeze S128x128 squeezes_S1x128x128_S128x128
abbrev rowM4 : Memref sig .scVector .vmem S128x128 .f32 :=
  ((rV).slice (Rect.unit (s := S5x128x128) ![4, 0, 0] S1x128x128.size inb_S5x128x128_S1x128x128_4_0_0) (fun _ => rfl)).squeeze S128x128 squeezes_S1x128x128_S128x128

/-- The index block trip `t`'s half `r` fetches: block `40 w + min (2 t + r + 1) 39`. -/
abbrev iblkM (L : grid1.Coords) (t : Fin k1_t1_loop.trips) (r : Fin 2) : Memref sig .scVector .hbm S5x128 .i32 :=
  ((iV).slice (Rect.unit (s := S1280x5x128) (k1_off2 L t (BitVec.ofNat 32 r.val)) S1x5x128.size (k1_off2_inb L t r)) (fun _ => rfl)).squeeze S5x128 squeezes_S1x5x128_S5x128
/-- The index block the prologue fetches: block `40 w`. -/
abbrev iblkM0 (L : grid1.Coords) : Memref sig .scVector .hbm S5x128 .i32 :=
  ((iV).slice (Rect.unit (s := S1280x5x128) (k1_off1 L) S1x5x128.size (k1_off1_inb L)) (fun _ => rfl)).squeeze S5x128 squeezes_S1x5x128_S5x128

/-- The output chunk of trip `t`, half `r₁`, row buffer `r₂`: rows `25600 w + 1280 t + 640 r₁ + 128 r₂ + [0, 128)`. -/
abbrev chunkM (L : grid1.Coords) (t : Fin k1_t1_loop.trips) (r₁ : Fin 2) (r₂ : Fin 5) : Memref sig .scVector .hbm S128x128 .f32 :=
  (oV).slice (Rect.unit (s := S819200x128) (k1_off3 L t (BitVec.ofNat 32 r₁.val) (BitVec.ofNat 32 r₂.val)) S128x128.size (k1_off3_inb L t r₁ r₂)) (fun _ => rfl)

end Cert.Proof.KB
end
-- ==== Proof.KB.TileSets.lean ====
/-
  How one tile's memory divides, as pure facts about element sets and separating conjunctions (no program step here).

  The tile's 25600 output rows are forty half-blocks of 640 rows, each five chunks of 128 rows: the rows still to be written
  give up a half-block's five chunks, and the rows already written take them back.  The index scratch is its two slots, the
  row scratch its five row buffers.  The table's read share splits off twelve tokens, five of them lent to the gathers in
  flight.  The tile's own semaphore cells are the eleven the task uses and the others.
-/
import proofs.«204608_g3015067042085_cont_9to1_1138_29_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v1_scv : Memref Cert.Kernel.sig Kind.scVector Space.hbm Cert.Kernel.S1280x5x128 EltTy.i32)
local notation "tV" => (Memref.whole Cert.Kernel.main_v0_scv : Memref Cert.Kernel.sig Kind.scVector Space.hbm Cert.Kernel.S100000x128 EltTy.f32)
local notation "oV" => (Memref.whole Cert.Kernel.main_v2_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S2x5x128 EltTy.i32)
local notation "rV" => (Memref.whole Cert.Kernel.cc1_scratch1 : Memref Cert.Kernel.sig Kind.scVector Space.vmem Cert.Kernel.S5x128x128 EltTy.f32)

variable (d : Dev nD) (L : grid1.Coords)

/-- A two-way entailment of the model's propositions is an equality. -/
theorem eq_of_bi {P Q : sProp 𝕄} (h : P ⊣⊢ Q) : P = Q := BI.equiv_iff.mp ⟨h.1, h.2⟩

/-! ## The tile's output rows, half-block by half-block -/

/-- Rows [25600 w, 25600 w + 640 h) of the output: the tile's first h half-blocks. -/
def doneH (L : grid1.Coords) (h : ℕ) : Finset S819200x128.Idx :=
  Finset.univ.filter fun j => 25600 * (wid L).val ≤ (j 0).val ∧ (j 0).val < 25600 * (wid L).val + 640 * h
/-- Rows [25600 w + 640 h, 25600 w + 25600): from half-block h on. -/
def todoH (L : grid1.Coords) (h : ℕ) : Finset S819200x128.Idx :=
  Finset.univ.filter fun j => 25600 * (wid L).val + 640 * h ≤ (j 0).val ∧ (j 0).val < 25600 * (wid L).val + 25600

theorem mem_doneH (h : ℕ) (j : S819200x128.Idx) :
    j ∈ doneH L h ↔ 25600 * (wid L).val ≤ (j 0).val ∧ (j 0).val < 25600 * (wid L).val + 640 * h := by
  simp only [doneH, Finset.mem_filter, Finset.mem_univ, true_and]
theorem mem_todoH (h : ℕ) (j : S819200x128.Idx) :
    j ∈ todoH L h ↔ 25600 * (wid L).val + 640 * h ≤ (j 0).val ∧ (j 0).val < 25600 * (wid L).val + 25600 := by
  simp only [todoH, Finset.mem_filter, Finset.mem_univ, true_and]

/-- The loop runs twenty trips. -/
theorem trips_lt (t : Fin k1_t1_loop.trips) : t.val < 20 := lt_of_lt_of_le t.isLt k1_t1_abs.2.1

theorem wid_val : (wid L).val = 2 * (L 1).val + (L 0).val := rfl

theorem mem_chunk (t : Fin k1_t1_loop.trips) (r₁ : Fin 2) (r₂ : Fin 5) (j : S819200x128.Idx) :
    j ∈ (chunkM L t r₁ r₂).view.set ↔ 25600 * (wid L).val + 1280 * t.val + 640 * r₁.val + 128 * r₂.val ≤ (j 0).val
      ∧ (j 0).val < 25600 * (wid L).val + 1280 * t.val + 640 * r₁.val + 128 * r₂.val + 128 := by
  show j ∈ ((View.whole (main_v2_scv : Ref sig .scVector)).slice (Rect.unit (s := S819200x128) (k1_off3 L t (BitVec.ofNat 32 r₁.val) (BitVec.ofNat 32 r₂.val)) S128x128.size (k1_off3_inb L t r₁ r₂))).set ↔ _
  rw [View.set_slice_whole, Rect.mem_set_unit, k1_off3_eq, wid_val]
  have h1 : ((j 1 : Fin 128) : ℕ) < 128 := (j 1).isLt
  have hs0 : S128x128.size 0 = 128 := rfl
  have hs1 : S128x128.size 1 = 128 := rfl
  refine ⟨fun h => ?_, fun h a => ?_⟩
  · have h0 := h 0
    simp only [Matrix.cons_val_zero, hs0] at h0
    omega
  · match a with
    | 0 => simp only [Matrix.cons_val_zero, hs0]; omega
    | 1 => simp only [Matrix.cons_val_one, Matrix.cons_val_zero, hs1]; omega

theorem oSet_eq_todoH : oSet (wid L) = todoH L 0 := by
  ext j
  show j ∈ ((View.whole (main_v2_scv : Ref sig .scVector)).slice (oRect (wid L))).set ↔ _
  rw [View.set_slice_whole, Rect.mem_set_unit, mem_todoH]
  have h1 : ((j 1 : Fin 128) : ℕ) < 128 := (j 1).isLt
  refine ⟨fun h => ?_, fun h a => ?_⟩
  · have h0 := h 0
    simp [Shape.partIx, Shape.partSize] at h0
    omega
  · match a with
    | 0 => simp [Shape.partIx, Shape.partSize]; omega
    | 1 => simp [Shape.partIx, Shape.partSize]; omega

theorem oSet_eq_doneH : oSet (wid L) = doneH L 40 := by
  rw [oSet_eq_todoH]
  ext j
  rw [mem_todoH, mem_doneH]
  omega

theorem doneH_zero : doneH L 0 = ∅ := by
  ext j
  rw [mem_doneH]
  simp only [Finset.notMem_empty, iff_false]
  omega

theorem todoH_last : todoH L 40 = ∅ := by
  ext j
  rw [mem_todoH]
  simp only [Finset.notMem_empty, iff_false]
  omega

/-- Rows [lo, hi) of the output. -/
def rowsR (lo hi : ℕ) : Finset S819200x128.Idx := Finset.univ.filter fun j => lo ≤ (j 0).val ∧ (j 0).val < hi

theorem mem_rowsR (lo hi : ℕ) (j : S819200x128.Idx) : j ∈ rowsR lo hi ↔ lo ≤ (j 0).val ∧ (j 0).val < hi := by
  simp only [rowsR, Finset.mem_filter, Finset.mem_univ, true_and]

/-- A run of rows cut at a row in between. -/
theorem rows_split {lo mid hi : ℕ} (h1 : lo ≤ mid) (h2 : mid ≤ hi) (f : Buf (Elt F) (oLoc d)) :
    (oLoc d ↦[rowsR lo hi]{fullShare} f : sProp 𝕄) = iprop((oLoc d ↦[rowsR lo mid]{fullShare} f) ∗ oLoc d ↦[rowsR mid hi]{fullShare} f) := by
  have hd : Disjoint (rowsR lo mid) (rowsR mid hi) := by
    rw [Finset.disjoint_left]
    intro j hj hj'
    rw [mem_rowsR] at hj hj'
    omega
  have hu : rowsR lo mid ∪ rowsR mid hi = rowsR lo hi := by
    ext j
    simp only [Finset.mem_union, mem_rowsR]
    omega
  rw [← hu]
  exact eq_of_bi (pointsTo_union (ℓ := oLoc d) hd)

theorem chunk_rows (t : Fin k1_t1_loop.trips) (r₁ : Fin 2) (r₂ : Fin 5) :
    (chunkM L t r₁ r₂).view.set = rowsR (25600 * (wid L).val + 1280 * t.val + 640 * r₁.val + 128 * r₂.val) (25600 * (wid L).val + 1280 * t.val + 640 * r₁.val + 128 * r₂.val + 128) := by
  ext j
  rw [mem_chunk, mem_rowsR]

theorem todo_take (t : Fin k1_t1_loop.trips) (r₁ : Fin 2) (f : Buf (Elt F) (oLoc d)) :
    (oLoc d ↦[todoH L (2 * t.val + r₁.val)]{fullShare} f : sProp 𝕄) ⊣⊢ iprop(
      ((chunkM L t r₁ 0).view.loc (thrV d L) ↦[(chunkM L t r₁ 0).view.set]{fullShare} f) ∗ ((chunkM L t r₁ 1).view.loc (thrV d L) ↦[(chunkM L t r₁ 1).view.set]{fullShare} f)
      ∗ ((chunkM L t r₁ 2).view.loc (thrV d L) ↦[(chunkM L t r₁ 2).view.set]{fullShare} f) ∗ ((chunkM L t r₁ 3).view.loc (thrV d L) ↦[(chunkM L t r₁ 3).view.set]{fullShare} f)
      ∗ ((chunkM L t r₁ 4).view.loc (thrV d L) ↦[(chunkM L t r₁ 4).view.set]{fullShare} f) ∗ (oLoc d ↦[todoH L (2 * t.val + r₁.val + 1)]{fullShare} f)) := by
  refine BiEntails.of_eq ?_
  show (oLoc d ↦[todoH L (2 * t.val + r₁.val)]{fullShare} f : sProp 𝕄) = iprop(
      (oLoc d ↦[(chunkM L t r₁ 0).view.set]{fullShare} f) ∗ (oLoc d ↦[(chunkM L t r₁ 1).view.set]{fullShare} f)
      ∗ (oLoc d ↦[(chunkM L t r₁ 2).view.set]{fullShare} f) ∗ (oLoc d ↦[(chunkM L t r₁ 3).view.set]{fullShare} f)
      ∗ (oLoc d ↦[(chunkM L t r₁ 4).view.set]{fullShare} f) ∗ (oLoc d ↦[todoH L (2 * t.val + r₁.val + 1)]{fullShare} f))
  have ht := trips_lt t
  have hr := r₁.isLt
  have hw := (wid L).isLt
  have v0 : ((0 : Fin 5) : ℕ) = 0 := rfl
  have v1 : ((1 : Fin 5) : ℕ) = 1 := rfl
  have v2 : ((2 : Fin 5) : ℕ) = 2 := rfl
  have v3 : ((3 : Fin 5) : ℕ) = 3 := rfl
  have v4 : ((4 : Fin 5) : ℕ) = 4 := rfl
  obtain ⟨B, hB⟩ : ∃ B, B = 25600 * (wid L).val + 1280 * t.val + 640 * r₁.val := ⟨_, rfl⟩
  have e0 : todoH L (2 * t.val + r₁.val) = rowsR B (25600 * (wid L).val + 25600) := by
    ext j; rw [mem_todoH, mem_rowsR]; omega
  have e1 : todoH L (2 * t.val + r₁.val + 1) = rowsR (B + 640) (25600 * (wid L).val + 25600) := by
    ext j; rw [mem_todoH, mem_rowsR]; omega
  have c0 : (chunkM L t r₁ 0).view.set = rowsR B (B + 128) := by rw [chunk_rows, v0]; congr 1 <;> omega
  have c1 : (chunkM L t r₁ 1).view.set = rowsR (B + 128) (B + 256) := by rw [chunk_rows, v1]; congr 1 <;> omega
  have c2 : (chunkM L t r₁ 2).view.set = rowsR (B + 256) (B + 384) := by rw [chunk_rows, v2]; congr 1 <;> omega
  have c3 : (chunkM L t r₁ 3).view.set = rowsR (B + 384) (B + 512) := by rw [chunk_rows, v3]; congr 1 <;> omega
  have c4 : (chunkM L t r₁ 4).view.set = rowsR (B + 512) (B + 640) := by rw [chunk_rows, v4]; congr 1 <;> omega
  rw [e0, e1, c0, c1, c2, c3, c4]
  rw [rows_split d (lo := B) (mid := B + 128) (by omega) (by omega),
    rows_split d (lo := B + 128) (mid := B + 256) (by omega) (by omega),
    rows_split d (lo := B + 256) (mid := B + 384) (by omega) (by omega),
    rows_split d (lo := B + 384) (mid := B + 512) (by omega) (by omega),
    rows_split d (lo := B + 512) (mid := B + 640) (by omega) (by omega)]

theorem done_put (t : Fin k1_t1_loop.trips) (r₁ : Fin 2) (f : Buf (Elt F) (oLoc d)) :
    iprop((oLoc d ↦[doneH L (2 * t.val + r₁.val)]{fullShare} f)
      ∗ ((chunkM L t r₁ 0).view.loc (thrV d L) ↦[(chunkM L t r₁ 0).view.set]{fullShare} f) ∗ ((chunkM L t r₁ 1).view.loc (thrV d L) ↦[(chunkM L t r₁ 1).view.set]{fullShare} f)
      ∗ ((chunkM L t r₁ 2).view.loc (thrV d L) ↦[(chunkM L t r₁ 2).view.set]{fullShare} f) ∗ ((chunkM L t r₁ 3).view.loc (thrV d L) ↦[(chunkM L t r₁ 3).view.set]{fullShare} f)
      ∗ ((chunkM L t r₁ 4).view.loc (thrV d L) ↦[(chunkM L t r₁ 4).view.set]{fullShare} f))
      ⊣⊢ (oLoc d ↦[doneH L (2 * t.val + r₁.val + 1)]{fullShare} f : sProp 𝕄) := by
  refine BiEntails.of_eq ?_
  show iprop((oLoc d ↦[doneH L (2 * t.val + r₁.val)]{fullShare} f)
      ∗ (oLoc d ↦[(chunkM L t r₁ 0).view.set]{fullShare} f) ∗ (oLoc d ↦[(chunkM L t r₁ 1).view.set]{fullShare} f)
      ∗ (oLoc d ↦[(chunkM L t r₁ 2).view.set]{fullShare} f) ∗ (oLoc d ↦[(chunkM L t r₁ 3).view.set]{fullShare} f)
      ∗ (oLoc d ↦[(chunkM L t r₁ 4).view.set]{fullShare} f))
    = (oLoc d ↦[doneH L (2 * t.val + r₁.val + 1)]{fullShare} f : sProp 𝕄)
  have ht := trips_lt t
  have hr := r₁.isLt
  have hw := (wid L).isLt
  have v0 : ((0 : Fin 5) : ℕ) = 0 := rfl
  have v1 : ((1 : Fin 5) : ℕ) = 1 := rfl
  have v2 : ((2 : Fin 5) : ℕ) = 2 := rfl
  have v3 : ((3 : Fin 5) : ℕ) = 3 := rfl
  have v4 : ((4 : Fin 5) : ℕ) = 4 := rfl
  obtain ⟨B, hB⟩ : ∃ B, B = 25600 * (wid L).val + 1280 * t.val + 640 * r₁.val := ⟨_, rfl⟩
  have e0 : doneH L (2 * t.val + r₁.val) = rowsR (25600 * (wid L).val) B := by
    ext j; rw [mem_doneH, mem_rowsR]; omega
  have e1 : doneH L (2 * t.val + r₁.val + 1) = rowsR (25600 * (wid L).val) (B + 640) := by
    ext j; rw [mem_doneH, mem_rowsR]; omega
  have c0 : (chunkM L t r₁ 0).view.set = rowsR B (B + 128) := by rw [chunk_rows, v0]; congr 1 <;> omega
  have c1 : (chunkM L t r₁ 1).view.set = rowsR (B + 128) (B + 256) := by rw [chunk_rows, v1]; congr 1 <;> omega
  have c2 : (chunkM L t r₁ 2).view.set = rowsR (B + 256) (B + 384) := by rw [chunk_rows, v2]; congr 1 <;> omega
  have c3 : (chunkM L t r₁ 3).view.set = rowsR (B + 384) (B + 512) := by rw [chunk_rows, v3]; congr 1 <;> omega
  have c4 : (chunkM L t r₁ 4).view.set = rowsR (B + 512) (B + 640) := by rw [chunk_rows, v4]; congr 1 <;> omega
  rw [e0, e1, c0, c1, c2, c3, c4]
  rw [rows_split d (lo := 25600 * (wid L).val) (mid := B) (hi := B + 640) (by omega) (by omega),
    rows_split d (lo := B) (mid := B + 128) (hi := B + 640) (by omega) (by omega),
    rows_split d (lo := B + 128) (mid := B + 256) (hi := B + 640) (by omega) (by omega),
    rows_split d (lo := B + 256) (mid := B + 384) (hi := B + 640) (by omega) (by omega),
    rows_split d (lo := B + 384) (mid := B + 512) (hi := B + 640) (by omega) (by omega)]

/-! ## The two scratch buffers: the index scratch's two slots, the row scratch's five row buffers -/

set_option quotPrecheck false in
local notation "slotS0" => ((Memref.whole Cert.Kernel.cc1_scratch0 : Memref Cert.Kernel.sig Kind.scVector Space.vmem Cert.Kernel.S2x5x128 EltTy.i32).view.setOn (Rect.unit (s := Cert.Kernel.S2x5x128) ![0, 0, 0] Cert.Kernel.S1x5x128.size Cert.Kernel.Facts₀.inb_S2x5x128_S1x5x128_0_0_0).set)
set_option quotPrecheck false in
local notation "slotS1" => ((Memref.whole Cert.Kernel.cc1_scratch0 : Memref Cert.Kernel.sig Kind.scVector Space.vmem Cert.Kernel.S2x5x128 EltTy.i32).view.setOn (Rect.unit (s := Cert.Kernel.S2x5x128) ![1, 0, 0] Cert.Kernel.S1x5x128.size Cert.Kernel.Facts₀.inb_S2x5x128_S1x5x128_1_0_0).set)

/-- Slots [lo, hi) of the index scratch: its elements whose first coordinate lies there. -/
def slotsR (lo hi : ℕ) : Finset S2x5x128.Idx := Finset.univ.filter fun j => lo ≤ (j 0).val ∧ (j 0).val < hi
/-- Row buffers [lo, hi) of the row scratch. -/
def planesR (lo hi : ℕ) : Finset S5x128x128.Idx := Finset.univ.filter fun j => lo ≤ (j 0).val ∧ (j 0).val < hi

theorem mem_slotsR (lo hi : ℕ) (j : S2x5x128.Idx) : j ∈ slotsR lo hi ↔ lo ≤ (j 0).val ∧ (j 0).val < hi := by
  simp only [slotsR, Finset.mem_filter, Finset.mem_univ, true_and]
theorem mem_planesR (lo hi : ℕ) (j : S5x128x128.Idx) : j ∈ planesR lo hi ↔ lo ≤ (j 0).val ∧ (j 0).val < hi := by
  simp only [planesR, Finset.mem_filter, Finset.mem_univ, true_and]

theorem slotsR_univ : slotsR 0 2 = Finset.univ := by
  ext j
  have h0 : ((j 0 : Fin 2) : ℕ) < 2 := (j 0).isLt
  simp only [mem_slotsR, Finset.mem_univ, iff_true]
  omega
theorem planesR_univ : planesR 0 5 = Finset.univ := by
  ext j
  have h0 : ((j 0 : Fin 5) : ℕ) < 5 := (j 0).isLt
  simp only [mem_planesR, Finset.mem_univ, iff_true]
  omega

theorem slotsR_disjoint {lo mid hi : ℕ} : Disjoint (slotsR lo mid) (slotsR mid hi) := by
  rw [Finset.disjoint_left]
  intro j hj hj'
  rw [mem_slotsR] at hj hj'
  omega
theorem slotsR_union {lo mid hi : ℕ} (h1 : lo ≤ mid) (h2 : mid ≤ hi) : slotsR lo mid ∪ slotsR mid hi = slotsR lo hi := by
  ext j
  simp only [Finset.mem_union, mem_slotsR]
  omega
theorem planesR_disjoint {lo mid hi : ℕ} : Disjoint (planesR lo mid) (planesR mid hi) := by
  rw [Finset.disjoint_left]
  intro j hj hj'
  rw [mem_planesR] at hj hj'
  omega
theorem planesR_union {lo mid hi : ℕ} (h1 : lo ≤ mid) (h2 : mid ≤ hi) : planesR lo mid ∪ planesR mid hi = planesR lo hi := by
  ext j
  simp only [Finset.mem_union, mem_planesR]
  omega

/-- Slot p as the program addresses it is the elements with first coordinate p. -/
theorem slot_set (p : ℕ) (inb : ∀ a, (![p, 0, 0] : Fin 3 → ℕ) a + S1x5x128.size a ≤ S2x5x128.size a) :
    ((sV).view.setOn (Rect.unit (s := S2x5x128) ![p, 0, 0] S1x5x128.size inb).set : Finset S2x5x128.Idx) = slotsR p (p + 1) := by
  ext j
  show j ∈ Finset.map (Function.Embedding.refl _) (Rect.unit (s := S2x5x128) ![p, 0, 0] S1x5x128.size inb).set ↔ _
  rw [Finset.map_refl, Rect.mem_set_unit, mem_slotsR]
  have h1 : ((j 1 : Fin 5) : ℕ) < 5 := (j 1).isLt
  have h2 : ((j 2 : Fin 128) : ℕ) < 128 := (j 2).isLt
  refine ⟨fun h => ?_, fun h a => ?_⟩
  · have h0 : p ≤ (j 0).val ∧ (j 0).val < p + 1 := h 0
    omega
  · match a with
    | 0 => show p ≤ (j 0).val ∧ (j 0).val < p + 1; omega
    | 1 => show 0 ≤ (j 1).val ∧ (j 1).val < 0 + 5; omega
    | 2 => show 0 ≤ (j 2).val ∧ (j 2).val < 0 + 128; omega

/-- Row buffer b as the program addresses it is the elements with first coordinate b. -/
theorem plane_set (b : ℕ) (inb : ∀ a, (![b, 0, 0] : Fin 3 → ℕ) a + S1x128x128.size a ≤ S5x128x128.size a) :
    ((((rV).slice (Rect.unit (s := S5x128x128) ![b, 0, 0] S1x128x128.size inb) (fun _ => rfl)).squeeze S128x128 squeezes_S1x128x128_S128x128).view.set : Finset S5x128x128.Idx) = planesR b (b + 1) := by
  ext j
  show j ∈ (((View.whole (cc1_scratch1 : Ref sig .scVector)).slice (Rect.unit (s := S5x128x128) ![b, 0, 0] S1x128x128.size inb)).reshape S128x128 squeezes_S1x128x128_S128x128.numel_eq).set ↔ _
  rw [View.set_reshape, View.set_slice_whole, Rect.mem_set_unit, mem_planesR]
  have h1 : ((j 1 : Fin 128) : ℕ) < 128 := (j 1).isLt
  have h2 : ((j 2 : Fin 128) : ℕ) < 128 := (j 2).isLt
  refine ⟨fun h => ?_, fun h a => ?_⟩
  · have h0 : b ≤ (j 0).val ∧ (j 0).val < b + 1 := h 0
    omega
  · match a with
    | 0 => show b ≤ (j 0).val ∧ (j 0).val < b + 1; omega
    | 1 => show 0 ≤ (j 1).val ∧ (j 1).val < 0 + 128; omega
    | 2 => show 0 ≤ (j 2).val ∧ (j 2).val < 0 + 128; omega

theorem scratch0_split (f : Buf (Elt F) ((thrV d L).loc cc1_scratch0)) :
    ((thrV d L).loc cc1_scratch0 ↦{fullShare} f : sProp 𝕄) ⊣⊢ iprop(((sV).view.loc (thrV d L) ↦[slotS0]{fullShare} f) ∗ ((sV).view.loc (thrV d L) ↦[slotS1]{fullShare} f)) := by
  refine BiEntails.of_eq ?_
  show ((thrV d L).loc cc1_scratch0 ↦[(Finset.univ : Finset S2x5x128.Idx)]{fullShare} f : sProp 𝕄)
    = iprop(((thrV d L).loc cc1_scratch0 ↦[(slotS0 : Finset S2x5x128.Idx)]{fullShare} f) ∗ ((thrV d L).loc cc1_scratch0 ↦[(slotS1 : Finset S2x5x128.Idx)]{fullShare} f))
  rw [slot_set 0, slot_set 1, ← slotsR_univ, ← slotsR_union (lo := 0) (mid := 1) (hi := 2) (by omega) (by omega)]
  exact eq_of_bi (pointsTo_union (ℓ := (thrV d L).loc cc1_scratch0) slotsR_disjoint)

theorem scratch0_join (f g : Buf (Elt F) ((thrV d L).loc cc1_scratch0)) :
    iprop(((sV).view.loc (thrV d L) ↦[slotS0]{fullShare} f) ∗ ((sV).view.loc (thrV d L) ↦[slotS1]{fullShare} g))
      ⊢ (iprop(∃ h, (thrV d L).loc cc1_scratch0 ↦{fullShare} h) : sProp 𝕄) := by
  show iprop(((thrV d L).loc cc1_scratch0 ↦[(slotS0 : Finset S2x5x128.Idx)]{fullShare} f) ∗ ((thrV d L).loc cc1_scratch0 ↦[(slotS1 : Finset S2x5x128.Idx)]{fullShare} g))
      ⊢ (iprop(∃ h, (thrV d L).loc cc1_scratch0 ↦[(Finset.univ : Finset S2x5x128.Idx)]{fullShare} h) : sProp 𝕄)
  rw [slot_set 0, slot_set 1, ← slotsR_univ, ← slotsR_union (lo := 0) (mid := 1) (hi := 2) (by omega) (by omega)]
  exact (pointsTo_join (ℓ := (thrV d L).loc cc1_scratch0) slotsR_disjoint).trans (exists_intro (Φ := fun h => ((thrV d L).loc cc1_scratch0 ↦[slotsR 0 (0 + 1) ∪ slotsR 1 (1 + 1)]{fullShare} h : sProp 𝕄)) _)

/-- A run of row buffers cut at one in between. -/
theorem planes_split {lo mid hi : ℕ} (h1 : lo ≤ mid) (h2 : mid ≤ hi) (f : Buf (Elt F) ((thrV d L).loc cc1_scratch1)) :
    ((thrV d L).loc cc1_scratch1 ↦[planesR lo hi]{fullShare} f : sProp 𝕄)
      = iprop(((thrV d L).loc cc1_scratch1 ↦[planesR lo mid]{fullShare} f) ∗ (thrV d L).loc cc1_scratch1 ↦[planesR mid hi]{fullShare} f) := by
  rw [← planesR_union h1 h2]
  exact eq_of_bi (pointsTo_union (ℓ := (thrV d L).loc cc1_scratch1) planesR_disjoint)

/-- A row buffer at one contents joins a run of the following ones at some contents. -/
theorem planes_join {lo mid hi : ℕ} (h1 : lo ≤ mid) (h2 : mid ≤ hi) (f : Buf (Elt F) ((thrV d L).loc cc1_scratch1)) :
    iprop(((thrV d L).loc cc1_scratch1 ↦[planesR lo mid]{fullShare} f) ∗ ∃ g, (thrV d L).loc cc1_scratch1 ↦[planesR mid hi]{fullShare} g)
      ⊢ (iprop(∃ h, (thrV d L).loc cc1_scratch1 ↦[planesR lo hi]{fullShare} h) : sProp 𝕄) := by
  refine sep_exists_left.1.trans (exists_elim fun g => ?_)
  rw [← planesR_union h1 h2]
  exact (pointsTo_join (ℓ := (thrV d L).loc cc1_scratch1) planesR_disjoint).trans
    (exists_intro (Φ := fun h => ((thrV d L).loc cc1_scratch1 ↦[planesR lo mid ∪ planesR mid hi]{fullShare} h : sProp 𝕄)) _)

theorem scratch1_split (f : Buf (Elt F) ((thrV d L).loc cc1_scratch1)) :
    ((thrV d L).loc cc1_scratch1 ↦{fullShare} f : sProp 𝕄) ⊣⊢ iprop(((rowM0).view.loc (thrV d L) ↦[(rowM0).view.set]{fullShare} f) ∗ ((rowM1).view.loc (thrV d L) ↦[(rowM1).view.set]{fullShare} f)
      ∗ ((rowM2).view.loc (thrV d L) ↦[(rowM2).view.set]{fullShare} f) ∗ ((rowM3).view.loc (thrV d L) ↦[(rowM3).view.set]{fullShare} f) ∗ ((rowM4).view.loc (thrV d L) ↦[(rowM4).view.set]{fullShare} f)) := by
  refine BiEntails.of_eq ?_
  show ((thrV d L).loc cc1_scratch1 ↦[(Finset.univ : Finset S5x128x128.Idx)]{fullShare} f : sProp 𝕄)
    = iprop(((thrV d L).loc cc1_scratch1 ↦[((rowM0).view.set : Finset S5x128x128.Idx)]{fullShare} f) ∗ ((thrV d L).loc cc1_scratch1 ↦[((rowM1).view.set : Finset S5x128x128.Idx)]{fullShare} f)
      ∗ ((thrV d L).loc cc1_scratch1 ↦[((rowM2).view.set : Finset S5x128x128.Idx)]{fullShare} f) ∗ ((thrV d L).loc cc1_scratch1 ↦[((rowM3).view.set : Finset S5x128x128.Idx)]{fullShare} f)
      ∗ ((thrV d L).loc cc1_scratch1 ↦[((rowM4).view.set : Finset S5x128x128.Idx)]{fullShare} f))
  rw [plane_set 0, plane_set 1, plane_set 2, plane_set 3, plane_set 4, ← planesR_univ,
    planes_split d L (lo := 0) (mid := 0 + 1) (hi := 5) (by omega) (by omega),
    planes_split d L (lo := 0 + 1) (mid := 1 + 1) (hi := 5) (by omega) (by omega),
    planes_split d L (lo := 1 + 1) (mid := 2 + 1) (hi := 5) (by omega) (by omega),
    planes_split d L (lo := 2 + 1) (mid := 3 + 1) (hi := 5) (by omega) (by omega)]

theorem scratch1_join (f0 f1 f2 f3 f4 : Buf (Elt F) ((thrV d L).loc cc1_scratch1)) :
    iprop(((rowM0).view.loc (thrV d L) ↦[(rowM0).view.set]{fullShare} f0) ∗ ((rowM1).view.loc (thrV d L) ↦[(rowM1).view.set]{fullShare} f1)
      ∗ ((rowM2).view.loc (thrV d L) ↦[(rowM2).view.set]{fullShare} f2) ∗ ((rowM3).view.loc (thrV d L) ↦[(rowM3).view.set]{fullShare} f3) ∗ ((rowM4).view.loc (thrV d L) ↦[(rowM4).view.set]{fullShare} f4))
      ⊢ (iprop(∃ h, (thrV d L).loc cc1_scratch1 ↦{fullShare} h) : sProp 𝕄) := by
  show iprop(((thrV d L).loc cc1_scratch1 ↦[((rowM0).view.set : Finset S5x128x128.Idx)]{fullShare} f0) ∗ ((thrV d L).loc cc1_scratch1 ↦[((rowM1).view.set : Finset S5x128x128.Idx)]{fullShare} f1)
      ∗ ((thrV d L).loc cc1_scratch1 ↦[((rowM2).view.set : Finset S5x128x128.Idx)]{fullShare} f2) ∗ ((thrV d L).loc cc1_scratch1 ↦[((rowM3).view.set : Finset S5x128x128.Idx)]{fullShare} f3)
      ∗ ((thrV d L).loc cc1_scratch1 ↦[((rowM4).view.set : Finset S5x128x128.Idx)]{fullShare} f4))
      ⊢ (iprop(∃ h, (thrV d L).loc cc1_scratch1 ↦[(Finset.univ : Finset S5x128x128.Idx)]{fullShare} h) : sProp 𝕄)
  rw [plane_set 0, plane_set 1, plane_set 2, plane_set 3, plane_set 4, ← planesR_univ]
  have j4 : iprop(((thrV d L).loc cc1_scratch1 ↦[planesR 3 (3 + 1)]{fullShare} f3) ∗ ((thrV d L).loc cc1_scratch1 ↦[planesR 4 (4 + 1)]{fullShare} f4))
      ⊢ (iprop(∃ h, (thrV d L).loc cc1_scratch1 ↦[planesR 3 5]{fullShare} h) : sProp 𝕄) :=
    (sep_mono_right (exists_intro (Φ := fun g => ((thrV d L).loc cc1_scratch1 ↦[planesR 4 (4 + 1)]{fullShare} g : sProp 𝕄)) f4)).trans
      (planes_join d L (lo := 3) (mid := 3 + 1) (hi := 4 + 1) (by omega) (by omega) f3)
  have j3 : iprop(((thrV d L).loc cc1_scratch1 ↦[planesR 2 (2 + 1)]{fullShare} f2) ∗ ((thrV d L).loc cc1_scratch1 ↦[planesR 3 (3 + 1)]{fullShare} f3)
      ∗ ((thrV d L).loc cc1_scratch1 ↦[planesR 4 (4 + 1)]{fullShare} f4))
      ⊢ (iprop(∃ h, (thrV d L).loc cc1_scratch1 ↦[planesR 2 5]{fullShare} h) : sProp 𝕄) :=
    (sep_mono_right j4).trans (planes_join d L (lo := 2) (mid := 2 + 1) (hi := 5) (by omega) (by omega) f2)
  have j2 : iprop(((thrV d L).loc cc1_scratch1 ↦[planesR 1 (1 + 1)]{fullShare} f1) ∗ ((thrV d L).loc cc1_scratch1 ↦[planesR 2 (2 + 1)]{fullShare} f2)
      ∗ ((thrV d L).loc cc1_scratch1 ↦[planesR 3 (3 + 1)]{fullShare} f3) ∗ ((thrV d L).loc cc1_scratch1 ↦[planesR 4 (4 + 1)]{fullShare} f4))
      ⊢ (iprop(∃ h, (thrV d L).loc cc1_scratch1 ↦[planesR 1 5]{fullShare} h) : sProp 𝕄) :=
    (sep_mono_right j3).trans (planes_join d L (lo := 1) (mid := 1 + 1) (hi := 5) (by omega) (by omega) f1)
  exact (sep_mono_right j2).trans (planes_join d L (lo := 0) (mid := 0 + 1) (hi := 5) (by omega) (by omega) f0)

/-! ## The table's read tokens: five for the gathers in flight, the rest kept aside -/

/-- What is kept of the table's share beside the five tokens lent to the gathers: the remainder after twelve tokens and the
    first seven tokens. -/
def tableRest (d : Dev nD) (qt : PosShare TreeShare) (ft : Buf (Elt F) (tLoc d)) : sProp 𝕄 :=
  iprop((tLoc d ↦{Transfers.shareDrop qt 12} ft) ∗ bigSep (Finset.range 7) fun i => tLoc d ↦{Transfers.shareTokN qt i} ft)

/-- The product over the first n + 1 naturals is the n-th factor and the product over the first n. -/
theorem bigSep_range_succ (Φ : ℕ → sProp 𝕄) (n : ℕ) :
    bigSep (Finset.range (n + 1)) Φ = iprop(Φ n ∗ bigSep (Finset.range n) Φ) := by
  rw [Finset.range_add_one, BI.bigSep_insert Finset.notMem_range_self]
  rfl

theorem table_split (qt : PosShare TreeShare) (ft : Buf (Elt F) (tLoc d)) :
    (tLoc d ↦{qt} ft : sProp 𝕄) ⊣⊢ iprop(tableRest d qt ft ∗ ((tV).view.loc (thrV d L) ↦{Transfers.shareTokN qt 7} ft) ∗ ((tV).view.loc (thrV d L) ↦{Transfers.shareTokN qt 8} ft)
      ∗ ((tV).view.loc (thrV d L) ↦{Transfers.shareTokN qt 9} ft) ∗ ((tV).view.loc (thrV d L) ↦{Transfers.shareTokN qt 10} ft) ∗ ((tV).view.loc (thrV d L) ↦{Transfers.shareTokN qt 11} ft)) := by
  show (tLoc d ↦{qt} ft : sProp 𝕄) ⊣⊢ iprop(tableRest d qt ft ∗ (tLoc d ↦{Transfers.shareTokN qt 7} ft) ∗ (tLoc d ↦{Transfers.shareTokN qt 8} ft)
      ∗ (tLoc d ↦{Transfers.shareTokN qt 9} ft) ∗ (tLoc d ↦{Transfers.shareTokN qt 10} ft) ∗ (tLoc d ↦{Transfers.shareTokN qt 11} ft))
  have h12 : bigSep (Finset.range 12) (fun i => (tLoc d ↦{Transfers.shareTokN qt i} ft : sProp 𝕄))
      = iprop((tLoc d ↦{Transfers.shareTokN qt 11} ft) ∗ (tLoc d ↦{Transfers.shareTokN qt 10} ft) ∗ (tLoc d ↦{Transfers.shareTokN qt 9} ft)
        ∗ (tLoc d ↦{Transfers.shareTokN qt 8} ft) ∗ (tLoc d ↦{Transfers.shareTokN qt 7} ft)
        ∗ bigSep (Finset.range 7) (fun i => (tLoc d ↦{Transfers.shareTokN qt i} ft : sProp 𝕄))) := by
    rw [bigSep_range_succ _ 11, bigSep_range_succ _ 10, bigSep_range_succ _ 9, bigSep_range_succ _ 8, bigSep_range_succ _ 7]
  refine (Transfers.pointsTo_toks_range (ℓ := tLoc d) (S := Finset.univ) (f := ft) qt 12).trans ?_
  rw [h12]
  unfold tableRest
  constructor
  · iintro ⟨Hd, H11, H10, H9, H8, H7, HR⟩
    isplitl [Hd HR]
    · isplitl [Hd]; · iexact Hd
      iexact HR
    isplitl [H7]; · iexact H7
    isplitl [H8]; · iexact H8
    isplitl [H9]; · iexact H9
    isplitl [H10]; · iexact H10
    iexact H11
  · iintro ⟨⟨Hd, HR⟩, H7, H8, H9, H10, H11⟩
    isplitl [Hd]; · iexact Hd
    isplitl [H11]; · iexact H11
    isplitl [H10]; · iexact H10
    isplitl [H9]; · iexact H9
    isplitl [H8]; · iexact H8
    isplitl [H7]; · iexact H7
    iexact HR

/-! ## The semaphores: the eleven the task uses, each at zero, and the tile's other cells -/

/-- Nested separating conjunctions re-bracket to the right. -/
theorem sep_assoc_eq {P Q R : sProp 𝕄} : iprop((P ∗ Q) ∗ R) = iprop(P ∗ Q ∗ R) := eq_of_bi sep_assoc

/-- Distinct semaphores of the tile are distinct cells. -/
theorem cellOf_injective : Function.Injective (cellOf d L) := fun a b h => SemLoc.dma.inj (congrArg Prod.snd h)

/-- Each of the eleven semaphores is scoped to the vector subcore. -/
theorem semList_scoped : ∀ s ∈ semList, (SemLoc.dma s : SemLoc sig).isScoped .scVector = true := by decide

/-- The eleven cells are among the tile's own. -/
theorem semCells_subset : semList.toFinset.image (cellOf d L) ⊆ ownCells (thrV d L) := by
  intro g hg
  obtain ⟨s, hs, rfl⟩ := Finset.mem_image.mp hg
  exact mem_ownCells.mpr ⟨rfl, semList_scoped s (List.mem_toFinset.mp hs)⟩

theorem ownSems0_V :
    (ownSems0 (thrV d L) : sProp 𝕄) = iprop(semVal (thrV d L, SemLoc.dma isemS) 0
      ∗ (semVal (thrV d L, SemLoc.dma gsemS0) 0 ∗ semVal (thrV d L, SemLoc.dma gsemS1) 0 ∗ semVal (thrV d L, SemLoc.dma gsemS2) 0 ∗ semVal (thrV d L, SemLoc.dma gsemS3) 0 ∗ semVal (thrV d L, SemLoc.dma gsemS4) 0)
      ∗ (semVal (thrV d L, SemLoc.dma wsemS0) 0 ∗ semVal (thrV d L, SemLoc.dma wsemS1) 0 ∗ semVal (thrV d L, SemLoc.dma wsemS2) 0 ∗ semVal (thrV d L, SemLoc.dma wsemS3) 0 ∗ semVal (thrV d L, SemLoc.dma wsemS4) 0)
      ∗ bigSep (otherCells d L) fun g => semVal g 0) := by
  unfold SparseCore.Cfg.ownSems0
  rw [SparseCore.bigSep_sdiff_split' (semCells_subset d L)]
  have himg : bigSep (semList.toFinset.image (cellOf d L)) (fun g => (semVal g 0 : sProp 𝕄))
      = bigSep semList.toFinset (fun s => (semVal (cellOf d L s) 0 : sProp 𝕄)) := by
    have e : Finset.image (cellOf d L) semList.toFinset = semList.toFinset.map ⟨cellOf d L, cellOf_injective d L⟩ :=
      (Finset.map_eq_image ⟨cellOf d L, cellOf_injective d L⟩ semList.toFinset).symm
    rw [e, BI.bigSep_map]
    rfl
  have h0 : isemS ∉ ({gsemS0, gsemS1, gsemS2, gsemS3, gsemS4, wsemS0, wsemS1, wsemS2, wsemS3, wsemS4} : Finset (DmaSem sig)) := by decide
  have h1 : gsemS0 ∉ ({gsemS1, gsemS2, gsemS3, gsemS4, wsemS0, wsemS1, wsemS2, wsemS3, wsemS4} : Finset (DmaSem sig)) := by decide
  have h2 : gsemS1 ∉ ({gsemS2, gsemS3, gsemS4, wsemS0, wsemS1, wsemS2, wsemS3, wsemS4} : Finset (DmaSem sig)) := by decide
  have h3 : gsemS2 ∉ ({gsemS3, gsemS4, wsemS0, wsemS1, wsemS2, wsemS3, wsemS4} : Finset (DmaSem sig)) := by decide
  have h4 : gsemS3 ∉ ({gsemS4, wsemS0, wsemS1, wsemS2, wsemS3, wsemS4} : Finset (DmaSem sig)) := by decide
  have h5 : gsemS4 ∉ ({wsemS0, wsemS1, wsemS2, wsemS3, wsemS4} : Finset (DmaSem sig)) := by decide
  have h6 : wsemS0 ∉ ({wsemS1, wsemS2, wsemS3, wsemS4} : Finset (DmaSem sig)) := by decide
  have h7 : wsemS1 ∉ ({wsemS2, wsemS3, wsemS4} : Finset (DmaSem sig)) := by decide
  have h8 : wsemS2 ∉ ({wsemS3, wsemS4} : Finset (DmaSem sig)) := by decide
  have h9 : wsemS3 ∉ ({wsemS4} : Finset (DmaSem sig)) := by decide
  have hlist : semList.toFinset = ({isemS, gsemS0, gsemS1, gsemS2, gsemS3, gsemS4, wsemS0, wsemS1, wsemS2, wsemS3, wsemS4} : Finset (DmaSem sig)) := by
    simp only [List.toFinset_cons, List.toFinset_nil, insert_empty_eq]
  rw [himg, hlist, SparseCore.bigSep_insert' h0, SparseCore.bigSep_insert' h1, SparseCore.bigSep_insert' h2, SparseCore.bigSep_insert' h3,
    SparseCore.bigSep_insert' h4, SparseCore.bigSep_insert' h5, SparseCore.bigSep_insert' h6, SparseCore.bigSep_insert' h7,
    SparseCore.bigSep_insert' h8, SparseCore.bigSep_insert' h9, BI.bigSep_singleton]
  simp only [sep_assoc_eq]
  rfl

theorem ownBufs_V :
    (ownBufs (thrV d L) : sProp 𝕄) = iprop((∃ f, (thrV d L).loc cc1_scratch0 ↦{fullShare} f) ∗ (∃ f, (thrV d L).loc cc1_scratch1 ↦{fullShare} f)
      ∗ bigSep (((ownRefs (τ := τ) (.scVector (cV L) (jV L))).erase ((Proc.scVector (cV L) (jV L)).devRef cc1_scratch0)).erase ((Proc.scVector (cV L) (jV L)).devRef cc1_scratch1))
          fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Cert.Proof.KB
end
-- ==== Proof.KB.TileDefs2.lean ====
import proofs.«204608_g3015067042085_cont_9to1_1138_29_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  The ten offset lists of a tile's task: row `b` of slot `p` of the index scratch, 128 words, as the gathers address it.
-/

local notation "iV" => (Memref.whole Cert.Kernel.main_v1_scv : Memref Cert.Kernel.sig Kind.scVector Space.hbm Cert.Kernel.S1280x5x128 EltTy.i32)
local notation "tV" => (Memref.whole Cert.Kernel.main_v0_scv : Memref Cert.Kernel.sig Kind.scVector Space.hbm Cert.Kernel.S100000x128 EltTy.f32)
local notation "oV" => (Memref.whole Cert.Kernel.main_v2_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S2x5x128 EltTy.i32)
local notation "rV" => (Memref.whole Cert.Kernel.cc1_scratch1 : Memref Cert.Kernel.sig Kind.scVector Space.vmem Cert.Kernel.S5x128x128 EltTy.f32)

abbrev listM00 : Memref sig .scVector .vmem S128 .i32 :=
  ((sV).slice (Rect.unit (s := S2x5x128) ![0, 0, 0] S1x1x128.size inb_S2x5x128_S1x1x128_0_0_0) (fun _ => rfl)).squeeze S128 squeezes_S1x1x128_S128
abbrev listM01 : Memref sig .scVector .vmem S128 .i32 :=
  ((sV).slice (Rect.unit (s := S2x5x128) ![0, 1, 0] S1x1x128.size inb_S2x5x128_S1x1x128_0_1_0) (fun _ => rfl)).squeeze S128 squeezes_S1x1x128_S128
abbrev listM02 : Memref sig .scVector .vmem S128 .i32 :=
  ((sV).slice (Rect.unit (s := S2x5x128) ![0, 2, 0] S1x1x128.size inb_S2x5x128_S1x1x128_0_2_0) (fun _ => rfl)).squeeze S128 squeezes_S1x1x128_S128
abbrev listM03 : Memref sig .scVector .vmem S128 .i32 :=
  ((sV).slice (Rect.unit (s := S2x5x128) ![0, 3, 0] S1x1x128.size inb_S2x5x128_S1x1x128_0_3_0) (fun _ => rfl)).squeeze S128 squeezes_S1x1x128_S128
abbrev listM04 : Memref sig .scVector .vmem S128 .i32 :=
  ((sV).slice (Rect.unit (s := S2x5x128) ![0, 4, 0] S1x1x128.size inb_S2x5x128_S1x1x128_0_4_0) (fun _ => rfl)).squeeze S128 squeezes_S1x1x128_S128
abbrev listM10 : Memref sig .scVector .vmem S128 .i32 :=
  ((sV).slice (Rect.unit (s := S2x5x128) ![1, 0, 0] S1x1x128.size inb_S2x5x128_S1x1x128_1_0_0) (fun _ => rfl)).squeeze S128 squeezes_S1x1x128_S128
abbrev listM11 : Memref sig .scVector .vmem S128 .i32 :=
  ((sV).slice (Rect.unit (s := S2x5x128) ![1, 1, 0] S1x1x128.size inb_S2x5x128_S1x1x128_1_1_0) (fun _ => rfl)).squeeze S128 squeezes_S1x1x128_S128
abbrev listM12 : Memref sig .scVector .vmem S128 .i32 :=
  ((sV).slice (Rect.unit (s := S2x5x128) ![1, 2, 0] S1x1x128.size inb_S2x5x128_S1x1x128_1_2_0) (fun _ => rfl)).squeeze S128 squeezes_S1x1x128_S128
abbrev listM13 : Memref sig .scVector .vmem S128 .i32 :=
  ((sV).slice (Rect.unit (s := S2x5x128) ![1, 3, 0] S1x1x128.size inb_S2x5x128_S1x1x128_1_3_0) (fun _ => rfl)).squeeze S128 squeezes_S1x1x128_S128
abbrev listM14 : Memref sig .scVector .vmem S128 .i32 :=
  ((sV).slice (Rect.unit (s := S2x5x128) ![1, 4, 0] S1x1x128.size inb_S2x5x128_S1x1x128_1_4_0) (fun _ => rfl)).squeeze S128 squeezes_S1x1x128_S128

end Cert.Proof.KB
end
-- ==== Proof.KB.TileValue.lean ====
/-
  The values a tile's task moves, as index equations.  An index copy reads block `40 w + k` of the index array (the block
  number from the printed offset functions in closed form); row `b` of a slot of the index scratch, read as a list of 128
  words, is the slot at `(b, x)`; and a chunk written out of a row buffer that holds the rows gathered by the list equal to
  row `b` of index block `40 w + 2 t + r₁` holds row `25600 w + 1280 t + 640 r₁ + 128 b + y` of the result: the table's row
  named by the flat index at that position, since that position is block `40 w + 2 t + r₁`, row `b`, lane `y`.
-/
import Idealize.ShloMosaic.Lib.ValueLayout
import proofs.«204608_g3015067042085_cont_9to1_1138_29_alg».proof.Proof.KB.TileDefs2

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

local notation "iV" => (Memref.whole Cert.Kernel.main_v1_scv : Memref Cert.Kernel.sig Kind.scVector Space.hbm Cert.Kernel.S1280x5x128 EltTy.i32)
local notation "tV" => (Memref.whole Cert.Kernel.main_v0_scv : Memref Cert.Kernel.sig Kind.scVector Space.hbm Cert.Kernel.S100000x128 EltTy.f32)
local notation "oV" => (Memref.whole Cert.Kernel.main_v2_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S2x5x128 EltTy.i32)
local notation "rV" => (Memref.whole Cert.Kernel.cc1_scratch1 : Memref Cert.Kernel.sig Kind.scVector Space.vmem Cert.Kernel.S5x128x128 EltTy.f32)

/-! ## A squeeze's index map for the two squeezes of the index scratch and the index blocks -/

/-- A 128-list's index matched with `[1, 1, 128]` is `(0, 0, x)`. -/
theorem re_S128 {n : ℕ} (h : (⟨1, ![n]⟩ : Shape).numel = (⟨3, ![1, 1, n]⟩ : Shape).numel) (x : (⟨1, ![n]⟩ : Shape).Idx) :
    Shape.reshapeEquiv h x = ix3 (n2 := n) (⟨0, Nat.one_pos⟩ : Fin 1) (⟨0, Nat.one_pos⟩ : Fin 1) (x 0) :=
  Shape.reshapeEquiv_eq_of_rowMajor h (by
    rw [Shape.rowMajor_val_three, Shape.rowMajor_val_one]
    show ((0 * 1 + 0) * n + (x 0).val) = (x 0).val
    simp only [Nat.zero_mul, Nat.zero_add])

/-- A `[5, 128]` index matched with `[1, 5, 128]` is `(0, y₀, y₁)`. -/
theorem re_S5x128 {a b : ℕ} (h : (⟨2, ![a, b]⟩ : Shape).numel = (⟨3, ![1, a, b]⟩ : Shape).numel) (y : (⟨2, ![a, b]⟩ : Shape).Idx) :
    Shape.reshapeEquiv h y = ix3 (n1 := a) (n2 := b) (⟨0, Nat.one_pos⟩ : Fin 1) (y 0) (y 1) :=
  (congrArg _ (eq_ix2 y)).trans (reshapeEquiv_ix2_1ab h (y 0) (y 1))

section
variable (d : Dev nD) (L : grid1.Coords)

/-! ## What an index copy reads -/

/-- The prologue's index block is block `40 w` of the index array. -/
theorem iblk0_read (fi : Buf (Elt F) (iLoc d)) (y : S5x128.Idx) :
    (iblkM0 L).view.read (Elt F) fi y = fi (ix3 ⟨40 * (wid L).val, by have := (wid L).isLt; omega⟩ (y 0) (y 1)) := by
  show fi ((iblkM0 L).view.emb y) = _
  have he : (iblkM0 L).view.emb y = (Rect.unit (s := S1280x5x128) (k1_off1 L) S1x5x128.size (k1_off1_inb L)).emb
      (Shape.reshapeEquiv squeezes_S1x5x128_S5x128.numel_eq y) := rfl
  rw [he, re_S5x128]
  refine congrArg _ (funext fun a => Fin.ext ?_)
  have e := k1_off1_eq L
  have hw : (wid L).val = 2 * (L 1).val + (L 0).val := rfl
  match a with
  | ⟨0, _⟩ => show k1_off1 L 0 + 1 * 0 = 40 * (wid L).val; rw [e]; show 80 * (L 1).val + 40 * (L 0).val + 1 * 0 = _; omega
  | ⟨1, _⟩ => show k1_off1 L 1 + 1 * (y 0).val = (y 0).val; rw [e]; show 0 + 1 * (y 0).val = _; omega
  | ⟨2, _⟩ => show k1_off1 L 2 + 1 * (y 1).val = (y 1).val; rw [e]; show 0 + 1 * (y 1).val = _; omega

/-- The index block trip `t`'s half `r` fetches is block `40 w + min (2 t + r + 1) 39`. -/
theorem iblk_read (t : Fin k1_t1_loop.trips) (r : Fin 2) (fi : Buf (Elt F) (iLoc d)) (y : S5x128.Idx) :
    (iblkM L t r).view.read (Elt F) fi y
      = fi (ix3 ⟨40 * (wid L).val + min (2 * t.val + r.val + 1) 39, by have := (wid L).isLt; omega⟩ (y 0) (y 1)) := by
  show fi ((iblkM L t r).view.emb y) = _
  have he : (iblkM L t r).view.emb y = (Rect.unit (s := S1280x5x128) (k1_off2 L t (BitVec.ofNat 32 r.val)) S1x5x128.size (k1_off2_inb L t r)).emb
      (Shape.reshapeEquiv squeezes_S1x5x128_S5x128.numel_eq y) := rfl
  rw [he, re_S5x128]
  refine congrArg _ (funext fun a => Fin.ext ?_)
  have e := k1_off2_eq L t r
  have hw : (wid L).val = 2 * (L 1).val + (L 0).val := rfl
  match a with
  | ⟨0, _⟩ =>
    show k1_off2 L t (BitVec.ofNat 32 r.val) 0 + 1 * 0 = 40 * (wid L).val + min (2 * t.val + r.val + 1) 39
    rw [e]; show 80 * (L 1).val + 40 * (L 0).val + min (2 * t.val + r.val + 1) 39 + 1 * 0 = _; omega
  | ⟨1, _⟩ => show k1_off2 L t (BitVec.ofNat 32 r.val) 1 + 1 * (y 0).val = (y 0).val; rw [e]; show 0 + 1 * (y 0).val = _; omega
  | ⟨2, _⟩ => show k1_off2 L t (BitVec.ofNat 32 r.val) 2 + 1 * (y 1).val = (y 1).val; rw [e]; show 0 + 1 * (y 1).val = _; omega

/-! ## An offset list is a row of its slot -/

/-- Row `b` of slot `p`, read as a 128-list, is the slot read at `(b, x)`. -/
theorem list_read_gen (p b : ℕ) (hb : b < 5)
    (inbL : ∀ a, (![p, b, 0] : Fin 3 → ℕ) a + S1x1x128.size a ≤ S2x5x128.size a)
    (inbS : ∀ a, (![p, 0, 0] : Fin 3 → ℕ) a + S1x5x128.size a ≤ S2x5x128.size a)
    (f : Buf (Elt F) ((thrV d L).loc cc1_scratch0)) (x : S128.Idx) :
    (((sV).slice (Rect.unit (s := S2x5x128) ![p, b, 0] S1x1x128.size inbL) (fun _ => rfl)).squeeze S128 squeezes_S1x1x128_S128).view.read (Elt F) f x
      = (((sV).slice (Rect.unit (s := S2x5x128) ![p, 0, 0] S1x5x128.size inbS) (fun _ => rfl)).squeeze S5x128 squeezes_S1x5x128_S5x128).view.read (Elt F) f
          (ix2 (⟨b, hb⟩ : Fin 5) (x 0)) := by
  show f ((Rect.unit (s := S2x5x128) ![p, b, 0] S1x1x128.size inbL).emb (Shape.reshapeEquiv squeezes_S1x1x128_S128.numel_eq x))
    = f ((Rect.unit (s := S2x5x128) ![p, 0, 0] S1x5x128.size inbS).emb (Shape.reshapeEquiv squeezes_S1x5x128_S5x128.numel_eq (ix2 (⟨b, hb⟩ : Fin 5) (x 0))))
  rw [re_S128, re_S5x128]
  refine congrArg _ (funext fun a => Fin.ext ?_)
  match a with
  | ⟨0, _⟩ => show p + 1 * 0 = p + 1 * 0; rfl
  | ⟨1, _⟩ => show b + 1 * 0 = 0 + 1 * b; omega
  | ⟨2, _⟩ => show 0 + 1 * (x 0).val = 0 + 1 * (x 0).val; rfl

theorem list_read00 (f : Buf (Elt F) ((thrV d L).loc cc1_scratch0)) (x : S128.Idx) :
    (listM00).view.read (Elt F) f x = (slotM0).view.read (Elt F) f (ix2 (0 : Fin 5) (x 0)) := list_read_gen d L 0 0 (by decide) _ _ f x
theorem list_read01 (f : Buf (Elt F) ((thrV d L).loc cc1_scratch0)) (x : S128.Idx) :
    (listM01).view.read (Elt F) f x = (slotM0).view.read (Elt F) f (ix2 (1 : Fin 5) (x 0)) := list_read_gen d L 0 1 (by decide) _ _ f x
theorem list_read02 (f : Buf (Elt F) ((thrV d L).loc cc1_scratch0)) (x : S128.Idx) :
    (listM02).view.read (Elt F) f x = (slotM0).view.read (Elt F) f (ix2 (2 : Fin 5) (x 0)) := list_read_gen d L 0 2 (by decide) _ _ f x
theorem list_read03 (f : Buf (Elt F) ((thrV d L).loc cc1_scratch0)) (x : S128.Idx) :
    (listM03).view.read (Elt F) f x = (slotM0).view.read (Elt F) f (ix2 (3 : Fin 5) (x 0)) := list_read_gen d L 0 3 (by decide) _ _ f x
theorem list_read04 (f : Buf (Elt F) ((thrV d L).loc cc1_scratch0)) (x : S128.Idx) :
    (listM04).view.read (Elt F) f x = (slotM0).view.read (Elt F) f (ix2 (4 : Fin 5) (x 0)) := list_read_gen d L 0 4 (by decide) _ _ f x
theorem list_read10 (f : Buf (Elt F) ((thrV d L).loc cc1_scratch0)) (x : S128.Idx) :
    (listM10).view.read (Elt F) f x = (slotM1).view.read (Elt F) f (ix2 (0 : Fin 5) (x 0)) := list_read_gen d L 1 0 (by decide) _ _ f x
theorem list_read11 (f : Buf (Elt F) ((thrV d L).loc cc1_scratch0)) (x : S128.Idx) :
    (listM11).view.read (Elt F) f x = (slotM1).view.read (Elt F) f (ix2 (1 : Fin 5) (x 0)) := list_read_gen d L 1 1 (by decide) _ _ f x
theorem list_read12 (f : Buf (Elt F) ((thrV d L).loc cc1_scratch0)) (x : S128.Idx) :
    (listM12).view.read (Elt F) f x = (slotM1).view.read (Elt F) f (ix2 (2 : Fin 5) (x 0)) := list_read_gen d L 1 2 (by decide) _ _ f x
theorem list_read13 (f : Buf (Elt F) ((thrV d L).loc cc1_scratch0)) (x : S128.Idx) :
    (listM13).view.read (Elt F) f x = (slotM1).view.read (Elt F) f (ix2 (3 : Fin 5) (x 0)) := list_read_gen d L 1 3 (by decide) _ _ f x
theorem list_read14 (f : Buf (Elt F) ((thrV d L).loc cc1_scratch0)) (x : S128.Idx) :
    (listM14).view.read (Elt F) f x = (slotM1).view.read (Elt F) f (ix2 (4 : Fin 5) (x 0)) := list_read_gen d L 1 4 (by decide) _ _ f x

/-- Row `b` of a slot that an index copy has just filled with `pay`, read as a 128-list, is `pay` at `(b, x)`. -/
theorem list_landed_gen (p b : ℕ) (hb : b < 5)
    (inbL : ∀ a, (![p, b, 0] : Fin 3 → ℕ) a + S1x1x128.size a ≤ S2x5x128.size a)
    (inbS : ∀ a, (![p, 0, 0] : Fin 3 → ℕ) a + S1x5x128.size a ≤ S2x5x128.size a)
    (g : Buf (Elt F) ((thrV d L).loc cc1_scratch0)) (pay : S5x128.Idx → Elt F .i32) (x : S128.Idx) :
    (((sV).slice (Rect.unit (s := S2x5x128) ![p, b, 0] S1x1x128.size inbL) (fun _ => rfl)).squeeze S128 squeezes_S1x1x128_S128).view.read (Elt F)
        (View.write (Elt F) (((sV).slice (Rect.unit (s := S2x5x128) ![p, 0, 0] S1x5x128.size inbS) (fun _ => rfl)).squeeze S5x128 squeezes_S1x5x128_S5x128).view g pay Finset.univ) x
      = pay (ix2 (⟨b, hb⟩ : Fin 5) (x 0)) := by
  rw [list_read_gen d L p b hb inbL inbS, View.read_write_univ]
theorem list_landed00 (g : Buf (Elt F) ((thrV d L).loc cc1_scratch0)) (pay : S5x128.Idx → Elt F .i32) (x : S128.Idx) :
    (listM00).view.read (Elt F) (View.write (Elt F) (slotM0).view g pay Finset.univ) x = pay (ix2 (0 : Fin 5) (x 0)) := list_landed_gen d L 0 0 (by decide) _ _ g pay x
theorem list_landed01 (g : Buf (Elt F) ((thrV d L).loc cc1_scratch0)) (pay : S5x128.Idx → Elt F .i32) (x : S128.Idx) :
    (listM01).view.read (Elt F) (View.write (Elt F) (slotM0).view g pay Finset.univ) x = pay (ix2 (1 : Fin 5) (x 0)) := list_landed_gen d L 0 1 (by decide) _ _ g pay x
theorem list_landed02 (g : Buf (Elt F) ((thrV d L).loc cc1_scratch0)) (pay : S5x128.Idx → Elt F .i32) (x : S128.Idx) :
    (listM02).view.read (Elt F) (View.write (Elt F) (slotM0).view g pay Finset.univ) x = pay (ix2 (2 : Fin 5) (x 0)) := list_landed_gen d L 0 2 (by decide) _ _ g pay x
theorem list_landed03 (g : Buf (Elt F) ((thrV d L).loc cc1_scratch0)) (pay : S5x128.Idx → Elt F .i32) (x : S128.Idx) :
    (listM03).view.read (Elt F) (View.write (Elt F) (slotM0).view g pay Finset.univ) x = pay (ix2 (3 : Fin 5) (x 0)) := list_landed_gen d L 0 3 (by decide) _ _ g pay x
theorem list_landed04 (g : Buf (Elt F) ((thrV d L).loc cc1_scratch0)) (pay : S5x128.Idx → Elt F .i32) (x : S128.Idx) :
    (listM04).view.read (Elt F) (View.write (Elt F) (slotM0).view g pay Finset.univ) x = pay (ix2 (4 : Fin 5) (x 0)) := list_landed_gen d L 0 4 (by decide) _ _ g pay x
theorem list_landed10 (g : Buf (Elt F) ((thrV d L).loc cc1_scratch0)) (pay : S5x128.Idx → Elt F .i32) (x : S128.Idx) :
    (listM10).view.read (Elt F) (View.write (Elt F) (slotM1).view g pay Finset.univ) x = pay (ix2 (0 : Fin 5) (x 0)) := list_landed_gen d L 1 0 (by decide) _ _ g pay x
theorem list_landed11 (g : Buf (Elt F) ((thrV d L).loc cc1_scratch0)) (pay : S5x128.Idx → Elt F .i32) (x : S128.Idx) :
    (listM11).view.read (Elt F) (View.write (Elt F) (slotM1).view g pay Finset.univ) x = pay (ix2 (1 : Fin 5) (x 0)) := list_landed_gen d L 1 1 (by decide) _ _ g pay x
theorem list_landed12 (g : Buf (Elt F) ((thrV d L).loc cc1_scratch0)) (pay : S5x128.Idx → Elt F .i32) (x : S128.Idx) :
    (listM12).view.read (Elt F) (View.write (Elt F) (slotM1).view g pay Finset.univ) x = pay (ix2 (2 : Fin 5) (x 0)) := list_landed_gen d L 1 2 (by decide) _ _ g pay x
theorem list_landed13 (g : Buf (Elt F) ((thrV d L).loc cc1_scratch0)) (pay : S5x128.Idx → Elt F .i32) (x : S128.Idx) :
    (listM13).view.read (Elt F) (View.write (Elt F) (slotM1).view g pay Finset.univ) x = pay (ix2 (3 : Fin 5) (x 0)) := list_landed_gen d L 1 3 (by decide) _ _ g pay x
theorem list_landed14 (g : Buf (Elt F) ((thrV d L).loc cc1_scratch0)) (pay : S5x128.Idx → Elt F .i32) (x : S128.Idx) :
    (listM14).view.read (Elt F) (View.write (Elt F) (slotM1).view g pay Finset.univ) x = pay (ix2 (4 : Fin 5) (x 0)) := list_landed_gen d L 1 4 (by decide) _ _ g pay x

end

/-! ## The value of a written-out chunk -/

theorem tv_trips : k1_t1_loop.trips = 20 := by decide

/-- The flat position `25600 w + 1280 t + 640 r₁ + 128 b + y` of the index blocks is block `40 w + 2 t + r₁`, row `b`, lane `y`. -/
theorem blkIx_chunk (w : Fin 32) (t : Fin k1_t1_loop.trips) (r₁ : Fin 2) (b : Fin 5) (y0 : Fin 128) (r : Fin 819200)
    (hr : r.val = 25600 * w.val + 1280 * t.val + 640 * r₁.val + 128 * b.val + y0.val) :
    blkIx r = ix3 (n0 := 1280) ⟨40 * w.val + 2 * t.val + r₁.val, by
      have h1 := w.isLt; have h2 : t.val < 20 := tv_trips ▸ t.isLt; have h3 := r₁.isLt; omega⟩ b y0 := by
  have h1 := w.isLt
  have h2 : t.val < 20 := tv_trips ▸ t.isLt
  have h3 := r₁.isLt
  have h4 := b.isLt
  have h5 := y0.isLt
  unfold blkIx
  funext a
  match a with
  | ⟨0, _⟩ => exact Fin.ext (by show r.val / 640 = 40 * w.val + 2 * t.val + r₁.val; omega)
  | ⟨1, _⟩ => exact Fin.ext (by show (r.val / 128) % 5 = b.val; omega)
  | ⟨2, _⟩ => exact Fin.ext (by show r.val % 128 = y0.val; omega)

/-- The first coordinate of a 128-list's index at row-major position `k` is `k`. -/
theorem tv_rowMajor_symm_zero (k : Fin S128.numel) : ((S128.rowMajor.symm k) 0).val = k.val := by
  have h := Shape.rowMajor_val_one (d := ![128]) (S128.rowMajor.symm k)
  rw [← h]
  exact congrArg Fin.val (S128.rowMajor.apply_symm_apply k)

section
variable (d : Dev nD) (L : grid1.Coords)

/-- The table as the gathers address it: the whole array, sliced at offset zero with its own extents. -/
abbrev tabS : Memref sig .scVector .hbm S100000x128 .f32 :=
  (tV).slice (Rect.unit (s := S100000x128) ![0, 0] S100000x128.size inb_S100000x128_S100000x128_0_0) (fun _ => rfl)

/-- A chunk written whole reads, at its own index `y`, what was written there. -/
theorem tv_chunk_at (t : Fin k1_t1_loop.trips) (r₁ : Fin 2) (b : Fin 5) (f0 : Buf (Elt F) (oLoc d)) (P : S128x128.Idx → Elt F .f32) (y : S128x128.Idx) :
    (chunkM L t r₁ b).view.writes (Elt F) f0 [⟨Rect.whole S128x128, P⟩] ((chunkM L t r₁ b).view.emb y) = P y := by
  have h := View.read_writes_cons_emb (chunkM L t r₁ b).view f0 (Rect.whole S128x128) P [] y
  rw [Rect.emb_whole_apply] at h
  exact h

/-- A chunk written out of a row buffer that holds the rows gathered by an offset list equal to row `b` of index block
    `40 w + 2 t + r₁` holds, on the chunk, the gathered rows of the table: row `25600 w + 1280 t + 640 r₁ + 128 b + y` of
    the output is the table's row named by flat index of that position. -/
theorem chunk_value (fi : Buf (Elt F) (iLoc d)) (ft : Buf (Elt F) (tLoc d)) (t : Fin k1_t1_loop.trips) (r₁ : Fin 2) (b : Fin 5)
    (R : Memref sig .scVector .vmem S128x128 .f32) (Lm : Memref sig .scVector .vmem S128 .i32)
    (sc : Lm.view.ty.Contents (Elt F)) (rb : R.view.ty.Contents (Elt F)) (f0 : Buf (Elt F) (oLoc d))
    (rest : List (View.Piece (Elt F) S128x128 .f32))
    (hn : S128.numel = S128x128.size gathers_S100000x128_S128x128.axis')
    (hin : ∀ x, (Lm.view.read (Elt F) sc x).toNat < 100000)
    (hsc : ∀ x : S128.Idx, Lm.view.read (Elt F) sc x
      = fi (ix3 (n0 := 1280) (n1 := 5) (n2 := 128) ⟨40 * (wid L).val + 2 * t.val + r₁.val, by
          have h1 := (wid L).isLt; have h2 : t.val < 20 := tv_trips ▸ t.isLt; have h3 := r₁.isLt; omega⟩ b (x 0))) :
    ∀ j ∈ (chunkM L t r₁ b).view.set,
      (chunkM L t r₁ b).view.writes (Elt F) f0 [⟨Rect.whole S128x128, (ReadAs.same : ReadAs (Elt F) S128x128 .f32 S128x128 .f32).apply
        (View.read (Elt F) R.view (R.view.writes (Elt F) rb (⟨Rect.whole S128x128,
          SparseCore.gatherPayload gathers_S100000x128_S128x128 (View.read (Elt F) (tabS).view ft) (SparseCore.rows (View.read (Elt F) Lm.view sc) hn hin)⟩ :: rest)))⟩] j
        = rowsOf ft fi j := by
  intro j hj
  obtain ⟨y, rfl⟩ := View.exists_emb_of_mem_set _ hj
  have hw2 := View.read_writes_cons_emb R.view rb (Rect.whole S128x128)
    (SparseCore.gatherPayload gathers_S100000x128_S128x128 (View.read (Elt F) (tabS).view ft) (SparseCore.rows (View.read (Elt F) Lm.view sc) hn hin)) rest y
  rw [Rect.emb_whole_apply] at hw2
  rw [tv_chunk_at, ReadAs.apply_same, hw2]
  unfold SparseCore.gatherPayload rowsOf
  show ft ((tabS).view.emb (gathers_S100000x128_S128x128.idx (SparseCore.rows (View.read (Elt F) Lm.view sc) hn hin) y)) = _
  refine congrArg _ (funext fun a => Fin.ext ?_)
  have e := k1_off3_eq L t r₁ b
  have hwid : (wid L).val = 2 * (L 1).val + (L 0).val := rfl
  have hy0 : (y 0).val < 128 := (y 0).isLt
  have hj0 : (((chunkM L t r₁ b).view.emb y) 0).val = 25600 * (wid L).val + 1280 * t.val + 640 * r₁.val + 128 * b.val + (y 0).val := by
    show k1_off3 L t (BitVec.ofNat 32 r₁.val) (BitVec.ofNat 32 b.val) 0 + 1 * (y 0).val = _
    rw [e]; show 51200 * (L 1).val + 25600 * (L 0).val + 1280 * t.val + 640 * r₁.val + 128 * b.val + 1 * (y 0).val = _; omega
  match a with
  | ⟨0, _⟩ =>
    have hax := Shape.Gathers.idx_axis gathers_S100000x128_S128x128 (SparseCore.rows (View.read (Elt F) Lm.view sc) hn hin) y
    show 0 + 1 * ((gathers_S100000x128_S128x128.idx (SparseCore.rows (View.read (Elt F) Lm.view sc) hn hin) y) gathers_S100000x128_S128x128.axis).val
      = (fi (blkIx (((chunkM L t r₁ b).view.emb y) 0))).toNat % 100000
    rw [hax, blkIx_chunk (wid L) t r₁ b (y 0) _ hj0]
    unfold SparseCore.rows
    show 0 + 1 * (View.read (Elt F) Lm.view sc (S128.rowMajor.symm (Fin.cast hn.symm (y gathers_S100000x128_S128x128.axis')))).toNat = _
    have hlt := hin (S128.rowMajor.symm (Fin.cast hn.symm (y gathers_S100000x128_S128x128.axis')))
    rw [hsc] at hlt ⊢
    have hx0 : (S128.rowMajor.symm (Fin.cast hn.symm (y gathers_S100000x128_S128x128.axis'))) 0 = y 0 :=
      Fin.ext (tv_rowMajor_symm_zero _)
    rw [hx0] at hlt ⊢
    rw [Nat.mod_eq_of_lt hlt]; omega
  | ⟨1, _⟩ =>
    have hne := Shape.Gathers.idx_of_ne gathers_S100000x128_S128x128 (SparseCore.rows (View.read (Elt F) Lm.view sc) hn hin) y ⟨1, by decide⟩ (by decide)
    show 0 + 1 * ((gathers_S100000x128_S128x128.idx (SparseCore.rows (View.read (Elt F) Lm.view sc) hn hin) y) ⟨1, by decide⟩).val
      = (((chunkM L t r₁ b).view.emb y) 1).val
    rw [hne]
    show 0 + 1 * (y 1).val = k1_off3 L t (BitVec.ofNat 32 r₁.val) (BitVec.ofNat 32 b.val) 1 + 1 * (y 1).val
    rw [e]; show 0 + 1 * (y 1).val = 0 + 1 * (y 1).val; rfl

end

section
variable (d : Dev nD) (L : grid1.Coords)

/-- The same as a resource: the chunk held at what the write-out left is the chunk held at the gathered rows. -/
theorem chunk_value_pt (fi : Buf (Elt F) (iLoc d)) (ft : Buf (Elt F) (tLoc d)) (t : Fin k1_t1_loop.trips) (r₁ : Fin 2) (b : Fin 5)
    (R : Memref sig .scVector .vmem S128x128 .f32) (Lm : Memref sig .scVector .vmem S128 .i32)
    (sc : Lm.view.ty.Contents (Elt F)) (rb : R.view.ty.Contents (Elt F)) (f0 : Buf (Elt F) (oLoc d))
    (rest : List (View.Piece (Elt F) S128x128 .f32))
    (hn : S128.numel = S128x128.size gathers_S100000x128_S128x128.axis')
    (hin : ∀ x, (Lm.view.read (Elt F) sc x).toNat < 100000)
    (hsc : ∀ x : S128.Idx, Lm.view.read (Elt F) sc x
      = fi (ix3 (n0 := 1280) (n1 := 5) (n2 := 128) ⟨40 * (wid L).val + 2 * t.val + r₁.val, by
          have h1 := (wid L).isLt; have h2 : t.val < 20 := tv_trips ▸ t.isLt; have h3 := r₁.isLt; omega⟩ b (x 0)))
    (q : PosShare TreeShare) :
    ((chunkM L t r₁ b).view.loc (thrV d L) ↦[(chunkM L t r₁ b).view.set]{q}
        (chunkM L t r₁ b).view.writes (Elt F) f0 [⟨Rect.whole S128x128, (ReadAs.same : ReadAs (Elt F) S128x128 .f32 S128x128 .f32).apply
          (View.read (Elt F) R.view (R.view.writes (Elt F) rb (⟨Rect.whole S128x128,
            SparseCore.gatherPayload gathers_S100000x128_S128x128 (View.read (Elt F) (tabS).view ft) (SparseCore.rows (View.read (Elt F) Lm.view sc) hn hin)⟩ :: rest)))⟩] : sProp 𝕄)
      = ((chunkM L t r₁ b).view.loc (thrV d L) ↦[(chunkM L t r₁ b).view.set]{q} rowsOf ft fi) :=
  pointsTo_congr (chunk_value d L fi ft t r₁ b R Lm sc rb f0 rest hn hin hsc)

end

end Cert.Proof.KB
end
-- ==== Proof.KB.TileValue2.lean ====
/-
  The same index equations in the shapes the trips of the loop use them: a slot of the index scratch "is" block `blk` of the
  index array when it reads as that block; a slot an index copy has just filled is the block the copy read (block
  `40 w + min g 39` for the copy issued for step `g`); an offset list of such a slot is a row of that block; and a chunk
  written out of rows gathered by such a list holds the gathered rows of the table.
-/
import proofs.«204608_g3015067042085_cont_9to1_1138_29_alg».proof.Proof.KB.TileValue

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

local notation "iV" => (Memref.whole Cert.Kernel.main_v1_scv : Memref Cert.Kernel.sig Kind.scVector Space.hbm Cert.Kernel.S1280x5x128 EltTy.i32)
local notation "tV" => (Memref.whole Cert.Kernel.main_v0_scv : Memref Cert.Kernel.sig Kind.scVector Space.hbm Cert.Kernel.S100000x128 EltTy.f32)
local notation "oV" => (Memref.whole Cert.Kernel.main_v2_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S2x5x128 EltTy.i32)
local notation "rV" => (Memref.whole Cert.Kernel.cc1_scratch1 : Memref Cert.Kernel.sig Kind.scVector Space.vmem Cert.Kernel.S5x128x128 EltTy.f32)

/-- Block `40 w + min g 39` of the index array. -/
def blkOf (L : grid1.Coords) (g : ℕ) : Fin 1280 := ⟨(40 * (wid L).val + min g 39) % 1280, Nat.mod_lt _ (by norm_num)⟩

theorem blkOf_val (L : grid1.Coords) (g : ℕ) : (blkOf L g).val = 40 * (wid L).val + min g 39 :=
  Nat.mod_eq_of_lt (by have h := (wid L).isLt; have h2 : min g 39 ≤ 39 := Nat.min_le_right _ _; omega)

/-- The buffer under `M` reads as block `blk` of the index array. -/
def BlkIs (d : Dev nD) (L : grid1.Coords) (fi : Buf (Elt F) (iLoc d)) (M : Memref sig .scVector .vmem S5x128 .i32) (blk : Fin 1280)
    (s : Buf (Elt F) (M.view.loc (thrV d L))) : Prop :=
  ∀ y : S5x128.Idx, M.view.read (Elt F) s y = fi (ValueIdx.ix3 blk (y 0) (y 1))

theorem blkIs_landed (d : Dev nD) (L : grid1.Coords) (fi : Buf (Elt F) (iLoc d)) (t : Fin k1_t1_loop.trips) (r : Fin 2) (M : Memref sig .scVector .vmem S5x128 .i32)
    (g : Buf (Elt F) (M.view.loc (thrV d L))) :
    BlkIs d L fi M (blkOf L (2 * t.val + r.val + 1)) (View.write (Elt F) M.view g (ReadAs.same.apply ((iblkM L t r).view.read (Elt F) fi)) Finset.univ) := by
  intro y
  rw [View.read_write_univ, ReadAs.apply_same, iblk_read]
  have hA : blkOf L (2 * t.val + r.val + 1)
      = ⟨40 * (wid L).val + min (2 * t.val + r.val + 1) 39, by have h := (wid L).isLt; have h2 : min (2 * t.val + r.val + 1) 39 ≤ 39 := Nat.min_le_right _ _; omega⟩ :=
    Fin.ext (blkOf_val L _)
  rw [hA]

theorem blkIs_landed0 (d : Dev nD) (L : grid1.Coords) (fi : Buf (Elt F) (iLoc d)) (M : Memref sig .scVector .vmem S5x128 .i32)
    (g : Buf (Elt F) (M.view.loc (thrV d L))) :
    BlkIs d L fi M (blkOf L 0) (View.write (Elt F) M.view g (ReadAs.same.apply ((iblkM0 L).view.read (Elt F) fi)) Finset.univ) := by
  intro y
  rw [View.read_write_univ, ReadAs.apply_same, iblk0_read]
  have hA : blkOf L 0 = ⟨40 * (wid L).val, by have h := (wid L).isLt; omega⟩ :=
    Fin.ext ((blkOf_val L 0).trans (by rw [Nat.zero_min, Nat.add_zero]))
  rw [hA]

theorem list_read_00 (d : Dev nD) (L : grid1.Coords) (fi : Buf (Elt F) (iLoc d)) (blk : Fin 1280) (s : Buf (Elt F) ((slotM0).view.loc (thrV d L)))
    (h : BlkIs d L fi slotM0 blk s) (x : S128.Idx) : (listM00).view.read (Elt F) s x = fi (ValueIdx.ix3 blk (0 : Fin 5) (x 0)) :=
  (list_read00 d L s x).trans (h (ix2 (0 : Fin 5) (x 0)))
theorem list_read_01 (d : Dev nD) (L : grid1.Coords) (fi : Buf (Elt F) (iLoc d)) (blk : Fin 1280) (s : Buf (Elt F) ((slotM0).view.loc (thrV d L)))
    (h : BlkIs d L fi slotM0 blk s) (x : S128.Idx) : (listM01).view.read (Elt F) s x = fi (ValueIdx.ix3 blk (1 : Fin 5) (x 0)) :=
  (list_read01 d L s x).trans (h (ix2 (1 : Fin 5) (x 0)))
theorem list_read_02 (d : Dev nD) (L : grid1.Coords) (fi : Buf (Elt F) (iLoc d)) (blk : Fin 1280) (s : Buf (Elt F) ((slotM0).view.loc (thrV d L)))
    (h : BlkIs d L fi slotM0 blk s) (x : S128.Idx) : (listM02).view.read (Elt F) s x = fi (ValueIdx.ix3 blk (2 : Fin 5) (x 0)) :=
  (list_read02 d L s x).trans (h (ix2 (2 : Fin 5) (x 0)))
theorem list_read_03 (d : Dev nD) (L : grid1.Coords) (fi : Buf (Elt F) (iLoc d)) (blk : Fin 1280) (s : Buf (Elt F) ((slotM0).view.loc (thrV d L)))
    (h : BlkIs d L fi slotM0 blk s) (x : S128.Idx) : (listM03).view.read (Elt F) s x = fi (ValueIdx.ix3 blk (3 : Fin 5) (x 0)) :=
  (list_read03 d L s x).trans (h (ix2 (3 : Fin 5) (x 0)))
theorem list_read_04 (d : Dev nD) (L : grid1.Coords) (fi : Buf (Elt F) (iLoc d)) (blk : Fin 1280) (s : Buf (Elt F) ((slotM0).view.loc (thrV d L)))
    (h : BlkIs d L fi slotM0 blk s) (x : S128.Idx) : (listM04).view.read (Elt F) s x = fi (ValueIdx.ix3 blk (4 : Fin 5) (x 0)) :=
  (list_read04 d L s x).trans (h (ix2 (4 : Fin 5) (x 0)))
theorem list_read_10 (d : Dev nD) (L : grid1.Coords) (fi : Buf (Elt F) (iLoc d)) (blk : Fin 1280) (s : Buf (Elt F) ((slotM1).view.loc (thrV d L)))
    (h : BlkIs d L fi slotM1 blk s) (x : S128.Idx) : (listM10).view.read (Elt F) s x = fi (ValueIdx.ix3 blk (0 : Fin 5) (x 0)) :=
  (list_read10 d L s x).trans (h (ix2 (0 : Fin 5) (x 0)))
theorem list_read_11 (d : Dev nD) (L : grid1.Coords) (fi : Buf (Elt F) (iLoc d)) (blk : Fin 1280) (s : Buf (Elt F) ((slotM1).view.loc (thrV d L)))
    (h : BlkIs d L fi slotM1 blk s) (x : S128.Idx) : (listM11).view.read (Elt F) s x = fi (ValueIdx.ix3 blk (1 : Fin 5) (x 0)) :=
  (list_read11 d L s x).trans (h (ix2 (1 : Fin 5) (x 0)))
theorem list_read_12 (d : Dev nD) (L : grid1.Coords) (fi : Buf (Elt F) (iLoc d)) (blk : Fin 1280) (s : Buf (Elt F) ((slotM1).view.loc (thrV d L)))
    (h : BlkIs d L fi slotM1 blk s) (x : S128.Idx) : (listM12).view.read (Elt F) s x = fi (ValueIdx.ix3 blk (2 : Fin 5) (x 0)) :=
  (list_read12 d L s x).trans (h (ix2 (2 : Fin 5) (x 0)))
theorem list_read_13 (d : Dev nD) (L : grid1.Coords) (fi : Buf (Elt F) (iLoc d)) (blk : Fin 1280) (s : Buf (Elt F) ((slotM1).view.loc (thrV d L)))
    (h : BlkIs d L fi slotM1 blk s) (x : S128.Idx) : (listM13).view.read (Elt F) s x = fi (ValueIdx.ix3 blk (3 : Fin 5) (x 0)) :=
  (list_read13 d L s x).trans (h (ix2 (3 : Fin 5) (x 0)))
theorem list_read_14 (d : Dev nD) (L : grid1.Coords) (fi : Buf (Elt F) (iLoc d)) (blk : Fin 1280) (s : Buf (Elt F) ((slotM1).view.loc (thrV d L)))
    (h : BlkIs d L fi slotM1 blk s) (x : S128.Idx) : (listM14).view.read (Elt F) s x = fi (ValueIdx.ix3 blk (4 : Fin 5) (x 0)) :=
  (list_read14 d L s x).trans (h (ix2 (4 : Fin 5) (x 0)))

theorem chunk_done [FloatOps F] (d : Dev nD) (L : grid1.Coords) (fi : Buf (Elt F) (iLoc d)) (ft : Buf (Elt F) (tLoc d))
    {t : Fin k1_t1_loop.trips} {r₁ : Fin 2} {b : Fin 5} {R : Memref sig .scVector .vmem S128x128 .f32} {Lm : Memref sig .scVector .vmem S128 .i32}
    {sc : Buf (Elt F) (Lm.view.loc (thrV d L))} {rb : Buf (Elt F) (R.view.loc (thrV d L))} {f0 : Buf (Elt F) (oLoc d)}
    {rest : List (View.Piece (Elt F) S128x128 .f32)} {hn : S128.numel = S128x128.size gathers_S100000x128_S128x128.axis'}
    {hin : ∀ x, (Lm.view.read (Elt F) sc x).toNat < 100000}
    (hsc : ∀ x : S128.Idx, Lm.view.read (Elt F) sc x = fi (ValueIdx.ix3 (blkOf L (2 * t.val + r₁.val)) b (x 0))) :
    (((chunkM L t r₁ b).view.loc (thrV d L) ↦[(chunkM L t r₁ b).view.set]{fullShare}
        (chunkM L t r₁ b).view.writes (Elt F) f0 [⟨Rect.whole S128x128, ReadAs.same.apply (View.read (Elt F) R.view
          (R.view.writes (Elt F) rb (⟨Rect.whole S128x128, SparseCore.gatherPayload gathers_S100000x128_S128x128
            (View.read (Elt F) ((tV).slice (Rect.unit (s := S100000x128) ![0, 0] S100000x128.size inb_S100000x128_S100000x128_0_0) (fun _ => rfl)).view ft)
            (SparseCore.rows (View.read (Elt F) Lm.view sc) hn hin)⟩ :: rest)))⟩]) : sProp 𝕄)
      = ((chunkM L t r₁ b).view.loc (thrV d L) ↦[(chunkM L t r₁ b).view.set]{fullShare} rowsOf ft fi) := by
  have h1 := (wid L).isLt
  have h2 : t.val < 20 := tv_trips ▸ t.isLt
  have h3 := r₁.isLt
  have hA : blkOf L (2 * t.val + r₁.val) = ⟨40 * (wid L).val + 2 * t.val + r₁.val, by omega⟩ :=
    Fin.ext ((blkOf_val L _).trans (by rw [Nat.min_eq_left (by omega)]; exact (Nat.add_assoc _ _ _).symm))
  have hb : ∀ x : S128.Idx, Lm.view.read (Elt F) sc x
      = fi (ix3 (n0 := 1280) (n1 := 5) (n2 := 128) ⟨40 * (wid L).val + 2 * t.val + r₁.val, by omega⟩ b (x 0)) := fun x => by
    rw [hsc x, hA]
  exact chunk_value_pt d L fi ft t r₁ b R Lm sc rb f0 rest hn hin hb fullShare

end Cert.Proof.KB
end
-- ==== Proof.KB.TileLib.lean ====
import proofs.«204608_g3015067042085_cont_9to1_1138_29_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  Two facts about a transfer in flight, stated for any delivery: a resource held beside the flight may be handed to it,
  to come back with the delivery at the wait; and a flight's delivery may be restated by anything it entails.
-/

section Lib
variable {c : Thread nD τ} {sm : SemLoc sig} {ι : HIx 1} {N : ℕ}

/-- A resource held beside a flight joins its delivery. -/
theorem flight_frame {D R' : sProp 𝕄} :
    iprop(Transfers.Flight (countersEmb : UEmb Counters 𝕄) c sm ι N D ∗ R') ⊢ Transfers.Flight (countersEmb : UEmb Counters 𝕄) c sm ι N iprop(D ∗ R') := by
  unfold Transfers.Flight
  iintro ⟨⟨⟨%R, HR, %hcap, %hpeek⟩, Hcred⟩, HR'⟩
  isplitl [HR HR']
  · iexists iprop(R ∗ R')
    isplitl [HR HR']; · isplitl [HR] <;> iassumption
    isplit
    · ipureintro
      intro K
      refine BIBase.Entails.trans ?_ (hcap K)
      iintro ⟨⟨HR, HR'⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HR'⟩, HK⟩
      isplitl [HR]; · iexact HR
      iintro HR
      iapply HK
      isplitl [HR] <;> iassumption
  · iexact Hcred

/-- A flight and a resource beside it, restated: the delivery and the resource together entail the new delivery. -/
theorem flight_restate {D R' D' : sProp 𝕄} (h : iprop(D ∗ R') ⊢ D') :
    iprop(Transfers.Flight (countersEmb : UEmb Counters 𝕄) c sm ι N D ∗ R') ⊢ Transfers.Flight (countersEmb : UEmb Counters 𝕄) c sm ι N D' :=
  flight_frame.trans (Transfers.Flight_mono _ c h)

end Lib

end Cert.Proof.KB
end
-- ==== Proof.KB.TileInv.lean ====
import proofs.«204608_g3015067042085_cont_9to1_1138_29_alg».proof.Proof.KB.TileSets
import proofs.«204608_g3015067042085_cont_9to1_1138_29_alg».proof.Proof.KB.TileValue2
import proofs.«204608_g3015067042085_cont_9to1_1138_29_alg».proof.Proof.KB.TileLib

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  The loop of a tile's task. Worker `w` owns index blocks `40 w + g` (`g < 40`) and, per block, five output chunks of
  128 rows. Each of the twenty trips handles two blocks: wait for the index copy into the slot in turn, start the next
  one into the other slot, wait for the row buffers' previous write-outs, gather the five row buffers through the slot's
  five lists, and as each gather lands start its write-out. The invariant at the start of a trip holds the index copy
  into slot 0 in flight, the previous trip's last five write-outs in flight (none before the first trip), the rows below
  them at the gathered rows of the table, and the rows from this trip's on untouched. One trip is proved at a symbolic
  trip number, apart for the first trip (nothing to wait for) and the later ones.
-/

local notation "iV" => (Memref.whole Cert.Kernel.main_v1_scv : Memref Cert.Kernel.sig Kind.scVector Space.hbm Cert.Kernel.S1280x5x128 EltTy.i32)
local notation "tV" => (Memref.whole Cert.Kernel.main_v0_scv : Memref Cert.Kernel.sig Kind.scVector Space.hbm Cert.Kernel.S100000x128 EltTy.f32)
local notation "oV" => (Memref.whole Cert.Kernel.main_v2_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S2x5x128 EltTy.i32)
local notation "rV" => (Memref.whole Cert.Kernel.cc1_scratch1 : Memref Cert.Kernel.sig Kind.scVector Space.vmem Cert.Kernel.S5x128x128 EltTy.f32)
set_option quotPrecheck false in
local notation "slotS0" => ((Memref.whole Cert.Kernel.cc1_scratch0 : Memref Cert.Kernel.sig Kind.scVector Space.vmem Cert.Kernel.S2x5x128 EltTy.i32).view.setOn (Rect.unit (s := Cert.Kernel.S2x5x128) ![0, 0, 0] Cert.Kernel.S1x5x128.size Cert.Kernel.Facts₀.inb_S2x5x128_S1x5x128_0_0_0).set)
set_option quotPrecheck false in
local notation "slotS1" => ((Memref.whole Cert.Kernel.cc1_scratch0 : Memref Cert.Kernel.sig Kind.scVector Space.vmem Cert.Kernel.S2x5x128 EltTy.i32).view.setOn (Rect.unit (s := Cert.Kernel.S2x5x128) ![1, 0, 0] Cert.Kernel.S1x5x128.size Cert.Kernel.Facts₀.inb_S2x5x128_S1x5x128_1_0_0).set)

section Inv
variable [FloatOps F] (d : Dev nD) (L : grid1.Coords) (qi qt : PosShare TreeShare)
  (fi : Buf (Elt F) (iLoc d)) (ft : Buf (Elt F) (tLoc d)) (f0 : Buf (Elt F) (oLoc d))
  (O : CellTallies nD τ sig (HIx 1)) (W : Waits sig (HIx 1))

/-- The trip before trip `t`, for `t > 0`. -/
def tm1 (t : ℕ) : Fin k1_t1_loop.trips := ⟨(t - 1) % k1_t1_loop.trips, Nat.mod_lt _ (by decide)⟩

theorem tm1_succ (k : Fin k1_t1_loop.trips) : tm1 (k.val + 1) = k :=
  Fin.ext (by show (k.val + 1 - 1) % k1_t1_loop.trips = k.val; rw [Nat.add_sub_cancel, Nat.mod_eq_of_lt k.isLt])

/-- The write-outs at the start of trip `t`: before the first trip the five row buffers are held and their semaphores are at
    zero; later each row buffer is on its way to its chunk of the previous trip's second half, the chunk already at its
    final value in the delivery. -/
def wPart (t : ℕ) (r0 r1 r2 r3 r4 : Buf (Elt F) ((thrV d L).loc cc1_scratch1)) : sProp 𝕄 :=
  if t = 0 then
    iprop((((rowM0).view.loc (thrV d L) ↦[(rowM0).view.set]{fullShare} r0) ∗ semVal (thrV d L, SemLoc.dma wsemS0) 0)
      ∗ (((rowM1).view.loc (thrV d L) ↦[(rowM1).view.set]{fullShare} r1) ∗ semVal (thrV d L, SemLoc.dma wsemS1) 0)
      ∗ (((rowM2).view.loc (thrV d L) ↦[(rowM2).view.set]{fullShare} r2) ∗ semVal (thrV d L, SemLoc.dma wsemS2) 0)
      ∗ (((rowM3).view.loc (thrV d L) ↦[(rowM3).view.set]{fullShare} r3) ∗ semVal (thrV d L, SemLoc.dma wsemS3) 0)
      ∗ (((rowM4).view.loc (thrV d L) ↦[(rowM4).view.set]{fullShare} r4) ∗ semVal (thrV d L, SemLoc.dma wsemS4) 0))
  else
    iprop(Transfers.Flight (countersEmb : UEmb Counters 𝕄) (thrV d L) (SemLoc.dma wsemS0) (default : HIx 1) 524288 iprop(((chunkM L (tm1 t) 1 0).view.loc (thrV d L) ↦[(chunkM L (tm1 t) 1 0).view.set]{fullShare} rowsOf ft fi) ∗ ((rowM0).view.loc (thrV d L) ↦[(rowM0).view.set]{fullShare} r0))
      ∗ Transfers.Flight (countersEmb : UEmb Counters 𝕄) (thrV d L) (SemLoc.dma wsemS1) (default : HIx 1) 524288 iprop(((chunkM L (tm1 t) 1 1).view.loc (thrV d L) ↦[(chunkM L (tm1 t) 1 1).view.set]{fullShare} rowsOf ft fi) ∗ ((rowM1).view.loc (thrV d L) ↦[(rowM1).view.set]{fullShare} r1))
      ∗ Transfers.Flight (countersEmb : UEmb Counters 𝕄) (thrV d L) (SemLoc.dma wsemS2) (default : HIx 1) 524288 iprop(((chunkM L (tm1 t) 1 2).view.loc (thrV d L) ↦[(chunkM L (tm1 t) 1 2).view.set]{fullShare} rowsOf ft fi) ∗ ((rowM2).view.loc (thrV d L) ↦[(rowM2).view.set]{fullShare} r2))
      ∗ Transfers.Flight (countersEmb : UEmb Counters 𝕄) (thrV d L) (SemLoc.dma wsemS3) (default : HIx 1) 524288 iprop(((chunkM L (tm1 t) 1 3).view.loc (thrV d L) ↦[(chunkM L (tm1 t) 1 3).view.set]{fullShare} rowsOf ft fi) ∗ ((rowM3).view.loc (thrV d L) ↦[(rowM3).view.set]{fullShare} r3))
      ∗ Transfers.Flight (countersEmb : UEmb Counters 𝕄) (thrV d L) (SemLoc.dma wsemS4) (default : HIx 1) 524288 iprop(((chunkM L (tm1 t) 1 4).view.loc (thrV d L) ↦[(chunkM L (tm1 t) 1 4).view.set]{fullShare} rowsOf ft fi) ∗ ((rowM4).view.loc (thrV d L) ↦[(rowM4).view.set]{fullShare} r4)))

theorem wPart_zero (r0 r1 r2 r3 r4 : Buf (Elt F) ((thrV d L).loc cc1_scratch1)) :
    wPart d L fi ft 0 r0 r1 r2 r3 r4 = iprop((((rowM0).view.loc (thrV d L) ↦[(rowM0).view.set]{fullShare} r0) ∗ semVal (thrV d L, SemLoc.dma wsemS0) 0)
      ∗ (((rowM1).view.loc (thrV d L) ↦[(rowM1).view.set]{fullShare} r1) ∗ semVal (thrV d L, SemLoc.dma wsemS1) 0)
      ∗ (((rowM2).view.loc (thrV d L) ↦[(rowM2).view.set]{fullShare} r2) ∗ semVal (thrV d L, SemLoc.dma wsemS2) 0)
      ∗ (((rowM3).view.loc (thrV d L) ↦[(rowM3).view.set]{fullShare} r3) ∗ semVal (thrV d L, SemLoc.dma wsemS3) 0)
      ∗ (((rowM4).view.loc (thrV d L) ↦[(rowM4).view.set]{fullShare} r4) ∗ semVal (thrV d L, SemLoc.dma wsemS4) 0)) := if_pos rfl

theorem wPart_pos (t : ℕ) (h : t ≠ 0) (r0 r1 r2 r3 r4 : Buf (Elt F) ((thrV d L).loc cc1_scratch1)) :
    wPart d L fi ft t r0 r1 r2 r3 r4 = iprop(Transfers.Flight (countersEmb : UEmb Counters 𝕄) (thrV d L) (SemLoc.dma wsemS0) (default : HIx 1) 524288 iprop(((chunkM L (tm1 t) 1 0).view.loc (thrV d L) ↦[(chunkM L (tm1 t) 1 0).view.set]{fullShare} rowsOf ft fi) ∗ ((rowM0).view.loc (thrV d L) ↦[(rowM0).view.set]{fullShare} r0))
      ∗ Transfers.Flight (countersEmb : UEmb Counters 𝕄) (thrV d L) (SemLoc.dma wsemS1) (default : HIx 1) 524288 iprop(((chunkM L (tm1 t) 1 1).view.loc (thrV d L) ↦[(chunkM L (tm1 t) 1 1).view.set]{fullShare} rowsOf ft fi) ∗ ((rowM1).view.loc (thrV d L) ↦[(rowM1).view.set]{fullShare} r1))
      ∗ Transfers.Flight (countersEmb : UEmb Counters 𝕄) (thrV d L) (SemLoc.dma wsemS2) (default : HIx 1) 524288 iprop(((chunkM L (tm1 t) 1 2).view.loc (thrV d L) ↦[(chunkM L (tm1 t) 1 2).view.set]{fullShare} rowsOf ft fi) ∗ ((rowM2).view.loc (thrV d L) ↦[(rowM2).view.set]{fullShare} r2))
      ∗ Transfers.Flight (countersEmb : UEmb Counters 𝕄) (thrV d L) (SemLoc.dma wsemS3) (default : HIx 1) 524288 iprop(((chunkM L (tm1 t) 1 3).view.loc (thrV d L) ↦[(chunkM L (tm1 t) 1 3).view.set]{fullShare} rowsOf ft fi) ∗ ((rowM3).view.loc (thrV d L) ↦[(rowM3).view.set]{fullShare} r3))
      ∗ Transfers.Flight (countersEmb : UEmb Counters 𝕄) (thrV d L) (SemLoc.dma wsemS4) (default : HIx 1) 524288 iprop(((chunkM L (tm1 t) 1 4).view.loc (thrV d L) ↦[(chunkM L (tm1 t) 1 4).view.set]{fullShare} rowsOf ft fi) ∗ ((rowM4).view.loc (thrV d L) ↦[(rowM4).view.set]{fullShare} r4))) := if_neg h

theorem wPart_succ (k : Fin k1_t1_loop.trips) (r0 r1 r2 r3 r4 : Buf (Elt F) ((thrV d L).loc cc1_scratch1)) :
    wPart d L fi ft (k.val + 1) r0 r1 r2 r3 r4 = iprop(Transfers.Flight (countersEmb : UEmb Counters 𝕄) (thrV d L) (SemLoc.dma wsemS0) (default : HIx 1) 524288 iprop(((chunkM L k 1 0).view.loc (thrV d L) ↦[(chunkM L k 1 0).view.set]{fullShare} rowsOf ft fi) ∗ ((rowM0).view.loc (thrV d L) ↦[(rowM0).view.set]{fullShare} r0))
      ∗ Transfers.Flight (countersEmb : UEmb Counters 𝕄) (thrV d L) (SemLoc.dma wsemS1) (default : HIx 1) 524288 iprop(((chunkM L k 1 1).view.loc (thrV d L) ↦[(chunkM L k 1 1).view.set]{fullShare} rowsOf ft fi) ∗ ((rowM1).view.loc (thrV d L) ↦[(rowM1).view.set]{fullShare} r1))
      ∗ Transfers.Flight (countersEmb : UEmb Counters 𝕄) (thrV d L) (SemLoc.dma wsemS2) (default : HIx 1) 524288 iprop(((chunkM L k 1 2).view.loc (thrV d L) ↦[(chunkM L k 1 2).view.set]{fullShare} rowsOf ft fi) ∗ ((rowM2).view.loc (thrV d L) ↦[(rowM2).view.set]{fullShare} r2))
      ∗ Transfers.Flight (countersEmb : UEmb Counters 𝕄) (thrV d L) (SemLoc.dma wsemS3) (default : HIx 1) 524288 iprop(((chunkM L k 1 3).view.loc (thrV d L) ↦[(chunkM L k 1 3).view.set]{fullShare} rowsOf ft fi) ∗ ((rowM3).view.loc (thrV d L) ↦[(rowM3).view.set]{fullShare} r3))
      ∗ Transfers.Flight (countersEmb : UEmb Counters 𝕄) (thrV d L) (SemLoc.dma wsemS4) (default : HIx 1) 524288 iprop(((chunkM L k 1 4).view.loc (thrV d L) ↦[(chunkM L k 1 4).view.set]{fullShare} rowsOf ft fi) ∗ ((rowM4).view.loc (thrV d L) ↦[(rowM4).view.set]{fullShare} r4))) := by
  rw [wPart_pos d L fi ft (k.val + 1) (Nat.succ_ne_zero _), tm1_succ]

/-- THE LOOP INVARIANT at the start of trip `t`: the index copy of block `40 w + min (2 t) 39` is on its way into slot 0
    (its delivery: the slot at that block, the index array's share back); slot 1 is held; the table is held as five read
    tokens, the gathers' semaphores are at zero; the write-outs are as `wPart` says; the tile's rows of the output below
    half-block `2 t - 1` hold the gathered rows, those from half-block `2 t` on are untouched. -/
def inv (t : ℕ) (_ : Unit) : sProp 𝕄 :=
  iprop(Transfers.MayWaits (thrV d L) (default : HIx 1) O
    ∗ ∃ (s0 s1 : Buf (Elt F) ((thrV d L).loc cc1_scratch0)) (r0 r1 r2 r3 r4 : Buf (Elt F) ((thrV d L).loc cc1_scratch1)) (W' : Waits sig (HIx 1)),
      ⌜BlkIs d L fi slotM0 (blkOf L (2 * t)) s0 ∧ ∀ p ∈ W', p ∈ W ∨ p.2 = none⌝
      ∗ Transfers.Flight (countersEmb : UEmb Counters 𝕄) (thrV d L) (SemLoc.dma isemS) (default : HIx 1) 20480 iprop(((sV).view.loc (thrV d L) ↦[slotS0]{fullShare} s0) ∗ ((iV).view.loc (thrV d L) ↦{qi} fi))
      ∗ ((sV).view.loc (thrV d L) ↦[slotS1]{fullShare} s1)
      ∗ (((tV).view.loc (thrV d L) ↦{Transfers.shareTokN qt 7} ft) ∗ ((tV).view.loc (thrV d L) ↦{Transfers.shareTokN qt 8} ft) ∗ ((tV).view.loc (thrV d L) ↦{Transfers.shareTokN qt 9} ft) ∗ ((tV).view.loc (thrV d L) ↦{Transfers.shareTokN qt 10} ft) ∗ ((tV).view.loc (thrV d L) ↦{Transfers.shareTokN qt 11} ft))
      ∗ (semVal (thrV d L, SemLoc.dma gsemS0) 0 ∗ semVal (thrV d L, SemLoc.dma gsemS1) 0 ∗ semVal (thrV d L, SemLoc.dma gsemS2) 0 ∗ semVal (thrV d L, SemLoc.dma gsemS3) 0 ∗ semVal (thrV d L, SemLoc.dma gsemS4) 0)
      ∗ wPart d L fi ft t r0 r1 r2 r3 r4
      ∗ (oLoc d ↦[doneH L (2 * t - 1)]{fullShare} rowsOf ft fi)
      ∗ (oLoc d ↦[todoH L (2 * t)]{fullShare} f0)
      ∗ owes (thrV d L) O W')

theorem done_cast {a b : ℕ} (h : a = b) (f : Buf (Elt F) (oLoc d)) :
    (oLoc d ↦[doneH L a]{fullShare} f : sProp 𝕄) ⊢ (oLoc d ↦[doneH L b]{fullShare} f) := by subst h; exact .rfl
theorem todo_cast {a b : ℕ} (h : a = b) (f : Buf (Elt F) (oLoc d)) :
    (oLoc d ↦[todoH L a]{fullShare} f : sProp 𝕄) ⊢ (oLoc d ↦[todoH L b]{fullShare} f) := by subst h; exact .rfl

/-- A flight's delivery restated along an equation of its first part. -/
theorem wflight_restate {c : Thread nD τ} {sm : SemLoc sig} {N : ℕ} {A A' B : sProp 𝕄} (h : A = A') :
    Transfers.Flight (countersEmb : UEmb Counters 𝕄) c sm (default : HIx 1) N iprop(A ∗ B)
      ⊢ Transfers.Flight (countersEmb : UEmb Counters 𝕄) c sm (default : HIx 1) N iprop(A' ∗ B) := by subst h; exact .rfl

/-- The index copy's flight with the rest of the index array's share folded in: the share comes back whole. -/
theorem isem_restate {c : Thread nD τ} {sm : SemLoc sig} {N : ℕ} {A : sProp 𝕄} {ℓ : Loc nD τ sig} {Bset : Finset (Idx ℓ)} {q : PosShare TreeShare} {g : Buf (Elt F) ℓ} :
    iprop(Transfers.Flight (countersEmb : UEmb Counters 𝕄) c sm (default : HIx 1) N iprop(A ∗ (ℓ ↦[Bset]{q} g)) ∗ (ℓ ↦[Finset.univ \ Bset]{q} g))
      ⊢ Transfers.Flight (countersEmb : UEmb Counters 𝕄) c sm (default : HIx 1) N iprop(A ∗ (ℓ ↦{q} g)) := by
  refine flight_restate ?_
  iintro ⟨⟨HA, HB⟩, HR⟩
  isplitl [HA]; · iexact HA
  iapply (pointsTo_split_subset (Finset.subset_univ Bset)).2
  isplitl [HB] <;> iassumption

theorem okW_insert {W W' : Waits sig (HIx 1)} (s : SemLoc sig) (h : ∀ p ∈ W', p ∈ W ∨ p.2 = none) :
    ∀ p ∈ insert (s, (default : HIx 1)) W', p ∈ W ∨ p.2 = none :=
  fun p hp => (Finset.mem_insert.mp hp).elim (fun e => .inr (e ▸ rfl)) (h p)

theorem cond_pos (k : Fin k1_t1_loop.trips) (hk : 0 < k.val) :
    Scalar.cmpi .ne (Scalar.extui (Scalar.cmpi .sgt (Scf.iv (0#32) (1#32) k) (0#32))) (0#32) = 1#1 := by
  revert k; decide
theorem cond_zero (k : Fin k1_t1_loop.trips) (hk : k.val = 0) :
    ¬ Scalar.cmpi .ne (Scalar.extui (Scalar.cmpi .sgt (Scf.iv (0#32) (1#32) k) (0#32))) (0#32) = 1#1 := by
  revert k; decide

end Inv

section Trip
variable [FloatOps F] (d : Dev nD) (L : grid1.Coords) (qi qt : PosShare TreeShare)
  (fi : Buf (Elt F) (iLoc d)) (ft : Buf (Elt F) (tLoc d)) (f0 : Buf (Elt F) (oLoc d))
  (O : CellTallies nD τ sig (HIx 1)) (W : Waits sig (HIx 1))

set_option maxHeartbeats 4000000 in
/-- One trip after the first: the invariant at `k` gives the invariant at `k + 1`. -/
theorem trip_pos (hfi : ∀ j, (fi j).toNat < 100000) (k : Fin k1_t1_loop.trips) (hk : 0 < k.val) (v2 v3 : BitVec 32) :
    inv d L qi qt fi ft f0 O W k.val () ⊢ wp frame (wpE (defs₀ (F := F)) 𝒱₀ (thrV d L) none) Set.univ
      (k1_t1_body L (iV) (Memref.isWhole_whole _) (tV) (Memref.isWhole_whole _) (oV) (Memref.isWhole_whole _)
        (sV) (Memref.isWhole_whole _) (rV) (Memref.isWhole_whole _) cc1_scratch2 cc1_scratch3 cc1_scratch4 v2 v3 k ())
      (inv d L qi qt fi ft f0 O W (k.val + 1)) := by
  conv_lhs => unfold inv
  iintro ⟨#Hmw, %s0, %s1, %r0, %r1, %r2, %r3, %r4, %W', %hpure, Hfi, Hs1, ⟨Ht0, Ht1, Ht2, Ht3, Ht4⟩, ⟨Hg0, Hg1, Hg2, Hg3, Hg4⟩, Hw, Hdone, Htodo, HO⟩
  obtain ⟨hs0, hW'⟩ := hpure
  ihave Hw' := (Entails.of_eq (wPart_pos d L fi ft k.val (Nat.pos_iff_ne_zero.mp hk) r0 r1 r2 r3 r4)) $$ Hw
  icases Hw' with ⟨Hfw0, Hfw1, Hfw2, Hfw3, Hfw4⟩
  ihave Htd := (todo_take d L k 0 f0).1 $$ Htodo
  icases Htd with ⟨Hc00, Hc01, Hc02, Hc03, Hc04, Htodo⟩
  ihave Htd := (todo_take d L k 1 f0).1 $$ Htodo
  icases Htd with ⟨Hc10, Hc11, Hc12, Hc13, Hc14, Htodo⟩

  have hb1 : ∀ g : Buf (Elt F) ((thrV d L).loc cc1_scratch0), BlkIs d L fi slotM1 (blkOf L (2 * k.val + (0 : Fin 2).val + 1)) (View.write (Elt F) (slotM1).view g (ReadAs.same.apply ((iblkM L k 0).view.read (Elt F) fi)) Finset.univ) :=
    fun g => blkIs_landed d L fi k 0 slotM1 g
  have hsc00 : ∀ x : S128.Idx, (listM00).view.read (Elt F) s0 x = fi (ValueIdx.ix3 (blkOf L (2 * k.val + (0 : Fin 2).val)) (0 : Fin 5) (x 0)) :=
    list_read_00 d L fi _ s0 hs0
  have hin00 : ∀ x, ((listM00).view.read (Elt F) s0 x).toNat < 100000 := fun x => by rw [hsc00 x]; exact hfi _
  have hsc10 : ∀ (g : Buf (Elt F) ((thrV d L).loc cc1_scratch0)) (x : S128.Idx), (listM10).view.read (Elt F) (View.write (Elt F) (slotM1).view g (ReadAs.same.apply ((iblkM L k 0).view.read (Elt F) fi)) Finset.univ) x = fi (ValueIdx.ix3 (blkOf L (2 * k.val + (1 : Fin 2).val)) (0 : Fin 5) (x 0)) :=
    fun g x => list_read_10 d L fi _ _ (hb1 g) x
  have hin10 : ∀ (g : Buf (Elt F) ((thrV d L).loc cc1_scratch0)) x, ((listM10).view.read (Elt F) (View.write (Elt F) (slotM1).view g (ReadAs.same.apply ((iblkM L k 0).view.read (Elt F) fi)) Finset.univ) x).toNat < 100000 := fun g x => by rw [hsc10 g x]; exact hfi _
  have hsc01 : ∀ x : S128.Idx, (listM01).view.read (Elt F) s0 x = fi (ValueIdx.ix3 (blkOf L (2 * k.val + (0 : Fin 2).val)) (1 : Fin 5) (x 0)) :=
    list_read_01 d L fi _ s0 hs0
  have hin01 : ∀ x, ((listM01).view.read (Elt F) s0 x).toNat < 100000 := fun x => by rw [hsc01 x]; exact hfi _
  have hsc11 : ∀ (g : Buf (Elt F) ((thrV d L).loc cc1_scratch0)) (x : S128.Idx), (listM11).view.read (Elt F) (View.write (Elt F) (slotM1).view g (ReadAs.same.apply ((iblkM L k 0).view.read (Elt F) fi)) Finset.univ) x = fi (ValueIdx.ix3 (blkOf L (2 * k.val + (1 : Fin 2).val)) (1 : Fin 5) (x 0)) :=
    fun g x => list_read_11 d L fi _ _ (hb1 g) x
  have hin11 : ∀ (g : Buf (Elt F) ((thrV d L).loc cc1_scratch0)) x, ((listM11).view.read (Elt F) (View.write (Elt F) (slotM1).view g (ReadAs.same.apply ((iblkM L k 0).view.read (Elt F) fi)) Finset.univ) x).toNat < 100000 := fun g x => by rw [hsc11 g x]; exact hfi _
  have hsc02 : ∀ x : S128.Idx, (listM02).view.read (Elt F) s0 x = fi (ValueIdx.ix3 (blkOf L (2 * k.val + (0 : Fin 2).val)) (2 : Fin 5) (x 0)) :=
    list_read_02 d L fi _ s0 hs0
  have hin02 : ∀ x, ((listM02).view.read (Elt F) s0 x).toNat < 100000 := fun x => by rw [hsc02 x]; exact hfi _
  have hsc12 : ∀ (g : Buf (Elt F) ((thrV d L).loc cc1_scratch0)) (x : S128.Idx), (listM12).view.read (Elt F) (View.write (Elt F) (slotM1).view g (ReadAs.same.apply ((iblkM L k 0).view.read (Elt F) fi)) Finset.univ) x = fi (ValueIdx.ix3 (blkOf L (2 * k.val + (1 : Fin 2).val)) (2 : Fin 5) (x 0)) :=
    fun g x => list_read_12 d L fi _ _ (hb1 g) x
  have hin12 : ∀ (g : Buf (Elt F) ((thrV d L).loc cc1_scratch0)) x, ((listM12).view.read (Elt F) (View.write (Elt F) (slotM1).view g (ReadAs.same.apply ((iblkM L k 0).view.read (Elt F) fi)) Finset.univ) x).toNat < 100000 := fun g x => by rw [hsc12 g x]; exact hfi _
  have hsc03 : ∀ x : S128.Idx, (listM03).view.read (Elt F) s0 x = fi (ValueIdx.ix3 (blkOf L (2 * k.val + (0 : Fin 2).val)) (3 : Fin 5) (x 0)) :=
    list_read_03 d L fi _ s0 hs0
  have hin03 : ∀ x, ((listM03).view.read (Elt F) s0 x).toNat < 100000 := fun x => by rw [hsc03 x]; exact hfi _
  have hsc13 : ∀ (g : Buf (Elt F) ((thrV d L).loc cc1_scratch0)) (x : S128.Idx), (listM13).view.read (Elt F) (View.write (Elt F) (slotM1).view g (ReadAs.same.apply ((iblkM L k 0).view.read (Elt F) fi)) Finset.univ) x = fi (ValueIdx.ix3 (blkOf L (2 * k.val + (1 : Fin 2).val)) (3 : Fin 5) (x 0)) :=
    fun g x => list_read_13 d L fi _ _ (hb1 g) x
  have hin13 : ∀ (g : Buf (Elt F) ((thrV d L).loc cc1_scratch0)) x, ((listM13).view.read (Elt F) (View.write (Elt F) (slotM1).view g (ReadAs.same.apply ((iblkM L k 0).view.read (Elt F) fi)) Finset.univ) x).toNat < 100000 := fun g x => by rw [hsc13 g x]; exact hfi _
  have hsc04 : ∀ x : S128.Idx, (listM04).view.read (Elt F) s0 x = fi (ValueIdx.ix3 (blkOf L (2 * k.val + (0 : Fin 2).val)) (4 : Fin 5) (x 0)) :=
    list_read_04 d L fi _ s0 hs0
  have hin04 : ∀ x, ((listM04).view.read (Elt F) s0 x).toNat < 100000 := fun x => by rw [hsc04 x]; exact hfi _
  have hsc14 : ∀ (g : Buf (Elt F) ((thrV d L).loc cc1_scratch0)) (x : S128.Idx), (listM14).view.read (Elt F) (View.write (Elt F) (slotM1).view g (ReadAs.same.apply ((iblkM L k 0).view.read (Elt F) fi)) Finset.univ) x = fi (ValueIdx.ix3 (blkOf L (2 * k.val + (1 : Fin 2).val)) (4 : Fin 5) (x 0)) :=
    fun g x => list_read_14 d L fi _ _ (hb1 g) x
  have hin14 : ∀ (g : Buf (Elt F) ((thrV d L).loc cc1_scratch0)) x, ((listM14).view.read (Elt F) (View.write (Elt F) (slotM1).view g (ReadAs.same.apply ((iblkM L k 0).view.read (Elt F) fi)) Finset.univ) x).toNat < 100000 := fun g x => by rw [hsc14 g x]; exact hfi _
  have htm : (tm1 k.val).val = k.val - 1 := by
    show (k.val - 1) % k1_t1_loop.trips = k.val - 1
    exact Nat.mod_eq_of_lt (by have := k.isLt; omega)
  unfold k1_t1_body
  sl_exec_parts (disch := first | exact cond_pos k hk)
  sl_step

  unfold inv
  isplitr; · iexact Hmw
  iexists _; iexists _; iexists _; iexists _; iexists _; iexists _; iexists _; iexists _
  isplitr
  swap
  · -- the index copy's flight: the index array's share comes back whole
    isplitl [Hfi Hfi_src]
    · iapply (isem_restate)
      isplitl [Hfi]; · iexact Hfi
      iexact Hfi_src
    isplitl [Hs1]; · iexact Hs1
    isplitl [Ht0 Ht1 Ht2 Ht3 Ht4]
    ·
      isplitl [Ht0]; · iexact Ht0
      isplitl [Ht1]; · iexact Ht1
      isplitl [Ht2]; · iexact Ht2
      isplitl [Ht3]; · iexact Ht3
      iexact Ht4
    isplitl [Hg0 Hg1 Hg2 Hg3 Hg4]
    ·
      isplitl [Hg0]; · iexact Hg0
      isplitl [Hg1]; · iexact Hg1
      isplitl [Hg2]; · iexact Hg2
      isplitl [Hg3]; · iexact Hg3
      iexact Hg4
    -- the second half's chunks are at their final values in the write-outs' deliveries
    isplitl [Hfw0 Hfw1 Hfw2 Hfw3 Hfw4]
    · iapply (Entails.of_eq (wPart_succ d L fi ft k _ _ _ _ _).symm)
      isplitl [Hfw0]; · iapply (wflight_restate (chunk_done d L fi ft (hsc := hsc10 s1))); iexact Hfw0
      isplitl [Hfw1]; · iapply (wflight_restate (chunk_done d L fi ft (hsc := hsc11 s1))); iexact Hfw1
      isplitl [Hfw2]; · iapply (wflight_restate (chunk_done d L fi ft (hsc := hsc12 s1))); iexact Hfw2
      isplitl [Hfw3]; · iapply (wflight_restate (chunk_done d L fi ft (hsc := hsc13 s1))); iexact Hfw3
      iapply (wflight_restate (chunk_done d L fi ft (hsc := hsc14 s1))); iexact Hfw4
    -- the finished rows: the previous trip's second half-block and this trip's first join them
    isplitl [Hdone Hfw0_dst Hfw1_dst Hfw2_dst Hfw3_dst Hfw4_dst Hc00 Hc01 Hc02 Hc03 Hc04]
    · iapply (done_cast d L (show 2 * k.val + (0 : Fin 2).val + 1 = 2 * (k.val + 1) - 1 from by have h0 : ((0 : Fin 2) : ℕ) = 0 := rfl; omega) _)
      iapply (done_put d L k 0 (rowsOf ft fi)).1
      isplitl [Hdone Hfw0_dst Hfw1_dst Hfw2_dst Hfw3_dst Hfw4_dst]
      · iapply (done_cast d L (show 2 * (tm1 k.val).val + (1 : Fin 2).val + 1 = 2 * k.val + (0 : Fin 2).val from by have h1 : ((1 : Fin 2) : ℕ) = 1 := rfl; have h0 : ((0 : Fin 2) : ℕ) = 0 := rfl; omega) _)
        iapply (done_put d L (tm1 k.val) 1 (rowsOf ft fi)).1
        isplitl [Hdone]; · iapply (done_cast d L (show 2 * k.val - 1 = 2 * (tm1 k.val).val + (1 : Fin 2).val from by have h1 : ((1 : Fin 2) : ℕ) = 1 := rfl; omega) _); iexact Hdone
        isplitl [Hfw0_dst]; · iexact Hfw0_dst
        isplitl [Hfw1_dst]; · iexact Hfw1_dst
        isplitl [Hfw2_dst]; · iexact Hfw2_dst
        isplitl [Hfw3_dst]; · iexact Hfw3_dst
        iexact Hfw4_dst
      isplitl [Hc00]; · iapply (Entails.of_eq (chunk_done d L fi ft (hsc := hsc00))); iexact Hc00
      isplitl [Hc01]; · iapply (Entails.of_eq (chunk_done d L fi ft (hsc := hsc01))); iexact Hc01
      isplitl [Hc02]; · iapply (Entails.of_eq (chunk_done d L fi ft (hsc := hsc02))); iexact Hc02
      isplitl [Hc03]; · iapply (Entails.of_eq (chunk_done d L fi ft (hsc := hsc03))); iexact Hc03
      iapply (Entails.of_eq (chunk_done d L fi ft (hsc := hsc04))); iexact Hc04
    isplitl [Htodo]; · iapply (todo_cast d L (show 2 * k.val + (1 : Fin 2).val + 1 = 2 * (k.val + 1) from by have h1 : ((1 : Fin 2) : ℕ) = 1 := rfl; omega) _); iexact Htodo
    iexact HO
  · ipureintro
    refine ⟨?_, ?_⟩
    · have hl := blkIs_landed d L fi k 1 slotM0 s0
      rw [show 2 * (k.val + 1) = 2 * k.val + (1 : Fin 2).val + 1 from by have h1 : ((1 : Fin 2) : ℕ) = 1 := rfl; omega]
      exact hl
    · repeat (first | exact hW' | apply okW_insert)

set_option maxHeartbeats 4000000 in
/-- The first trip: no write-out is outstanding, the row buffers are held. -/
theorem trip_zero (hfi : ∀ j, (fi j).toNat < 100000) (k : Fin k1_t1_loop.trips) (hk : k.val = 0) (v2 v3 : BitVec 32) :
    inv d L qi qt fi ft f0 O W k.val () ⊢ wp frame (wpE (defs₀ (F := F)) 𝒱₀ (thrV d L) none) Set.univ
      (k1_t1_body L (iV) (Memref.isWhole_whole _) (tV) (Memref.isWhole_whole _) (oV) (Memref.isWhole_whole _)
        (sV) (Memref.isWhole_whole _) (rV) (Memref.isWhole_whole _) cc1_scratch2 cc1_scratch3 cc1_scratch4 v2 v3 k ())
      (inv d L qi qt fi ft f0 O W (k.val + 1)) := by
  conv_lhs => unfold inv
  iintro ⟨#Hmw, %s0, %s1, %r0, %r1, %r2, %r3, %r4, %W', %hpure, Hfi, Hs1, ⟨Ht0, Ht1, Ht2, Ht3, Ht4⟩, ⟨Hg0, Hg1, Hg2, Hg3, Hg4⟩, Hw, Hdone, Htodo, HO⟩
  obtain ⟨hs0, hW'⟩ := hpure
  ihave Hw' := (Entails.of_eq ((congrArg (fun t => wPart d L fi ft t r0 r1 r2 r3 r4) hk).trans (wPart_zero d L fi ft r0 r1 r2 r3 r4))) $$ Hw
  icases Hw' with ⟨⟨Hr0, Hfw0⟩, ⟨Hr1, Hfw1⟩, ⟨Hr2, Hfw2⟩, ⟨Hr3, Hfw3⟩, ⟨Hr4, Hfw4⟩⟩
  ihave Htd := (todo_take d L k 0 f0).1 $$ Htodo
  icases Htd with ⟨Hc00, Hc01, Hc02, Hc03, Hc04, Htodo⟩
  ihave Htd := (todo_take d L k 1 f0).1 $$ Htodo
  icases Htd with ⟨Hc10, Hc11, Hc12, Hc13, Hc14, Htodo⟩

  have hb1 : ∀ g : Buf (Elt F) ((thrV d L).loc cc1_scratch0), BlkIs d L fi slotM1 (blkOf L (2 * k.val + (0 : Fin 2).val + 1)) (View.write (Elt F) (slotM1).view g (ReadAs.same.apply ((iblkM L k 0).view.read (Elt F) fi)) Finset.univ) :=
    fun g => blkIs_landed d L fi k 0 slotM1 g
  have hsc00 : ∀ x : S128.Idx, (listM00).view.read (Elt F) s0 x = fi (ValueIdx.ix3 (blkOf L (2 * k.val + (0 : Fin 2).val)) (0 : Fin 5) (x 0)) :=
    list_read_00 d L fi _ s0 hs0
  have hin00 : ∀ x, ((listM00).view.read (Elt F) s0 x).toNat < 100000 := fun x => by rw [hsc00 x]; exact hfi _
  have hsc10 : ∀ (g : Buf (Elt F) ((thrV d L).loc cc1_scratch0)) (x : S128.Idx), (listM10).view.read (Elt F) (View.write (Elt F) (slotM1).view g (ReadAs.same.apply ((iblkM L k 0).view.read (Elt F) fi)) Finset.univ) x = fi (ValueIdx.ix3 (blkOf L (2 * k.val + (1 : Fin 2).val)) (0 : Fin 5) (x 0)) :=
    fun g x => list_read_10 d L fi _ _ (hb1 g) x
  have hin10 : ∀ (g : Buf (Elt F) ((thrV d L).loc cc1_scratch0)) x, ((listM10).view.read (Elt F) (View.write (Elt F) (slotM1).view g (ReadAs.same.apply ((iblkM L k 0).view.read (Elt F) fi)) Finset.univ) x).toNat < 100000 := fun g x => by rw [hsc10 g x]; exact hfi _
  have hsc01 : ∀ x : S128.Idx, (listM01).view.read (Elt F) s0 x = fi (ValueIdx.ix3 (blkOf L (2 * k.val + (0 : Fin 2).val)) (1 : Fin 5) (x 0)) :=
    list_read_01 d L fi _ s0 hs0
  have hin01 : ∀ x, ((listM01).view.read (Elt F) s0 x).toNat < 100000 := fun x => by rw [hsc01 x]; exact hfi _
  have hsc11 : ∀ (g : Buf (Elt F) ((thrV d L).loc cc1_scratch0)) (x : S128.Idx), (listM11).view.read (Elt F) (View.write (Elt F) (slotM1).view g (ReadAs.same.apply ((iblkM L k 0).view.read (Elt F) fi)) Finset.univ) x = fi (ValueIdx.ix3 (blkOf L (2 * k.val + (1 : Fin 2).val)) (1 : Fin 5) (x 0)) :=
    fun g x => list_read_11 d L fi _ _ (hb1 g) x
  have hin11 : ∀ (g : Buf (Elt F) ((thrV d L).loc cc1_scratch0)) x, ((listM11).view.read (Elt F) (View.write (Elt F) (slotM1).view g (ReadAs.same.apply ((iblkM L k 0).view.read (Elt F) fi)) Finset.univ) x).toNat < 100000 := fun g x => by rw [hsc11 g x]; exact hfi _
  have hsc02 : ∀ x : S128.Idx, (listM02).view.read (Elt F) s0 x = fi (ValueIdx.ix3 (blkOf L (2 * k.val + (0 : Fin 2).val)) (2 : Fin 5) (x 0)) :=
    list_read_02 d L fi _ s0 hs0
  have hin02 : ∀ x, ((listM02).view.read (Elt F) s0 x).toNat < 100000 := fun x => by rw [hsc02 x]; exact hfi _
  have hsc12 : ∀ (g : Buf (Elt F) ((thrV d L).loc cc1_scratch0)) (x : S128.Idx), (listM12).view.read (Elt F) (View.write (Elt F) (slotM1).view g (ReadAs.same.apply ((iblkM L k 0).view.read (Elt F) fi)) Finset.univ) x = fi (ValueIdx.ix3 (blkOf L (2 * k.val + (1 : Fin 2).val)) (2 : Fin 5) (x 0)) :=
    fun g x => list_read_12 d L fi _ _ (hb1 g) x
  have hin12 : ∀ (g : Buf (Elt F) ((thrV d L).loc cc1_scratch0)) x, ((listM12).view.read (Elt F) (View.write (Elt F) (slotM1).view g (ReadAs.same.apply ((iblkM L k 0).view.read (Elt F) fi)) Finset.univ) x).toNat < 100000 := fun g x => by rw [hsc12 g x]; exact hfi _
  have hsc03 : ∀ x : S128.Idx, (listM03).view.read (Elt F) s0 x = fi (ValueIdx.ix3 (blkOf L (2 * k.val + (0 : Fin 2).val)) (3 : Fin 5) (x 0)) :=
    list_read_03 d L fi _ s0 hs0
  have hin03 : ∀ x, ((listM03).view.read (Elt F) s0 x).toNat < 100000 := fun x => by rw [hsc03 x]; exact hfi _
  have hsc13 : ∀ (g : Buf (Elt F) ((thrV d L).loc cc1_scratch0)) (x : S128.Idx), (listM13).view.read (Elt F) (View.write (Elt F) (slotM1).view g (ReadAs.same.apply ((iblkM L k 0).view.read (Elt F) fi)) Finset.univ) x = fi (ValueIdx.ix3 (blkOf L (2 * k.val + (1 : Fin 2).val)) (3 : Fin 5) (x 0)) :=
    fun g x => list_read_13 d L fi _ _ (hb1 g) x
  have hin13 : ∀ (g : Buf (Elt F) ((thrV d L).loc cc1_scratch0)) x, ((listM13).view.read (Elt F) (View.write (Elt F) (slotM1).view g (ReadAs.same.apply ((iblkM L k 0).view.read (Elt F) fi)) Finset.univ) x).toNat < 100000 := fun g x => by rw [hsc13 g x]; exact hfi _
  have hsc04 : ∀ x : S128.Idx, (listM04).view.read (Elt F) s0 x = fi (ValueIdx.ix3 (blkOf L (2 * k.val + (0 : Fin 2).val)) (4 : Fin 5) (x 0)) :=
    list_read_04 d L fi _ s0 hs0
  have hin04 : ∀ x, ((listM04).view.read (Elt F) s0 x).toNat < 100000 := fun x => by rw [hsc04 x]; exact hfi _
  have hsc14 : ∀ (g : Buf (Elt F) ((thrV d L).loc cc1_scratch0)) (x : S128.Idx), (listM14).view.read (Elt F) (View.write (Elt F) (slotM1).view g (ReadAs.same.apply ((iblkM L k 0).view.read (Elt F) fi)) Finset.univ) x = fi (ValueIdx.ix3 (blkOf L (2 * k.val + (1 : Fin 2).val)) (4 : Fin 5) (x 0)) :=
    fun g x => list_read_14 d L fi _ _ (hb1 g) x
  have hin14 : ∀ (g : Buf (Elt F) ((thrV d L).loc cc1_scratch0)) x, ((listM14).view.read (Elt F) (View.write (Elt F) (slotM1).view g (ReadAs.same.apply ((iblkM L k 0).view.read (Elt F) fi)) Finset.univ) x).toNat < 100000 := fun g x => by rw [hsc14 g x]; exact hfi _
  unfold k1_t1_body
  sl_exec_parts (disch := first | exact cond_zero k hk)
  sl_step

  unfold inv
  isplitr; · iexact Hmw
  iexists _; iexists _; iexists _; iexists _; iexists _; iexists _; iexists _; iexists _
  isplitr
  swap
  · -- the index copy's flight: the index array's share comes back whole
    isplitl [Hfi Hfi_src]
    · iapply (isem_restate)
      isplitl [Hfi]; · iexact Hfi
      iexact Hfi_src
    isplitl [Hs1]; · iexact Hs1
    isplitl [Ht0 Ht1 Ht2 Ht3 Ht4]
    ·
      isplitl [Ht0]; · iexact Ht0
      isplitl [Ht1]; · iexact Ht1
      isplitl [Ht2]; · iexact Ht2
      isplitl [Ht3]; · iexact Ht3
      iexact Ht4
    isplitl [Hg0 Hg1 Hg2 Hg3 Hg4]
    ·
      isplitl [Hg0]; · iexact Hg0
      isplitl [Hg1]; · iexact Hg1
      isplitl [Hg2]; · iexact Hg2
      isplitl [Hg3]; · iexact Hg3
      iexact Hg4
    -- the second half's chunks are at their final values in the write-outs' deliveries
    isplitl [Hfw0 Hfw1 Hfw2 Hfw3 Hfw4]
    · iapply (Entails.of_eq (wPart_succ d L fi ft k _ _ _ _ _).symm)
      isplitl [Hfw0]; · iapply (wflight_restate (chunk_done d L fi ft (hsc := hsc10 s1))); iexact Hfw0
      isplitl [Hfw1]; · iapply (wflight_restate (chunk_done d L fi ft (hsc := hsc11 s1))); iexact Hfw1
      isplitl [Hfw2]; · iapply (wflight_restate (chunk_done d L fi ft (hsc := hsc12 s1))); iexact Hfw2
      isplitl [Hfw3]; · iapply (wflight_restate (chunk_done d L fi ft (hsc := hsc13 s1))); iexact Hfw3
      iapply (wflight_restate (chunk_done d L fi ft (hsc := hsc14 s1))); iexact Hfw4
    -- the finished rows: the previous trip's second half-block and this trip's first join them
    isplitl [Hdone  Hc00 Hc01 Hc02 Hc03 Hc04]
    · iapply (done_cast d L (show 2 * k.val + (0 : Fin 2).val + 1 = 2 * (k.val + 1) - 1 from by have h0 : ((0 : Fin 2) : ℕ) = 0 := rfl; omega) _)
      iapply (done_put d L k 0 (rowsOf ft fi)).1
      isplitl [Hdone ]
      · iapply (done_cast d L (show 2 * k.val - 1 = 2 * k.val + (0 : Fin 2).val from by have h0 : ((0 : Fin 2) : ℕ) = 0 := rfl; omega) _); iexact Hdone
      isplitl [Hc00]; · iapply (Entails.of_eq (chunk_done d L fi ft (hsc := hsc00))); iexact Hc00
      isplitl [Hc01]; · iapply (Entails.of_eq (chunk_done d L fi ft (hsc := hsc01))); iexact Hc01
      isplitl [Hc02]; · iapply (Entails.of_eq (chunk_done d L fi ft (hsc := hsc02))); iexact Hc02
      isplitl [Hc03]; · iapply (Entails.of_eq (chunk_done d L fi ft (hsc := hsc03))); iexact Hc03
      iapply (Entails.of_eq (chunk_done d L fi ft (hsc := hsc04))); iexact Hc04
    isplitl [Htodo]; · iapply (todo_cast d L (show 2 * k.val + (1 : Fin 2).val + 1 = 2 * (k.val + 1) from by have h1 : ((1 : Fin 2) : ℕ) = 1 := rfl; omega) _); iexact Htodo
    iexact HO
  · ipureintro
    refine ⟨?_, ?_⟩
    · have hl := blkIs_landed d L fi k 1 slotM0 s0
      rw [show 2 * (k.val + 1) = 2 * k.val + (1 : Fin 2).val + 1 from by have h1 : ((1 : Fin 2) : ℕ) = 1 := rfl; omega]
      exact hl
    · repeat (first | exact hW' | apply okW_insert)

end Trip

end Cert.Proof.KB
end
-- ==== Proof.KB.Tile.lean ====
import proofs.«204608_g3015067042085_cont_9to1_1138_29_alg».proof.Proof.KB.TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-
  One tile's whole task at symbolic coordinates: the tile's scratch buffers are cut into the two index slots and the five
  row buffers, the table's share into five read tokens, the first index copy is started, the loop runs by its invariant,
  and after the last waits the pieces are put back: the tile's rows of the output hold the gathered rows of the table.
-/

local notation "iV" => (Memref.whole Cert.Kernel.main_v1_scv : Memref Cert.Kernel.sig Kind.scVector Space.hbm Cert.Kernel.S1280x5x128 EltTy.i32)
local notation "tV" => (Memref.whole Cert.Kernel.main_v0_scv : Memref Cert.Kernel.sig Kind.scVector Space.hbm Cert.Kernel.S100000x128 EltTy.f32)
local notation "oV" => (Memref.whole Cert.Kernel.main_v2_scv : Memref Cert.Kernel.sig Kind.scVector Space.hbm Cert.Kernel.S819200x128 EltTy.f32)
local notation "sV" => (Memref.whole Cert.Kernel.cc1_scratch0 : Memref Cert.Kernel.sig Kind.scVector Space.vmem Cert.Kernel.S2x5x128 EltTy.i32)
local notation "rV" => (Memref.whole Cert.Kernel.cc1_scratch1 : Memref Cert.Kernel.sig Kind.scVector Space.vmem Cert.Kernel.S5x128x128 EltTy.f32)
set_option quotPrecheck false in
local notation "slotS0" => ((Memref.whole Cert.Kernel.cc1_scratch0 : Memref Cert.Kernel.sig Kind.scVector Space.vmem Cert.Kernel.S2x5x128 EltTy.i32).view.setOn (Rect.unit (s := Cert.Kernel.S2x5x128) ![0, 0, 0] Cert.Kernel.S1x5x128.size Cert.Kernel.Facts₀.inb_S2x5x128_S1x5x128_0_0_0).set)
set_option quotPrecheck false in
local notation "slotS1" => ((Memref.whole Cert.Kernel.cc1_scratch0 : Memref Cert.Kernel.sig Kind.scVector Space.vmem Cert.Kernel.S2x5x128 EltTy.i32).view.setOn (Rect.unit (s := Cert.Kernel.S2x5x128) ![1, 0, 0] Cert.Kernel.S1x5x128.size Cert.Kernel.Facts₀.inb_S2x5x128_S1x5x128_1_0_0).set)

section Body
variable [FloatOps F] [∀ e, Nonempty (Elt F e)]

theorem pts_iV (d : Dev nD) (L : grid1.Coords) (q : PosShare TreeShare) (f : Buf (Elt F) (iLoc d)) :
    ((iV).view.loc (thrV d L) ↦{q} f : sProp 𝕄) = iLoc d ↦{q} f := rfl

theorem done_emp (d : Dev nD) (L : grid1.Coords) (f : Buf (Elt F) (oLoc d)) : (oLoc d ↦[doneH L (2 * 0 - 1)]{fullShare} f : sProp 𝕄) = iprop(emp) := by
  rw [show 2 * 0 - 1 = 0 from rfl, doneH_zero, pointsTo_empty]
theorem todo_emp (d : Dev nD) (L : grid1.Coords) (f : Buf (Elt F) (oLoc d)) : (oLoc d ↦[todoH L (2 * 20)]{fullShare} f : sProp 𝕄) = iprop(emp) := by
  rw [show 2 * 20 = 40 from rfl, todoH_last, pointsTo_empty]

set_option maxHeartbeats 4000000 in
/-- The tile's task: the first index copy, the twenty trips by the invariant, the last waits. -/
theorem tile_body (hF : (K (F := F)).Facts) : TileBodyStmt (F := F) := by
  intro d L qi qt fi ft f0 hfi O W hO
  rw [cc1_body_eq_skeleton]; unfold cc1_body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨Hfi, ⟨Hg0, Hg1, Hg2, Hg3, Hg4⟩, ⟨Hfw0, Hfw1, Hfw2, Hfw3, Hfw4⟩, Hsems⟩, HO⟩
  ihave Hmw := (show levAts (K (F := F)).L (K (F := F)).lev ⊢ Transfers.MayWaits (thrV d L) (default : HIx 1) O from
    (K (F := F)).mayWaits_none (thr := thrV d L) hO) $$ Hlv
  ihave Hi' := (Entails.of_eq (pts_iV (F := F) d L _ _).symm) $$ Hi
  ihave Hs' := (scratch0_split d L fs).1 $$ Hs
  icases Hs' with ⟨Hs0, Hs1⟩
  ihave Hr' := (scratch1_split d L fr).1 $$ Hr
  icases Hr' with ⟨Hr0, Hr1, Hr2, Hr3, Hr4⟩
  ihave Ht' := (table_split d L qt ft).1 $$ Ht
  icases Ht' with ⟨Htrest, Ht0, Ht1, Ht2, Ht3, Ht4⟩
  ihave Htodo := (Entails.of_eq (show (oLoc d ↦[oSet (wid L)]{fullShare} f0 : sProp 𝕄) = (oLoc d ↦[todoH L (2 * 0)]{fullShare} f0) from by rw [oSet_eq_todoH])) $$ Ho
  sl_exec
  sl_for (inv d L qi qt fi ft f0 O W) $$ [Hfi Hi' Hs1 Ht0 Ht1 Ht2 Ht3 Ht4 Hg0 Hg1 Hg2 Hg3 Hg4 Hr0 Hr1 Hr2 Hr3 Hr4 Hfw0 Hfw1 Hfw2 Hfw3 Hfw4 Htodo HO]
  case region =>
    intro k _
    by_cases h0 : k.val = 0
    · exact trip_zero d L qi qt fi ft f0 O W hfi k h0 _ _
    · exact trip_pos d L qi qt fi ft f0 O W hfi k (Nat.pos_of_ne_zero h0) _ _
  · unfold inv
    isplitr; · iexact Hmw
    iexists _; iexists _; iexists _; iexists _; iexists _; iexists _; iexists _; iexists _
    isplitr
    swap
    · isplitl [Hfi Hi']
      · iapply (isem_restate)
        isplitl [Hfi]; · iexact Hfi
        iexact Hi'
      isplitl [Hs1]; · iexact Hs1
      isplitl [Ht0 Ht1 Ht2 Ht3 Ht4]
      ·
        isplitl [Ht0]; · iexact Ht0
        isplitl [Ht1]; · iexact Ht1
        isplitl [Ht2]; · iexact Ht2
        isplitl [Ht3]; · iexact Ht3
        iexact Ht4
      isplitl [Hg0 Hg1 Hg2 Hg3 Hg4]
      ·
        isplitl [Hg0]; · iexact Hg0
        isplitl [Hg1]; · iexact Hg1
        isplitl [Hg2]; · iexact Hg2
        isplitl [Hg3]; · iexact Hg3
        iexact Hg4
      isplitl [Hr0 Hr1 Hr2 Hr3 Hr4 Hfw0 Hfw1 Hfw2 Hfw3 Hfw4]
      · iapply (Entails.of_eq (wPart_zero d L fi ft _ _ _ _ _).symm)
        isplitl [Hr0 Hfw0]
        · isplitl [Hr0]; · iexact Hr0
          iexact Hfw0
        isplitl [Hr1 Hfw1]
        · isplitl [Hr1]; · iexact Hr1
          iexact Hfw1
        isplitl [Hr2 Hfw2]
        · isplitl [Hr2]; · iexact Hr2
          iexact Hfw2
        isplitl [Hr3 Hfw3]
        · isplitl [Hr3]; · iexact Hr3
          iexact Hfw3
        isplitl [Hr4]; · iexact Hr4
        iexact Hfw4
      isplitr [Htodo HO]
      · iapply (Entails.of_eq (done_emp d L _).symm); iempintro
      isplitl [Htodo]; · iexact Htodo
      iexact HO
    · ipureintro
      exact ⟨blkIs_landed0 d L fi slotM0 fs, fun p hp => .inl hp⟩
  iintro %acc HI
  have htr : Scf.trips k1_t1_loop.lb k1_t1_loop.ub k1_t1_loop.st = 20 := by decide
  ihave HI := (Entails.of_eq (congrArg (fun n => inv d L qi qt fi ft f0 O W n acc) htr)) $$ HI
  unfold inv
  icases HI with ⟨-, %s0, %s1, %r0, %r1, %r2, %r3, %r4, %W', %hpure, Hfi, Hs1, ⟨Ht0, Ht1, Ht2, Ht3, Ht4⟩, ⟨Hg0, Hg1, Hg2, Hg3, Hg4⟩, Hw, Hdone, Htodo, HO⟩
  obtain ⟨-, hW'⟩ := hpure
  ihave Hw' := (Entails.of_eq (wPart_pos d L fi ft 20 (by decide) r0 r1 r2 r3 r4)) $$ Hw
  icases Hw' with ⟨Hfw0, Hfw1, Hfw2, Hfw3, Hfw4⟩
  ihave He := (Entails.of_eq (todo_emp d L f0)) $$ Htodo
  icases He with -
  sl_exec_parts
  sl_step
  isplitl [Hfi_src Htrest Ht0 Ht1 Ht2 Ht3 Ht4 Hdone Hfw0_dst Hfw1_dst Hfw2_dst Hfw3_dst Hfw4_dst]
  · isplitl [Hfi_src]; · iapply (Entails.of_eq (pts_iV (F := F) d L _ _)); iexact Hfi_src
    isplitl [Htrest Ht0 Ht1 Ht2 Ht3 Ht4]
    · iapply (table_split d L qt ft).2
      isplitl [Htrest]; · iexact Htrest
      isplitl [Ht0]; · iexact Ht0
      isplitl [Ht1]; · iexact Ht1
      isplitl [Ht2]; · iexact Ht2
      isplitl [Ht3]; · iexact Ht3
      iexact Ht4
    iapply (Entails.of_eq (show (oLoc d ↦[doneH L 40]{fullShare} rowsOf ft fi : sProp 𝕄) = (oLoc d ↦[oSet (wid L)]{fullShare} rowsOf ft fi) from by rw [oSet_eq_doneH]))
    iapply (done_cast d L (show 2 * (tm1 20).val + (1 : Fin 2).val + 1 = 40 from by decide) _)
    iapply (done_put d L (tm1 20) 1 (rowsOf ft fi)).1
    isplitl [Hdone]; · iapply (done_cast d L (show 2 * 20 - 1 = 2 * (tm1 20).val + (1 : Fin 2).val from by decide) _); iexact Hdone
    isplitl [Hfw0_dst]; · iexact Hfw0_dst
    isplitl [Hfw1_dst]; · iexact Hfw1_dst
    isplitl [Hfw2_dst]; · iexact Hfw2_dst
    isplitl [Hfw3_dst]; · iexact Hfw3_dst
    iexact Hfw4_dst
  isplitl [Hfi_dst Hs1 Hfw0_src Hfw1_src Hfw2_src Hfw3_src Hfw4_src Hbufs]
  · isplitl [Hfi_dst Hs1]
    · iapply (scratch0_join d L _ _)
      isplitl [Hfi_dst]; · iexact Hfi_dst
      iexact Hs1
    isplitl [Hfw0_src Hfw1_src Hfw2_src Hfw3_src Hfw4_src]
    · iapply (scratch1_join d L _ _ _ _ _)
      isplitl [Hfw0_src]; · iexact Hfw0_src
      isplitl [Hfw1_src]; · iexact Hfw1_src
      isplitl [Hfw2_src]; · iexact Hfw2_src
      isplitl [Hfw3_src]; · iexact Hfw3_src
      iexact Hfw4_src
    iexact Hbufs
  isplitl [Hfi Hg0 Hg1 Hg2 Hg3 Hg4 Hfw0 Hfw1 Hfw2 Hfw3 Hfw4 Hsems]
  · isplitl [Hfi]; · iexact Hfi
    isplitl [Hg0 Hg1 Hg2 Hg3 Hg4]
    ·
      isplitl [Hg0]; · iexact Hg0
      isplitl [Hg1]; · iexact Hg1
      isplitl [Hg2]; · iexact Hg2
      isplitl [Hg3]; · iexact Hg3
      iexact Hg4
    isplitl [Hfw0 Hfw1 Hfw2 Hfw3 Hfw4]
    ·
      isplitl [Hfw0]; · iexact Hfw0
      isplitl [Hfw1]; · iexact Hfw1
      isplitl [Hfw2]; · iexact Hfw2
      isplitl [Hfw3]; · iexact Hfw3
      iexact Hfw4
    iexact Hsems
  iexists _; isplitr
  swap; · iexact HO
  ipureintro
  repeat (first | exact hW' | apply okW_insert)

end Body

end Cert.Proof.KB
end
-- ==== Proof.Ref.Run.lean ====
/-
  The reference program's run.  Its @main calls two outlined lookups (each: wrap a negative index by the table height, test
  the wrapped index against [0, 99999], gather the row, and replace the row by a NaN constant where the test fails) and then
  overwrites the last 32 channels of the first lookup by the second.  Here the calls are listed inline as one straight line
  of host operations, the run of that line is read back, and the result buffer's final contents are stated as one composed
  term `refOut` of the three argument arrays.  The line is read in three stretches (first lookup, second lookup, the
  overwrite), each from an arbitrary starting valuation, and the stretches are then composed.
-/
import proofs.«204608_g3015067042085_cont_9to1_1138_29_alg».proof.ReferenceIdeal
import proofs.«204608_g3015067042085_cont_9to1_1138_29_alg».proof.Proof.Spec
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
  Idealize.ShloMosaic.StableHlo

variable [Cert.ReferenceIdeal.Facts]

section Line
variable {F : FTy → Type} [FloatOps F]

/-- The first lookup's twenty-three operations (the wrap of a negative index is the inner call's one select). -/
abbrev opsW : List (HloOp τ sig (Elt F)) :=
  [ nullary main_call0_c (constantI S_ 32 0#32 : (⟨S_, .i32⟩ : BufTy).Contents (Elt F)),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 100000#32 : (⟨S_, .i32⟩ : BufTy).Contents (Elt F)),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 ((fun x i => Host.gather gather_S100000x128_S4096x200x1_S4096x200x128_2_0_n_n_0_2_1128 x i) : (⟨S100000x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32 : (⟨S_, .f32⟩ : BufTy).Contents (Elt F)),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v0 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)) ]

/-- The second lookup's twenty-three operations. -/
abbrev opsN : List (HloOp τ sig (Elt F)) :=
  [ nullary main_call1_c (constantI S_ 32 0#32 : (⟨S_, .i32⟩ : BufTy).Contents (Elt F)),
    unary main_call1_c main_call1_v0 (broadcastInDim S4096x200 ![] bcast_S_S4096x200 : (⟨S_, .i32⟩ : BufTy).Contents (Elt F) → (⟨S4096x200, .i32⟩ : BufTy).Contents (Elt F)),
    binary main_arg0 main_call1_v0 main_call1_v1 (cmpi .slt : (⟨S4096x200, .i32⟩ : BufTy).Contents (Elt F) → (⟨S4096x200, .i32⟩ : BufTy).Contents (Elt F) → (⟨S4096x200, .i1⟩ : BufTy).Contents (Elt F)),
    nullary main_call1_c_0 (constantI S_ 32 100000#32 : (⟨S_, .i32⟩ : BufTy).Contents (Elt F)),
    unary main_call1_c_0 main_call1_v2 (broadcastInDim S4096x200 ![] bcast_S_S4096x200 : (⟨S_, .i32⟩ : BufTy).Contents (Elt F) → (⟨S4096x200, .i32⟩ : BufTy).Contents (Elt F)),
    binary main_arg0 main_call1_v2 main_call1_v3 (addi : (⟨S4096x200, .i32⟩ : BufTy).Contents (Elt F) → (⟨S4096x200, .i32⟩ : BufTy).Contents (Elt F) → (⟨S4096x200, .i32⟩ : BufTy).Contents (Elt F)),
    ternary main_call1_v1 main_call1_v3 main_arg0 main_call1_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call1_v4 main_call1_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call1_c_1 (constantI S1 32 99999#32 : (⟨S1, .i32⟩ : BufTy).Contents (Elt F)),
    nullary main_call1_c_2 (constantI S_ 32 0#32 : (⟨S_, .i32⟩ : BufTy).Contents (Elt F)),
    unary main_call1_c_2 main_call1_v6 (broadcastInDim S4096x200x1 ![] bcast_S_S4096x200x1 : (⟨S_, .i32⟩ : BufTy).Contents (Elt F) → (⟨S4096x200x1, .i32⟩ : BufTy).Contents (Elt F)),
    binary main_call1_v5 main_call1_v6 main_call1_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call1_v5 main_call1_v9 main_call1_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call1_v7 main_call1_v10 main_call1_v11 (andi : (⟨S4096x200x1, .i1⟩ : BufTy).Contents (Elt F) → (⟨S4096x200x1, .i1⟩ : BufTy).Contents (Elt F) → (⟨S4096x200x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg2 main_call1_v5 main_call1_v13 ((fun x i => Host.gather gather_S100000x32_S4096x200x1_S4096x200x32_2_0_n_n_0_2_132 x i) : (⟨S100000x32, .f32⟩ : BufTy).Contents (Elt F) → (⟨S4096x200x1, .i32⟩ : BufTy).Contents (Elt F) → (⟨S4096x200x32, .f32⟩ : BufTy).Contents (Elt F)),
    unary main_call1_v12 main_call1_v14 (broadcastInDim S4096x200x32 ![0, 1] bcast_S4096x200_S4096x200x32_0_1 : (⟨S4096x200, .i1⟩ : BufTy).Contents (Elt F) → (⟨S4096x200x32, .i1⟩ : BufTy).Contents (Elt F)),
    nullary main_call1_cst (constant S_ .f32 0x7FC00000#32 : (⟨S_, .f32⟩ : BufTy).Contents (Elt F)),
    unary main_call1_cst main_call1_v15 (broadcastInDim S4096x200x32 ![] bcast_S_S4096x200x32 : (⟨S_, .f32⟩ : BufTy).Contents (Elt F) → (⟨S4096x200x32, .f32⟩ : BufTy).Contents (Elt F)),
    ternary main_call1_v14 main_call1_v13 main_call1_v15 main_v1 (select : (⟨S4096x200x32, .i1⟩ : BufTy).Contents (Elt F) → (⟨S4096x200x32, .f32⟩ : BufTy).Contents (Elt F) → (⟨S4096x200x32, .f32⟩ : BufTy).Contents (Elt F) → (⟨S4096x200x32, .f32⟩ : BufTy).Contents (Elt F)) ]

/-- The start index 96, its broadcast, and the scatter. -/
abbrev opsS : List (HloOp τ sig (Elt F)) :=
  [ nullary main_c (constantI S_ 32 96#32),
    unary main_c main_v2 (broadcastInDim S1 ![] bcast_S_S1 : (⟨S_, .i32⟩ : BufTy).Contents (Elt F) → (⟨S1, .i32⟩ : BufTy).Contents (Elt F)),
    ternary main_v0 main_v2 main_v1 main_v3 ((fun x i u => Host.scatter scatter_S4096x200x128_S1_S4096x200x32_012_n_2_0 (fun _ b => b) x i u) : (⟨S4096x200x128, .f32⟩ : BufTy).Contents (Elt F) → (⟨S1, .i32⟩ : BufTy).Contents (Elt F) → (⟨S4096x200x32, .f32⟩ : BufTy).Contents (Elt F) → (⟨S4096x200x128, .f32⟩ : BufTy).Contents (Elt F)) ]

/-- @main's forty-nine operations in order, the calls unfolded. -/
abbrev ops : List (HloOp τ sig (Elt F)) :=
  [ nullary main_call0_c (constantI S_ 32 0#32 : (⟨S_, .i32⟩ : BufTy).Contents (Elt F)),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 100000#32 : (⟨S_, .i32⟩ : BufTy).Contents (Elt F)),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 ((fun x i => Host.gather gather_S100000x128_S4096x200x1_S4096x200x128_2_0_n_n_0_2_1128 x i) : (⟨S100000x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32 : (⟨S_, .f32⟩ : BufTy).Contents (Elt F)),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v0 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)),
    nullary main_call1_c (constantI S_ 32 0#32 : (⟨S_, .i32⟩ : BufTy).Contents (Elt F)),
    unary main_call1_c main_call1_v0 (broadcastInDim S4096x200 ![] bcast_S_S4096x200 : (⟨S_, .i32⟩ : BufTy).Contents (Elt F) → (⟨S4096x200, .i32⟩ : BufTy).Contents (Elt F)),
    binary main_arg0 main_call1_v0 main_call1_v1 (cmpi .slt : (⟨S4096x200, .i32⟩ : BufTy).Contents (Elt F) → (⟨S4096x200, .i32⟩ : BufTy).Contents (Elt F) → (⟨S4096x200, .i1⟩ : BufTy).Contents (Elt F)),
    nullary main_call1_c_0 (constantI S_ 32 100000#32 : (⟨S_, .i32⟩ : BufTy).Contents (Elt F)),
    unary main_call1_c_0 main_call1_v2 (broadcastInDim S4096x200 ![] bcast_S_S4096x200 : (⟨S_, .i32⟩ : BufTy).Contents (Elt F) → (⟨S4096x200, .i32⟩ : BufTy).Contents (Elt F)),
    binary main_arg0 main_call1_v2 main_call1_v3 (addi : (⟨S4096x200, .i32⟩ : BufTy).Contents (Elt F) → (⟨S4096x200, .i32⟩ : BufTy).Contents (Elt F) → (⟨S4096x200, .i32⟩ : BufTy).Contents (Elt F)),
    ternary main_call1_v1 main_call1_v3 main_arg0 main_call1_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call1_v4 main_call1_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call1_c_1 (constantI S1 32 99999#32 : (⟨S1, .i32⟩ : BufTy).Contents (Elt F)),
    nullary main_call1_c_2 (constantI S_ 32 0#32 : (⟨S_, .i32⟩ : BufTy).Contents (Elt F)),
    unary main_call1_c_2 main_call1_v6 (broadcastInDim S4096x200x1 ![] bcast_S_S4096x200x1 : (⟨S_, .i32⟩ : BufTy).Contents (Elt F) → (⟨S4096x200x1, .i32⟩ : BufTy).Contents (Elt F)),
    binary main_call1_v5 main_call1_v6 main_call1_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call1_v5 main_call1_v9 main_call1_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call1_v7 main_call1_v10 main_call1_v11 (andi : (⟨S4096x200x1, .i1⟩ : BufTy).Contents (Elt F) → (⟨S4096x200x1, .i1⟩ : BufTy).Contents (Elt F) → (⟨S4096x200x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg2 main_call1_v5 main_call1_v13 ((fun x i => Host.gather gather_S100000x32_S4096x200x1_S4096x200x32_2_0_n_n_0_2_132 x i) : (⟨S100000x32, .f32⟩ : BufTy).Contents (Elt F) → (⟨S4096x200x1, .i32⟩ : BufTy).Contents (Elt F) → (⟨S4096x200x32, .f32⟩ : BufTy).Contents (Elt F)),
    unary main_call1_v12 main_call1_v14 (broadcastInDim S4096x200x32 ![0, 1] bcast_S4096x200_S4096x200x32_0_1 : (⟨S4096x200, .i1⟩ : BufTy).Contents (Elt F) → (⟨S4096x200x32, .i1⟩ : BufTy).Contents (Elt F)),
    nullary main_call1_cst (constant S_ .f32 0x7FC00000#32 : (⟨S_, .f32⟩ : BufTy).Contents (Elt F)),
    unary main_call1_cst main_call1_v15 (broadcastInDim S4096x200x32 ![] bcast_S_S4096x200x32 : (⟨S_, .f32⟩ : BufTy).Contents (Elt F) → (⟨S4096x200x32, .f32⟩ : BufTy).Contents (Elt F)),
    ternary main_call1_v14 main_call1_v13 main_call1_v15 main_v1 (select : (⟨S4096x200x32, .i1⟩ : BufTy).Contents (Elt F) → (⟨S4096x200x32, .f32⟩ : BufTy).Contents (Elt F) → (⟨S4096x200x32, .f32⟩ : BufTy).Contents (Elt F) → (⟨S4096x200x32, .f32⟩ : BufTy).Contents (Elt F)),
    nullary main_c (constantI S_ 32 96#32),
    unary main_c main_v2 (broadcastInDim S1 ![] bcast_S_S1 : (⟨S_, .i32⟩ : BufTy).Contents (Elt F) → (⟨S1, .i32⟩ : BufTy).Contents (Elt F)),
    ternary main_v0 main_v2 main_v1 main_v3 ((fun x i u => Host.scatter scatter_S4096x200x128_S1_S4096x200x32_012_n_2_0 (fun _ b => b) x i u) : (⟨S4096x200x128, .f32⟩ : BufTy).Contents (Elt F) → (⟨S1, .i32⟩ : BufTy).Contents (Elt F) → (⟨S4096x200x32, .f32⟩ : BufTy).Contents (Elt F) → (⟨S4096x200x128, .f32⟩ : BufTy).Contents (Elt F)) ]

theorem ops_eq : (ops : List (HloOp τ sig (Elt F))) = opsW ++ (opsN ++ opsS) := rfl

/-- Two lines that begin with equal operations and go on equally are equal. -/
theorem step_congr {op op' : HloOp τ sig (Elt F)}
    {p p' : Prog (TpuEff nD τ sig (Elt F) (Pipeline.Sig Λ₀ (Fin 0) fun p => (pcfgs (F := F) p).Adm) .tc) PUnit}
    (h : op = op') (hp : p = p') :
    ((hlo rfl op fun _ => .ret (⟨⟩ : PUnit)) >>= fun _ => p) = ((hlo rfl op' fun _ => .ret (⟨⟩ : PUnit)) >>= fun _ => p') := by
  subst h hp; rfl

attribute [local irreducible] Host.reduce Host.gather Host.scatter in
set_option maxRecDepth 16384 in
/-- @main is that straight line: the outlined functions unfolded at their calls, sequencing reassociated; operation by
    operation, a typed reference's transport is the identity at a literal reference. -/
theorem main_eq (c : Dev nD) : main (F := F) c = seq ops := by
  simp only [main, fn_take.body, fn_take_0.body, fn_where.body, seq, bind_assoc, pure_bind]
  iterate 49
    refine step_congr ?_ ?_
    · rfl
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., ternary_bufs_sub ..⟩

/-- The fold of a line made of two stretches is the second stretch's fold from the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The composed term -/

/-- The index a lookup reads with: a negative word has the table height added (numpy's wrap), others are kept. -/
def wrapIdx (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 100000#32))) x

/-- The wrapped indices as the gather's start indices: one trailing axis of size one. -/
def startIdx (x : IVec S4096x200 32) : IVec S4096x200x1 32 :=
  broadcastInDim S4096x200x1 ![0, 1] bcast_S4096x200_S4096x200x1_0_1 (wrapIdx x)

/-- The test "0 ≤ index ≤ 99999", reduced by `and` over the trailing axis. -/
def inRange (x : IVec S4096x200 32) : IVec S4096x200 1 :=
  Host.reduce IntOp.andi
    (andi (cmpi .sge (startIdx x) (broadcastInDim S4096x200x1 ![] bcast_S_S4096x200x1 (constantI S_ 32 0#32)))
      (cmpi .sle (startIdx x) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The first lookup: the gathered rows of the 128-column table where the test holds, the NaN constant elsewhere. -/
def takeW (x : IVec S4096x200 32) (W : FVec F S100000x128 .f32) : FVec F S4096x200x128 .f32 :=
  select (broadcastInDim S4096x200x128 ![0, 1] bcast_S4096x200_S4096x200x128_0_1 (inRange x))
    (Host.gather gather_S100000x128_S4096x200x1_S4096x200x128_2_0_n_n_0_2_1128 W (startIdx x))
    (broadcastInDim S4096x200x128 ![] bcast_S_S4096x200x128 (constant S_ .f32 0x7FC00000#32))

/-- The second lookup: the same over the 32-column table. -/
def takeN (x : IVec S4096x200 32) (N : FVec F S100000x32 .f32) : FVec F S4096x200x32 .f32 :=
  select (broadcastInDim S4096x200x32 ![0, 1] bcast_S4096x200_S4096x200x32_0_1 (inRange x))
    (Host.gather gather_S100000x32_S4096x200x1_S4096x200x32_2_0_n_n_0_2_132 N (startIdx x))
    (broadcastInDim S4096x200x32 ![] bcast_S_S4096x200x32 (constant S_ .f32 0x7FC00000#32))

/-- The scatter's start index: the one word 96. -/
def start96 : IVec S1 32 := broadcastInDim S1 ![] bcast_S_S1 (constantI S_ 32 96#32)

/-- The result: the first lookup overwritten by the second on the window that starts at channel 96. -/
def refOutF (x : IVec S4096x200 32) (W : FVec F S100000x128 .f32) (N : FVec F S100000x32 .f32) : FVec F S4096x200x128 .f32 :=
  Host.scatter scatter_S4096x200x128_S1_S4096x200x32_012_n_2_0 (fun _ b => b) (takeW x W) start96 (takeN x N)

/-! ## The three stretches, each from any valuation -/

theorem opsW_main_arg0 (V : Valuation τ sig (Elt F)) : after opsW V (main_arg0 : DevRef τ sig) = V (main_arg0 : DevRef τ sig) := by
  simp only [after_cons, after_nil]
  rfl
theorem opsW_main_arg1 (V : Valuation τ sig (Elt F)) : after opsW V (main_arg1 : DevRef τ sig) = V (main_arg1 : DevRef τ sig) := by
  simp only [after_cons, after_nil]
  rfl
theorem opsW_main_arg2 (V : Valuation τ sig (Elt F)) : after opsW V (main_arg2 : DevRef τ sig) = V (main_arg2 : DevRef τ sig) := by
  simp only [after_cons, after_nil]
  rfl
theorem opsN_main_arg0 (V : Valuation τ sig (Elt F)) : after opsN V (main_arg0 : DevRef τ sig) = V (main_arg0 : DevRef τ sig) := by
  simp only [after_cons, after_nil]
  rfl
theorem opsN_main_arg1 (V : Valuation τ sig (Elt F)) : after opsN V (main_arg1 : DevRef τ sig) = V (main_arg1 : DevRef τ sig) := by
  simp only [after_cons, after_nil]
  rfl
theorem opsN_main_arg2 (V : Valuation τ sig (Elt F)) : after opsN V (main_arg2 : DevRef τ sig) = V (main_arg2 : DevRef τ sig) := by
  simp only [after_cons, after_nil]
  rfl
theorem opsN_main_v0 (V : Valuation τ sig (Elt F)) : after opsN V (main_v0 : DevRef τ sig) = V (main_v0 : DevRef τ sig) := by
  simp only [after_cons, after_nil]
  rfl
theorem opsS_main_arg0 (V : Valuation τ sig (Elt F)) : after opsS V (main_arg0 : DevRef τ sig) = V (main_arg0 : DevRef τ sig) := by
  simp only [after_cons, after_nil]
  rfl
theorem opsS_main_arg1 (V : Valuation τ sig (Elt F)) : after opsS V (main_arg1 : DevRef τ sig) = V (main_arg1 : DevRef τ sig) := by
  simp only [after_cons, after_nil]
  rfl
theorem opsS_main_arg2 (V : Valuation τ sig (Elt F)) : after opsS V (main_arg2 : DevRef τ sig) = V (main_arg2 : DevRef τ sig) := by
  simp only [after_cons, after_nil]
  rfl

attribute [local irreducible] Host.reduce Host.gather Host.scatter in
set_option maxRecDepth 8192 in
/-- The first stretch leaves the first lookup's term at its result buffer: each operation's result is read at the buffer
    it writes, every other buffer is left, and the typed references' transports are the identity at these literal
    references.  The reduction and the gather stay folded meanwhile. -/
theorem opsW_main_v0 (V : Valuation τ sig (Elt F)) :
    after opsW V (main_v0 : DevRef τ sig) = takeW (V (main_arg0 : DevRef τ sig)) (V (main_arg1 : DevRef τ sig)) := by
  after_results
  rfl

attribute [local irreducible] Host.reduce Host.gather Host.scatter in
set_option maxRecDepth 8192 in
/-- The second stretch leaves the second lookup's term at its result buffer. -/
theorem opsN_main_v1 (V : Valuation τ sig (Elt F)) :
    after opsN V (main_v1 : DevRef τ sig) = takeN (V (main_arg0 : DevRef τ sig)) (V (main_arg2 : DevRef τ sig)) := by
  after_results
  rfl

attribute [local irreducible] Host.reduce Host.gather Host.scatter in
/-- The third stretch leaves the scatter of the two lookups' buffers at the result buffer. -/
theorem opsS_main_v3 (V : Valuation τ sig (Elt F)) :
    after opsS V (main_v3 : DevRef τ sig)
      = Host.scatter scatter_S4096x200x128_S1_S4096x200x32_012_n_2_0 (fun _ b => b) (V (main_v0 : DevRef τ sig)) start96
          (V (main_v1 : DevRef τ sig)) := by
  after_results
  rfl

/-- The whole line at the result buffer: the composed term of the three argument arrays. -/
theorem out_eq (V : Valuation τ sig (Elt F)) :
    after ops V (main_v3 : DevRef τ sig)
      = refOutF (V (main_arg0 : DevRef τ sig)) (V (main_arg1 : DevRef τ sig)) (V (main_arg2 : DevRef τ sig)) := by
  rw [ops_eq, after_app, after_app, opsS_main_v3, opsN_main_v0, opsN_main_v1, opsW_main_v0, opsW_main_arg0, opsW_main_arg2]
  rfl

theorem arg0_eq (V : Valuation τ sig (Elt F)) : after ops V (main_arg0 : DevRef τ sig) = V (main_arg0 : DevRef τ sig) := by
  rw [ops_eq, after_app, after_app, opsS_main_arg0, opsN_main_arg0, opsW_main_arg0]
theorem arg1_eq (V : Valuation τ sig (Elt F)) : after ops V (main_arg1 : DevRef τ sig) = V (main_arg1 : DevRef τ sig) := by
  rw [ops_eq, after_app, after_app, opsS_main_arg1, opsN_main_arg1, opsW_main_arg1]
theorem arg2_eq (V : Valuation τ sig (Elt F)) : after ops V (main_arg2 : DevRef τ sig) = V (main_arg2 : DevRef τ sig) := by
  rw [ops_eq, after_app, after_app, opsS_main_arg2, opsN_main_arg2, opsW_main_arg2]

end Line

/-- the reference's result as its operations' composed term of the three argument arrays -/
def refOut (x : Cert.Proof.Spec.SX.Idx → BitVec 32) (W : Cert.Proof.Spec.SW.Idx → EReal) (N : Cert.Proof.Spec.SN.Idx → EReal) :
    Cert.Proof.Spec.SO.Idx → EReal :=
  refOutF (F := Ideal) x W N

/-- every weakly fair execution of the reference terminates, faults nowhere, leaves the arguments unchanged and the result at refOut of them -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v3)
            = refOut (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run defs _ _).mono (fun _ h c => ⟨(h c main_v3).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m' ρ')

end Cert.Proof.Ref

end
-- ==== Proof.Ref.LibScatterSet.lean ====
/-
  A host scatter that writes ONE update window at one start position (an array overwritten, on a rectangle at the
  origin, by a smaller array), read at an entry of the result.
-/
import Idealize.ShloMosaic.PureOps.ShapeOps
import Idealize.ShloMosaic.Lib.ValueIdx

noncomputable section

namespace Cert.Lib.ScatterSet

open Idealize.ShloMosaic Idealize.ShloMosaic.ValueIdx

/-! ## A left fold of overwrites, read at one position -/

/-- A left fold of steps, each of which leaves every position but the one it names alone, read at a position that no
    element of the list names: the starting value there. -/
theorem foldl_overwrite_miss {ι β N : Type} (g : N → Option ι) (step : (ι → β) → N → (ι → β))
    (hmiss : ∀ r n i, g n ≠ some i → step r n i = r i)
    (l : List N) (x : ι → β) (i : ι) (h : ∀ n ∈ l, g n ≠ some i) :
    l.foldl step x i = x i := by
  induction l generalizing x with
  | nil => rfl
  | cons a l ih =>
    rw [List.foldl_cons, ih (step x a) (fun n hn => h n (List.mem_cons_of_mem _ hn)),
      hmiss x a i (h a (List.mem_cons.2 (Or.inl rfl)))]

/-- A left fold of overwrites over a list without repeats, read at a position that exactly one element `n` of the list
    names: the value that element writes. (Every later step leaves the position alone.) -/
theorem foldl_overwrite_hit {ι β N : Type} (g : N → Option ι) (v : N → β) (step : (ι → β) → N → (ι → β))
    (hhit : ∀ r n i, g n = some i → step r n i = v n)
    (hmiss : ∀ r n i, g n ≠ some i → step r n i = r i)
    (l : List N) (hl : l.Nodup) (x : ι → β) (i : ι) (n : N) (hn : n ∈ l) (hg : g n = some i)
    (huniq : ∀ n' ∈ l, g n' = some i → n' = n) :
    l.foldl step x i = v n := by
  induction l generalizing x with
  | nil => exact absurd hn (List.not_mem_nil)
  | cons a l ih =>
    rw [List.foldl_cons]
    rw [List.nodup_cons] at hl
    by_cases ha : a = n
    · subst ha
      rw [foldl_overwrite_miss g step hmiss l _ i ?_, hhit _ _ _ hg]
      intro n' hn' h'
      have e : n' = a := huniq n' (List.mem_cons_of_mem _ hn') h'
      exact hl.1 (e ▸ hn')
    · have hn' : n ∈ l := by
        rcases List.mem_cons.1 hn with h | h
        · exact absurd h.symm ha
        · exact h
      exact ih hl.2 (step x a) hn' (fun n' h' => huniq n' (List.mem_cons_of_mem _ h'))

/-! ## The scatter whose body returns the update, read at one position -/

section Scatter
variable {s si u : Shape} {w : Nat} {α : Type}

/-- One step of the scatter's fold, at a position the update element lands on: the update element. -/
private theorem step_hit (d : ScatterDims s si u) (idx : IVec si w) (upd : u.Idx → α) (r : s.Idx → α) (n : Fin u.numel)
    (i : s.Idx) (h : d.resultIdx? (u.rowMajor.symm n) idx = some i) :
    (match d.resultIdx? (u.rowMajor.symm n) idx with
      | some i0 => fun i' => if i' = i0 then (fun (_ b : α) => b) (r i0) (upd (u.rowMajor.symm n)) else r i'
      | none => r) i = upd (u.rowMajor.symm n) := by
  rw [h]; exact if_pos rfl

/-- One step of the scatter's fold, at a position the update element does not land on: unchanged. -/
private theorem step_miss (d : ScatterDims s si u) (idx : IVec si w) (upd : u.Idx → α) (r : s.Idx → α) (n : Fin u.numel)
    (i : s.Idx) (h : d.resultIdx? (u.rowMajor.symm n) idx ≠ some i) :
    (match d.resultIdx? (u.rowMajor.symm n) idx with
      | some i0 => fun i' => if i' = i0 then (fun (_ b : α) => b) (r i0) (upd (u.rowMajor.symm n)) else r i'
      | none => r) i = r i := by
  cases hr : d.resultIdx? (u.rowMajor.symm n) idx with
  | none => rfl
  | some i0 =>
    rw [hr] at h
    exact if_neg (fun e => h (congrArg some e.symm))

/-- A scatter whose body returns the update, read at a position on which exactly one update element `j` lands: that
    element of the update. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  refine (foldl_overwrite_hit (fun n => d.resultIdx? (u.rowMajor.symm n) idx) (fun n => upd (u.rowMajor.symm n)) _
    (fun r n i h => step_hit d idx upd r n i h) (fun r n i h => step_miss d idx upd r n i h)
    (List.finRange u.numel) (List.nodup_finRange _) x i (u.rowMajor j) (List.mem_finRange _) ?_ ?_).trans ?_
  · show d.resultIdx? (u.rowMajor.symm (u.rowMajor j)) idx = some i
    rw [Equiv.symm_apply_apply]; exact hj
  · intro n' _ h'
    have := huniq _ h'
    rw [← this, Equiv.apply_symm_apply]
  · show upd (u.rowMajor.symm (u.rowMajor j)) = upd j
    rw [Equiv.symm_apply_apply]

/-- A scatter whose body returns the update, read at a position on which no update element lands: the operand there. -/
theorem scatter_set_miss (d : ScatterDims s si u) (x : s.Idx → α) (idx : IVec si w) (upd : u.Idx → α) (i : s.Idx)
    (hi : ∀ j, d.resultIdx? j idx ≠ some i) :
    Host.scatter d (fun _ b => b) x idx upd i = x i := by
  unfold Host.scatter
  exact foldl_overwrite_miss (fun n => d.resultIdx? (u.rowMajor.symm n) idx) _
    (fun r n i h => step_miss d idx upd r n i h) (List.finRange u.numel) x i (fun n _ => hi _)

end Scatter

/-! ## Where an update element lands -/

section Lands
variable {s si u : Shape} {w : Nat}

/-- An update element lands on the position `i` exactly when, on every axis, its window's start plus its window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      have := h a
      rw [← e']
      show _ = ((Int.toNat _ : Nat) : Int)
      omega
    · intro e
      refine congrArg some (funext fun a => Fin.ext ?_)
      show Int.toNat _ = _
      rw [e a]; exact Int.toNat_natCast _
  · rename_i h
    constructor
    · intro e; exact absurd e (by simp)
    · intro e
      exact absurd (fun a => by rw [e a]; exact ⟨Int.natCast_nonneg _, by exact_mod_cast (i a).isLt⟩) h

/-- Where the scatter indices are all zero, every window starts at the origin. -/
theorem start_eq_zero (d : ScatterDims s si u) (j : u.Idx) (idx : IVec si w) (h0 : ∀ k, idx k = 0#w) (a : Fin s.rank) :
    d.start j idx a = 0 := by
  unfold ScatterDims.start
  split
  · rw [h0]; exact BitVec.toInt_zero
  · rfl

end Lands

/-- With no inserted axis and the update's two axes, in order, as the window axes, the window coordinate on an axis is
    the update element's coordinate on that axis. -/
theorem window_id2 {a0 a1 b0 b1 : ℕ} {si : Shape} (d : ScatterDims ⟨2, ![a0, a1]⟩ si ⟨2, ![b0, b1]⟩)
    (hw : d.updateWindowDims = [0, 1]) (hi : d.insertedWindowDims = []) (j : (⟨2, ![b0, b1]⟩ : Shape).Idx) (a : Fin 2) :
    d.window j a = (j a).val := by
  obtain ⟨uw, iw, sd, iv, wf⟩ := d
  dsimp only at hw hi
  subst hw hi
  fin_cases a <;> rfl

/-- The same for one axis. -/
theorem window_id1 {a0 b0 : ℕ} {si : Shape} (d : ScatterDims ⟨1, ![a0]⟩ si ⟨1, ![b0]⟩)
    (hw : d.updateWindowDims = [0]) (hi : d.insertedWindowDims = []) (j : (⟨1, ![b0]⟩ : Shape).Idx) (a : Fin 1) :
    d.window j a = (j a).val := by
  obtain ⟨uw, iw, sd, iv, wf⟩ := d
  dsimp only at hw hi
  subst hw hi
  fin_cases a <;> rfl

/-! ## One window written at the origin -/

/-- One axis, the window at the origin: an update element lands on a position exactly when their coordinates agree. -/
theorem lands_iff1 {H H' : ℕ} {si : Shape} {w : Nat} (d : ScatterDims ⟨1, ![H']⟩ si ⟨1, ![H]⟩)
    (hw : d.updateWindowDims = [0]) (hi : d.insertedWindowDims = []) (idx : IVec si w) (h0 : ∀ k, idx k = 0#w)
    (j' : (⟨1, ![H]⟩ : Shape).Idx) (i : (⟨1, ![H']⟩ : Shape).Idx) :
    d.resultIdx? j' idx = some i ↔ (j' 0).val = (i 0).val := by
  rw [resultIdx?_eq_some_iff]
  constructor
  · intro e
    have e0 := e 0
    rw [start_eq_zero d j' idx h0, window_id1 d hw hi, Int.zero_add] at e0
    exact_mod_cast e0
  · intro e a
    rw [start_eq_zero d j' idx h0, window_id1 d hw hi, Int.zero_add]
    match a with
    | ⟨0, _⟩ => exact_mod_cast e

/-- Two axes, the window at the origin: an update element lands on a position exactly when their coordinates agree. -/
theorem lands_iff2 {K K' H H' : ℕ} {si : Shape} {w : Nat} (d : ScatterDims ⟨2, ![K', H']⟩ si ⟨2, ![K, H]⟩)
    (hw : d.updateWindowDims = [0, 1]) (hi : d.insertedWindowDims = []) (idx : IVec si w) (h0 : ∀ k, idx k = 0#w)
    (j' : (⟨2, ![K, H]⟩ : Shape).Idx) (i : (⟨2, ![K', H']⟩ : Shape).Idx) :
    d.resultIdx? j' idx = some i ↔ (j' 0).val = (i 0).val ∧ (j' 1).val = (i 1).val := by
  rw [resultIdx?_eq_some_iff]
  constructor
  · intro e
    have e0 := e 0
    have e1 := e 1
    rw [start_eq_zero d j' idx h0, window_id2 d hw hi, Int.zero_add] at e0 e1
    exact ⟨by exact_mod_cast e0, by exact_mod_cast e1⟩
  · intro e a
    rw [start_eq_zero d j' idx h0, window_id2 d hw hi, Int.zero_add]
    match a with
    | ⟨0, _⟩ => exact_mod_cast e.1
    | ⟨1, _⟩ => exact_mod_cast e.2

/-- A vector written at the origin of a longer one: the update inside its extent, the operand outside. -/
theorem set_vec {H H' : ℕ} {si : Shape} {w : Nat} (d : ScatterDims ⟨1, ![H']⟩ si ⟨1, ![H]⟩)
    (hw : d.updateWindowDims = [0]) (hi : d.insertedWindowDims = []) {α : Type}
    (x : (⟨1, ![H']⟩ : Shape).Idx → α) (idx : IVec si w) (h0 : ∀ k, idx k = 0#w)
    (u : (⟨1, ![H]⟩ : Shape).Idx → α) (j : Fin H') :
    Host.scatter d (fun _ b => b) x idx u (ix1 j) = if h : j.val < H then u (ix1 ⟨j.val, h⟩) else x (ix1 j) := by
  split
  · rename_i h
    refine scatter_set_hit d x idx u (ix1 j) (ix1 ⟨j.val, h⟩) ((lands_iff1 d hw hi idx h0 _ _).2 rfl) ?_
    intro j' hj'
    have e : (j' 0).val = j.val := (lands_iff1 d hw hi idx h0 _ _).1 hj'
    rw [eq_ix1 j']
    exact congrArg ix1 (Fin.ext e)
  · rename_i h
    refine scatter_set_miss d x idx u (ix1 j) ?_
    intro j' hj'
    have e : (j' 0).val = j.val := (lands_iff1 d hw hi idx h0 _ _).1 hj'
    have lt : (j' 0).val < H := (j' 0).isLt
    exact h (e ▸ lt)

/-- A matrix written at the origin of a larger one: the update inside its extents, the operand outside. -/
theorem set_rect {K K' H H' : ℕ} {si : Shape} {w : Nat} (d : ScatterDims ⟨2, ![K', H']⟩ si ⟨2, ![K, H]⟩)
    (hw : d.updateWindowDims = [0, 1]) (hi : d.insertedWindowDims = []) {α : Type}
    (x : (⟨2, ![K', H']⟩ : Shape).Idx → α) (idx : IVec si w) (h0 : ∀ k, idx k = 0#w)
    (u : (⟨2, ![K, H]⟩ : Shape).Idx → α) (k : Fin K') (j : Fin H') :
    Host.scatter d (fun _ b => b) x idx u (ix2 k j)
      = if hk : k.val < K then (if hj : j.val < H then u (ix2 ⟨k.val, hk⟩ ⟨j.val, hj⟩) else x (ix2 k j)) else x (ix2 k j) := by
  have miss : (¬ (k.val < K ∧ j.val < H)) → Host.scatter d (fun _ b => b) x idx u (ix2 k j) = x (ix2 k j) := by
    intro h
    refine scatter_set_miss d x idx u (ix2 k j) ?_
    intro j' hj'
    have e := (lands_iff2 d hw hi idx h0 _ _).1 hj'
    have e0 : (j' 0).val = k.val := e.1
    have e1 : (j' 1).val = j.val := e.2
    have lt0 : (j' 0).val < K := (j' 0).isLt
    have lt1 : (j' 1).val < H := (j' 1).isLt
    exact h ⟨e0 ▸ lt0, e1 ▸ lt1⟩
  split
  · rename_i hk
    split
    · rename_i hj
      refine scatter_set_hit d x idx u (ix2 k j) (ix2 ⟨k.val, hk⟩ ⟨j.val, hj⟩)
        ((lands_iff2 d hw hi idx h0 _ _).2 ⟨rfl, rfl⟩) ?_
      intro j' hj'
      have e := (lands_iff2 d hw hi idx h0 _ _).1 hj'
      have e0 : (j' 0).val = k.val := e.1
      have e1 : (j' 1).val = j.val := e.2
      rw [eq_ix2 j']
      exact congrArg₂ ix2 (Fin.ext e0) (Fin.ext e1)
    · rename_i hj
      exact miss (fun h => hj h.2)
  · rename_i hk
    exact miss (fun h => hk h.1)

/-- A matrix written into one with more columns and as many rows: the update in the first `H` columns, the operand in
    the others. -/
theorem set_cols {K H H' : ℕ} {si : Shape} {w : Nat} (d : ScatterDims ⟨2, ![K, H']⟩ si ⟨2, ![K, H]⟩)
    (hw : d.updateWindowDims = [0, 1]) (hi : d.insertedWindowDims = []) {α : Type}
    (x : (⟨2, ![K, H']⟩ : Shape).Idx → α) (idx : IVec si w) (h0 : ∀ k, idx k = 0#w)
    (u : (⟨2, ![K, H]⟩ : Shape).Idx → α) (k : Fin K) (j : Fin H') :
    Host.scatter d (fun _ b => b) x idx u (ix2 k j) = if h : j.val < H then u (ix2 k ⟨j.val, h⟩) else x (ix2 k j) := by
  rw [set_rect d hw hi x idx h0 u k j, dif_pos k.isLt]

/-- A square matrix written at the origin of a larger square one. -/
theorem set_sq {H H' : ℕ} {si : Shape} {w : Nat} (d : ScatterDims ⟨2, ![H', H']⟩ si ⟨2, ![H, H]⟩)
    (hw : d.updateWindowDims = [0, 1]) (hi : d.insertedWindowDims = []) {α : Type}
    (x : (⟨2, ![H', H']⟩ : Shape).Idx → α) (idx : IVec si w) (h0 : ∀ k, idx k = 0#w)
    (u : (⟨2, ![H, H]⟩ : Shape).Idx → α) (k j : Fin H') :
    Host.scatter d (fun _ b => b) x idx u (ix2 k j)
      = if hk : k.val < H then (if hj : j.val < H then u (ix2 ⟨k.val, hk⟩ ⟨j.val, hj⟩) else x (ix2 k j)) else x (ix2 k j) :=
  set_rect d hw hi x idx h0 u k j

end Cert.Lib.ScatterSet

end
-- ==== Proof.Ref.Lemmas.lean ====
/-
  General facts the reference's value rests on: signed comparisons of a word below the table height, a reduction by
  `and` over an array of ones, and a host scatter of one rank-3 window whose start lies on the last axis, read at an entry
  of the result.
-/
import Idealize.ShloMosaic.PureOps.Reduce
import Idealize.ShloMosaic.Lib.ValueIdx
import proofs.«204608_g3015067042085_cont_9to1_1138_29_alg».proof.Proof.Ref.LibScatterSet

noncomputable section

namespace Cert.Proof.Ref

open Idealize.ShloMosaic Idealize.ShloMosaic.ValueIdx

/-! ## Words below the table height -/

/-- A word whose unsigned value is below 100000 is that value as a signed integer. -/
theorem toInt_of_lt {v : BitVec 32} (h : v.toNat < 100000) : v.toInt = (v.toNat : Int) :=
  BitVec.toInt_eq_toNat_of_lt (by omega)

/-- Such a word is not negative … -/
theorem slt_zero_of_lt {v : BitVec 32} (h : v.toNat < 100000) : IntOp.cmpi .slt v 0#32 = 0#1 := by
  have z : (0#32 : BitVec 32).toInt = 0 := by decide
  have hb : v.slt 0#32 = false := by
    simp only [BitVec.slt, toInt_of_lt h, z]
    exact decide_eq_false (by omega)
  show BitVec.ofBool (v.slt 0#32) = 0#1
  rw [hb]
  rfl
/-- … it is at least zero … -/
theorem sge_zero_of_lt {v : BitVec 32} (h : v.toNat < 100000) : IntOp.cmpi .sge v 0#32 = 1#1 := by
  have z : (0#32 : BitVec 32).toInt = 0 := by decide
  have hb : (0#32 : BitVec 32).sle v = true := by
    simp only [BitVec.sle, toInt_of_lt h, z]
    exact decide_eq_true (by omega)
  show BitVec.ofBool ((0#32 : BitVec 32).sle v) = 1#1
  rw [hb]
  rfl
/-- … and at most 99999. -/
theorem sle_top_of_lt {v : BitVec 32} (h : v.toNat < 100000) : IntOp.cmpi .sle v 99999#32 = 1#1 := by
  have z : (99999#32 : BitVec 32).toInt = 99999 := by decide
  have hb : v.sle 99999#32 = true := by
    simp only [BitVec.sle, toInt_of_lt h, z]
    exact decide_eq_true (by omega)
  show BitVec.ofBool (v.sle 99999#32) = 1#1
  rw [hb]
  rfl

/-- Read signed and clamped into the table, it is its unsigned value. -/
theorem clamp_of_lt {v : BitVec 32} (h : v.toNat < 100000) : min v.toInt.toNat (100000 - 1) = v.toNat := by
  rw [toInt_of_lt h, Int.toNat_natCast]
  omega

/-! ## A reduction by `and` over ones -/

/-- A left fold by `and` from 1 over ones is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons.2 (Or.inl rfl))]
    exact foldl_andi_ones f l (fun n hn => h n (List.mem_cons_of_mem _ hn))

/-- A `stablehlo.reduce` by `and` from 1 of an array of ones is 1 everywhere. -/
theorem reduce_andi_ones {s t u : Shape} {axes : List (Fin s.rank)} (p : s.Idx → BitVec 1) (init : u.Idx → BitVec 1)
    (h : s.ReducesTo axes t) (hu : 0 < u.numel) (hp : ∀ i, p i = 1#1) (hi : ∀ k, init k = 1#1) (j : t.Idx) :
    Host.reduce IntOp.andi p init h hu j = 1#1 := by
  rw [Host.reduce_eq_foldl, hi]
  exact foldl_andi_ones p _ (fun n _ => hp n)

/-! ## One rank-3 window written at an offset on the last axis -/

section Window
variable {A B C C' : ℕ} {si : Shape} {w : Nat}

/-- With no inserted axis and the update's three axes, in order, as the window axes, the window coordinate on an axis is
    the update element's coordinate on that axis. -/
theorem window_id3 (d : ScatterDims ⟨3, ![A, B, C]⟩ si ⟨3, ![A, B, C']⟩)
    (hw : d.updateWindowDims = [0, 1, 2]) (hi : d.insertedWindowDims = []) (j : (⟨3, ![A, B, C']⟩ : Shape).Idx) (a : Fin 3) :
    d.window j a = (j a).val := by
  obtain ⟨uw, iw, sd, iv, wf⟩ := d
  dsimp only at hw hi
  subst hw hi
  fin_cases a <;> rfl

/-- A statement about every axis of a rank-3 shape holds when it holds of the three axes. -/
theorem forall_fin3 {P : Fin 3 → Prop} (h0 : P 0) (h1 : P 1) (h2 : P 2) : ∀ a, P a := by
  intro a; fin_cases a <;> assumption

/-- Where the scatter maps its one index component to the last axis, a window starts at that component on the last axis
    and at zero on the others. -/
theorem start_last (d : ScatterDims ⟨3, ![A, B, C]⟩ si ⟨3, ![A, B, C']⟩) (hs : d.scatterDimsToOperandDims = [2])
    (idx : IVec si w) (off : ℕ) (hoff : ∀ k, (idx k).toInt = (off : Int)) (j : (⟨3, ![A, B, C']⟩ : Shape).Idx) (a : Fin 3) :
    d.start j idx a = if a.val = 2 then (off : Int) else 0 := by
  unfold ScatterDims.start
  by_cases ha : a.val = 2
  · have ha' : a = 2 := Fin.ext ha
    rw [dif_pos (by rw [hs, ha']; exact List.mem_singleton.2 rfl), hoff, if_pos ha]
  · rw [dif_neg (by rw [hs]; exact fun h => ha (congrArg Fin.val (List.mem_singleton.1 h))), if_neg ha]

/-- An update element lands on a position exactly when the first two coordinates agree and the last is the offset plus
    the element's. -/
theorem lands_iff3 (d : ScatterDims ⟨3, ![A, B, C]⟩ si ⟨3, ![A, B, C']⟩)
    (hw : d.updateWindowDims = [0, 1, 2]) (hi : d.insertedWindowDims = []) (hs : d.scatterDimsToOperandDims = [2])
    (idx : IVec si w) (off : ℕ) (hoff : ∀ k, (idx k).toInt = (off : Int))
    (j : (⟨3, ![A, B, C']⟩ : Shape).Idx) (i : (⟨3, ![A, B, C]⟩ : Shape).Idx) :
    d.resultIdx? j idx = some i
      ↔ (j (0 : Fin 3)).val = (i (0 : Fin 3)).val ∧ (j (1 : Fin 3)).val = (i (1 : Fin 3)).val
        ∧ off + (j (2 : Fin 3)).val = (i (2 : Fin 3)).val := by
  rw [Cert.Lib.ScatterSet.resultIdx?_eq_some_iff]
  constructor
  · intro e
    have e0 := e (0 : Fin 3)
    have e1 := e (1 : Fin 3)
    have e2 := e (2 : Fin 3)
    rw [start_last d hs idx off hoff, window_id3 d hw hi] at e0 e1 e2
    rw [if_neg (by decide)] at e0 e1
    rw [if_pos (by decide)] at e2
    refine ⟨by omega, by omega, by omega⟩
  · intro e
    refine forall_fin3 ?_ ?_ ?_
    · rw [start_last d hs idx off hoff, window_id3 d hw hi, if_neg (by decide)]; have := e.1; omega
    · rw [start_last d hs idx off hoff, window_id3 d hw hi, if_neg (by decide)]; have := e.2.1; omega
    · rw [start_last d hs idx off hoff, window_id3 d hw hi, if_pos (by decide)]; have := e.2.2; omega

/-- THE SCATTER READ AT AN ENTRY: inside the window the update's element, outside it the operand's. -/
theorem scatter_window3 {α : Type} (d : ScatterDims ⟨3, ![A, B, C]⟩ si ⟨3, ![A, B, C']⟩)
    (hw : d.updateWindowDims = [0, 1, 2]) (hi : d.insertedWindowDims = []) (hs : d.scatterDimsToOperandDims = [2])
    (x : (⟨3, ![A, B, C]⟩ : Shape).Idx → α) (idx : IVec si w) (off : ℕ) (hoff : ∀ k, (idx k).toInt = (off : Int))
    (u : (⟨3, ![A, B, C']⟩ : Shape).Idx → α) (i : (⟨3, ![A, B, C]⟩ : Shape).Idx) :
    Host.scatter d (fun _ b => b) x idx u i
      = if h : off ≤ (i 2).val ∧ (i 2).val - off < C' then u (ix3 (i 0) (i 1) ⟨(i 2).val - off, h.2⟩) else x i := by
  split
  · rename_i h
    refine Cert.Lib.ScatterSet.scatter_set_hit d x idx u i (ix3 (i 0) (i 1) ⟨(i 2).val - off, h.2⟩)
      ((lands_iff3 d hw hi hs idx off hoff _ _).2 ⟨rfl, rfl, ?_⟩) ?_
    · show off + ((i 2).val - off) = (i 2).val
      omega
    · intro j' hj'
      obtain ⟨e0, e1, e2⟩ := (lands_iff3 d hw hi hs idx off hoff _ _).1 hj'
      rw [eq_ix3 j']
      have f0 : j' 0 = i 0 := Fin.ext e0
      have f1 : j' 1 = i 1 := Fin.ext e1
      have f2 : j' 2 = ⟨(i 2).val - off, h.2⟩ := Fin.ext (by show (j' 2).val = (i 2).val - off; omega)
      rw [f0, f1, f2]
      rfl
  · rename_i h
    refine Cert.Lib.ScatterSet.scatter_set_miss d x idx u i ?_
    intro j' hj'
    obtain ⟨_, _, e2⟩ := (lands_iff3 d hw hi hs idx off hoff _ _).1 hj'
    have lt : (j' 2).val < C' := (j' 2).isLt
    exact h ⟨by omega, by omega⟩

end Window

end Cert.Proof.Ref

end
-- ==== Proof.Ref.Value.lean ====
/-
  The reference's composed term read at an entry.  Where every index word is below the table height 100000: the wrap of
  negative indices keeps the word, the range test passes, each gather reads the table's row at the word, and the scatter
  puts the second lookup on channels 96 to 127 — the lookup with the last 32 channels taken from the second table.
-/
import proofs.«204608_g3015067042085_cont_9to1_1138_29_alg».proof.Proof.Ref.Run
import proofs.«204608_g3015067042085_cont_9to1_1138_29_alg».proof.Proof.Ref.Lemmas

noncomputable section

namespace Cert.Proof.Ref

open Cert.ReferenceIdeal Cert.ReferenceIdeal.Facts₀ Idealize.ShloMosaic Idealize.ShloMosaic.ValueIdx

variable [Cert.ReferenceIdeal.Facts]

/-! ## The two gathers at an entry -/

/-- A start index word read signed and clamped into a table of height 100000, as a row of it. -/
def clampRow (v : BitVec 32) : Fin 100000 := ⟨min v.toInt.toNat (100000 - 1), by omega⟩

/-- A word below the height is its own row. -/
theorem clampRow_of_lt {v : BitVec 32} (h : v.toNat < 100000) : clampRow v = ⟨v.toNat, h⟩ := Fin.ext (clamp_of_lt h)

/-- A statement about both axes of a rank-2 shape holds when it holds of the two axes. -/
theorem forall_fin2 {P : Fin 2 → Prop} (h0 : P 0) (h1 : P 1) : ∀ a, P a := by
  intro a; fin_cases a <;> assumption

/-- The gather over the 128-column table read at an entry: the table's row at the start index (read signed and clamped into
    the table), the entry's own column. -/
theorem gatherW_apply {α : Type} (T : S100000x128.Idx → α) (idx : IVec S4096x200x1 32) (i : S4096x200x128.Idx) :
    Host.gather gather_S100000x128_S4096x200x1_S4096x200x128_2_0_n_n_0_2_1128 T idx i = T (ix2 (clampRow (idx (ix3 (i 0) (i 1) 0))) (i 2)) := by
  unfold Host.gather
  congr 1
  funext a
  refine Fin.ext ?_
  revert a
  refine forall_fin2 ?_ ?_
  · show gather_S100000x128_S4096x200x1_S4096x200x128_2_0_n_n_0_2_1128.start i idx 0 + gather_S100000x128_S4096x200x1_S4096x200x128_2_0_n_n_0_2_1128.batchCoord i 0 + gather_S100000x128_S4096x200x1_S4096x200x128_2_0_n_n_0_2_1128.offCoord i 0 = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ gather_S100000x128_S4096x200x1_S4096x200x128_2_0_n_n_0_2_1128.startIndexMap from List.mem_singleton.mpr rfl)]
    have hsi : gather_S100000x128_S4096x200x1_S4096x200x128_2_0_n_n_0_2_1128.siIdx i ⟨List.idxOf (0 : Fin 2) gather_S100000x128_S4096x200x1_S4096x200x128_2_0_n_n_0_2_1128.startIndexMap,
        List.idxOf_lt_length_iff.2 (List.mem_singleton.mpr rfl)⟩ = ix3 (i 0) (i 1) 0 := by
      funext b; refine Fin.ext ?_
      match b with
      | ⟨0, _⟩ => rfl
      | ⟨1, _⟩ => rfl
      | ⟨2, _⟩ => rfl
    rw [hsi]
    rfl
  · show gather_S100000x128_S4096x200x1_S4096x200x128_2_0_n_n_0_2_1128.start i idx 1 + gather_S100000x128_S4096x200x1_S4096x200x128_2_0_n_n_0_2_1128.batchCoord i 1 + gather_S100000x128_S4096x200x1_S4096x200x128_2_0_n_n_0_2_1128.offCoord i 1 = _
    have hs : gather_S100000x128_S4096x200x1_S4096x200x128_2_0_n_n_0_2_1128.start i idx 1 = 0 := by
      unfold GatherDims.start
      rw [dif_neg (show (1 : Fin 2) ∉ gather_S100000x128_S4096x200x1_S4096x200x128_2_0_n_n_0_2_1128.startIndexMap from by
        show (1 : Fin 2) ∉ ([0] : List (Fin 2))
        decide)]
    rw [hs, GatherDims.batchCoord_eq_zero _ _ _ List.not_mem_nil, Nat.zero_add]
    rfl

/-- The gather over the 32-column table read at an entry: the table's row at the start index (read signed and clamped into
    the table), the entry's own column. -/
theorem gatherN_apply {α : Type} (T : S100000x32.Idx → α) (idx : IVec S4096x200x1 32) (i : S4096x200x32.Idx) :
    Host.gather gather_S100000x32_S4096x200x1_S4096x200x32_2_0_n_n_0_2_132 T idx i = T (ix2 (clampRow (idx (ix3 (i 0) (i 1) 0))) (i 2)) := by
  unfold Host.gather
  congr 1
  funext a
  refine Fin.ext ?_
  revert a
  refine forall_fin2 ?_ ?_
  · show gather_S100000x32_S4096x200x1_S4096x200x32_2_0_n_n_0_2_132.start i idx 0 + gather_S100000x32_S4096x200x1_S4096x200x32_2_0_n_n_0_2_132.batchCoord i 0 + gather_S100000x32_S4096x200x1_S4096x200x32_2_0_n_n_0_2_132.offCoord i 0 = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ gather_S100000x32_S4096x200x1_S4096x200x32_2_0_n_n_0_2_132.startIndexMap from List.mem_singleton.mpr rfl)]
    have hsi : gather_S100000x32_S4096x200x1_S4096x200x32_2_0_n_n_0_2_132.siIdx i ⟨List.idxOf (0 : Fin 2) gather_S100000x32_S4096x200x1_S4096x200x32_2_0_n_n_0_2_132.startIndexMap,
        List.idxOf_lt_length_iff.2 (List.mem_singleton.mpr rfl)⟩ = ix3 (i 0) (i 1) 0 := by
      funext b; refine Fin.ext ?_
      match b with
      | ⟨0, _⟩ => rfl
      | ⟨1, _⟩ => rfl
      | ⟨2, _⟩ => rfl
    rw [hsi]
    rfl
  · show gather_S100000x32_S4096x200x1_S4096x200x32_2_0_n_n_0_2_132.start i idx 1 + gather_S100000x32_S4096x200x1_S4096x200x32_2_0_n_n_0_2_132.batchCoord i 1 + gather_S100000x32_S4096x200x1_S4096x200x32_2_0_n_n_0_2_132.offCoord i 1 = _
    have hs : gather_S100000x32_S4096x200x1_S4096x200x32_2_0_n_n_0_2_132.start i idx 1 = 0 := by
      unfold GatherDims.start
      rw [dif_neg (show (1 : Fin 2) ∉ gather_S100000x32_S4096x200x1_S4096x200x32_2_0_n_n_0_2_132.startIndexMap from by
        show (1 : Fin 2) ∉ ([0] : List (Fin 2))
        decide)]
    rw [hs, GatherDims.batchCoord_eq_zero _ _ _ List.not_mem_nil, Nat.zero_add]
    rfl

/-! ## The index, the test and the two lookups under the range condition -/

section InRange
variable (x : IVec S4096x200 32) (hx : ∀ i, (x i).toNat < 100000)
include hx

/-- No word is negative, so the wrap keeps every word. -/
theorem wrapIdx_eq : wrapIdx x = x := by
  funext i
  show Scalar.select (IntOp.cmpi .slt (x i) 0#32) (IntOp.addi (x i) 100000#32) (x i) = x i
  rw [slt_zero_of_lt (hx i), select_zero]

/-- The start index at `(b, l, 0)` is the word at `(b, l)`. -/
theorem startIdx_apply (j : S4096x200x1.Idx) : startIdx x j = x (ix2 (j 0) (j 1)) := by
  unfold startIdx
  rw [wrapIdx_eq x hx]
  show x _ = x _
  congr 1
  funext a
  match a with
  | ⟨0, _⟩ => rfl
  | ⟨1, _⟩ => rfl

/-- The range test passes everywhere. -/
theorem inRange_eq (j : S4096x200.Idx) : inRange x j = 1#1 := by
  unfold inRange
  refine reduce_andi_ones _ _ _ _ (fun k => ?_) (fun _ => rfl) j
  show IntOp.andi (IntOp.cmpi .sge (startIdx x k) 0#32) (IntOp.cmpi .sle (startIdx x k) 99999#32) = 1#1
  rw [startIdx_apply x hx, sge_zero_of_lt (hx _), sle_top_of_lt (hx _)]
  rfl

/-- The table row a token's word names, as a row of a table of height 100000. -/
def row (b : Fin 4096) (l : Fin 200) : Fin 100000 := ⟨(x (ix2 b l)).toNat, hx _⟩

omit hx in
/-- Under the range condition the specification's row (the word modulo the height) is the word. -/
theorem rowOf_eq (hx : ∀ i, (x i).toNat < 100000) (b : Fin 4096) (l : Fin 200) : Cert.Proof.Spec.rowOf x b l = row x hx b l :=
  Fin.ext (Nat.mod_eq_of_lt (hx _))

variable {F : FTy → Type} [FloatOps F]

/-- The first lookup at an entry: the 128-column table's row at the token's word. -/
theorem takeW_apply (W : FVec F S100000x128 .f32) (i : S4096x200x128.Idx) :
    takeW x W i = W (ix2 (row x hx (i 0) (i 1)) (i 2)) := by
  unfold takeW
  rw [select_apply]
  have hc : broadcastInDim S4096x200x128 ![0, 1] bcast_S4096x200_S4096x200x128_0_1 (inRange x) i = 1#1 := inRange_eq x hx _
  rw [hc, select_one, gatherW_apply, startIdx_apply x hx, clampRow_of_lt (hx _)]
  rfl

/-- The second lookup at an entry: the 32-column table's row at the token's word. -/
theorem takeN_apply (N : FVec F S100000x32 .f32) (i : S4096x200x32.Idx) :
    takeN x N i = N (ix2 (row x hx (i 0) (i 1)) (i 2)) := by
  unfold takeN
  rw [select_apply]
  have hc : broadcastInDim S4096x200x32 ![0, 1] bcast_S4096x200_S4096x200x32_0_1 (inRange x) i = 1#1 := inRange_eq x hx _
  rw [hc, select_one, gatherN_apply, startIdx_apply x hx, clampRow_of_lt (hx _)]
  rfl

end InRange

/-! ## The scatter, and the result -/

/-- The scatter's one start index is 96. -/
theorem start96_toInt (k : S1.Idx) : (start96 k).toInt = ((96 : ℕ) : Int) := by
  show (96#32 : BitVec 32).toInt = 96
  decide

/-- under the index range the lookup is the specification -/
theorem refOut_eq (x : Cert.Proof.Spec.SX.Idx → BitVec 32) (W : Cert.Proof.Spec.SW.Idx → EReal) (N : Cert.Proof.Spec.SN.Idx → EReal)
    (hx : ∀ i, (x i).toNat < 100000) : refOut x W N = Cert.Proof.Spec.lookup x W N := by
  funext i
  show Host.scatter scatter_S4096x200x128_S1_S4096x200x32_012_n_2_0 (fun _ b => b) (takeW (F := Ideal) x W) start96 (takeN (F := Ideal) x N) i = _
  rw [scatter_window3 scatter_S4096x200x128_S1_S4096x200x32_012_n_2_0 rfl rfl rfl _ start96 96 start96_toInt]
  unfold Cert.Proof.Spec.lookup
  have h2 : (i 2).val < 128 := (i 2).isLt
  by_cases h : (i 2).val < 96
  · rw [dif_neg (fun hh => by omega), dif_pos h, takeW_apply x hx]
    exact congrArg W (congrArg₂ ix2 (rowOf_eq x hx (i 0) (i 1)).symm rfl)
  · rw [dif_pos ⟨by omega, by omega⟩, dif_neg h, takeN_apply x hx]
    exact congrArg N (congrArg₂ ix2 (rowOf_eq x hx (i 0) (i 1)).symm rfl)

end Cert.Proof.Ref

end
-- ==== Proof.lean ====
/-
  The claim: an embedding lookup whose last 32 channels come from a second table, computed by a TensorCore region that builds
  the combined table and a SparseCore kernel whose 32 tiles gather its rows, against a host program that takes rows of both
  tables and overwrites the last channels.

  Both sides are the function  out[b, l, j] = W[x[b, l], j] for j < 96,  N[x[b, l], j - 96] for 96 ≤ j < 128  of the argument
  arrays (Proof/Spec.lean), whenever every index names a row of the tables, which the precondition says (Proof/KI/Pre.lean).
  The kernel side: Proof/KI/ (the idealized program, at any float instance) and its word-level twin Proof/KB/ — the
  TensorCore region (Region.lean), one tile's task at symbolic coordinates (Tile*.lean), the launch of the 35 threads and
  @main (Launch.lean, Split.lean, Main.lean), the value read back (Value.lean).  The reference side: Proof/Ref/ — its run,
  operation by operation, and its result at an entry.  The five claims are assembled in Proof/Claims.lean.
-/
import proofs.«204608_g3015067042085_cont_9to1_1138_29_alg».proof.Defs
import proofs.«204608_g3015067042085_cont_9to1_1138_29_alg».proof.Proof.Gen.Kernel
import proofs.«204608_g3015067042085_cont_9to1_1138_29_alg».proof.Proof.Gen.Kernel.Skeleton
import proofs.«204608_g3015067042085_cont_9to1_1138_29_alg».proof.Proof.Gen.Kernel.Launch
import proofs.«204608_g3015067042085_cont_9to1_1138_29_alg».proof.Proof.Gen.Kernel.Points
import proofs.«204608_g3015067042085_cont_9to1_1138_29_alg».proof.Proof.Gen.KernelIdeal
import proofs.«204608_g3015067042085_cont_9to1_1138_29_alg».proof.Proof.Gen.KernelIdeal.Skeleton
import proofs.«204608_g3015067042085_cont_9to1_1138_29_alg».proof.Proof.Gen.KernelIdeal.Launch
import proofs.«204608_g3015067042085_cont_9to1_1138_29_alg».proof.Proof.Gen.KernelIdeal.Points
import proofs.«204608_g3015067042085_cont_9to1_1138_29_alg».proof.Proof.Gen.ReferenceIdeal
import proofs.«204608_g3015067042085_cont_9to1_1138_29_alg».proof.Proof.Gen.Pre_input_domain
import proofs.«204608_g3015067042085_cont_9to1_1138_29_alg».proof.Proof.Claims
import proofs.«204608_g3015067042085_cont_9to1_1138_29_alg».proof.Proof.KI.RegionKit
import proofs.«204608_g3015067042085_cont_9to1_1138_29_alg».proof.Proof.KI.Tile
import proofs.«204608_g3015067042085_cont_9to1_1138_29_alg».proof.Proof.KB.RegionKit
import proofs.«204608_g3015067042085_cont_9to1_1138_29_alg».proof.Proof.KB.Tile
import proofs.«204608_g3015067042085_cont_9to1_1138_29_alg».proof.Proof.Ref.Value
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.Claims.frame_k (Cert.Proof.KB.tile_body Cert.Proof.KB.facts) (fun m => Cert.Proof.KB.regionKit m),
    Cert.Proof.Claims.frame_ki (Cert.Proof.KI.tile_body Cert.Proof.KI.facts) (fun m => Cert.Proof.KI.regionKit m),
    Cert.Proof.Claims.frame_ri Cert.Proof.Ref.refOut Cert.Proof.Ref.run,
    trivial,
    Cert.Proof.Claims.algebraic Cert.Proof.Ref.refOut Cert.Proof.Ref.run Cert.Proof.Ref.refOut_eq
      (Cert.Proof.KI.tile_body Cert.Proof.KI.facts) (fun m => Cert.Proof.KI.regionKit m)⟩

end Cert.Proof

end
